-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S8192x1024 .f32) (main_arg1 : FVec F S1024x1024 .f32) (main_arg2 : FVec F S1024x1024 .f32) (main_arg3 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S8192x1024 : Shape := ⟨2, ![8192, 1024]⟩
abbrev S1024x1024 : Shape := ⟨2, ![1024, 1024]⟩
abbrev S2x68 : Shape := ⟨2, ![2, 68]⟩
abbrev S3072x1024 : Shape := ⟨2, ![3072, 1024]⟩
abbrev S1024x3072 : Shape := ⟨2, ![1024, 3072]⟩
abbrev S8192x3072 : Shape := ⟨2, ![8192, 3072]⟩
abbrev S512x1024 : Shape := ⟨2, ![512, 1024]⟩
abbrev S1x1 : Shape := ⟨2, ![1, 1]⟩
abbrev S512x1 : Shape := ⟨2, ![512, 1]⟩
abbrev S512x512 : Shape := ⟨2, ![512, 512]⟩
abbrev S512 : Shape := ⟨1, ![512]⟩

abbrev nBuf : Space → Nat
  | .hbm => 10
  | .vmem => 17
  | .smem => 2
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S3072x1024, .f32⟩
  | .hbm, ⟨5, _⟩ => ⟨S1024x3072, .f32⟩
  | .hbm, ⟨6, _⟩ => ⟨S1024x3072, .bf16⟩
  | .hbm, ⟨7, _⟩ => ⟨S8192x1024, .bf16⟩
  | .hbm, ⟨8, _⟩ => ⟨S8192x3072, .bf16⟩
  | .hbm, ⟨9, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1, .f32⟩
  | .local _ .vmem, ⟨15, _⟩ => ⟨S512x1, .f32⟩
  | .local _ .vmem, ⟨16, _⟩ => ⟨S512x1024, .f32⟩
  | .local _ .smem, ⟨0, _⟩ => ⟨S2x68, .i32⟩
  | .local _ .smem, ⟨1, _⟩ => ⟨S2x68, .i32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 68], ![false, false]⟩

abbrev pre1 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 2 → Nat :=
  let arg0 : BitVec 32 := BitVec.ofNat 32 (i 0).val
  let v0 : Index := Scalar.indexCast arg0
  let arg1 : BitVec 32 := BitVec.ofNat 32 (i 1).val
  let v1 : Index := Scalar.indexCast arg1
  ![v0.toNat, v1.toNat]
def k1_cond4 (v2 : BitVec 32) (v5 : BitVec 32) : BitVec 1 :=
  let v24 : BitVec 1 := Scalar.cmpi .eq v5 v2
  let v25 : BitVec 32 := Scalar.extui v24
  let c0_i32_9 : BitVec 32 := 0#32
  let v26 : BitVec 1 := Scalar.cmpi .ne v25 c0_i32_9
  v26

def cc1_transform_0 (k1_off1_inb : ∀ i : grid1.Coords, ∀ a, (k1_off1 i) a + S1x1.size a ≤ S2x68.size a) (numel1_S1x1 : S1x1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 0 (Rect.unit (s := S2x68) ![v0.toNat, v1.toNat] S1x1.size (k1_off1_inb i)) numel1_S1x1
  let c0_i32 : BitVec 32 := 0#32
  let c0_i32_0 : BitVec 32 := 0#32
  ![v2.toNat, c0_i32.toNat]

def cc1_transform_1 (k1_off1_inb : ∀ i : grid1.Coords, ∀ a, (k1_off1 i) a + S1x1.size a ≤ S2x68.size a) (numel1_S1x1 : S1x1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 1 (Rect.unit (s := S2x68) ![v0.toNat, v1.toNat] S1x1.size (k1_off1_inb i)) numel1_S1x1
  let c1_i32 : BitVec 32 := 1#32
  let c0_i32 : BitVec 32 := 0#32
  ![v2.toNat, c1_i32.toNat]

def cc1_transform_2 (k1_off1_inb : ∀ i : grid1.Coords, ∀ a, (k1_off1 i) a + S1x1.size a ≤ S2x68.size a) (numel1_S1x1 : S1x1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 1 (Rect.unit (s := S2x68) ![v0.toNat, v1.toNat] S1x1.size (k1_off1_inb i)) numel1_S1x1
  let c2_i32 : BitVec 32 := 2#32
  let c0_i32 : BitVec 32 := 0#32
  ![v2.toNat, c2_i32.toNat]

def cc1_transform_3 (k1_off1_inb : ∀ i : grid1.Coords, ∀ a, (k1_off1 i) a + S1x1.size a ≤ S2x68.size a) (numel1_S1x1 : S1x1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 0 (Rect.unit (s := S2x68) ![v0.toNat, v1.toNat] S1x1.size (k1_off1_inb i)) numel1_S1x1
  let c0_i32 : BitVec 32 := 0#32
  let c0_i32_0 : BitVec 32 := 0#32
  ![v2.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  concatenates_S1024x1024_S1024x1024_S1024x1024_S3072x1024_d0 : Shape.Concatenates [S1024x1024, S1024x1024, S1024x1024] S3072x1024 0
  transposes_S3072x1024_S1024x3072_1_0 : S3072x1024.Transposes [1, 0] S1024x3072
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  numel1_S1x1 : S1x1.numel = 1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  dot_S1024x1024_S1024x1024_S1024x1024_1_0_0_1_n_n_wf : DotDims.WF S1024x1024 S1024x1024 S1024x1024 [1] [0] [0] [1] [] []
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .bf16 = 32 ∨ (Rect.block (s := S1024x3072) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x3072.size a
  hwx0_2 : ∀ i : grid0.Coords, EltTy.bits .bf16 = 32 ∨ (Rect.block (s := S8192x3072) S1024x1024.size (cc0_transform_2 i) (hinb0_2 i)).WholeWords (EltTy.packing .bf16)
  hrank1 : 0 < grid1.rank
  k1_off1_inb : ∀ i : grid1.Coords, ∀ a, (k1_off1 i) a + S1x1.size a ≤ S2x68.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1x1 pf i = cc1_transform_0 k1_off1_inb numel1_S1x1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1x1 pf i = cc1_transform_1 k1_off1_inb numel1_S1x1 pf i'
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off1_inb numel1_S1x1 pf i = cc1_transform_2 k1_off1_inb numel1_S1x1 pf i'
  hstage1_3 : ∀ j, (stage1_3 j).IsWhole
  nbuf1_3 : grid1.bufCount reads1_3 false = 2
  hreads1_3 : ∀ {F : FTy → Type} [FloatOps F] (pf : pre1.Contents (Elt F)) (i i' : grid1.Coords), (∀ a, reads1_3 a = true → i a = i' a) → cc1_transform_3 k1_off1_inb numel1_S1x1 pf i = cc1_transform_3 k1_off1_inb numel1_S1x1 pf i'

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v3) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev spec1_0 : Pipeline.WinSpec sig grid1.rank :=
  Pipeline.WinSpec.ofSpec (Memref.whole main_v4) S512x1024.size reads1_0 false false 2 stage1_0 sem1_0 nbuf1_0 hstage1_0

abbrev spec1_1 : Pipeline.WinSpec sig grid1.rank :=
  Pipeline.WinSpec.ofSpec (Memref.whole main_v4) S512x1024.size reads1_1 false false 2 stage1_1 sem1_1 nbuf1_1 hstage1_1

abbrev spec1_2 : Pipeline.WinSpec sig grid1.rank :=
  Pipeline.WinSpec.ofSpec (Memref.whole main_v4) S512x1024.size reads1_2 false false 2 stage1_2 sem1_2 nbuf1_2 hstage1_2

abbrev spec1_3 : Pipeline.WinSpec sig grid1.rank :=
  Pipeline.WinSpec.ofSpec (Memref.whole main_v5) S512x1024.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 k1_off1_inb numel1_S1x1 pf | 1 => cc1_transform_1 k1_off1_inb numel1_S1x1 pf | 2 => cc1_transform_2 k1_off1_inb numel1_S1x1 pf | 3 => cc1_transform_3 k1_off1_inb numel1_S1x1 pf | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 pf | 3 => hreads1_3 pf | ⟨_ + 4, h⟩ => absurd h (Nat.not_lt.2 (Nat.le_add_left _ _))
def ok1 (pf : pre1.Contents (Elt F)) : Prop :=
  (∀ i : grid1.Coords, ∃ h : (∀ a, (cc1_transform_0 k1_off1_inb numel1_S1x1 pf i a + 1) * S512x1024.size a ≤ S8192x3072.size a), EltTy.bits .bf16 = 32 ∨ (Rect.block (s := S8192x3072) S512x1024.size (cc1_transform_0 k1_off1_inb numel1_S1x1 pf i) h).WholeWords (EltTy.packing .bf16)) ∧
  (∀ i : grid1.Coords, ∃ h : (∀ a, (cc1_transform_1 k1_off1_inb numel1_S1x1 pf i a + 1) * S512x1024.size a ≤ S8192x3072.size a), EltTy.bits .bf16 = 32 ∨ (Rect.block (s := S8192x3072) S512x1024.size (cc1_transform_1 k1_off1_inb numel1_S1x1 pf i) h).WholeWords (EltTy.packing .bf16)) ∧
  (∀ i : grid1.Coords, ∃ h : (∀ a, (cc1_transform_2 k1_off1_inb numel1_S1x1 pf i a + 1) * S512x1024.size a ≤ S8192x3072.size a), EltTy.bits .bf16 = 32 ∨ (Rect.block (s := S8192x3072) S512x1024.size (cc1_transform_2 k1_off1_inb numel1_S1x1 pf i) h).WholeWords (EltTy.packing .bf16)) ∧
  (∀ i : grid1.Coords, ∃ h : (∀ a, (cc1_transform_3 k1_off1_inb numel1_S1x1 pf i a + 1) * S512x1024.size a ≤ S8192x1024.size a), EltTy.bits .f32 = 32 ∨ (Rect.block (s := S8192x1024) S512x1024.size (cc1_transform_3 k1_off1_inb numel1_S1x1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))
abbrev idle1 (pf : pre1.Contents (Elt F)) : Fin 4 → grid1.Coords → Bool := fun | 0 => fun _ => false | 1 => fun _ => false | 2 => fun _ => false | 3 => fun i => !(k1_cond4 (pf.atD 0 (k1_off1 i)) (pf.atD 1 (k1_off1 i)) == 1#1) | ⟨_ + 4, h⟩ => absurd h (Nat.not_lt.2 (Nat.le_add_left _ _))

class Facts : Prop extends Facts₀ where
  harr1 : ∀ w, (spec1 w).arr.IsWhole

variable [Facts]
-- ==== ReferenceIdeal.lean ====
abbrev S8192x1024 : Shape := ⟨2, ![8192, 1024]⟩
abbrev S1024x1024 : Shape := ⟨2, ![1024, 1024]⟩
abbrev S1024x8192 : Shape := ⟨2, ![1024, 8192]⟩
abbrev S8192x8192 : Shape := ⟨2, ![8192, 8192]⟩
abbrev S8192 : Shape := ⟨1, ![8192]⟩
abbrev S8192x1 : Shape := ⟨2, ![8192, 1]⟩
abbrev S1x8192 : Shape := ⟨2, ![1, 8192]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S1024x1024, .f32⟩
  | .hbm, ⟨9, _⟩ => ⟨S8192x1024, .f32⟩
  | .hbm, ⟨10, _⟩ => ⟨S1024x8192, .f32⟩
  | .hbm, ⟨11, _⟩ => ⟨S8192x8192, .f32⟩
  | .hbm, ⟨12, _⟩ => ⟨S8192, .i32⟩
  | .hbm, ⟨13, _⟩ => ⟨S8192x1, .i32⟩
  | .hbm, ⟨14, _⟩ => ⟨S1x8192, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S_, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S8192x1, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x8192, .f32⟩
  | .hbm, ⟨38, _⟩ => ⟨S8192x8192, .f32⟩
  | .hbm, ⟨39, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  transposes_S1024x1024_S1024x1024_1_0 : S1024x1024.Transposes [1, 0] S1024x1024
  transposes_S8192x1024_S1024x8192_1_0 : S8192x1024.Transposes [1, 0] S1024x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  dot_S8192x1024_S1024x1024_S8192x1024_1_0_0_1_n_n_wf : DotDims.WF S8192x1024 S1024x1024 S8192x1024 [1] [0] [0] [1] [] []
  dot_S8192x1024_S1024x8192_S8192x8192_1_0_0_1_n_n_wf : DotDims.WF S8192x1024 S1024x8192 S8192x8192 [1] [0] [0] [1] [] []
  dot_S8192x8192_S8192x1024_S8192x1024_1_0_0_1_n_n_wf : DotDims.WF S8192x8192 S8192x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.KRunCond.lean ====
/-
  The run of @main as three segments — the host operations, the projection region, the attention region — from one
  segment record per region, with every unscoped buffer read at the end: each argument array still holds what it held
  at launch, and the result array holds what the attention region's write-backs leave.
-/
import proofs.«121137_j11647951306945_2_alg».proof.Proof.Gen.Kernel.Regions

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Facts]

variable (m : (ℓ : Loc nD τ sig) → Buf (Elt F) ℓ)

-- the launch theorem's implicit arguments are found by unifying its conclusion with this one, which takes unfolding
-- plain definitions in a metavariable's type
set_option backward.isDefEq.respectTransparency.types false in
/-- Given a segment record per region entered from and left at the stated buffer contents, every weakly fair execution
    of @main terminates and every final memory holds each unscoped buffer at the last contents `Wb` (`Wa` being the contents between the two regions). -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (Wa Wb : Dev nD → Valuation τ sig (Elt F)) (a : (p : Fin 2) → (pcfgs (F := F) p).Adm)
    (pdats : (p : Fin 2) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (Wa c) ∗ E 1 c))
    (R1 : RegionSeg (pcfgs (F := F)) a pdats ι defs₀ 𝒱₀ L lv 1)
    (hpre1 : ∀ c : Dev nD, iprop(StableHlo.held (c : Thread nD τ) (Pipeline.ucRefs τ sig) (Wa c) ∗ E 1 c) ⊢ R1.pre c)
    (hpost1 : ∀ c : Dev nD, R1.post c ⊢ iprop(StableHlo.held (c : Thread nD τ) (Pipeline.ucRefs τ sig) (Wb c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = Wb c b) := by
  refine Pipeline.θ_run_regions_kit_dev (pcfgs (F := F)) a pdats ι (cellOf_inj a) EP defs₀ 𝒱₀ L lv m ρ main
    (segs m 𝒱₀ L lv E ι a pdats R0 R1)
    (fun c Q => by
      rewrite [main_chain c, Seg.run_eq_chain,
        show (segs m 𝒱₀ L lv E ι a pdats R0 R1 c).map Seg.prog = [
          StableHlo.seq hostOps0,
          Prog.lift (.customCall (Pipeline.entry 0) ()),
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (Wb c))
    (hch := fun c => ⟨.rfl, hpre0 c, (hpost0 c).trans (hpre1 c), (hpost1 c).trans (sep_mono .rfl (hE2 c))⟩)
    (hinit := ?_) (QY := fun c s => ∀ b ∈ Pipeline.ucRefs τ sig, s.mem (((c : Thread nD τ)).1, b) = Wb c b)
    (hfin := fun c s' => ?_) (hQ := fun _ h => h)
  · -- the launch: the unscoped buffers are held at the launch contents; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => (((c : Thread nD τ)).1, b)) (Wb c) s')
    isplitl [Hh] <;> iassumption

end Cert.Kernel.Run

end
-- ==== Proof.KRegion0.lean ====
/- The projection kernel's region (custom_call 0, `cc0__linear_kernel`) of `Cert.Kernel`, at a parameter `V` — the
   TensorCore's buffer contents when the region is entered: each window's block at a grid point, what the body
   leaves in the output window's buffer (its one whole-block store of the payload of the two input blocks), the
   body's triple, the pipeline's proof data and the body obligation at every point of the 8×3 grid.
   Windows 0 and 1 are the inputs (window 0's index map reads grid coordinate 0 only, so it is not fetched at
   every point: unfetched, its block index has not moved), window 2 the output; all blocks 1024×1024 bf16. -/
import proofs.«121137_j11647951306945_2_alg».proof.Proof.Gen.Kernel.Launch
import proofs.«121137_j11647951306945_2_alg».proof.Proof.Gen.Kernel.Skeleton
import proofs.«121137_j11647951306945_2_alg».proof.Proof.Gen.Kernel.Points
import Idealize.ShloMosaic.Lib.Pipeline.FrameBody
import Idealize.ShloMosaic.Lib.Tactic

-- membership in a rectangle of full extents: the structural look recurses once per coordinate of the long axes
set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block
    index has not moved, so the previous point's block is this point's; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole-block rectangle every load and the one store of the body go through. -/
abbrev r0_0 : Rect S1024x1024 := Rect.unit (s := S1024x1024) ![0, 0] S1024x1024.size inb_S1024x1024_S1024x1024_0_0

/-! ## What the body leaves in the output window's buffer -/

/-- Window 2's staging buffer after the body, from the input windows' blocks: its one store, of the payload of
    the two loaded blocks, through the whole-block rectangle. -/
def out0_2 (x0 x1 : Vec F S1024x1024 .bf16) : Vec F S1024x1024 .bf16 :=
  View.canon [⟨r0_0, k0_pay1 (View.ld x0 r0_0) (View.ld x1 r0_0)⟩]

/-- The one store's rectangle is the whole buffer, so it covers it. -/
theorem cover0_2 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

/-! ## The body's triple -/

set_option maxHeartbeats 1000000 in
/-- The kernel body on whole staging memrefs, the inputs' at read contents `x0`, `x1` and the output's at anything,
    runs to the continuation holding the inputs' as they were and the output's at `out0_2` of the inputs': the
    printed function is its skeleton, whose two input loads, one (unused) load of the output buffer and one
    whole-block store are stepped through in order. -/
theorem sound_kernel0 (c : Dev nD) (E : Set ℕ) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x1024 .bf16) (harg4 : arg4.IsWhole)
    (x0 x1 : Vec F S1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__linear_kernel i arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the two input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_0`, `before0_1`), so `sound_kernel0`
    applies; the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.KRunDefs.lean ====
/-
  What the three segments of @main share: the resource algebra's parameters, what rides beside the buffers between
  segments, the buffers' contents at each segment boundary, and the two pipelines' proof data as one family.
  The attention region's table contents `a1` and proof data `dat1'` are parameters here.
-/
import proofs.«121137_j11647951306945_2_alg».proof.Proof.KRunCond
import proofs.«121137_j11647951306945_2_alg».proof.Proof.KRegion0
import Idealize.ShloMosaic.Lib.Pipeline.FrameSuffix
import Idealize.ShloMosaic.Lib.Pipeline.RegionsLoop

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Facts]

local notation "𝕄" => MT nD τ sig Unit (Elt F) ℕ (UR sig nD τ) ℕ

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)

variable (m : (ℓ : Loc nD τ sig) → Buf (Elt F) ℓ)

/-- The buffers when the projection region is entered (after the host operations), at the TensorCore's references. -/
abbrev U1 : (c : Dev nD) → (b : Ref sig .tc) → Buf (Elt F) ((c : Thread nD τ).loc b) := fun c b => V1 m c b

/-- The buffers when the projection region is left: its arrays at what the pipeline leaves, every other buffer as entered. -/
def W2 (c : Dev nD) : Valuation τ sig (Elt F) :=
  Pipeline.withArrays spec0 c (V1 m c) fun w => (R0.dat0 (U1 m) c).arrAt w cfg0.N

theorem W2_arr (c : Dev nD) (w : Fin cfg0.W) :
    W2 m c (Proc.devRef .tc (Pipeline.arrRef spec0 w)) = (R0.dat0 (U1 m) c).arrAt w cfg0.N := by
  unfold W2; exact Pipeline.withArrays_arr spec0 (launch0 (F := F)).win.arr_inj c _ _ w

theorem W2_of_ne (c : Dev nD) (b : Ref sig .tc) (hb : ∀ w, Pipeline.arrRef spec0 w ≠ b) :
    W2 m c (Proc.devRef .tc b) = V1 m c (Proc.devRef .tc b) := by
  unfold W2; exact Pipeline.withArrays_of_ne spec0 c _ _ b hb

/-- The same read at the TensorCore's references: what the attention region's proof data take. -/
abbrev U2 : (c : Dev nD) → (b : Ref sig .tc) → Buf (Elt F) ((c : Thread nD τ).loc b) := fun c b => W2 m c b

section Attn

variable (a1 : (pcfg1 (F := F)).Adm)
variable (dat1' : (c : Dev nD) → Dat τ (Elt F) Unit ℕ (UR sig nD τ) ℕ (cfg1 a1) c)

/-- The tables' contents per pipeline: the projection has none. -/
abbrev adm : (p : Fin 2) → (pcfgs (F := F) p).Adm
  | ⟨0, _⟩ => cfg0.toPCfg_adm
  | ⟨1, _⟩ => a1

/-- Both pipelines' proof data, a literal match on the pipeline. -/
def pdats : (p : Fin 2) → (c : Dev nD) → Dat τ (Elt F) Unit ℕ (UR sig nD τ) ℕ (Pipeline.pin (pcfgs (F := F)) (adm a1) p) c
  | ⟨0, _⟩ => fun c => R0.dat0 (U1 m) c
  | ⟨1, _⟩ => fun c => dat1' c

/-- The buffers when the attention region is left: the result array at what its write-backs leave. -/
def W3 (c : Dev nD) : Valuation τ sig (Elt F) :=
  Function.update (W2 m c) (Proc.devRef .tc main_v5) ((dat1' c).arrAt 3 (cfg1 a1).N)

theorem W3_v5 (c : Dev nD) : W3 m a1 dat1' c (Proc.devRef .tc main_v5) = (dat1' c).arrAt 3 (cfg1 a1).N := by
  unfold W3; exact Function.update_self ..

theorem W3_of_ne (c : Dev nD) (b : Ref sig .tc) (hb : b ≠ main_v5) :
    W3 m a1 dat1' c (Proc.devRef .tc b) = W2 m c (Proc.devRef .tc b) := by
  unfold W3; exact Function.update_of_ne (StableHlo.devRef_ne_of_ne hb) ..

end Attn

end Cert.Kernel.Run

end
-- ==== Proof.KRun0.lean ====
/-
  The projection region (custom_call 0) as a segment of @main's run: entered from every unscoped buffer at the contents
  the host operations leave, left with its three arrays at what the pipeline's write-backs leave and every other
  unscoped buffer as entered. Its arrays are split out of the unscoped buffers at entry and put back at the exit
  contents; the generator register goes into the region's invariant and comes back; nothing is owed and the kernel
  has no semaphore of its own.
-/
import proofs.«121137_j11647951306945_2_alg».proof.Proof.KRunDefs

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Facts]

local notation "𝕄" => MT nD τ sig Unit (Elt F) ℕ (UR sig nD τ) ℕ

variable (m : (ℓ : Loc nD τ sig) → Buf (Elt F) ℓ)

/-- When the projection region is left each of its arrays holds what the pipeline leaves, -/
theorem hF0 (c : Dev nD) (w : Fin cfg0.W) : (R0.dat0 (U1 m) c).arrAt w cfg0.N = U2 m c (Pipeline.arrRef spec0 w) :=
  (W2_arr m c w).symm
/-- and every other buffer what it held when the region was entered. -/
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

section Attn

variable (a1 : (pcfg1 (F := F)).Adm)
variable (dat1' : (c : Dev nD) → Dat τ (Elt F) Unit ℕ (UR sig nD τ) ℕ (cfg1 a1) c)

-- a library lemma stated over the pinned configuration unifies with the printed one only when unification may unfold
-- plain definitions in a metavariable's type
set_option backward.isDefEq.respectTransparency.types false in
/-- The projection region over the thread state: entered from every unscoped buffer at `V1`, left at `W2`. -/
def reg0 : Pipeline.RegionSeg (pcfgs (F := F)) (adm a1) (pdats m a1 dat1') () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (R0.body_obligation0 (U1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) (adm a1) (pdats m a1 dat1') (launch0 (F := F)).win (launch0 (F := F)).arr_whole c
      ((pdats m a1 dat1' 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a1 dat1' 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m a1 dat1' 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm a1) (Ix := Unit) (Name := ℕ) (U := UR sig nD τ) (Lvl := ℕ)
      (launch0 (F := F)).win (launch0 (F := F)).arr_whole c (pdats m a1 dat1') ((pdats m a1 dat1' 0 c).share_full fun _ => rfl)
      (U1 m c) (U2 m c) ((pdats m a1 dat1' 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Attn

end Cert.Kernel.Run

end
-- ==== Proof.KRun1.lean ====
/-
  The attention region as a segment of @main: how the buffers the region is entered with are dealt to its pipeline —
  the one array the three input windows read split into three shares, the result array whole, the two schedule
  tables, the rest bypassing — and put back together when it is left.
-/
import proofs.«121137_j11647951306945_2_alg».proof.Proof.KRunDefs

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F] [Facts]

local notation "𝕄" => MT nD τ sig Unit (Elt F) ℕ (UR sig nD τ) ℕ

variable (a1 : (pcfg1 (F := F)).Adm)
variable (dat1' : (c : Dev nD) → Dat τ (Elt F) Unit ℕ (UR sig nD τ) ℕ (cfg1 a1) c)

/-- The full share of the shared array is the three input windows' shares together. -/
theorem three_shares {ℓ : Loc nD τ sig} (f : Buf (Elt F) ℓ) :
    (ℓ ↦{fullShare} f : sProp 𝕄) ⊣⊢ iprop((ℓ ↦{fullShare.left} f) ∗ (ℓ ↦{fullShare.right.left} f) ∗ (ℓ ↦{fullShare.right.right} f)) := by
  have h1 := pointsTo_share (Ix := Unit) (Name := ℕ) (U := UR sig nD τ) (Lvl := ℕ) (PosShare.mem_left_op_right fullShare) (ℓ := ℓ) (I := Finset.univ) (f := f)
  have h2 := pointsTo_share (Ix := Unit) (Name := ℕ) (U := UR sig nD τ) (Lvl := ℕ) (PosShare.mem_left_op_right fullShare.right) (ℓ := ℓ) (I := Finset.univ) (f := f)
  exact ⟨h1.1.trans (sep_mono .rfl h2.1), (sep_mono .rfl h2.2).trans h1.2⟩

variable (m : (ℓ : Loc nD τ sig) → Buf (Elt F) ℓ)

/-- The pipeline's four windowed arrays, at contents that agree on the shared array, are that array whole and the result
    array whole. -/
theorem arrays_deal (c : Dev nD)
    (hs0 : (dat1' c).share 0 = fullShare.left) (hs1 : (dat1' c).share 1 = fullShare.right.left)
    (hs2 : (dat1' c).share 2 = fullShare.right.right) (hs3 : (dat1' c).share 3 = fullShare)
    (Fv : (w : Fin (cfg1 a1).W) → Buf (Elt F) (((cfg1 a1).win w).arr.view.loc (c : Thread nD τ)))
    (f4 : Buf (Elt F) ((c : Thread nD τ).loc main_v4)) (f5 : Buf (Elt F) ((c : Thread nD τ).loc main_v5))
    (h0 : Fv 0 = f4) (h1 : Fv 1 = f4) (h2 : Fv 2 = f4) (h3 : Fv 3 = f5) :
    ((dat1' c).arrays Fv : sProp 𝕄)
      ⊣⊢ iprop((((c : Thread nD τ).loc main_v4) ↦{fullShare} f4) ∗ (((c : Thread nD τ).loc main_v5) ↦{fullShare} f5)) := by
  unfold Dat.arrays
  rw [bigSep_W1]
  rw [hs0, hs1, hs2, hs3, h0, h1, h2, h3]
  have e0 : ((cfg1 a1).win (0 : Fin 4)).arr.view.set = Finset.univ := (arr_whole1 (0 : Fin 4)).set_eq_univ
  have e1 : ((cfg1 a1).win (1 : Fin 4)).arr.view.set = Finset.univ := (arr_whole1 (1 : Fin 4)).set_eq_univ
  have e2 : ((cfg1 a1).win (2 : Fin 4)).arr.view.set = Finset.univ := (arr_whole1 (2 : Fin 4)).set_eq_univ
  have e3 : ((cfg1 a1).win (3 : Fin 4)).arr.view.set = Finset.univ := (arr_whole1 (3 : Fin 4)).set_eq_univ
  rw [e0, e3]
  have h3s := three_shares (F := F) (ℓ := (c : Thread nD τ).loc main_v4) f4
  have h31 := h3s.1
  have h32 := h3s.2
  constructor
  · iintro ⟨H0, H1, H2, H3⟩
    isplitl [H0 H1 H2]
    · iapply h32
      isplitl [H0]; · iexact H0
      isplitl [H1]; · iexact H1
      iexact H2
    iexact H3
  · iintro ⟨H4, H5⟩
    ihave H := h31 $$ H4
    icases H with ⟨H0, H1, H2⟩
    isplitl [H0]; · iexact H0
    isplitl [H1]; · iexact H1
    isplitl [H2]; · iexact H2
    iexact H5

/-- Every unscoped buffer of the core, at a valuation, is: the array the three input windows share, the result array,
    the two schedule tables, and the eight buffers the attention region never touches. -/
theorem bufs_split (c : Dev nD) (V : (b : Ref sig .tc) → Buf (Elt F) ((c : Thread nD τ).loc b)) :
    (unscopedBufs c V : sProp 𝕄)
      ⊣⊢ iprop(((((c : Thread nD τ).loc main_v4) ↦{fullShare} V main_v4) ∗ (((c : Thread nD τ).loc main_v5) ↦{fullShare} V main_v5))
          ∗ Pipeline.prefHeld pre1 c (fun _ => fullShare) (fun k => V (pre1.ref k))
          ∗ Pipeline.unscopedRestP pre1 spec1 c V) := by
  rw [unscopedRestP1_eq]
  unfold unscopedBufs Pipeline.prefHeld
  rw [bigSep_eq_bigSepL_of_eq [main_arg0, main_arg1, main_arg2, main_arg3, main_v0, main_v1, main_v2, main_v3, main_v4, main_v5, main_c, main_c_0] (by decide) (by decide),
    bigSep_univ_eq_bigSepL [(0 : Fin 2), (1 : Fin 2)] (by decide) (by decide)]
  show (iprop((((c : Thread nD τ).loc main_arg0) ↦{fullShare} V main_arg0) ∗ (((c : Thread nD τ).loc main_arg1) ↦{fullShare} V main_arg1) ∗ (((c : Thread nD τ).loc main_arg2) ↦{fullShare} V main_arg2) ∗ (((c : Thread nD τ).loc main_arg3) ↦{fullShare} V main_arg3) ∗ (((c : Thread nD τ).loc main_v0) ↦{fullShare} V main_v0) ∗ (((c : Thread nD τ).loc main_v1) ↦{fullShare} V main_v1) ∗ (((c : Thread nD τ).loc main_v2) ↦{fullShare} V main_v2) ∗ (((c : Thread nD τ).loc main_v3) ↦{fullShare} V main_v3) ∗ (((c : Thread nD τ).loc main_v4) ↦{fullShare} V main_v4) ∗ (((c : Thread nD τ).loc main_v5) ↦{fullShare} V main_v5) ∗ (((c : Thread nD τ).loc main_c) ↦{fullShare} V main_c) ∗ (((c : Thread nD τ).loc main_c_0) ↦{fullShare} V main_c_0)) : sProp 𝕄) ⊣⊢ iprop(((((c : Thread nD τ).loc main_v4) ↦{fullShare} V main_v4) ∗ (((c : Thread nD τ).loc main_v5) ↦{fullShare} V main_v5)) ∗ ((((c : Thread nD τ).loc (pre1.ref 0)) ↦{fullShare} V (pre1.ref 0)) ∗ (((c : Thread nD τ).loc (pre1.ref 1)) ↦{fullShare} V (pre1.ref 1))) ∗ (((c : Thread nD τ).loc main_arg0) ↦{fullShare} V main_arg0) ∗ (((c : Thread nD τ).loc main_arg1) ↦{fullShare} V main_arg1) ∗ (((c : Thread nD τ).loc main_arg2) ↦{fullShare} V main_arg2) ∗ (((c : Thread nD τ).loc main_arg3) ↦{fullShare} V main_arg3) ∗ (((c : Thread nD τ).loc main_v0) ↦{fullShare} V main_v0) ∗ (((c : Thread nD τ).loc main_v1) ↦{fullShare} V main_v1) ∗ (((c : Thread nD τ).loc main_v2) ↦{fullShare} V main_v2) ∗ (((c : Thread nD τ).loc main_v3) ↦{fullShare} V main_v3))
  constructor
  · iintro ⟨A0, A1, A2, A3, B0, B1, B2, B3, B4, B5, C0, C1⟩
    isplitl [B4 B5]
    · isplitl [B4]; · iexact B4
      iexact B5
    isplitl [C0 C1]
    · isplitl [C0]; · iexact C0
      iexact C1
    isplitl [A0]; · iexact A0
    isplitl [A1]; · iexact A1
    isplitl [A2]; · iexact A2
    isplitl [A3]; · iexact A3
    isplitl [B0]; · iexact B0
    isplitl [B1]; · iexact B1
    isplitl [B2]; · iexact B2
    iexact B3
  · iintro ⟨⟨B4, B5⟩, ⟨C0, C1⟩, A0, A1, A2, A3, B0, B1, B2, B3⟩
    isplitl [A0]; · iexact A0
    isplitl [A1]; · iexact A1
    isplitl [A2]; · iexact A2
    isplitl [A3]; · iexact A3
    isplitl [B0]; · iexact B0
    isplitl [B1]; · iexact B1
    isplitl [B2]; · iexact B2
    isplitl [B3]; · iexact B3
    isplitl [B4]; · iexact B4
    isplitl [B5]; · iexact B5
    isplitl [C0]; · iexact C0
    iexact C1

section Reg1

variable (hs0 : ∀ c, (dat1' c).share 0 = fullShare.left) (hs1 : ∀ c, (dat1' c).share 1 = fullShare.right.left)
variable (hs2 : ∀ c, (dat1' c).share 2 = fullShare.right.right) (hs3 : ∀ c, (dat1' c).share 3 = fullShare)
variable (hA : ∀ c w, (dat1' c).A w = U2 m c (Pipeline.arrRef spec1 w))
variable (htab : ∀ c, (fun k => U2 m c (pre1.ref k)) = a1.1)
variable (hΦ0 : ∀ c, iprop(Pipeline.prefHeld pre1 c (fun _ => fullShare) a1.1 ∗ Pipeline.scopedRest spec1 c) ⊢ (dat1' c).Φ 0)
variable (hΦN : ∀ c, (dat1' c).Φ (Fin.last (cfg1 a1).N) ⊢ iprop(Pipeline.prefHeld pre1 c (fun _ => fullShare) a1.1 ∗ Pipeline.scopedRest spec1 c))
variable (howed : ∀ c t, (dat1' c).owed t = 0) (hrec : ∀ c t, (dat1' c).recorded t = Set.univ)
variable (hbody : ∀ c, BodyObligation (dat1' c) (defs₀ (F := F)) Variants.none () Set.univ)

set_option backward.isDefEq.respectTransparency.types false in
/-- The attention region over the thread state: entered from every unscoped buffer at `W2`, left at `W3`. -/
def reg1 : Pipeline.RegionSeg (pcfgs (F := F)) (adm a1) (pdats m a1 dat1') () defs₀ 𝒱₀ L lv 1 where
  win := winFacts₀1
  block_pos := block_pos1
  stage_whole := stage_whole1
  K := PEmpty
  osem k := k.elim
  ho := Pipeline.OwnSemFacts.none _
  hbody c := (hbody c).loose
  hwaits := Pipeline.hwaits_of_owed_zero _ _ _ _ L lv 1 fun c t => howed c t
  pre c := iprop(StableHlo.held (c : Thread nD τ) (Pipeline.ucRefs τ sig) (W2 m c) ∗ R c)
  post c := iprop(StableHlo.held (c : Thread nD τ) (Pipeline.ucRefs τ sig) (W3 m a1 dat1' c) ∗ R c)
  X c := iprop(emp)
  Y c := Pipeline.prefHeld pre1 c (fun _ => fullShare) a1.1
  Z c := iprop(Pipeline.unscopedRestP (Ix := Unit) (Name := ℕ) (U := UR sig nD τ) (Lvl := ℕ) pre1 spec1 c (U2 m c) ∗ ∃ r, prngReg c r)
  hentry c := by
    rw [Pipeline.ownSems0_none, ← Pipeline.unscopedBufs_held (Ix := Unit) (Name := ℕ) (U := UR sig nD τ) (Lvl := ℕ) c (W2 m c)]
    have hsp := (bufs_split (F := F) c (U2 m c)).1
    have hdeal := (arrays_deal a1 dat1' c (hs0 c) (hs1 c) (hs2 c) (hs3 c) (fun w => (dat1' c).arrAt w 0)
      (U2 m c main_v4) (U2 m c main_v5) (hA c 0) (hA c 1) (hA c 2) (hA c 3)).2
    iintro ⟨⟨Hub, ⟨Hp, HO⟩⟩, -, -⟩
    ihave H := hsp $$ Hub
    icases H with ⟨Harr, Htab, Hrest⟩
    imodintro
    isplitl [Harr]; · iapply hdeal; iexact Harr
    isplitl [Htab]; · rw [← htab c]; iexact Htab
    isplitl [HO]
    · unfold Pipeline.Dat.owesAt Pipeline.owesWithin
      rw [show (pdats m a1 dat1' 1 c).owed 0 = 0 from howed c 0]
      icases HO with ⟨%W, HO⟩; iexists W; isplitr; · ipureintro; exact fun _ _ => Or.inl (by rw [show (pdats m a1 dat1' 1 c).recorded 0 = Set.univ from hrec c 0]; exact Set.mem_univ _)
      iexact HO
    isplitr; · iempintro
    isplitl [Hrest]; · iexact Hrest
    iexact Hp
  hin c := by
    rw [show (pdats m a1 dat1' 1 c).Φ 0 = (dat1' c).Φ 0 from rfl]
    iintro ⟨-, H⟩
    iapply (hΦ0 c)
    iexact H
  hout c := by
    rw [Pipeline.ownSems0_none, show (pdats m a1 dat1' 1 c).Φ (Fin.last _) = (dat1' c).Φ (Fin.last (cfg1 a1).N) from rfl]
    have h := hΦN c
    iintro H
    ihave H' := h $$ H
    icases H' with ⟨Ht, Hr⟩
    isplitl [Ht]; · iexact Ht
    isplitr; · iempintro
    iexact Hr
  hexit c := by
    rw [← Pipeline.unscopedBufs_held (Ix := Unit) (Name := ℕ) (U := UR sig nD τ) (Lvl := ℕ) c (W3 m a1 dat1' c)]
    have hsp := (bufs_split (F := F) c (fun b => W3 m a1 dat1' c b)).2
    have h4 : W3 m a1 dat1' c (Proc.devRef .tc main_v4) = U2 m c main_v4 := W3_of_ne m a1 dat1' c main_v4 (by decide)
    have hin0 : (dat1' c).arrAt 0 (cfg1 a1).N = W3 m a1 dat1' c (Proc.devRef .tc main_v4) :=
      ((dat1' c).arrAt_in 0 rfl _).trans ((hA c 0).trans h4.symm)
    have hin1 : (dat1' c).arrAt 1 (cfg1 a1).N = W3 m a1 dat1' c (Proc.devRef .tc main_v4) :=
      ((dat1' c).arrAt_in 1 rfl _).trans ((hA c 1).trans h4.symm)
    have hin2 : (dat1' c).arrAt 2 (cfg1 a1).N = W3 m a1 dat1' c (Proc.devRef .tc main_v4) :=
      ((dat1' c).arrAt_in 2 rfl _).trans ((hA c 2).trans h4.symm)
    have hout3 : (dat1' c).arrAt 3 (cfg1 a1).N = W3 m a1 dat1' c (Proc.devRef .tc main_v5) := (W3_v5 m a1 dat1' c).symm
    have hdeal := (arrays_deal a1 dat1' c (hs0 c) (hs1 c) (hs2 c) (hs3 c) (fun w => (dat1' c).arrAt w (cfg1 a1).N)
      (W3 m a1 dat1' c (Proc.devRef .tc main_v4)) (W3 m a1 dat1' c (Proc.devRef .tc main_v5)) hin0 hin1 hin2 hout3).1
    have htabs : (fun k => W3 m a1 dat1' c (Proc.devRef .tc (pre1.ref k))) = a1.1 := by
      rw [← htab c]
      funext k
      exact W3_of_ne m a1 dat1' c (pre1.ref k) (by revert k; decide)
    have hrest : (Pipeline.unscopedRestP (Ix := Unit) (Name := ℕ) (U := UR sig nD τ) (Lvl := ℕ) pre1 spec1 c (fun b => W3 m a1 dat1' c b) : sProp 𝕄)
        = Pipeline.unscopedRestP (Ix := Unit) (Name := ℕ) (U := UR sig nD τ) (Lvl := ℕ) pre1 spec1 c (U2 m c) := by
      rw [unscopedRestP1_eq, unscopedRestP1_eq]
      rw [W3_of_ne m a1 dat1' c main_arg0 (by decide), W3_of_ne m a1 dat1' c main_arg1 (by decide),
        W3_of_ne m a1 dat1' c main_arg2 (by decide), W3_of_ne m a1 dat1' c main_arg3 (by decide),
        W3_of_ne m a1 dat1' c main_v0 (by decide), W3_of_ne m a1 dat1' c main_v1 (by decide),
        W3_of_ne m a1 dat1' c main_v2 (by decide), W3_of_ne m a1 dat1' c main_v3 (by decide)]
    iintro ⟨Ha, HO, HY, ⟨Hrest, Hp⟩⟩
    imodintro
    isplitl [Ha HY Hrest]
    · iapply hsp
      isplitl [Ha]; · iapply hdeal; iexact Ha
      isplitl [HY]; · rw [htabs]; iexact HY
      rw [hrest]; iexact Hrest
    isplitl [Hp]; · iexact Hp
    unfold Pipeline.Dat.owesAt Pipeline.owesWithin
    rw [show (pdats m a1 dat1' 1 c).owed (Fin.last _) = 0 from howed c _]
    icases HO with ⟨%W, -, HO⟩; iexists W; iexact HO

end Reg1

end Cert.Kernel.Run

end
-- ==== Proof.KRegion1Runs.lean ====
/-
  The attention kernel's body (the second kernel of the program), run once per control path.

  At a grid point the body reads two words of the schedule tables, the query-block word `r` and the key-block word
  `r'`. If `r' = 0` it resets the three carried buffers (running maximum `-∞`, normaliser 0, weighted sum 0). It then
  merges the key block into them: on the diagonal (`r' = r`) with the causal mask, off it without. On the diagonal
  it finally stores the weighted sum times the reciprocal of the normaliser into the output block. So there are four
  paths, told apart by two decisions: reset or not, diagonal or not.
-/
import proofs.«121137_j11647951306945_2_alg».proof.Proof.Gen.Kernel.Skeleton
import proofs.«121137_j11647951306945_2_alg».proof.Proof.Gen.Kernel.Launch
import Idealize.ShloMosaic.Lib.Pipeline.Kit
import Idealize.ShloMosaic.Lib.Pipeline.TableIdle
import Idealize.ShloMosaic.Lib.Pipeline.FrameBody
import Idealize.ShloMosaic.Lib.Writes
import Idealize.ShloMosaic.Lib.Ring
import Idealize.ShloMosaic.Lib.Exec
import Idealize.ShloMosaic.Lib.Affine
import Idealize.ShloMosaic.Lib.Tactic

set_option maxRecDepth 16384
set_option Elab.async false

noncomputable section

namespace Cert.Kernel.R1

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The tables, the scratches and the two words the body reads -/

/-- The two schedule tables and the three carried buffers as the body is handed them: whole. -/
abbrev tbM1_0 : Memref sig .tc .smem S2x68 .i32 := Memref.whole main_c
abbrev tbM1_1 : Memref sig .tc .smem S2x68 .i32 := Memref.whole main_c_0
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2

/-- One staging buffer of the output window, through which an output block's contents are stated. -/
abbrev VO1_3 : View sig .tc .vmem S512x1024 .f32 := (Memref.whole cc1_stg3_0 : Memref sig .tc .vmem S512x1024 .f32).view

/-- The query-block word: the first table at the point's cell, as a load reads it. -/
abbrev wq (i : grid1.Coords) (T0 : S2x68.Idx → Elt F .i32) : Elt F .i32 :=
  View.readAt (Elt F) (tbM1_0).view (Rect.unit (s := S2x68) (k1_off1 i) S1x1.size (k1_off1_inb i)).toLoadRect T0 (Shape.Idx.first (numel1_S1x1.symm ▸ Nat.one_pos))
/-- The key-block word: the second table at the point's cell. -/
abbrev wk (i : grid1.Coords) (T1 : S2x68.Idx → Elt F .i32) : Elt F .i32 :=
  View.readAt (Elt F) (tbM1_1).view (Rect.unit (s := S2x68) (k1_off1 i) S1x1.size (k1_off1_inb i)).toLoadRect T1 (Shape.Idx.first (numel1_S1x1.symm ▸ Nat.one_pos))

/-! ## The body's decisions

The body takes four decisions on the two words `r` (query block) and `r'` (key block): whether `r' = 0` (the carried
buffers are reset), whether `r' = r` (the diagonal block: masked, and the output stored), whether `r' ≠ r`, and again
whether `r' = r`. The last three are one decision. -/

/-- A condition word widened and compared with zero is the condition. -/
theorem ne_ext_iff (b : BitVec 1) : Scalar.cmpi .ne (Scalar.extui b) 0#32 = 1#1 ↔ b = 1#1 := by
  rcases BitVec.eq_zero_or_eq_one b with h | h <;> subst h <;> decide

/-- The diagonal decision says the two words are equal. -/
theorem diag_iff (r r' : BitVec 32) : (Scalar.cmpi .ne (Scalar.extui (Scalar.cmpi .eq r' r)) 0#32 = 1#1) ↔ r' = r :=
  (ne_ext_iff _).trans IntOp.cmpi_eq

/-- The off-diagonal decision is the negation of the diagonal one. -/
theorem offdiag_iff (r r' : BitVec 32) :
    (Scalar.cmpi .ne (Scalar.extui (Scalar.cmpi .ne r' r)) 0#32 = 1#1) ↔ ¬(Scalar.cmpi .ne (Scalar.extui (Scalar.cmpi .eq r' r)) 0#32 = 1#1) :=
  ((ne_ext_iff _).trans IntOp.cmpi_ne).trans (not_congr (diag_iff r r')).symm

/-- The store condition is the diagonal decision. -/
theorem cond4_iff (r r' : BitVec 32) : k1_cond4 r r' = 1#1 ↔ (Scalar.cmpi .ne (Scalar.extui (Scalar.cmpi .eq r' r)) 0#32 = 1#1) := by
  unfold k1_cond4; exact Iff.rfl

/-- The reset decision says the key-block word is zero. -/
theorem reset_iff (r' : BitVec 32) : (Scalar.cmpi .ne (Scalar.extui (Scalar.cmpi .eq r' 0#32)) 0#32 = 1#1) ↔ r' = 0#32 :=
  (ne_ext_iff _).trans IntOp.cmpi_eq

/-! ## The body per control path, on symbolic staging memrefs

Each run is a subtype: what the path leaves in the carried buffers (and, on the diagonal, the pieces it stores into the
output block), with the proof that from the three input blocks, the two tables, the output block and the carried
buffers the body runs to the continuation holding all of it. The witnesses are found by running the body. -/

set_option maxHeartbeats 8000000 in
/-- Reset and diagonal (the first key block of query block 0): the carried buffers are overwritten whole before they are read, so what they held does not matter; the output block is stored whole. -/
noncomputable def kernelRun1_A (c : Dev nD) (i : grid1.Coords)
    (arg4 : Memref sig .tc .vmem S512x1024 .bf16) (harg4 : arg4.IsWhole) (arg5 : Memref sig .tc .vmem S512x1024 .bf16) (harg5 : arg5.IsWhole)
    (arg6 : Memref sig .tc .vmem S512x1024 .bf16) (harg6 : arg6.IsWhole) (arg7 : Memref sig .tc .vmem S512x1024 .f32) (harg7 : arg7.IsWhole)
    (T0 T1 : S2x68.Idx → Elt F .i32) (x0 x1 x2 : S512x1024.Idx → Elt F .bf16)
    (h8 : ((Scalar.cmpi .ne (Scalar.extui (Scalar.cmpi .eq (wk i T1) 0#32)) 0#32) = 1#1))
    (h20 : ((Scalar.cmpi .ne (Scalar.extui (Scalar.cmpi .eq (wk i T1) (wq i T0))) 0#32) = 1#1)) :
    Σ' (out7 : List (View.Piece (Elt F) S512x1024 .f32)) (o0 : Buf (Elt F) ((c : Thread nD τ).loc cc1_scratch0)) (o1 : Buf (Elt F) ((c : Thread nD τ).loc cc1_scratch1)),
    { o2 : Buf (Elt F) ((c : Thread nD τ).loc cc1_scratch2) //
      ∀ (xm : Buf (Elt F) ((c : Thread nD τ).loc cc1_scratch0)) (xl : Buf (Elt F) ((c : Thread nD τ).loc cc1_scratch1)) (xa : Buf (Elt F) ((c : Thread nD τ).loc cc1_scratch2)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM1_0.view.loc (c : Thread nD τ) ↦{fullShare} T0)
          ∗ (tbM1_1.view.loc (c : Thread nD τ) ↦{fullShare} T1)
          ∗ (∃ d, owns (c : Thread nD τ) arg7 fullShare d)
          ∗ (scM1_0.view.loc (c : Thread nD τ) ↦{fullShare} xm)
          ∗ (scM1_1.view.loc (c : Thread nD τ) ↦{fullShare} xl)
          ∗ (scM1_2.view.loc (c : Thread nD τ) ↦{fullShare} xa)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM1_0.view.loc (c : Thread nD τ) ↦{fullShare} T0)
              ∗ (tbM1_1.view.loc (c : Thread nD τ) ↦{fullShare} T1)
              ∗ (∃ f, arg7.view.loc (c : Thread nD τ) ↦[arg7.view.set]{fullShare} arg7.view.writes (Elt F) f out7)
              ∗ (scM1_0.view.loc (c : Thread nD τ) ↦{fullShare} o0)
              ∗ (scM1_1.view.loc (c : Thread nD τ) ↦{fullShare} o1)
              ∗ (scM1_2.view.loc (c : Thread nD τ) ↦{fullShare} o2)) -∗ K ⟨⟩))
          ⊢ wp frame (wpE (defs₀ (F := F)) Variants.none c none) Set.univ
              (cc1__flash_causal_kernel i tbM1_0 (Memref.isWhole_whole _) tbM1_1 (Memref.isWhole_whole _) arg4 harg4 arg5 harg5 arg6 harg6 arg7 harg7
                scM1_0 (Memref.isWhole_whole _) scM1_1 (Memref.isWhole_whole _) scM1_2 (Memref.isWhole_whole _)) K } :=
  ⟨_, _, _, _, fun xm xl xa K => by
    have h23 : ¬((Scalar.cmpi .ne (Scalar.extui (Scalar.cmpi .ne (wk i T1) (wq i T0))) 0#32) = 1#1) := fun h => (offdiag_iff _ _).mp h h20
    have h4 : (k1_cond4 (wq i T0) (wk i T1) = 1#1) := (cond4_iff _ _).mpr h20
    unfold owns
    rw [cc1__flash_causal_kernel_eq_skeleton]; unfold cc1__flash_causal_kernel_skel
    iintro ⟨H0, H1, H2, HT0, HT1, ⟨%d1, %f1, -, HO⟩, HS0, HS1, HS2, Hk⟩
    have hS0 : scM1_0.IsWhole := Memref.isWhole_whole _
    have hS1 : scM1_1.IsWhole := Memref.isWhole_whole _
    have hS2 : scM1_2.IsWhole := Memref.isWhole_whole _
    have hT0 : tbM1_0.IsWhole := Memref.isWhole_whole _
    have hT1 : tbM1_1.IsWhole := Memref.isWhole_whole _
    sl_exec! (disch := first | exact h8 | exact h20 | exact h23 | exact h4)
    sl_step
    iapply Hk
    isplitl [H0]; · iexact H0
    isplitl [H1]; · iexact H1
    isplitl [H2]; · iexact H2
    isplitl [HT0]; · iexact HT0
    isplitl [HT1]; · iexact HT1
    isplitl [HO]; · iexists _; iexact HO
    isplitl [HS0]; · iexact HS0
    isplitl [HS1]; · iexact HS1
    iexact HS2⟩

/-- The one store of the diagonal path into the output block is of the whole block, so its pieces cover it. -/
theorem cover1_A (c : Dev nD) (i : grid1.Coords)
    (arg4 : Memref sig .tc .vmem S512x1024 .bf16) (harg4 : arg4.IsWhole) (arg5 : Memref sig .tc .vmem S512x1024 .bf16) (harg5 : arg5.IsWhole)
    (arg6 : Memref sig .tc .vmem S512x1024 .bf16) (harg6 : arg6.IsWhole) (arg7 : Memref sig .tc .vmem S512x1024 .f32) (harg7 : arg7.IsWhole)
    (T0 T1 : S2x68.Idx → Elt F .i32) (x0 x1 x2 : S512x1024.Idx → Elt F .bf16)
    (h8 : ((Scalar.cmpi .ne (Scalar.extui (Scalar.cmpi .eq (wk i T1) 0#32)) 0#32) = 1#1))
    (h20 : ((Scalar.cmpi .ne (Scalar.extui (Scalar.cmpi .eq (wk i T1) (wq i T0))) 0#32) = 1#1)) (y : S512x1024.Idx) :
    ∃ pc ∈ (kernelRun1_A c i arg4 harg4 arg5 harg5 arg6 harg6 arg7 harg7 T0 T1 x0 x1 x2 h8 h20).1, y ∈ pc.1.set :=
  View.cover_of_tiledL (kernelRun1_A c i arg4 harg4 arg5 harg5 arg6 harg6 arg7 harg7 T0 T1 x0 x1 x2 h8 h20).1 S512x1024.size (by sl_kernel_rfl) y

/-- What path A leaves in the output block: its pieces read back over anything. -/
def out1_A (c : Dev nD) (i : grid1.Coords)
    (arg4 : Memref sig .tc .vmem S512x1024 .bf16) (harg4 : arg4.IsWhole) (arg5 : Memref sig .tc .vmem S512x1024 .bf16) (harg5 : arg5.IsWhole)
    (arg6 : Memref sig .tc .vmem S512x1024 .bf16) (harg6 : arg6.IsWhole) (arg7 : Memref sig .tc .vmem S512x1024 .f32) (harg7 : arg7.IsWhole)
    (T0 T1 : S2x68.Idx → Elt F .i32) (x0 x1 x2 : S512x1024.Idx → Elt F .bf16)
    (h8 : ((Scalar.cmpi .ne (Scalar.extui (Scalar.cmpi .eq (wk i T1) 0#32)) 0#32) = 1#1))
    (h20 : ((Scalar.cmpi .ne (Scalar.extui (Scalar.cmpi .eq (wk i T1) (wq i T0))) 0#32) = 1#1)) : S512x1024.Idx → Elt F .f32 :=
  VO1_3.read (Elt F) (VO1_3.writes (Elt F) VO1_3.junk (kernelRun1_A c i arg4 harg4 arg5 harg5 arg6 harg6 arg7 harg7 T0 T1 x0 x1 x2 h8 h20).1)

set_option maxHeartbeats 8000000 in
/-- Reset, off the diagonal (the first key block of a later query block): the carried buffers are overwritten whole before they are read; the output block is left as found. -/
noncomputable def kernelRun1_B (c : Dev nD) (i : grid1.Coords)
    (arg4 : Memref sig .tc .vmem S512x1024 .bf16) (harg4 : arg4.IsWhole) (arg5 : Memref sig .tc .vmem S512x1024 .bf16) (harg5 : arg5.IsWhole)
    (arg6 : Memref sig .tc .vmem S512x1024 .bf16) (harg6 : arg6.IsWhole) (arg7 : Memref sig .tc .vmem S512x1024 .f32) (harg7 : arg7.IsWhole)
    (T0 T1 : S2x68.Idx → Elt F .i32) (x0 x1 x2 : S512x1024.Idx → Elt F .bf16)
    (h8 : ((Scalar.cmpi .ne (Scalar.extui (Scalar.cmpi .eq (wk i T1) 0#32)) 0#32) = 1#1))
    (h20 : ¬((Scalar.cmpi .ne (Scalar.extui (Scalar.cmpi .eq (wk i T1) (wq i T0))) 0#32) = 1#1)) :
    Σ' (o0 : Buf (Elt F) ((c : Thread nD τ).loc cc1_scratch0)) (o1 : Buf (Elt F) ((c : Thread nD τ).loc cc1_scratch1)),
    { o2 : Buf (Elt F) ((c : Thread nD τ).loc cc1_scratch2) //
      ∀ (y : S512x1024.Idx → Elt F .f32) (xm : Buf (Elt F) ((c : Thread nD τ).loc cc1_scratch0)) (xl : Buf (Elt F) ((c : Thread nD τ).loc cc1_scratch1)) (xa : Buf (Elt F) ((c : Thread nD τ).loc cc1_scratch2)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM1_0.view.loc (c : Thread nD τ) ↦{fullShare} T0)
          ∗ (tbM1_1.view.loc (c : Thread nD τ) ↦{fullShare} T1)
          ∗ owns (c : Thread nD τ) arg7 fullShare y
          ∗ (scM1_0.view.loc (c : Thread nD τ) ↦{fullShare} xm)
          ∗ (scM1_1.view.loc (c : Thread nD τ) ↦{fullShare} xl)
          ∗ (scM1_2.view.loc (c : Thread nD τ) ↦{fullShare} xa)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM1_0.view.loc (c : Thread nD τ) ↦{fullShare} T0)
              ∗ (tbM1_1.view.loc (c : Thread nD τ) ↦{fullShare} T1)
              ∗ owns (c : Thread nD τ) arg7 fullShare y
              ∗ (scM1_0.view.loc (c : Thread nD τ) ↦{fullShare} o0)
              ∗ (scM1_1.view.loc (c : Thread nD τ) ↦{fullShare} o1)
              ∗ (scM1_2.view.loc (c : Thread nD τ) ↦{fullShare} o2)) -∗ K ⟨⟩))
          ⊢ wp frame (wpE (defs₀ (F := F)) Variants.none c none) Set.univ
              (cc1__flash_causal_kernel i tbM1_0 (Memref.isWhole_whole _) tbM1_1 (Memref.isWhole_whole _) arg4 harg4 arg5 harg5 arg6 harg6 arg7 harg7
                scM1_0 (Memref.isWhole_whole _) scM1_1 (Memref.isWhole_whole _) scM1_2 (Memref.isWhole_whole _)) K } :=
  ⟨_, _, _, fun (y : S512x1024.Idx → Elt F .f32) xm xl xa K => by
    have h23 : ((Scalar.cmpi .ne (Scalar.extui (Scalar.cmpi .ne (wk i T1) (wq i T0))) 0#32) = 1#1) := (offdiag_iff _ _).mpr h20
    have h4 : ¬(k1_cond4 (wq i T0) (wk i T1) = 1#1) := fun h => h20 ((cond4_iff _ _).mp h)
    unfold owns
    rw [cc1__flash_causal_kernel_eq_skeleton]; unfold cc1__flash_causal_kernel_skel
    iintro ⟨H0, H1, H2, HT0, HT1, ⟨%f1, %hf1, HO⟩, HS0, HS1, HS2, Hk⟩
    obtain rfl := harg7.eq_unread hf1
    have hS0 : scM1_0.IsWhole := Memref.isWhole_whole _
    have hS1 : scM1_1.IsWhole := Memref.isWhole_whole _
    have hS2 : scM1_2.IsWhole := Memref.isWhole_whole _
    have hT0 : tbM1_0.IsWhole := Memref.isWhole_whole _
    have hT1 : tbM1_1.IsWhole := Memref.isWhole_whole _
    sl_exec! (disch := first | exact h8 | exact h20 | exact h23 | exact h4)
    sl_step
    iapply Hk
    isplitl [H0]; · iexact H0
    isplitl [H1]; · iexact H1
    isplitl [H2]; · iexact H2
    isplitl [HT0]; · iexact HT0
    isplitl [HT1]; · iexact HT1
    isplitl [HO]
    · iexists _; isplitr; · ipureintro; exact harg7.read_unread _
      iexact HO
    isplitl [HS0]; · iexact HS0
    isplitl [HS1]; · iexact HS1
    iexact HS2⟩

set_option maxHeartbeats 8000000 in
/-- No reset, diagonal (the last key block of a query block): the carried buffers are merged with the masked block and the output block is stored whole. -/
noncomputable def kernelRun1_C (c : Dev nD) (i : grid1.Coords)
    (arg4 : Memref sig .tc .vmem S512x1024 .bf16) (harg4 : arg4.IsWhole) (arg5 : Memref sig .tc .vmem S512x1024 .bf16) (harg5 : arg5.IsWhole)
    (arg6 : Memref sig .tc .vmem S512x1024 .bf16) (harg6 : arg6.IsWhole) (arg7 : Memref sig .tc .vmem S512x1024 .f32) (harg7 : arg7.IsWhole)
    (T0 T1 : S2x68.Idx → Elt F .i32) (x0 x1 x2 : S512x1024.Idx → Elt F .bf16)
    (xm : Buf (Elt F) ((c : Thread nD τ).loc cc1_scratch0)) (xl : Buf (Elt F) ((c : Thread nD τ).loc cc1_scratch1))
    (xa : Buf (Elt F) ((c : Thread nD τ).loc cc1_scratch2))
    (h8 : ¬((Scalar.cmpi .ne (Scalar.extui (Scalar.cmpi .eq (wk i T1) 0#32)) 0#32) = 1#1))
    (h20 : ((Scalar.cmpi .ne (Scalar.extui (Scalar.cmpi .eq (wk i T1) (wq i T0))) 0#32) = 1#1)) :
    Σ' (out7 : List (View.Piece (Elt F) S512x1024 .f32)) (o0 : Buf (Elt F) ((c : Thread nD τ).loc cc1_scratch0)) (o1 : Buf (Elt F) ((c : Thread nD τ).loc cc1_scratch1)),
    { o2 : Buf (Elt F) ((c : Thread nD τ).loc cc1_scratch2) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM1_0.view.loc (c : Thread nD τ) ↦{fullShare} T0)
          ∗ (tbM1_1.view.loc (c : Thread nD τ) ↦{fullShare} T1)
          ∗ (∃ d, owns (c : Thread nD τ) arg7 fullShare d)
          ∗ (scM1_0.view.loc (c : Thread nD τ) ↦{fullShare} xm)
          ∗ (scM1_1.view.loc (c : Thread nD τ) ↦{fullShare} xl)
          ∗ (scM1_2.view.loc (c : Thread nD τ) ↦{fullShare} xa)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM1_0.view.loc (c : Thread nD τ) ↦{fullShare} T0)
              ∗ (tbM1_1.view.loc (c : Thread nD τ) ↦{fullShare} T1)
              ∗ (∃ f, arg7.view.loc (c : Thread nD τ) ↦[arg7.view.set]{fullShare} arg7.view.writes (Elt F) f out7)
              ∗ (scM1_0.view.loc (c : Thread nD τ) ↦{fullShare} o0)
              ∗ (scM1_1.view.loc (c : Thread nD τ) ↦{fullShare} o1)
              ∗ (scM1_2.view.loc (c : Thread nD τ) ↦{fullShare} o2)) -∗ K ⟨⟩))
          ⊢ wp frame (wpE (defs₀ (F := F)) Variants.none c none) Set.univ
              (cc1__flash_causal_kernel i tbM1_0 (Memref.isWhole_whole _) tbM1_1 (Memref.isWhole_whole _) arg4 harg4 arg5 harg5 arg6 harg6 arg7 harg7
                scM1_0 (Memref.isWhole_whole _) scM1_1 (Memref.isWhole_whole _) scM1_2 (Memref.isWhole_whole _)) K } :=
  ⟨_, _, _, _, fun K => by
    have h23 : ¬((Scalar.cmpi .ne (Scalar.extui (Scalar.cmpi .ne (wk i T1) (wq i T0))) 0#32) = 1#1) := fun h => (offdiag_iff _ _).mp h h20
    have h4 : (k1_cond4 (wq i T0) (wk i T1) = 1#1) := (cond4_iff _ _).mpr h20
    unfold owns
    rw [cc1__flash_causal_kernel_eq_skeleton]; unfold cc1__flash_causal_kernel_skel
    iintro ⟨H0, H1, H2, HT0, HT1, ⟨%d1, %f1, -, HO⟩, HS0, HS1, HS2, Hk⟩
    have hS0 : scM1_0.IsWhole := Memref.isWhole_whole _
    have hS1 : scM1_1.IsWhole := Memref.isWhole_whole _
    have hS2 : scM1_2.IsWhole := Memref.isWhole_whole _
    have hT0 : tbM1_0.IsWhole := Memref.isWhole_whole _
    have hT1 : tbM1_1.IsWhole := Memref.isWhole_whole _
    sl_exec! (disch := first | exact h8 | exact h20 | exact h23 | exact h4)
    sl_step
    iapply Hk
    isplitl [H0]; · iexact H0
    isplitl [H1]; · iexact H1
    isplitl [H2]; · iexact H2
    isplitl [HT0]; · iexact HT0
    isplitl [HT1]; · iexact HT1
    isplitl [HO]; · iexists _; iexact HO
    isplitl [HS0]; · iexact HS0
    isplitl [HS1]; · iexact HS1
    iexact HS2⟩

/-- The one store of the diagonal path into the output block is of the whole block, so its pieces cover it. -/
theorem cover1_C (c : Dev nD) (i : grid1.Coords)
    (arg4 : Memref sig .tc .vmem S512x1024 .bf16) (harg4 : arg4.IsWhole) (arg5 : Memref sig .tc .vmem S512x1024 .bf16) (harg5 : arg5.IsWhole)
    (arg6 : Memref sig .tc .vmem S512x1024 .bf16) (harg6 : arg6.IsWhole) (arg7 : Memref sig .tc .vmem S512x1024 .f32) (harg7 : arg7.IsWhole)
    (T0 T1 : S2x68.Idx → Elt F .i32) (x0 x1 x2 : S512x1024.Idx → Elt F .bf16)
    (xm : Buf (Elt F) ((c : Thread nD τ).loc cc1_scratch0)) (xl : Buf (Elt F) ((c : Thread nD τ).loc cc1_scratch1))
    (xa : Buf (Elt F) ((c : Thread nD τ).loc cc1_scratch2))
    (h8 : ¬((Scalar.cmpi .ne (Scalar.extui (Scalar.cmpi .eq (wk i T1) 0#32)) 0#32) = 1#1))
    (h20 : ((Scalar.cmpi .ne (Scalar.extui (Scalar.cmpi .eq (wk i T1) (wq i T0))) 0#32) = 1#1)) (y : S512x1024.Idx) :
    ∃ pc ∈ (kernelRun1_C c i arg4 harg4 arg5 harg5 arg6 harg6 arg7 harg7 T0 T1 x0 x1 x2 xm xl xa h8 h20).1, y ∈ pc.1.set :=
  View.cover_of_tiledL (kernelRun1_C c i arg4 harg4 arg5 harg5 arg6 harg6 arg7 harg7 T0 T1 x0 x1 x2 xm xl xa h8 h20).1 S512x1024.size (by sl_kernel_rfl) y

/-- What path C leaves in the output block: its pieces read back over anything. -/
def out1_C (c : Dev nD) (i : grid1.Coords)
    (arg4 : Memref sig .tc .vmem S512x1024 .bf16) (harg4 : arg4.IsWhole) (arg5 : Memref sig .tc .vmem S512x1024 .bf16) (harg5 : arg5.IsWhole)
    (arg6 : Memref sig .tc .vmem S512x1024 .bf16) (harg6 : arg6.IsWhole) (arg7 : Memref sig .tc .vmem S512x1024 .f32) (harg7 : arg7.IsWhole)
    (T0 T1 : S2x68.Idx → Elt F .i32) (x0 x1 x2 : S512x1024.Idx → Elt F .bf16)
    (xm : Buf (Elt F) ((c : Thread nD τ).loc cc1_scratch0)) (xl : Buf (Elt F) ((c : Thread nD τ).loc cc1_scratch1))
    (xa : Buf (Elt F) ((c : Thread nD τ).loc cc1_scratch2))
    (h8 : ¬((Scalar.cmpi .ne (Scalar.extui (Scalar.cmpi .eq (wk i T1) 0#32)) 0#32) = 1#1))
    (h20 : ((Scalar.cmpi .ne (Scalar.extui (Scalar.cmpi .eq (wk i T1) (wq i T0))) 0#32) = 1#1)) : S512x1024.Idx → Elt F .f32 :=
  VO1_3.read (Elt F) (VO1_3.writes (Elt F) VO1_3.junk (kernelRun1_C c i arg4 harg4 arg5 harg5 arg6 harg6 arg7 harg7 T0 T1 x0 x1 x2 xm xl xa h8 h20).1)

set_option maxHeartbeats 8000000 in
/-- No reset, off the diagonal: the carried buffers are merged with the block; the output block is left as found. -/
noncomputable def kernelRun1_D (c : Dev nD) (i : grid1.Coords)
    (arg4 : Memref sig .tc .vmem S512x1024 .bf16) (harg4 : arg4.IsWhole) (arg5 : Memref sig .tc .vmem S512x1024 .bf16) (harg5 : arg5.IsWhole)
    (arg6 : Memref sig .tc .vmem S512x1024 .bf16) (harg6 : arg6.IsWhole) (arg7 : Memref sig .tc .vmem S512x1024 .f32) (harg7 : arg7.IsWhole)
    (T0 T1 : S2x68.Idx → Elt F .i32) (x0 x1 x2 : S512x1024.Idx → Elt F .bf16)
    (xm : Buf (Elt F) ((c : Thread nD τ).loc cc1_scratch0)) (xl : Buf (Elt F) ((c : Thread nD τ).loc cc1_scratch1))
    (xa : Buf (Elt F) ((c : Thread nD τ).loc cc1_scratch2))
    (h8 : ¬((Scalar.cmpi .ne (Scalar.extui (Scalar.cmpi .eq (wk i T1) 0#32)) 0#32) = 1#1))
    (h20 : ¬((Scalar.cmpi .ne (Scalar.extui (Scalar.cmpi .eq (wk i T1) (wq i T0))) 0#32) = 1#1)) :
    Σ' (o0 : Buf (Elt F) ((c : Thread nD τ).loc cc1_scratch0)) (o1 : Buf (Elt F) ((c : Thread nD τ).loc cc1_scratch1)),
    { o2 : Buf (Elt F) ((c : Thread nD τ).loc cc1_scratch2) //
      ∀ (y : S512x1024.Idx → Elt F .f32) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM1_0.view.loc (c : Thread nD τ) ↦{fullShare} T0)
          ∗ (tbM1_1.view.loc (c : Thread nD τ) ↦{fullShare} T1)
          ∗ owns (c : Thread nD τ) arg7 fullShare y
          ∗ (scM1_0.view.loc (c : Thread nD τ) ↦{fullShare} xm)
          ∗ (scM1_1.view.loc (c : Thread nD τ) ↦{fullShare} xl)
          ∗ (scM1_2.view.loc (c : Thread nD τ) ↦{fullShare} xa)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM1_0.view.loc (c : Thread nD τ) ↦{fullShare} T0)
              ∗ (tbM1_1.view.loc (c : Thread nD τ) ↦{fullShare} T1)
              ∗ owns (c : Thread nD τ) arg7 fullShare y
              ∗ (scM1_0.view.loc (c : Thread nD τ) ↦{fullShare} o0)
              ∗ (scM1_1.view.loc (c : Thread nD τ) ↦{fullShare} o1)
              ∗ (scM1_2.view.loc (c : Thread nD τ) ↦{fullShare} o2)) -∗ K ⟨⟩))
          ⊢ wp frame (wpE (defs₀ (F := F)) Variants.none c none) Set.univ
              (cc1__flash_causal_kernel i tbM1_0 (Memref.isWhole_whole _) tbM1_1 (Memref.isWhole_whole _) arg4 harg4 arg5 harg5 arg6 harg6 arg7 harg7
                scM1_0 (Memref.isWhole_whole _) scM1_1 (Memref.isWhole_whole _) scM1_2 (Memref.isWhole_whole _)) K } :=
  ⟨_, _, _, fun (y : S512x1024.Idx → Elt F .f32) K => by
    have h23 : ((Scalar.cmpi .ne (Scalar.extui (Scalar.cmpi .ne (wk i T1) (wq i T0))) 0#32) = 1#1) := (offdiag_iff _ _).mpr h20
    have h4 : ¬(k1_cond4 (wq i T0) (wk i T1) = 1#1) := fun h => h20 ((cond4_iff _ _).mp h)
    unfold owns
    rw [cc1__flash_causal_kernel_eq_skeleton]; unfold cc1__flash_causal_kernel_skel
    iintro ⟨H0, H1, H2, HT0, HT1, ⟨%f1, %hf1, HO⟩, HS0, HS1, HS2, Hk⟩
    obtain rfl := harg7.eq_unread hf1
    have hS0 : scM1_0.IsWhole := Memref.isWhole_whole _
    have hS1 : scM1_1.IsWhole := Memref.isWhole_whole _
    have hS2 : scM1_2.IsWhole := Memref.isWhole_whole _
    have hT0 : tbM1_0.IsWhole := Memref.isWhole_whole _
    have hT1 : tbM1_1.IsWhole := Memref.isWhole_whole _
    sl_exec! (disch := first | exact h8 | exact h20 | exact h23 | exact h4)
    sl_step
    iapply Hk
    isplitl [H0]; · iexact H0
    isplitl [H1]; · iexact H1
    isplitl [H2]; · iexact H2
    isplitl [HT0]; · iexact HT0
    isplitl [HT1]; · iexact HT1
    isplitl [HO]
    · iexists _; isplitr; · ipureintro; exact harg7.read_unread _
      iexact HO
    isplitl [HS0]; · iexact HS0
    isplitl [HS1]; · iexact HS1
    iexact HS2⟩

end Cert.Kernel.R1

end
-- ==== Proof.KRegion1Facts.lean ====
/-
  The attention kernel's pipeline at the two literal schedule tables.

  The host writes the two 2×68 tables before the region: at grid point `t` the first holds the query block `r` the
  point works on, the second the key block `r'` it merges. The schedule walks, for each query block, the key blocks
  `0, 1, …, r` in order, so that `r' = 0` at the first point of a query block and `r' = r` at its last. Decided here, over
  the 136 points: the tables are admissible (every block the index maps name lies inside its array); the output window
  is written back exactly at the diagonal points (`r' = r`) and is idle exactly at the others; and the very first point
  resets the carried buffers.
-/
import proofs.«121137_j11647951306945_2_alg».proof.Proof.KRegion1Runs

set_option maxRecDepth 16384
set_option Elab.async false
set_option synthInstance.maxSize 4096
noncomputable section

namespace Cert.Kernel.R1

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Lean Elab Term Meta in
/-- A decidable proposition proved by the kernel's evaluation of its decision procedure, as `decide +kernel` does, also
    when it mentions variables of the context (here the float instance) which the evaluation never inspects. -/
elab "kdecide%" : term <= expectedType => do
  let s ← synthInstance (mkApp (mkConst ``Decidable) expectedType)
  return mkApp3 (mkConst ``of_decide_eq_true) expectedType s (mkApp2 (mkConst ``Eq.refl [levelOne]) (mkConst ``Bool) (mkConst ``true))

/-! ## The tables and the pipeline at them -/

/-- The query-block table as the host writes it. -/
def T0L : S2x68.Idx → BitVec 32 := fun i => lit0 (S2x68.rowMajor i)
/-- The key-block table as the host writes it. -/
def T1L : S2x68.Idx → BitVec 32 := fun i => lit1 (S2x68.rowMajor i)

/-- The two tables' contents. -/
def pfL : pre1.Contents (Elt F) := fun
  | ⟨0, _⟩ => T0L
  | ⟨1, _⟩ => T1L
  | ⟨_ + 2, h⟩ => absurd h (Nat.not_lt.2 (Nat.le_add_left _ _))

/-- They are admissible: at every grid point every window's block lies inside its array, on whole words. -/
theorem ok_pfL : ok1 (F := F) pfL := kdecide%

/-- The admissible contents, and the pipeline at them. -/
def adm1 : (pcfg1 (F := F)).Adm := ⟨pfL, ok_pfL⟩
abbrev cfgA : Pipeline.Cfg sig Λ₀ := cfg1 (F := F) adm1

/-- Point `t`'s coordinates. -/
abbrev crd (t : Fin (cfgA (F := F)).N) : (cfgA (F := F)).grid.Coords := (cfgA (F := F)).grid.coords t

/-- Each window's current staging memref at point `t`, as the pipeline passes it to the body, and its wholeness. -/
abbrev ms1_0 (t : Fin (cfgA (F := F)).N) : Memref sig .tc .vmem S512x1024 .bf16 := spec1_0.stage ((cfgA (F := F)).slots t (0 : Fin 4))
abbrev hs1_0 (t : Fin (cfgA (F := F)).N) : (ms1_0 (F := F) t).IsWhole := hstage1_0 (((cfgA (F := F)).slots t (0 : Fin 4)).cast nbuf1_0)
abbrev ms1_1 (t : Fin (cfgA (F := F)).N) : Memref sig .tc .vmem S512x1024 .bf16 := spec1_1.stage ((cfgA (F := F)).slots t (1 : Fin 4))
abbrev hs1_1 (t : Fin (cfgA (F := F)).N) : (ms1_1 (F := F) t).IsWhole := hstage1_1 (((cfgA (F := F)).slots t (1 : Fin 4)).cast nbuf1_1)
abbrev ms1_2 (t : Fin (cfgA (F := F)).N) : Memref sig .tc .vmem S512x1024 .bf16 := spec1_2.stage ((cfgA (F := F)).slots t (2 : Fin 4))
abbrev hs1_2 (t : Fin (cfgA (F := F)).N) : (ms1_2 (F := F) t).IsWhole := hstage1_2 (((cfgA (F := F)).slots t (2 : Fin 4)).cast nbuf1_2)
abbrev ms1_3 (t : Fin (cfgA (F := F)).N) : Memref sig .tc .vmem S512x1024 .f32 := spec1_3.stage ((cfgA (F := F)).slots t (3 : Fin 4))
abbrev hs1_3 (t : Fin (cfgA (F := F)).N) : (ms1_3 (F := F) t).IsWhole := hstage1_3 (((cfgA (F := F)).slots t (3 : Fin 4)).cast nbuf1_3)

/-! ## The decisions at a point, and the schedule -/

/-- The carried buffers are reset at `t`: the key-block word there is 0. -/
abbrev P1_reset (t : Fin (cfgA (F := F)).N) : Prop :=
  (Scalar.cmpi .ne (Scalar.extui (Scalar.cmpi .eq (wk (F := F) (crd t) T1L) 0#32)) 0#32) = 1#1
/-- Point `t` is on the diagonal: the key-block word there is the query-block word. -/
abbrev P1_diag (t : Fin (cfgA (F := F)).N) : Prop :=
  (Scalar.cmpi .ne (Scalar.extui (Scalar.cmpi .eq (wk (F := F) (crd t) T1L) (wq (F := F) (crd t) T0L))) 0#32) = 1#1

/-- What is decided at point `t`: on the diagonal the output window is live and written back, off it the window is idle
    and not written back; and the first point resets. -/
abbrev FactsAt (t : Fin (cfgA (F := F)).N) : Prop :=
  (P1_diag (F := F) t → (cfgA (F := F)).idle (3 : Fin 4) (crd t) = false ∧ ((cfgA (F := F)).win (3 : Fin 4)).flush t = true)
  ∧ (¬P1_diag (F := F) t → (cfgA (F := F)).idle (3 : Fin 4) (crd t) = true ∧ ((cfgA (F := F)).win (3 : Fin 4)).flush t = false)
  ∧ (t.val = 0 → P1_reset (F := F) t)

theorem allFacts : ∀ t : Fin (cfgA (F := F)).N, FactsAt (F := F) t := kdecide%

/-- On the diagonal the output window is live and written back. -/
theorem sched1_diag (t : Fin (cfgA (F := F)).N) (q : P1_diag (F := F) t) :
    (cfgA (F := F)).idle (3 : Fin 4) (crd t) = false ∧ ((cfgA (F := F)).win (3 : Fin 4)).flush t = true := (allFacts t).1 q
/-- Off the diagonal it is idle and not written back. -/
theorem sched1_off (t : Fin (cfgA (F := F)).N) (q : ¬P1_diag (F := F) t) :
    (cfgA (F := F)).idle (3 : Fin 4) (crd t) = true ∧ ((cfgA (F := F)).win (3 : Fin 4)).flush t = false := (allFacts t).2.1 q
/-- The first point resets the carried buffers; so a point that does not reset is not the first. -/
theorem reset_zero (t : Fin (cfgA (F := F)).N) (h : t.val = 0) : P1_reset (F := F) t := (allFacts t).2.2 h
theorem pos_of_not_reset (t : Fin (cfgA (F := F)).N) (q : ¬P1_reset (F := F) t) : t.val ≠ 0 := fun h => q (reset_zero t h)

end Cert.Kernel.R1

end
-- ==== Proof.KRegion1.lean ====
/-
  The attention kernel's region (the second kernel of the program), at a parameter `V` — the TensorCore's buffer contents
  when the region is entered: what the three carried buffers and the output block hold after each of the 136 grid
  points (the trajectory, one step per point, the step the run of the control path the point's two table words select),
  the pipeline's proof data, the body obligation at every point, and the invariant's two ends.

  Windows 0, 1, 2 are the query, key and value blocks (inputs, never idle, uncut: the body finds the array's block);
  window 3 is the output block, stored whole at the diagonal points, where it is written back, and idle at the others,
  where the body hands it back as found. The carried buffers hold nothing determined only before the first point, which
  resets them.
-/
import proofs.«121137_j11647951306945_2_alg».proof.Proof.KRegion1Facts

set_option maxRecDepth 16384
set_option Elab.async false

noncomputable section

namespace Cert.Kernel.R1

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin (cfgA (F := F)).W) (t : Fin (cfgA (F := F)).N) :
    (((cfgA (F := F)).win w).xblock (crd t)).Idx → Elt F ((cfgA (F := F)).win w).elt :=
  (((cfgA (F := F)).win w).blk t).view.read (Elt F) (V c (Pipeline.arrRef spec1 w))

/-! ## The runs at a point -/

abbrev runA (c : Dev nD) (t : Fin (cfgA (F := F)).N) (q0 : P1_reset (F := F) t) (q1 : P1_diag (F := F) t) :=
  kernelRun1_A c (crd t) (ms1_0 t) (hs1_0 t) (ms1_1 t) (hs1_1 t) (ms1_2 t) (hs1_2 t) (ms1_3 t) (hs1_3 t) T0L T1L (iblk1 V c (0 : Fin 4) t) (iblk1 V c (1 : Fin 4) t) (iblk1 V c (2 : Fin 4) t) q0 q1
abbrev runB (c : Dev nD) (t : Fin (cfgA (F := F)).N) (q0 : P1_reset (F := F) t) (q1 : ¬P1_diag (F := F) t) :=
  kernelRun1_B c (crd t) (ms1_0 t) (hs1_0 t) (ms1_1 t) (hs1_1 t) (ms1_2 t) (hs1_2 t) (ms1_3 t) (hs1_3 t) T0L T1L (iblk1 V c (0 : Fin 4) t) (iblk1 V c (1 : Fin 4) t) (iblk1 V c (2 : Fin 4) t) q0 q1
abbrev runC (c : Dev nD) (t : Fin (cfgA (F := F)).N) (xm : Buf (Elt F) ((c : Thread nD τ).loc cc1_scratch0)) (xl : Buf (Elt F) ((c : Thread nD τ).loc cc1_scratch1)) (xa : Buf (Elt F) ((c : Thread nD τ).loc cc1_scratch2)) (q0 : ¬P1_reset (F := F) t) (q1 : P1_diag (F := F) t) :=
  kernelRun1_C c (crd t) (ms1_0 t) (hs1_0 t) (ms1_1 t) (hs1_1 t) (ms1_2 t) (hs1_2 t) (ms1_3 t) (hs1_3 t) T0L T1L (iblk1 V c (0 : Fin 4) t) (iblk1 V c (1 : Fin 4) t) (iblk1 V c (2 : Fin 4) t) xm xl xa q0 q1
abbrev runD (c : Dev nD) (t : Fin (cfgA (F := F)).N) (xm : Buf (Elt F) ((c : Thread nD τ).loc cc1_scratch0)) (xl : Buf (Elt F) ((c : Thread nD τ).loc cc1_scratch1)) (xa : Buf (Elt F) ((c : Thread nD τ).loc cc1_scratch2)) (q0 : ¬P1_reset (F := F) t) (q1 : ¬P1_diag (F := F) t) :=
  kernelRun1_D c (crd t) (ms1_0 t) (hs1_0 t) (ms1_1 t) (hs1_1 t) (ms1_2 t) (hs1_2 t) (ms1_3 t) (hs1_3 t) T0L T1L (iblk1 V c (0 : Fin 4) t) (iblk1 V c (1 : Fin 4) t) (iblk1 V c (2 : Fin 4) t) xm xl xa q0 q1
abbrev outA (c : Dev nD) (t : Fin (cfgA (F := F)).N) (q0 : P1_reset (F := F) t) (q1 : P1_diag (F := F) t) : S512x1024.Idx → Elt F .f32 :=
  out1_A c (crd t) (ms1_0 t) (hs1_0 t) (ms1_1 t) (hs1_1 t) (ms1_2 t) (hs1_2 t) (ms1_3 t) (hs1_3 t) T0L T1L (iblk1 V c (0 : Fin 4) t) (iblk1 V c (1 : Fin 4) t) (iblk1 V c (2 : Fin 4) t) q0 q1
abbrev outC (c : Dev nD) (t : Fin (cfgA (F := F)).N) (xm : Buf (Elt F) ((c : Thread nD τ).loc cc1_scratch0)) (xl : Buf (Elt F) ((c : Thread nD τ).loc cc1_scratch1)) (xa : Buf (Elt F) ((c : Thread nD τ).loc cc1_scratch2)) (q0 : ¬P1_reset (F := F) t) (q1 : P1_diag (F := F) t) : S512x1024.Idx → Elt F .f32 :=
  out1_C c (crd t) (ms1_0 t) (hs1_0 t) (ms1_1 t) (hs1_1 t) (ms1_2 t) (hs1_2 t) (ms1_3 t) (hs1_3 t) T0L T1L (iblk1 V c (0 : Fin 4) t) (iblk1 V c (1 : Fin 4) t) (iblk1 V c (2 : Fin 4) t) xm xl xa q0 q1

/-! ## What the output block and the carried buffers hold after each point -/

/-- The four tracked contents on core `c`: the output block, the running maximum, the normaliser, the weighted sum. -/
abbrev Tr (c : Dev nD) : Type :=
  (S512x1024.Idx → Elt F .f32) × Buf (Elt F) ((c : Thread nD τ).loc cc1_scratch0) × Buf (Elt F) ((c : Thread nD τ).loc cc1_scratch1) × Buf (Elt F) ((c : Thread nD τ).loc cc1_scratch2)

/-- Contents nothing has determined. -/
def junk1 (c : Dev nD) : Tr (F := F) c := (fun _ => (Elt.inhabited F .f32).default, default, default, default)

/-- One step of the trajectory: what the four hold after the body at point `t` from what they held before: the path
    the two decisions select at `t`, its run's contents; off the diagonal the output block keeps what it held. -/
def step1 (c : Dev nD) (t : Fin (cfgA (F := F)).N) (prev : Tr (F := F) c) : Tr (F := F) c :=
  if q0 : P1_reset (F := F) t then
    if q1 : P1_diag (F := F) t then
      (outA V c t q0 q1, (runA V c t q0 q1).2.1, (runA V c t q0 q1).2.2.1, (runA V c t q0 q1).2.2.2.1)
    else
      (prev.1, (runB V c t q0 q1).1, (runB V c t q0 q1).2.1, (runB V c t q0 q1).2.2.1)
  else
    if q1 : P1_diag (F := F) t then
      (outC V c t prev.2.1 prev.2.2.1 prev.2.2.2 q0 q1, (runC V c t prev.2.1 prev.2.2.1 prev.2.2.2 q0 q1).2.1,
        (runC V c t prev.2.1 prev.2.2.1 prev.2.2.2 q0 q1).2.2.1, (runC V c t prev.2.1 prev.2.2.1 prev.2.2.2 q0 q1).2.2.2.1)
    else
      (prev.1, (runD V c t prev.2.1 prev.2.2.1 prev.2.2.2 q0 q1).1, (runD V c t prev.2.1 prev.2.2.1 prev.2.2.2 q0 q1).2.1,
        (runD V c t prev.2.1 prev.2.2.1 prev.2.2.2 q0 q1).2.2.1)

/-- The trajectory: after position `n`. -/
def traj1 (c : Dev nD) : (n : ℕ) → n < (cfgA (F := F)).N → Tr (F := F) c
  | 0, h => step1 V c ⟨0, h⟩ (junk1 c)
  | n + 1, h => step1 V c ⟨n + 1, h⟩ (traj1 c n (Nat.lt_of_succ_lt h))

/-- What they held before position `n` (nothing determined before the first). -/
def prevN (c : Dev nD) (n : ℕ) (hn : n ≤ (cfgA (F := F)).N) : Tr (F := F) c :=
  if h : n = 0 then junk1 c else traj1 V c (n - 1) (by omega)

/-- What they held before point `t`. -/
def prev1 (c : Dev nD) (t : Fin (cfgA (F := F)).N) : Tr (F := F) c := prevN V c t.val (Nat.le_of_lt t.isLt)

theorem traj1_eq (c : Dev nD) (t : Fin (cfgA (F := F)).N) : traj1 V c t.val t.isLt = step1 V c t (prev1 V c t) := by
  obtain ⟨n, hn⟩ := t
  cases n with
  | zero => rfl
  | succ n => unfold prev1 prevN; simp only [Nat.add_one_ne_zero, dif_neg, not_false_eq_true]; rfl

/-- `step1` at a point of each path. -/
theorem step1_A (c : Dev nD) (t : Fin (cfgA (F := F)).N) (prev : Tr (F := F) c) (q0 : P1_reset (F := F) t) (q1 : P1_diag (F := F) t) :
    step1 V c t prev = (outA V c t q0 q1, (runA V c t q0 q1).2.1, (runA V c t q0 q1).2.2.1, (runA V c t q0 q1).2.2.2.1) := by
  unfold step1; simp only [dif_pos q0, dif_pos q1]
theorem step1_B (c : Dev nD) (t : Fin (cfgA (F := F)).N) (prev : Tr (F := F) c) (q0 : P1_reset (F := F) t) (q1 : ¬P1_diag (F := F) t) :
    step1 V c t prev = (prev.1, (runB V c t q0 q1).1, (runB V c t q0 q1).2.1, (runB V c t q0 q1).2.2.1) := by
  unfold step1; simp only [dif_pos q0, dif_neg q1]
theorem step1_C (c : Dev nD) (t : Fin (cfgA (F := F)).N) (prev : Tr (F := F) c) (q0 : ¬P1_reset (F := F) t) (q1 : P1_diag (F := F) t) :
    step1 V c t prev = (outC V c t prev.2.1 prev.2.2.1 prev.2.2.2 q0 q1, (runC V c t prev.2.1 prev.2.2.1 prev.2.2.2 q0 q1).2.1,
        (runC V c t prev.2.1 prev.2.2.1 prev.2.2.2 q0 q1).2.2.1, (runC V c t prev.2.1 prev.2.2.1 prev.2.2.2 q0 q1).2.2.2.1) := by
  unfold step1; simp only [dif_neg q0, dif_pos q1]
theorem step1_D (c : Dev nD) (t : Fin (cfgA (F := F)).N) (prev : Tr (F := F) c) (q0 : ¬P1_reset (F := F) t) (q1 : ¬P1_diag (F := F) t) :
    step1 V c t prev = (prev.1, (runD V c t prev.2.1 prev.2.2.1 prev.2.2.2 q0 q1).1, (runD V c t prev.2.1 prev.2.2.1 prev.2.2.2 q0 q1).2.1,
        (runD V c t prev.2.1 prev.2.2.1 prev.2.2.2 q0 q1).2.2.1) := by
  unfold step1; simp only [dif_neg q0, dif_neg q1]

/-! ## The pipeline's proof data -/

/-- What the tracked contents were before position `t` of `Fin (N+1)` (the invariant's index). -/
def prev1T (c : Dev nD) (t : Fin ((cfgA (F := F)).N + 1)) : Tr (F := F) c := prevN V c t.val (Nat.le_of_lt_succ t.isLt)

theorem prevN_congr (c : Dev nD) {n n' : ℕ} (h : n = n') (hn : n ≤ (cfgA (F := F)).N) (hn' : n' ≤ (cfgA (F := F)).N) :
    prevN V c n hn = prevN V c n' hn' := by subst h; rfl
theorem prev1T_castSucc (c : Dev nD) (t : Fin (cfgA (F := F)).N) : prev1T V c t.castSucc = prev1 V c t :=
  prevN_congr V c (Fin.val_castSucc t) _ _
theorem prev1T_succ (c : Dev nD) (t : Fin (cfgA (F := F)).N) : prev1T V c t.succ = traj1 V c t.val t.isLt := by
  unfold prev1T prevN; rw [dif_neg (by simp)]; rfl

/-- The core's scoped buffers the region does not use (the first kernel's staging buffers), each at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The invariant before point `t`: each carried buffer at what the trajectory says once the first point has run (at
    anything before it), the two tables whole at their literal contents, and the scoped buffers the region does not use. -/
def Phi1 (c : Dev nD) (t : Fin ((cfgA (F := F)).N + 1)) : sProp 𝕄 :=
  iprop((∃ a, ⌜t.val ≠ 0 → a = (prev1T V c t).2.1⌝ ∗ (scM1_0.view.loc (c : Thread nD τ) ↦{fullShare} a))
    ∗ (∃ a, ⌜t.val ≠ 0 → a = (prev1T V c t).2.2.1⌝ ∗ (scM1_1.view.loc (c : Thread nD τ) ↦{fullShare} a))
    ∗ (∃ a, ⌜t.val ≠ 0 → a = (prev1T V c t).2.2.2⌝ ∗ (scM1_2.view.loc (c : Thread nD τ) ↦{fullShare} a))
    ∗ (tbM1_0.view.loc (c : Thread nD τ) ↦{fullShare} T0L)
    ∗ (tbM1_1.view.loc (c : Thread nD τ) ↦{fullShare} T1L)
    ∗ rest1 (F := F) c)

/-- The proof data of the attention kernel's pipeline on core `c`: the arrays as the region finds them (`V`); after the body
    at point `t` each input's buffer at its block and the output's at the trajectory's output block; the three inputs,
    windows of one array, at three disjoint parts of the full share; nothing owed. -/
def dat1 (c : Dev nD) : Dat τ (Elt F) Unit ℕ (UR sig nD τ) ℕ (cfgA (F := F)) c where
  A w := V c (Pipeline.arrRef spec1 w)
  after w t := match w with
    | ⟨0, _⟩ => iblk1 V c (0 : Fin 4) t
    | ⟨1, _⟩ => iblk1 V c (1 : Fin 4) t
    | ⟨2, _⟩ => iblk1 V c (2 : Fin 4) t
    | ⟨3, _⟩ => (traj1 V c t.val t.isLt).1
  Φ t := Phi1 V c t
  q := fun
    | ⟨0, _⟩ => fullShare.left
    | ⟨1, _⟩ => fullShare.right.left
    | ⟨2, _⟩ => fullShare.right.right
    | _ => fullShare
  owed _ := 0

/-- The proof data's arrays are the region-entry contents. -/
theorem A_eq1 (c : Dev nD) (w : Fin (cfgA (F := F)).W) : (dat1 V c).A w = V c (Pipeline.arrRef spec1 w) := by
  dsimp only [dat1]

/-- What the body leaves, window by window. -/
theorem after1_0 (c : Dev nD) (t : Fin (cfgA (F := F)).N) : (dat1 V c).after (0 : Fin 4) t = iblk1 V c (0 : Fin 4) t := by dsimp only [dat1]
theorem after1_1 (c : Dev nD) (t : Fin (cfgA (F := F)).N) : (dat1 V c).after (1 : Fin 4) t = iblk1 V c (1 : Fin 4) t := by dsimp only [dat1]
theorem after1_2 (c : Dev nD) (t : Fin (cfgA (F := F)).N) : (dat1 V c).after (2 : Fin 4) t = iblk1 V c (2 : Fin 4) t := by dsimp only [dat1]
theorem after1_3 (c : Dev nD) (t : Fin (cfgA (F := F)).N) : (dat1 V c).after (3 : Fin 4) t = (traj1 V c t.val t.isLt).1 := by dsimp only [dat1]

/-! ## What each input's staging buffer holds when the body runs -/

/-- An input window holds its block at every point, fetched there or not: unfetched, the block index has not moved. -/
theorem before1_0 (c : Dev nD) (t : Fin (cfgA (F := F)).N) (d) : (dat1 V c).before (0 : Fin 4) t d = iblk1 V c (0 : Fin 4) t :=
  ((dat1 V c).before_in_eq_fetched (0 : Fin 4) rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin (cfgA (F := F)).N) (d) : (dat1 V c).before (1 : Fin 4) t d = iblk1 V c (1 : Fin 4) t :=
  ((dat1 V c).before_in_eq_fetched (1 : Fin 4) rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin (cfgA (F := F)).N) (d) : (dat1 V c).before (2 : Fin 4) t d = iblk1 V c (2 : Fin 4) t :=
  ((dat1 V c).before_in_eq_fetched (2 : Fin 4) rfl (fun _ => rfl) (fun _ _ _ => rfl)
    (fun t => by rw [after1_2]; unfold Dat.blockOf iblk1; rw [A_eq1]; try rfl) t d).trans
    (by unfold Dat.fetched Dat.blockOf iblk1; rw [A_eq1]; try rfl)

end Cert.Kernel.R1

end
-- ==== Proof.KRegion1Body.lean ====
/-
  The attention kernel's region: the body obligation at every grid point, by control path, and the invariant's two ends.

  At a point the two decisions (reset or not, diagonal or not) tell the path. The inputs' staging buffers hold their
  blocks; the carried buffers hold what the trajectory says (anything at the first point, which resets them); the
  path's run applies. On the diagonal the output block is the run's whole-block store read back; off it the window is
  idle and not written back, and the block is handed back as found.
-/
import proofs.«121137_j11647951306945_2_alg».proof.Proof.KRegion1

set_option maxRecDepth 16384
set_option Elab.async false

noncomputable section

namespace Cert.Kernel.R1

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body obligation, at a generic point, by path -/

/-- The body at point `t` on its staging memrefs, as the pipeline calls it. -/
abbrev bodyAt1 (t : Fin (cfgA (F := F)).N) : Prog (TpuEff nD τ sig (Elt F) Λ₀ .tc) PUnit :=
  cc1__flash_causal_kernel (crd t) tbM1_0 (Memref.isWhole_whole _) tbM1_1 (Memref.isWhole_whole _) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _)

/-- What the body is called with at point `t` (the windows one by one), -/
def bodyPre1 (c : Dev nD) (t : Fin (cfgA (F := F)).N) : sProp 𝕄 :=
  iprop((dat1 V c).Φ t.castSucc ∗ (dat1 V c).owesAt () t.castSucc
    ∗ (∃ d, owns (c : Thread nD τ) (ms1_0 t) fullShare ((dat1 V c).before (0 : Fin 4) t d))
    ∗ (∃ d, owns (c : Thread nD τ) (ms1_1 t) fullShare ((dat1 V c).before (1 : Fin 4) t d))
    ∗ (∃ d, owns (c : Thread nD τ) (ms1_2 t) fullShare ((dat1 V c).before (2 : Fin 4) t d))
    ∗ (∃ d, owns (c : Thread nD τ) (ms1_3 t) fullShare ((dat1 V c).before (3 : Fin 4) t d)))

/-- and what it returns: the inputs at their blocks; the output at what the body stored where the window is live or
    written back, as found where it is idle and not written back. -/
def bodyPost1 (c : Dev nD) (t : Fin (cfgA (F := F)).N) : sProp 𝕄 :=
  iprop((dat1 V c).Φ t.succ ∗ (dat1 V c).owesAt () t.succ
    ∗ owns (c : Thread nD τ) (ms1_0 t) fullShare ((dat1 V c).after (0 : Fin 4) t)
    ∗ owns (c : Thread nD τ) (ms1_1 t) fullShare ((dat1 V c).after (1 : Fin 4) t)
    ∗ owns (c : Thread nD τ) (ms1_2 t) fullShare ((dat1 V c).after (2 : Fin 4) t)
    ∗ (match (cfgA (F := F)).idle (3 : Fin 4) (crd t) with
      | true =>
        match ((cfgA (F := F)).win (3 : Fin 4)).flush t with
        | false => iprop(∃ d, owns (c : Thread nD τ) (ms1_3 t) fullShare ((dat1 V c).before (3 : Fin 4) t d))
        | true => owns (c : Thread nD τ) (ms1_3 t) fullShare ((dat1 V c).after (3 : Fin 4) t)
      | false => owns (c : Thread nD τ) (ms1_3 t) fullShare ((dat1 V c).after (3 : Fin 4) t)))

set_option maxHeartbeats 2000000 in
/-- The body at a point that resets and is on the diagonal: the carried buffers' contents do not matter; the output block is the run's store read back. -/
theorem sound_body1_A (c : Dev nD) (t : Fin (cfgA (F := F)).N) (q0 : P1_reset (F := F) t) (q1 : P1_diag (F := F) t) :
    bodyPre1 V c t ⊢ wp frame (wpE (defs₀ (F := F)) Variants.none c none) Set.univ (bodyAt1 (F := F) t) (fun _ => bodyPost1 V c t) := by
  unfold bodyPre1 bodyPost1
  obtain ⟨i1, f1⟩ := sched1_diag t q1
  rewrite [i1]
  simp only [before1_0, before1_1, before1_2, after1_0, after1_1, after1_2, after1_3, f1]
  rewrite [show (dat1 V c).Φ t.succ = Phi1 V c t.succ from rfl, show (dat1 V c).Φ t.castSucc = Phi1 V c t.castSucc from rfl,
    show (dat1 V c).owesAt () t.succ = (dat1 V c).owesAt () t.castSucc from rfl]
  unfold Phi1; simp only [prev1T_castSucc, prev1T_succ, traj1_eq, step1_A V c t _ q0 q1, Fin.val_castSucc, Fin.val_succ]
  iintro ⟨⟨⟨%a0, %ha0, HS0⟩, ⟨%a1, %ha1, HS1⟩, ⟨%a2, %ha2, HS2⟩, HT0, HT1, HR⟩, Ho, ⟨%d0, H0⟩, ⟨%d1, H1⟩, ⟨%d2, H2⟩, ⟨%d3, H3⟩⟩
  iapply ((runA V c t q0 q1).2.2.2.2 a0 a1 a2 _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexists _; iexact H3
  isplitl [HS0]; · iexact HS0
  isplitl [HS1]; · iexact HS1
  isplitl [HS2]; · iexact HS2
  iintro ⟨H0, H1, H2, HT0, HT1, ⟨%e3, H3⟩, HS0, HS1, HS2⟩
  isplitl [HS0 HS1 HS2 HT0 HT1 HR]
  · isplitl [HS0]
    · iexists _; isplitr; swap
      · iexact HS0
      · ipureintro; intro _; rfl
    isplitl [HS1]
    · iexists _; isplitr; swap
      · iexact HS1
      · ipureintro; intro _; rfl
    isplitl [HS2]
    · iexists _; isplitr; swap
      · iexact HS2
      · ipureintro; intro _; rfl
    isplitl [HT0]; · iexact HT0
    isplitl [HT1]; · iexact HT1
    iexact HR
  isplitl [Ho]; · iexact Ho
  isplitl [H0]; · iapply owns_of_rep; iexact H0
  isplitl [H1]; · iapply owns_of_rep; iexact H1
  isplitl [H2]; · iapply owns_of_rep; iexact H2
  unfold owns; iexists _; isplitr; swap
  · iexact H3
  · ipureintro; exact View.read_writes_of_cover _ _ _ _ _ (cover1_A c _ _ _ _ _ _ _ _ _ _ _ _ _ _ _ _)

set_option maxHeartbeats 2000000 in
/-- The body at a point that resets and is off the diagonal: the carried buffers' contents do not matter; the output block is handed back as found. -/
theorem sound_body1_B (c : Dev nD) (t : Fin (cfgA (F := F)).N) (q0 : P1_reset (F := F) t) (q1 : ¬P1_diag (F := F) t) :
    bodyPre1 V c t ⊢ wp frame (wpE (defs₀ (F := F)) Variants.none c none) Set.univ (bodyAt1 (F := F) t) (fun _ => bodyPost1 V c t) := by
  unfold bodyPre1 bodyPost1
  obtain ⟨i1, f1⟩ := sched1_off t q1
  rewrite [i1]
  simp only [before1_0, before1_1, before1_2, after1_0, after1_1, after1_2, after1_3, f1]
  rewrite [show (dat1 V c).Φ t.succ = Phi1 V c t.succ from rfl, show (dat1 V c).Φ t.castSucc = Phi1 V c t.castSucc from rfl,
    show (dat1 V c).owesAt () t.succ = (dat1 V c).owesAt () t.castSucc from rfl]
  unfold Phi1; simp only [prev1T_castSucc, prev1T_succ, traj1_eq, step1_B V c t _ q0 q1, Fin.val_castSucc, Fin.val_succ]
  iintro ⟨⟨⟨%a0, %ha0, HS0⟩, ⟨%a1, %ha1, HS1⟩, ⟨%a2, %ha2, HS2⟩, HT0, HT1, HR⟩, Ho, ⟨%d0, H0⟩, ⟨%d1, H1⟩, ⟨%d2, H2⟩, ⟨%d3, H3⟩⟩
  iapply ((runB V c t q0 q1).2.2.2 _ a0 a1 a2 _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexact H3
  isplitl [HS0]; · iexact HS0
  isplitl [HS1]; · iexact HS1
  isplitl [HS2]; · iexact HS2
  iintro ⟨H0, H1, H2, HT0, HT1, H3, HS0, HS1, HS2⟩
  isplitl [HS0 HS1 HS2 HT0 HT1 HR]
  · isplitl [HS0]
    · iexists _; isplitr; swap
      · iexact HS0
      · ipureintro; intro _; rfl
    isplitl [HS1]
    · iexists _; isplitr; swap
      · iexact HS1
      · ipureintro; intro _; rfl
    isplitl [HS2]
    · iexists _; isplitr; swap
      · iexact HS2
      · ipureintro; intro _; rfl
    isplitl [HT0]; · iexact HT0
    isplitl [HT1]; · iexact HT1
    iexact HR
  isplitl [Ho]; · iexact Ho
  isplitl [H0]; · iapply owns_of_rep; iexact H0
  isplitl [H1]; · iapply owns_of_rep; iexact H1
  isplitl [H2]; · iapply owns_of_rep; iexact H2
  iexists d3; iexact H3

set_option maxHeartbeats 2000000 in
/-- The body at a diagonal point that does not reset (so not the first point): the carried buffers hold what the trajectory says; the output block is the run's store read back. -/
theorem sound_body1_C (c : Dev nD) (t : Fin (cfgA (F := F)).N) (q0 : ¬P1_reset (F := F) t) (q1 : P1_diag (F := F) t) :
    bodyPre1 V c t ⊢ wp frame (wpE (defs₀ (F := F)) Variants.none c none) Set.univ (bodyAt1 (F := F) t) (fun _ => bodyPost1 V c t) := by
  unfold bodyPre1 bodyPost1
  obtain ⟨i1, f1⟩ := sched1_diag t q1
  rewrite [i1]
  simp only [before1_0, before1_1, before1_2, after1_0, after1_1, after1_2, after1_3, f1]
  rewrite [show (dat1 V c).Φ t.succ = Phi1 V c t.succ from rfl, show (dat1 V c).Φ t.castSucc = Phi1 V c t.castSucc from rfl,
    show (dat1 V c).owesAt () t.succ = (dat1 V c).owesAt () t.castSucc from rfl]
  unfold Phi1; simp only [prev1T_castSucc, prev1T_succ, traj1_eq, step1_C V c t _ q0 q1, Fin.val_castSucc, Fin.val_succ]
  simp only [exists_held (pos_of_not_reset t q0)]
  iintro ⟨⟨HS0, HS1, HS2, HT0, HT1, HR⟩, Ho, ⟨%d0, H0⟩, ⟨%d1, H1⟩, ⟨%d2, H2⟩, ⟨%d3, H3⟩⟩
  iapply ((runC V c t (prev1 V c t).2.1 (prev1 V c t).2.2.1 (prev1 V c t).2.2.2 q0 q1).2.2.2.2 _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexists _; iexact H3
  isplitl [HS0]; · iexact HS0
  isplitl [HS1]; · iexact HS1
  isplitl [HS2]; · iexact HS2
  iintro ⟨H0, H1, H2, HT0, HT1, ⟨%e3, H3⟩, HS0, HS1, HS2⟩
  isplitl [HS0 HS1 HS2 HT0 HT1 HR]
  · isplitl [HS0]
    · iexists _; isplitr; swap
      · iexact HS0
      · ipureintro; intro _; rfl
    isplitl [HS1]
    · iexists _; isplitr; swap
      · iexact HS1
      · ipureintro; intro _; rfl
    isplitl [HS2]
    · iexists _; isplitr; swap
      · iexact HS2
      · ipureintro; intro _; rfl
    isplitl [HT0]; · iexact HT0
    isplitl [HT1]; · iexact HT1
    iexact HR
  isplitl [Ho]; · iexact Ho
  isplitl [H0]; · iapply owns_of_rep; iexact H0
  isplitl [H1]; · iapply owns_of_rep; iexact H1
  isplitl [H2]; · iapply owns_of_rep; iexact H2
  unfold owns; iexists _; isplitr; swap
  · iexact H3
  · ipureintro; exact View.read_writes_of_cover _ _ _ _ _ (cover1_C c _ _ _ _ _ _ _ _ _ _ _ _ _ _ _ _ _ _ _)

set_option maxHeartbeats 2000000 in
/-- The body at a point off the diagonal that does not reset: the carried buffers hold what the trajectory says; the output block is handed back as found. -/
theorem sound_body1_D (c : Dev nD) (t : Fin (cfgA (F := F)).N) (q0 : ¬P1_reset (F := F) t) (q1 : ¬P1_diag (F := F) t) :
    bodyPre1 V c t ⊢ wp frame (wpE (defs₀ (F := F)) Variants.none c none) Set.univ (bodyAt1 (F := F) t) (fun _ => bodyPost1 V c t) := by
  unfold bodyPre1 bodyPost1
  obtain ⟨i1, f1⟩ := sched1_off t q1
  rewrite [i1]
  simp only [before1_0, before1_1, before1_2, after1_0, after1_1, after1_2, after1_3, f1]
  rewrite [show (dat1 V c).Φ t.succ = Phi1 V c t.succ from rfl, show (dat1 V c).Φ t.castSucc = Phi1 V c t.castSucc from rfl,
    show (dat1 V c).owesAt () t.succ = (dat1 V c).owesAt () t.castSucc from rfl]
  unfold Phi1; simp only [prev1T_castSucc, prev1T_succ, traj1_eq, step1_D V c t _ q0 q1, Fin.val_castSucc, Fin.val_succ]
  simp only [exists_held (pos_of_not_reset t q0)]
  iintro ⟨⟨HS0, HS1, HS2, HT0, HT1, HR⟩, Ho, ⟨%d0, H0⟩, ⟨%d1, H1⟩, ⟨%d2, H2⟩, ⟨%d3, H3⟩⟩
  iapply ((runD V c t (prev1 V c t).2.1 (prev1 V c t).2.2.1 (prev1 V c t).2.2.2 q0 q1).2.2.2 _ _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexact H3
  isplitl [HS0]; · iexact HS0
  isplitl [HS1]; · iexact HS1
  isplitl [HS2]; · iexact HS2
  iintro ⟨H0, H1, H2, HT0, HT1, H3, HS0, HS1, HS2⟩
  isplitl [HS0 HS1 HS2 HT0 HT1 HR]
  · isplitl [HS0]
    · iexists _; isplitr; swap
      · iexact HS0
      · ipureintro; intro _; rfl
    isplitl [HS1]
    · iexists _; isplitr; swap
      · iexact HS1
      · ipureintro; intro _; rfl
    isplitl [HS2]
    · iexists _; isplitr; swap
      · iexact HS2
      · ipureintro; intro _; rfl
    isplitl [HT0]; · iexact HT0
    isplitl [HT1]; · iexact HT1
    iexact HR
  isplitl [Ho]; · iexact Ho
  isplitl [H0]; · iapply owns_of_rep; iexact H0
  isplitl [H1]; · iapply owns_of_rep; iexact H1
  isplitl [H2]; · iapply owns_of_rep; iexact H2
  iexists d3; iexact H3

/-- The body obligation at point `t`: the two decisions there tell the path. -/
theorem sound_body1 (c : Dev nD) (t : Fin (cfgA (F := F)).N) :
    bodyPre1 V c t ⊢ wp frame (wpE (defs₀ (F := F)) Variants.none c none) Set.univ (bodyAt1 (F := F) t) (fun _ => bodyPost1 V c t) := by
  by_cases q0 : P1_reset (F := F) t
  · by_cases q1 : P1_diag (F := F) t
    · exact sound_body1_A V c t q0 q1
    · exact sound_body1_B V c t q0 q1
  · by_cases q1 : P1_diag (F := F) t
    · exact sound_body1_C V c t q0 q1
    · exact sound_body1_D V c t q0 q1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- The two tables as the region holds them, one by one. -/
theorem prefHeld1_eq (c : Dev nD) (q : Fin 2 → PosShare TreeShare) (v : pre1.Contents (Elt F)) :
    (Pipeline.prefHeld (Ix := Unit) (Name := ℕ) (U := UR sig nD τ) (Lvl := ℕ) pre1 c q v : sProp 𝕄)
      = iprop((((c : Thread nD τ).loc main_c) ↦{q 0} v 0) ∗ (((c : Thread nD τ).loc main_c_0) ↦{q 1} v 1)) := by
  unfold Pipeline.prefHeld
  exact bigSep_univ_eq_bigSepL [(0 : Fin 2), (1 : Fin 2)] (by decide) (by decide) _

/-- The invariant at the first point, from the tables and the core's scoped buffers that are no staging buffer of the
    region (the three carried buffers among them, at anything). -/
theorem phi0_intro (c : Dev nD) :
    iprop(Pipeline.prefHeld pre1 c (fun _ => fullShare) (adm1 (F := F)).1 ∗ Pipeline.scopedRest spec1 c) ⊢ (dat1 V c).Φ 0 := by
  rw [prefHeld1_eq, scopedRest1_eq, show (dat1 V c).Φ 0 = Phi1 V c 0 from rfl]
  unfold Phi1 rest1
  iintro ⟨⟨HT0, HT1⟩, A0, A1, A2, A3, A4, A5, ⟨%a0, HS0⟩, ⟨%a1, HS1⟩, ⟨%a2, HS2⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HS2]
  · iexists a2; isplitr; swap
    · iexact HS2
    · ipureintro; intro h; exact absurd rfl h
  isplitl [HT0]; · iexact HT0
  isplitl [HT1]; · iexact HT1
  isplitl [A0]; · iexact A0
  isplitl [A1]; · iexact A1
  isplitl [A2]; · iexact A2
  isplitl [A3]; · iexact A3
  isplitl [A4]; · iexact A4
  iexact A5

/-- At the last point the invariant gives the tables and the scoped buffers back. -/
theorem phiN_exit (c : Dev nD) :
    (dat1 V c).Φ (Fin.last (cfgA (F := F)).N) ⊢ iprop(Pipeline.prefHeld pre1 c (fun _ => fullShare) (adm1 (F := F)).1 ∗ Pipeline.scopedRest spec1 c) := by
  rw [prefHeld1_eq, scopedRest1_eq, show (dat1 V c).Φ (Fin.last (cfgA (F := F)).N) = Phi1 V c (Fin.last _) from rfl]
  unfold Phi1 rest1
  iintro ⟨⟨%a0, -, HS0⟩, ⟨%a1, -, HS1⟩, ⟨%a2, -, HS2⟩, HT0, HT1, A0, A1, A2, A3, A4, A5⟩
  isplitl [HT0 HT1]
  · isplitl [HT0]; · iexact HT0
    iexact HT1
  isplitl [A0]; · iexact A0
  isplitl [A1]; · iexact A1
  isplitl [A2]; · iexact A2
  isplitl [A3]; · iexact A3
  isplitl [A4]; · iexact A4
  isplitl [A5]; · iexact A5
  isplitl [HS0]; · iexists a0; iexact HS0
  isplitl [HS1]; · iexists a1; iexact HS1
  iexists a2; iexact HS2

end Cert.Kernel.R1

end
-- ==== Proof.KTables.lean ====
/-
  What the buffers the regions read hold when the regions run: the two schedule tables are the literals the first
  two host operations write, the projection's first operand is the activations narrowed to bf16, and its second the
  three weight arrays stacked, transposed and narrowed. The projection region changes none of the tables.
-/
import proofs.«121137_j11647951306945_2_alg».proof.Proof.KRunDefs
import Idealize.ShloMosaic.Lib.StableHlo.Run

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Seg HostSeg RegionSeg)

variable {F : FTy → Type} [FloatOps F] [Facts]

variable (m : (ℓ : Loc nD τ sig) → Buf (Elt F) ℓ)

/-- After the host operations the first table holds its literal. -/
theorem V1_main_c (c : Dev nD) :
    V1 m c (Proc.devRef .tc main_c) = ((fun i => lit0 (S2x68.rowMajor i)) : (⟨S2x68, .i32⟩ : BufTy).Contents (Elt F)) := by
  show StableHlo.after hostOps0 (V0 m c) (Proc.devRef .tc main_c) = _
  after_results <;> rfl

/-- After the host operations the second table holds its literal. -/
theorem V1_main_c_0 (c : Dev nD) :
    V1 m c (Proc.devRef .tc main_c_0) = ((fun i => lit1 (S2x68.rowMajor i)) : (⟨S2x68, .i32⟩ : BufTy).Contents (Elt F)) := by
  show StableHlo.after hostOps0 (V0 m c) (Proc.devRef .tc main_c_0) = _
  after_results <;> rfl

/-- The projection's first operand: the activations, narrowed. -/
theorem V1_main_v3 (c : Dev nD) :
    V1 m c (Proc.devRef .tc main_v3)
      = ((truncf .bf16 · bitsLt_bf16_f32) : (⟨S8192x1024, .f32⟩ : BufTy).Contents (Elt F) → (⟨S8192x1024, .bf16⟩ : BufTy).Contents (Elt F))
          (m ((c : Thread nD τ).loc main_arg0)) := by
  show StableHlo.after hostOps0 (V0 m c) (Proc.devRef .tc main_v3) = _
  after_results <;> rfl

/-- The projection's second operand: the three weight arrays stacked along the rows, transposed, narrowed. -/
theorem V1_main_v2 (c : Dev nD) :
    V1 m c (Proc.devRef .tc main_v2)
      = ((truncf .bf16 · bitsLt_bf16_f32) : (⟨S1024x3072, .f32⟩ : BufTy).Contents (Elt F) → (⟨S1024x3072, .bf16⟩ : BufTy).Contents (Elt F))
          (((transpose S1024x3072 [1, 0] · transposes_S3072x1024_S1024x3072_1_0) : (⟨S3072x1024, .f32⟩ : BufTy).Contents (Elt F) → (⟨S1024x3072, .f32⟩ : BufTy).Contents (Elt F))
            (concatenate S3072x1024 0 [⟨S1024x1024, m ((c : Thread nD τ).loc main_arg1)⟩, ⟨S1024x1024, m ((c : Thread nD τ).loc main_arg2)⟩,
              ⟨S1024x1024, m ((c : Thread nD τ).loc main_arg3)⟩] concatenates_S1024x1024_S1024x1024_S1024x1024_S3072x1024_d0)) := by
  show StableHlo.after hostOps0 (V0 m c) (Proc.devRef .tc main_v2) = _
  after_results <;> rfl

/-- The projection region leaves the first table as it was. -/
theorem W2_main_c (c : Dev nD) :
    W2 m c (Proc.devRef .tc main_c) = ((fun i => lit0 (S2x68.rowMajor i)) : (⟨S2x68, .i32⟩ : BufTy).Contents (Elt F)) :=
  (W2_of_ne m c main_c (by decide)).trans (V1_main_c m c)

/-- The projection region leaves the second table as it was. -/
theorem W2_main_c_0 (c : Dev nD) :
    W2 m c (Proc.devRef .tc main_c_0) = ((fun i => lit1 (S2x68.rowMajor i)) : (⟨S2x68, .i32⟩ : BufTy).Contents (Elt F)) :=
  (W2_of_ne m c main_c_0 (by decide)).trans (V1_main_c_0 m c)

end Cert.Kernel.Run

end
-- ==== Proof.KRun.lean ====
/-
  The run of the word-level program's @main, put together: the host operations, the projection region and the attention
  region as segments at their proof data, launched once; read at the end, every argument array holds what it held at
  launch and the result array holds what the attention region's write-backs leave.
-/
import proofs.«121137_j11647951306945_2_alg».proof.Proof.KRun0
import proofs.«121137_j11647951306945_2_alg».proof.Proof.KRun1
import proofs.«121137_j11647951306945_2_alg».proof.Proof.KRegion1Body
import proofs.«121137_j11647951306945_2_alg».proof.Proof.KTables

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F] [Facts]

local notation "𝕄" => MT nD τ sig Unit (Elt F) ℕ (UR sig nD τ) ℕ

variable (m : (ℓ : Loc nD τ sig) → Buf (Elt F) ℓ) (ρ : Dev nD → PrngReg)

/-- The attention region's proof data, at the buffers it is entered with. -/
abbrev D1 : (c : Dev nD) → Dat τ (Elt F) Unit ℕ (UR sig nD τ) ℕ (cfg1 (R1.adm1 (F := F))) c := fun c => R1.dat1 (U2 m) c

/-- The tables hold, when the attention region is entered, the contents its pipeline is pinned at. -/
theorem tables_eq (c : Dev nD) : (fun k => U2 m c (pre1.ref k)) = (R1.adm1 (F := F)).1 := by
  funext k
  match k with
  | ⟨0, _⟩ => exact W2_main_c m c
  | ⟨1, _⟩ => exact W2_main_c_0 m c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of @main terminates, and at the end every unscoped buffer holds the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m (R1.adm1 (F := F)) (D1 m) c b) :=
  run_cond m emb₁ () 𝒱₀ L lv (fun _ _ => rfl) ρ (W2 m) (W3 m (R1.adm1 (F := F)) (D1 m)) (adm (R1.adm1 (F := F)))
    (pdats m (R1.adm1 (F := F)) (D1 m)) 0 (fun _ => iprop(emp))
    (initOf (Pipeline.cells (Pipeline.pin (pcfgs (F := F)) (adm (R1.adm1 (F := F)))) (cellOf_inj _)) (Pipeline.launchToks (Pipeline.pin (pcfgs (F := F)) (adm (R1.adm1 (F := F)))) (cellOf_inj _)))
    (by
      iintro Hu; imodintro
      isplitl [Hu]
      · iapply (show (ownU (initOf (Pipeline.cells (Pipeline.pin (pcfgs (F := F)) (adm (R1.adm1 (F := F)))) (cellOf_inj _)) (Pipeline.launchToks (Pipeline.pin (pcfgs (F := F)) (adm (R1.adm1 (F := F)))) (cellOf_inj _))) : sProp 𝕄)
            ⊢ BI.own (emb₁ (initOf (Pipeline.cells (Pipeline.pin (pcfgs (F := F)) (adm (R1.adm1 (F := F)))) (cellOf_inj _)) (Pipeline.launchToks (Pipeline.pin (pcfgs (F := F)) (adm (R1.adm1 (F := F)))) (cellOf_inj _)))) from .rfl)
        iexact Hu
      iapply (show (BI.emp : sProp 𝕄) ⊢ bigSep Finset.univ (fun _ : Dev nD => (BI.emp : sProp 𝕄)) from by rw [BI.bigSep_emp_const])
      iempintro)
    (fun _ c => R c)
    (Pipeline.initEach L lv fun c => by
      iintro ⟨⟨-, HO, -, Hp, -⟩, -⟩
      imodintro
      isplitl [Hp]; · iexists _; iexact Hp
      iexists ∅; iexact HO)
    (fun c => by iintro ⟨-, HO⟩; iexact HO)
    (reg0 m (R1.adm1 (F := F)) (D1 m)) (fun _ => .rfl) (fun _ => .rfl)
    (reg1 (R1.adm1 (F := F)) (D1 m) m (fun c => rfl) (fun c => rfl) (fun c => rfl) (fun c => rfl)
      (fun c w => R1.A_eq1 (U2 m) c w) (tables_eq m) (fun c => R1.phi0_intro (U2 m) c) (fun c => R1.phiN_exit (U2 m) c)
      (fun _ _ => rfl) (fun _ _ => rfl) (fun c => R1.body_obligation1 (U2 m) c))
    (fun _ => .rfl) (fun _ => .rfl)

/-- An argument array reaches the end as launched: no host operation writes it and no region may change it. -/
theorem W3_arg (c : Dev nD) (b : Ref sig .tc) (h5 : b ≠ main_v5) (h0 : ∀ w, Pipeline.arrRef spec0 w ≠ b) (hw : b ∉ hostOps0_W) :
    W3 m (R1.adm1 (F := F)) (D1 m) c (Proc.devRef .tc b) = m ((c : Thread nD τ).loc b) :=
  (W3_of_ne m _ _ c b h5).trans ((W2_of_ne m c b h0).trans ((V1_of m c b hw).trans rfl))

/-- The frame: the four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_arg m c main_arg0 (by decide) (by decide) (by decide)),
     (h c _ (mem_uc main_arg1 (by decide))).trans (W3_arg m c main_arg1 (by decide) (by decide) (by decide)),
     (h c _ (mem_uc main_arg2 (by decide))).trans (W3_arg m c main_arg2 (by decide) (by decide) (by decide)),
     (h c _ (mem_uc main_arg3 (by decide))).trans (W3_arg m c main_arg3 (by decide) (by decide) (by decide))⟩) (run_main m ρ)

/-- The run with the result array named: what the attention region's write-backs leave in it. -/
theorem run_value : θ_run defs (onTc (τ := τ) (main (F := F))) ⟨m, fun _ => 0, ρ⟩ (fun r => ∀ c : Dev nD,
      r.2.mem ((c.tc : Thread nD τ).loc main_v5) = (R1.dat1 (U2 m) c).arrAt 3 (R1.cfgA (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v5 (by decide))).trans (W3_v5 m _ _ c),
     (h c _ (mem_uc main_arg0 (by decide))).trans (W3_arg m c main_arg0 (by decide) (by decide) (by decide)),
     (h c _ (mem_uc main_arg1 (by decide))).trans (W3_arg m c main_arg1 (by decide) (by decide) (by decide)),
     (h c _ (mem_uc main_arg2 (by decide))).trans (W3_arg m c main_arg2 (by decide) (by decide) (by decide)),
     (h c _ (mem_uc main_arg3 (by decide))).trans (W3_arg m c main_arg3 (by decide) (by decide) (by decide))⟩) (run_main m ρ)

end Cert.Kernel.Run

end
-- ==== Proof.KIRunCond.lean ====
/-
  The run of @main as three segments — the host operations, the projection region, the attention region — from one
  segment record per region, with every unscoped buffer read at the end: each argument array still holds what it held
  at launch, and the result array holds what the attention region's write-backs leave.
-/
import proofs.«121137_j11647951306945_2_alg».proof.Proof.Gen.KernelIdeal.Regions

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F] [Facts]

variable (m : (ℓ : Loc nD τ sig) → Buf (Elt F) ℓ)

-- the launch theorem's implicit arguments are found by unifying its conclusion with this one, which takes unfolding
-- plain definitions in a metavariable's type
set_option backward.isDefEq.respectTransparency.types false in
/-- Given a segment record per region entered from and left at the stated buffer contents, every weakly fair execution
    of @main terminates and every final memory holds each unscoped buffer at the last contents `Wb` (`Wa` being the contents between the two regions). -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (Wa Wb : Dev nD → Valuation τ sig (Elt F)) (a : (p : Fin 2) → (pcfgs (F := F) p).Adm)
    (pdats : (p : Fin 2) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (Wa c) ∗ E 1 c))
    (R1 : RegionSeg (pcfgs (F := F)) a pdats ι defs₀ 𝒱₀ L lv 1)
    (hpre1 : ∀ c : Dev nD, iprop(StableHlo.held (c : Thread nD τ) (Pipeline.ucRefs τ sig) (Wa c) ∗ E 1 c) ⊢ R1.pre c)
    (hpost1 : ∀ c : Dev nD, R1.post c ⊢ iprop(StableHlo.held (c : Thread nD τ) (Pipeline.ucRefs τ sig) (Wb c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = Wb c b) := by
  refine Pipeline.θ_run_regions_kit_dev (pcfgs (F := F)) a pdats ι (cellOf_inj a) EP defs₀ 𝒱₀ L lv m ρ main
    (segs m 𝒱₀ L lv E ι a pdats R0 R1)
    (fun c Q => by
      rewrite [main_chain c, Seg.run_eq_chain,
        show (segs m 𝒱₀ L lv E ι a pdats R0 R1 c).map Seg.prog = [
          StableHlo.seq hostOps0,
          Prog.lift (.customCall (Pipeline.entry 0) ()),
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (Wb c))
    (hch := fun c => ⟨.rfl, hpre0 c, (hpost0 c).trans (hpre1 c), (hpost1 c).trans (sep_mono .rfl (hE2 c))⟩)
    (hinit := ?_) (QY := fun c s => ∀ b ∈ Pipeline.ucRefs τ sig, s.mem (((c : Thread nD τ)).1, b) = Wb c b)
    (hfin := fun c s' => ?_) (hQ := fun _ h => h)
  · -- the launch: the unscoped buffers are held at the launch contents; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => (((c : Thread nD τ)).1, b)) (Wb c) s')
    isplitl [Hh] <;> iassumption

end Cert.KernelIdeal.Run

end
-- ==== Proof.KIRegion0.lean ====
/- The projection kernel's region (custom_call 0, `cc0__linear_kernel`) of `Cert.KernelIdeal`, at a parameter `V` — the
   TensorCore's buffer contents when the region is entered: each window's block at a grid point, what the body
   leaves in the output window's buffer (its one whole-block store of the payload of the two input blocks), the
   body's triple, the pipeline's proof data and the body obligation at every point of the 8×3 grid.
   Windows 0 and 1 are the inputs (window 0's index map reads grid coordinate 0 only, so it is not fetched at
   every point: unfetched, its block index has not moved), window 2 the output; all blocks 1024×1024 bf16. -/
import proofs.«121137_j11647951306945_2_alg».proof.Proof.Gen.KernelIdeal.Launch
import proofs.«121137_j11647951306945_2_alg».proof.Proof.Gen.KernelIdeal.Skeleton
import proofs.«121137_j11647951306945_2_alg».proof.Proof.Gen.KernelIdeal.Points
import Idealize.ShloMosaic.Lib.Pipeline.FrameBody
import Idealize.ShloMosaic.Lib.Tactic

-- membership in a rectangle of full extents: the structural look recurses once per coordinate of the long axes
set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block
    index has not moved, so the previous point's block is this point's; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole-block rectangle every load and the one store of the body go through. -/
abbrev r0_0 : Rect S1024x1024 := Rect.unit (s := S1024x1024) ![0, 0] S1024x1024.size inb_S1024x1024_S1024x1024_0_0

/-! ## What the body leaves in the output window's buffer -/

/-- Window 2's staging buffer after the body, from the input windows' blocks: its one store, of the payload of
    the two loaded blocks, through the whole-block rectangle. -/
def out0_2 (x0 x1 : Vec F S1024x1024 .bf16) : Vec F S1024x1024 .bf16 :=
  View.canon [⟨r0_0, k0_pay1 (View.ld x0 r0_0) (View.ld x1 r0_0)⟩]

/-- The one store's rectangle is the whole buffer, so it covers it. -/
theorem cover0_2 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

/-! ## The body's triple -/

set_option maxHeartbeats 1000000 in
/-- The kernel body on whole staging memrefs, the inputs' at read contents `x0`, `x1` and the output's at anything,
    runs to the continuation holding the inputs' as they were and the output's at `out0_2` of the inputs': the
    printed function is its skeleton, whose two input loads, one (unused) load of the output buffer and one
    whole-block store are stepped through in order. -/
theorem sound_kernel0 (c : Dev nD) (E : Set ℕ) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x1024 .bf16) (harg4 : arg4.IsWhole)
    (x0 x1 : Vec F S1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__linear_kernel i arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the two input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_0`, `before0_1`), so `sound_kernel0`
    applies; the invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.KIRunDefs.lean ====
/-
  What the three segments of @main share: the resource algebra's parameters, what rides beside the buffers between
  segments, the buffers' contents at each segment boundary, and the two pipelines' proof data as one family.
  The attention region's table contents `a1` and proof data `dat1'` are parameters here.
-/
import proofs.«121137_j11647951306945_2_alg».proof.Proof.KIRunCond
import proofs.«121137_j11647951306945_2_alg».proof.Proof.KIRegion0
import Idealize.ShloMosaic.Lib.Pipeline.FrameSuffix
import Idealize.ShloMosaic.Lib.Pipeline.RegionsLoop

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F] [Facts]

local notation "𝕄" => MT nD τ sig Unit (Elt F) ℕ (UR sig nD τ) ℕ

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)

variable (m : (ℓ : Loc nD τ sig) → Buf (Elt F) ℓ)

/-- The buffers when the projection region is entered (after the host operations), at the TensorCore's references. -/
abbrev U1 : (c : Dev nD) → (b : Ref sig .tc) → Buf (Elt F) ((c : Thread nD τ).loc b) := fun c b => V1 m c b

/-- The buffers when the projection region is left: its arrays at what the pipeline leaves, every other buffer as entered. -/
def W2 (c : Dev nD) : Valuation τ sig (Elt F) :=
  Pipeline.withArrays spec0 c (V1 m c) fun w => (R0.dat0 (U1 m) c).arrAt w cfg0.N

theorem W2_arr (c : Dev nD) (w : Fin cfg0.W) :
    W2 m c (Proc.devRef .tc (Pipeline.arrRef spec0 w)) = (R0.dat0 (U1 m) c).arrAt w cfg0.N := by
  unfold W2; exact Pipeline.withArrays_arr spec0 (launch0 (F := F)).win.arr_inj c _ _ w

theorem W2_of_ne (c : Dev nD) (b : Ref sig .tc) (hb : ∀ w, Pipeline.arrRef spec0 w ≠ b) :
    W2 m c (Proc.devRef .tc b) = V1 m c (Proc.devRef .tc b) := by
  unfold W2; exact Pipeline.withArrays_of_ne spec0 c _ _ b hb

/-- The same read at the TensorCore's references: what the attention region's proof data take. -/
abbrev U2 : (c : Dev nD) → (b : Ref sig .tc) → Buf (Elt F) ((c : Thread nD τ).loc b) := fun c b => W2 m c b

section Attn

variable (a1 : (pcfg1 (F := F)).Adm)
variable (dat1' : (c : Dev nD) → Dat τ (Elt F) Unit ℕ (UR sig nD τ) ℕ (cfg1 a1) c)

/-- The tables' contents per pipeline: the projection has none. -/
abbrev adm : (p : Fin 2) → (pcfgs (F := F) p).Adm
  | ⟨0, _⟩ => cfg0.toPCfg_adm
  | ⟨1, _⟩ => a1

/-- Both pipelines' proof data, a literal match on the pipeline. -/
def pdats : (p : Fin 2) → (c : Dev nD) → Dat τ (Elt F) Unit ℕ (UR sig nD τ) ℕ (Pipeline.pin (pcfgs (F := F)) (adm a1) p) c
  | ⟨0, _⟩ => fun c => R0.dat0 (U1 m) c
  | ⟨1, _⟩ => fun c => dat1' c

/-- The buffers when the attention region is left: the result array at what its write-backs leave. -/
def W3 (c : Dev nD) : Valuation τ sig (Elt F) :=
  Function.update (W2 m c) (Proc.devRef .tc main_v5) ((dat1' c).arrAt 3 (cfg1 a1).N)

theorem W3_v5 (c : Dev nD) : W3 m a1 dat1' c (Proc.devRef .tc main_v5) = (dat1' c).arrAt 3 (cfg1 a1).N := by
  unfold W3; exact Function.update_self ..

theorem W3_of_ne (c : Dev nD) (b : Ref sig .tc) (hb : b ≠ main_v5) :
    W3 m a1 dat1' c (Proc.devRef .tc b) = W2 m c (Proc.devRef .tc b) := by
  unfold W3; exact Function.update_of_ne (StableHlo.devRef_ne_of_ne hb) ..

end Attn

end Cert.KernelIdeal.Run

end
-- ==== Proof.KIRun0.lean ====
/-
  The projection region (custom_call 0) as a segment of @main's run: entered from every unscoped buffer at the contents
  the host operations leave, left with its three arrays at what the pipeline's write-backs leave and every other
  unscoped buffer as entered. Its arrays are split out of the unscoped buffers at entry and put back at the exit
  contents; the generator register goes into the region's invariant and comes back; nothing is owed and the kernel
  has no semaphore of its own.
-/
import proofs.«121137_j11647951306945_2_alg».proof.Proof.KIRunDefs

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F] [Facts]

local notation "𝕄" => MT nD τ sig Unit (Elt F) ℕ (UR sig nD τ) ℕ

variable (m : (ℓ : Loc nD τ sig) → Buf (Elt F) ℓ)

/-- When the projection region is left each of its arrays holds what the pipeline leaves, -/
theorem hF0 (c : Dev nD) (w : Fin cfg0.W) : (R0.dat0 (U1 m) c).arrAt w cfg0.N = U2 m c (Pipeline.arrRef spec0 w) :=
  (W2_arr m c w).symm
/-- and every other buffer what it held when the region was entered. -/
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

section Attn

variable (a1 : (pcfg1 (F := F)).Adm)
variable (dat1' : (c : Dev nD) → Dat τ (Elt F) Unit ℕ (UR sig nD τ) ℕ (cfg1 a1) c)

-- a library lemma stated over the pinned configuration unifies with the printed one only when unification may unfold
-- plain definitions in a metavariable's type
set_option backward.isDefEq.respectTransparency.types false in
/-- The projection region over the thread state: entered from every unscoped buffer at `V1`, left at `W2`. -/
def reg0 : Pipeline.RegionSeg (pcfgs (F := F)) (adm a1) (pdats m a1 dat1') () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (R0.body_obligation0 (U1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) (adm a1) (pdats m a1 dat1') (launch0 (F := F)).win (launch0 (F := F)).arr_whole c
      ((pdats m a1 dat1' 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a1 dat1' 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m a1 dat1' 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm a1) (Ix := Unit) (Name := ℕ) (U := UR sig nD τ) (Lvl := ℕ)
      (launch0 (F := F)).win (launch0 (F := F)).arr_whole c (pdats m a1 dat1') ((pdats m a1 dat1' 0 c).share_full fun _ => rfl)
      (U1 m c) (U2 m c) ((pdats m a1 dat1' 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Attn

end Cert.KernelIdeal.Run

end
-- ==== Proof.KIRun1.lean ====
/-
  The attention region as a segment of @main: how the buffers the region is entered with are dealt to its pipeline —
  the one array the three input windows read split into three shares, the result array whole, the two schedule
  tables, the rest bypassing — and put back together when it is left.
-/
import proofs.«121137_j11647951306945_2_alg».proof.Proof.KIRunDefs

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F] [Named F] [Facts]

local notation "𝕄" => MT nD τ sig Unit (Elt F) ℕ (UR sig nD τ) ℕ

variable (a1 : (pcfg1 (F := F)).Adm)
variable (dat1' : (c : Dev nD) → Dat τ (Elt F) Unit ℕ (UR sig nD τ) ℕ (cfg1 a1) c)

/-- The full share of the shared array is the three input windows' shares together. -/
theorem three_shares {ℓ : Loc nD τ sig} (f : Buf (Elt F) ℓ) :
    (ℓ ↦{fullShare} f : sProp 𝕄) ⊣⊢ iprop((ℓ ↦{fullShare.left} f) ∗ (ℓ ↦{fullShare.right.left} f) ∗ (ℓ ↦{fullShare.right.right} f)) := by
  have h1 := pointsTo_share (Ix := Unit) (Name := ℕ) (U := UR sig nD τ) (Lvl := ℕ) (PosShare.mem_left_op_right fullShare) (ℓ := ℓ) (I := Finset.univ) (f := f)
  have h2 := pointsTo_share (Ix := Unit) (Name := ℕ) (U := UR sig nD τ) (Lvl := ℕ) (PosShare.mem_left_op_right fullShare.right) (ℓ := ℓ) (I := Finset.univ) (f := f)
  exact ⟨h1.1.trans (sep_mono .rfl h2.1), (sep_mono .rfl h2.2).trans h1.2⟩

variable (m : (ℓ : Loc nD τ sig) → Buf (Elt F) ℓ)

/-- The pipeline's four windowed arrays, at contents that agree on the shared array, are that array whole and the result
    array whole. -/
theorem arrays_deal (c : Dev nD)
    (hs0 : (dat1' c).share 0 = fullShare.left) (hs1 : (dat1' c).share 1 = fullShare.right.left)
    (hs2 : (dat1' c).share 2 = fullShare.right.right) (hs3 : (dat1' c).share 3 = fullShare)
    (Fv : (w : Fin (cfg1 a1).W) → Buf (Elt F) (((cfg1 a1).win w).arr.view.loc (c : Thread nD τ)))
    (f4 : Buf (Elt F) ((c : Thread nD τ).loc main_v4)) (f5 : Buf (Elt F) ((c : Thread nD τ).loc main_v5))
    (h0 : Fv 0 = f4) (h1 : Fv 1 = f4) (h2 : Fv 2 = f4) (h3 : Fv 3 = f5) :
    ((dat1' c).arrays Fv : sProp 𝕄)
      ⊣⊢ iprop((((c : Thread nD τ).loc main_v4) ↦{fullShare} f4) ∗ (((c : Thread nD τ).loc main_v5) ↦{fullShare} f5)) := by
  unfold Dat.arrays
  rw [bigSep_W1]
  rw [hs0, hs1, hs2, hs3, h0, h1, h2, h3]
  have e0 : ((cfg1 a1).win (0 : Fin 4)).arr.view.set = Finset.univ := (arr_whole1 (0 : Fin 4)).set_eq_univ
  have e1 : ((cfg1 a1).win (1 : Fin 4)).arr.view.set = Finset.univ := (arr_whole1 (1 : Fin 4)).set_eq_univ
  have e2 : ((cfg1 a1).win (2 : Fin 4)).arr.view.set = Finset.univ := (arr_whole1 (2 : Fin 4)).set_eq_univ
  have e3 : ((cfg1 a1).win (3 : Fin 4)).arr.view.set = Finset.univ := (arr_whole1 (3 : Fin 4)).set_eq_univ
  rw [e0, e3]
  have h3s := three_shares (F := F) (ℓ := (c : Thread nD τ).loc main_v4) f4
  have h31 := h3s.1
  have h32 := h3s.2
  constructor
  · iintro ⟨H0, H1, H2, H3⟩
    isplitl [H0 H1 H2]
    · iapply h32
      isplitl [H0]; · iexact H0
      isplitl [H1]; · iexact H1
      iexact H2
    iexact H3
  · iintro ⟨H4, H5⟩
    ihave H := h31 $$ H4
    icases H with ⟨H0, H1, H2⟩
    isplitl [H0]; · iexact H0
    isplitl [H1]; · iexact H1
    isplitl [H2]; · iexact H2
    iexact H5

/-- Every unscoped buffer of the core, at a valuation, is: the array the three input windows share, the result array,
    the two schedule tables, and the eight buffers the attention region never touches. -/
theorem bufs_split (c : Dev nD) (V : (b : Ref sig .tc) → Buf (Elt F) ((c : Thread nD τ).loc b)) :
    (unscopedBufs c V : sProp 𝕄)
      ⊣⊢ iprop(((((c : Thread nD τ).loc main_v4) ↦{fullShare} V main_v4) ∗ (((c : Thread nD τ).loc main_v5) ↦{fullShare} V main_v5))
          ∗ Pipeline.prefHeld pre1 c (fun _ => fullShare) (fun k => V (pre1.ref k))
          ∗ Pipeline.unscopedRestP pre1 spec1 c V) := by
  rw [unscopedRestP1_eq]
  unfold unscopedBufs Pipeline.prefHeld
  rw [bigSep_eq_bigSepL_of_eq [main_arg0, main_arg1, main_arg2, main_arg3, main_v0, main_v1, main_v2, main_v3, main_v4, main_v5, main_c, main_c_0] (by decide) (by decide),
    bigSep_univ_eq_bigSepL [(0 : Fin 2), (1 : Fin 2)] (by decide) (by decide)]
  show (iprop((((c : Thread nD τ).loc main_arg0) ↦{fullShare} V main_arg0) ∗ (((c : Thread nD τ).loc main_arg1) ↦{fullShare} V main_arg1) ∗ (((c : Thread nD τ).loc main_arg2) ↦{fullShare} V main_arg2) ∗ (((c : Thread nD τ).loc main_arg3) ↦{fullShare} V main_arg3) ∗ (((c : Thread nD τ).loc main_v0) ↦{fullShare} V main_v0) ∗ (((c : Thread nD τ).loc main_v1) ↦{fullShare} V main_v1) ∗ (((c : Thread nD τ).loc main_v2) ↦{fullShare} V main_v2) ∗ (((c : Thread nD τ).loc main_v3) ↦{fullShare} V main_v3) ∗ (((c : Thread nD τ).loc main_v4) ↦{fullShare} V main_v4) ∗ (((c : Thread nD τ).loc main_v5) ↦{fullShare} V main_v5) ∗ (((c : Thread nD τ).loc main_c) ↦{fullShare} V main_c) ∗ (((c : Thread nD τ).loc main_c_0) ↦{fullShare} V main_c_0)) : sProp 𝕄) ⊣⊢ iprop(((((c : Thread nD τ).loc main_v4) ↦{fullShare} V main_v4) ∗ (((c : Thread nD τ).loc main_v5) ↦{fullShare} V main_v5)) ∗ ((((c : Thread nD τ).loc (pre1.ref 0)) ↦{fullShare} V (pre1.ref 0)) ∗ (((c : Thread nD τ).loc (pre1.ref 1)) ↦{fullShare} V (pre1.ref 1))) ∗ (((c : Thread nD τ).loc main_arg0) ↦{fullShare} V main_arg0) ∗ (((c : Thread nD τ).loc main_arg1) ↦{fullShare} V main_arg1) ∗ (((c : Thread nD τ).loc main_arg2) ↦{fullShare} V main_arg2) ∗ (((c : Thread nD τ).loc main_arg3) ↦{fullShare} V main_arg3) ∗ (((c : Thread nD τ).loc main_v0) ↦{fullShare} V main_v0) ∗ (((c : Thread nD τ).loc main_v1) ↦{fullShare} V main_v1) ∗ (((c : Thread nD τ).loc main_v2) ↦{fullShare} V main_v2) ∗ (((c : Thread nD τ).loc main_v3) ↦{fullShare} V main_v3))
  constructor
  · iintro ⟨A0, A1, A2, A3, B0, B1, B2, B3, B4, B5, C0, C1⟩
    isplitl [B4 B5]
    · isplitl [B4]; · iexact B4
      iexact B5
    isplitl [C0 C1]
    · isplitl [C0]; · iexact C0
      iexact C1
    isplitl [A0]; · iexact A0
    isplitl [A1]; · iexact A1
    isplitl [A2]; · iexact A2
    isplitl [A3]; · iexact A3
    isplitl [B0]; · iexact B0
    isplitl [B1]; · iexact B1
    isplitl [B2]; · iexact B2
    iexact B3
  · iintro ⟨⟨B4, B5⟩, ⟨C0, C1⟩, A0, A1, A2, A3, B0, B1, B2, B3⟩
    isplitl [A0]; · iexact A0
    isplitl [A1]; · iexact A1
    isplitl [A2]; · iexact A2
    isplitl [A3]; · iexact A3
    isplitl [B0]; · iexact B0
    isplitl [B1]; · iexact B1
    isplitl [B2]; · iexact B2
    isplitl [B3]; · iexact B3
    isplitl [B4]; · iexact B4
    isplitl [B5]; · iexact B5
    isplitl [C0]; · iexact C0
    iexact C1

section Reg1

variable (hs0 : ∀ c, (dat1' c).share 0 = fullShare.left) (hs1 : ∀ c, (dat1' c).share 1 = fullShare.right.left)
variable (hs2 : ∀ c, (dat1' c).share 2 = fullShare.right.right) (hs3 : ∀ c, (dat1' c).share 3 = fullShare)
variable (hA : ∀ c w, (dat1' c).A w = U2 m c (Pipeline.arrRef spec1 w))
variable (htab : ∀ c, (fun k => U2 m c (pre1.ref k)) = a1.1)
variable (hΦ0 : ∀ c, iprop(Pipeline.prefHeld pre1 c (fun _ => fullShare) a1.1 ∗ Pipeline.scopedRest spec1 c) ⊢ (dat1' c).Φ 0)
variable (hΦN : ∀ c, (dat1' c).Φ (Fin.last (cfg1 a1).N) ⊢ iprop(Pipeline.prefHeld pre1 c (fun _ => fullShare) a1.1 ∗ Pipeline.scopedRest spec1 c))
variable (howed : ∀ c t, (dat1' c).owed t = 0) (hrec : ∀ c t, (dat1' c).recorded t = Set.univ)
variable (hbody : ∀ c, BodyObligation (dat1' c) (defs₀ (F := F)) Variants.none () Set.univ)

set_option backward.isDefEq.respectTransparency.types false in
/-- The attention region over the thread state: entered from every unscoped buffer at `W2`, left at `W3`. -/
def reg1 : Pipeline.RegionSeg (pcfgs (F := F)) (adm a1) (pdats m a1 dat1') () defs₀ 𝒱₀ L lv 1 where
  win := winFacts₀1
  block_pos := block_pos1
  stage_whole := stage_whole1
  K := PEmpty
  osem k := k.elim
  ho := Pipeline.OwnSemFacts.none _
  hbody c := (hbody c).loose
  hwaits := Pipeline.hwaits_of_owed_zero _ _ _ _ L lv 1 fun c t => howed c t
  pre c := iprop(StableHlo.held (c : Thread nD τ) (Pipeline.ucRefs τ sig) (W2 m c) ∗ R c)
  post c := iprop(StableHlo.held (c : Thread nD τ) (Pipeline.ucRefs τ sig) (W3 m a1 dat1' c) ∗ R c)
  X c := iprop(emp)
  Y c := Pipeline.prefHeld pre1 c (fun _ => fullShare) a1.1
  Z c := iprop(Pipeline.unscopedRestP (Ix := Unit) (Name := ℕ) (U := UR sig nD τ) (Lvl := ℕ) pre1 spec1 c (U2 m c) ∗ ∃ r, prngReg c r)
  hentry c := by
    rw [Pipeline.ownSems0_none, ← Pipeline.unscopedBufs_held (Ix := Unit) (Name := ℕ) (U := UR sig nD τ) (Lvl := ℕ) c (W2 m c)]
    have hsp := (bufs_split (F := F) c (U2 m c)).1
    have hdeal := (arrays_deal a1 dat1' c (hs0 c) (hs1 c) (hs2 c) (hs3 c) (fun w => (dat1' c).arrAt w 0)
      (U2 m c main_v4) (U2 m c main_v5) (hA c 0) (hA c 1) (hA c 2) (hA c 3)).2
    iintro ⟨⟨Hub, ⟨Hp, HO⟩⟩, -, -⟩
    ihave H := hsp $$ Hub
    icases H with ⟨Harr, Htab, Hrest⟩
    imodintro
    isplitl [Harr]; · iapply hdeal; iexact Harr
    isplitl [Htab]; · rw [← htab c]; iexact Htab
    isplitl [HO]
    · unfold Pipeline.Dat.owesAt Pipeline.owesWithin
      rw [show (pdats m a1 dat1' 1 c).owed 0 = 0 from howed c 0]
      icases HO with ⟨%W, HO⟩; iexists W; isplitr; · ipureintro; exact fun _ _ => Or.inl (by rw [show (pdats m a1 dat1' 1 c).recorded 0 = Set.univ from hrec c 0]; exact Set.mem_univ _)
      iexact HO
    isplitr; · iempintro
    isplitl [Hrest]; · iexact Hrest
    iexact Hp
  hin c := by
    rw [show (pdats m a1 dat1' 1 c).Φ 0 = (dat1' c).Φ 0 from rfl]
    iintro ⟨-, H⟩
    iapply (hΦ0 c)
    iexact H
  hout c := by
    rw [Pipeline.ownSems0_none, show (pdats m a1 dat1' 1 c).Φ (Fin.last _) = (dat1' c).Φ (Fin.last (cfg1 a1).N) from rfl]
    have h := hΦN c
    iintro H
    ihave H' := h $$ H
    icases H' with ⟨Ht, Hr⟩
    isplitl [Ht]; · iexact Ht
    isplitr; · iempintro
    iexact Hr
  hexit c := by
    rw [← Pipeline.unscopedBufs_held (Ix := Unit) (Name := ℕ) (U := UR sig nD τ) (Lvl := ℕ) c (W3 m a1 dat1' c)]
    have hsp := (bufs_split (F := F) c (fun b => W3 m a1 dat1' c b)).2
    have h4 : W3 m a1 dat1' c (Proc.devRef .tc main_v4) = U2 m c main_v4 := W3_of_ne m a1 dat1' c main_v4 (by decide)
    have hin0 : (dat1' c).arrAt 0 (cfg1 a1).N = W3 m a1 dat1' c (Proc.devRef .tc main_v4) :=
      ((dat1' c).arrAt_in 0 rfl _).trans ((hA c 0).trans h4.symm)
    have hin1 : (dat1' c).arrAt 1 (cfg1 a1).N = W3 m a1 dat1' c (Proc.devRef .tc main_v4) :=
      ((dat1' c).arrAt_in 1 rfl _).trans ((hA c 1).trans h4.symm)
    have hin2 : (dat1' c).arrAt 2 (cfg1 a1).N = W3 m a1 dat1' c (Proc.devRef .tc main_v4) :=
      ((dat1' c).arrAt_in 2 rfl _).trans ((hA c 2).trans h4.symm)
    have hout3 : (dat1' c).arrAt 3 (cfg1 a1).N = W3 m a1 dat1' c (Proc.devRef .tc main_v5) := (W3_v5 m a1 dat1' c).symm
    have hdeal := (arrays_deal a1 dat1' c (hs0 c) (hs1 c) (hs2 c) (hs3 c) (fun w => (dat1' c).arrAt w (cfg1 a1).N)
      (W3 m a1 dat1' c (Proc.devRef .tc main_v4)) (W3 m a1 dat1' c (Proc.devRef .tc main_v5)) hin0 hin1 hin2 hout3).1
    have htabs : (fun k => W3 m a1 dat1' c (Proc.devRef .tc (pre1.ref k))) = a1.1 := by
      rw [← htab c]
      funext k
      exact W3_of_ne m a1 dat1' c (pre1.ref k) (by revert k; decide)
    have hrest : (Pipeline.unscopedRestP (Ix := Unit) (Name := ℕ) (U := UR sig nD τ) (Lvl := ℕ) pre1 spec1 c (fun b => W3 m a1 dat1' c b) : sProp 𝕄)
        = Pipeline.unscopedRestP (Ix := Unit) (Name := ℕ) (U := UR sig nD τ) (Lvl := ℕ) pre1 spec1 c (U2 m c) := by
      rw [unscopedRestP1_eq, unscopedRestP1_eq]
      rw [W3_of_ne m a1 dat1' c main_arg0 (by decide), W3_of_ne m a1 dat1' c main_arg1 (by decide),
        W3_of_ne m a1 dat1' c main_arg2 (by decide), W3_of_ne m a1 dat1' c main_arg3 (by decide),
        W3_of_ne m a1 dat1' c main_v0 (by decide), W3_of_ne m a1 dat1' c main_v1 (by decide),
        W3_of_ne m a1 dat1' c main_v2 (by decide), W3_of_ne m a1 dat1' c main_v3 (by decide)]
    iintro ⟨Ha, HO, HY, ⟨Hrest, Hp⟩⟩
    imodintro
    isplitl [Ha HY Hrest]
    · iapply hsp
      isplitl [Ha]; · iapply hdeal; iexact Ha
      isplitl [HY]; · rw [htabs]; iexact HY
      rw [hrest]; iexact Hrest
    isplitl [Hp]; · iexact Hp
    unfold Pipeline.Dat.owesAt Pipeline.owesWithin
    rw [show (pdats m a1 dat1' 1 c).owed (Fin.last _) = 0 from howed c _]
    icases HO with ⟨%W, -, HO⟩; iexists W; iexact HO

end Reg1

end Cert.KernelIdeal.Run

end
-- ==== Proof.KIRegion1Runs.lean ====
/-
  The attention kernel's body (the second kernel of the program), run once per control path.

  At a grid point the body reads two words of the schedule tables, the query-block word `r` and the key-block word
  `r'`. If `r' = 0` it resets the three carried buffers (running maximum `-∞`, normaliser 0, weighted sum 0). It then
  merges the key block into them: on the diagonal (`r' = r`) with the causal mask, off it without. On the diagonal
  it finally stores the weighted sum times the reciprocal of the normaliser into the output block. So there are four
  paths, told apart by two decisions: reset or not, diagonal or not.
-/
import proofs.«121137_j11647951306945_2_alg».proof.Proof.Gen.KernelIdeal.Skeleton
import proofs.«121137_j11647951306945_2_alg».proof.Proof.Gen.KernelIdeal.Launch
import Idealize.ShloMosaic.Lib.Pipeline.Kit
import Idealize.ShloMosaic.Lib.Pipeline.TableIdle
import Idealize.ShloMosaic.Lib.Pipeline.FrameBody
import Idealize.ShloMosaic.Lib.Writes
import Idealize.ShloMosaic.Lib.Ring
import Idealize.ShloMosaic.Lib.Exec
import Idealize.ShloMosaic.Lib.Affine
import Idealize.ShloMosaic.Lib.Tactic

set_option maxRecDepth 16384
set_option Elab.async false

noncomputable section

namespace Cert.KernelIdeal.R1

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-! ## The tables, the scratches and the two words the body reads -/

/-- The two schedule tables and the three carried buffers as the body is handed them: whole. -/
abbrev tbM1_0 : Memref sig .tc .smem S2x68 .i32 := Memref.whole main_c
abbrev tbM1_1 : Memref sig .tc .smem S2x68 .i32 := Memref.whole main_c_0
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2

/-- One staging buffer of the output window, through which an output block's contents are stated. -/
abbrev VO1_3 : View sig .tc .vmem S512x1024 .f32 := (Memref.whole cc1_stg3_0 : Memref sig .tc .vmem S512x1024 .f32).view

/-- The query-block word: the first table at the point's cell, as a load reads it. -/
abbrev wq (i : grid1.Coords) (T0 : S2x68.Idx → Elt F .i32) : Elt F .i32 :=
  View.readAt (Elt F) (tbM1_0).view (Rect.unit (s := S2x68) (k1_off1 i) S1x1.size (k1_off1_inb i)).toLoadRect T0 (Shape.Idx.first (numel1_S1x1.symm ▸ Nat.one_pos))
/-- The key-block word: the second table at the point's cell. -/
abbrev wk (i : grid1.Coords) (T1 : S2x68.Idx → Elt F .i32) : Elt F .i32 :=
  View.readAt (Elt F) (tbM1_1).view (Rect.unit (s := S2x68) (k1_off1 i) S1x1.size (k1_off1_inb i)).toLoadRect T1 (Shape.Idx.first (numel1_S1x1.symm ▸ Nat.one_pos))

/-! ## The body's decisions

The body takes four decisions on the two words `r` (query block) and `r'` (key block): whether `r' = 0` (the carried
buffers are reset), whether `r' = r` (the diagonal block: masked, and the output stored), whether `r' ≠ r`, and again
whether `r' = r`. The last three are one decision. -/

/-- A condition word widened and compared with zero is the condition. -/
theorem ne_ext_iff (b : BitVec 1) : Scalar.cmpi .ne (Scalar.extui b) 0#32 = 1#1 ↔ b = 1#1 := by
  rcases BitVec.eq_zero_or_eq_one b with h | h <;> subst h <;> decide

/-- The diagonal decision says the two words are equal. -/
theorem diag_iff (r r' : BitVec 32) : (Scalar.cmpi .ne (Scalar.extui (Scalar.cmpi .eq r' r)) 0#32 = 1#1) ↔ r' = r :=
  (ne_ext_iff _).trans IntOp.cmpi_eq

/-- The off-diagonal decision is the negation of the diagonal one. -/
theorem offdiag_iff (r r' : BitVec 32) :
    (Scalar.cmpi .ne (Scalar.extui (Scalar.cmpi .ne r' r)) 0#32 = 1#1) ↔ ¬(Scalar.cmpi .ne (Scalar.extui (Scalar.cmpi .eq r' r)) 0#32 = 1#1) :=
  ((ne_ext_iff _).trans IntOp.cmpi_ne).trans (not_congr (diag_iff r r')).symm

/-- The store condition is the diagonal decision. -/
theorem cond4_iff (r r' : BitVec 32) : k1_cond4 r r' = 1#1 ↔ (Scalar.cmpi .ne (Scalar.extui (Scalar.cmpi .eq r' r)) 0#32 = 1#1) := by
  unfold k1_cond4; exact Iff.rfl

/-- The reset decision says the key-block word is zero. -/
theorem reset_iff (r' : BitVec 32) : (Scalar.cmpi .ne (Scalar.extui (Scalar.cmpi .eq r' 0#32)) 0#32 = 1#1) ↔ r' = 0#32 :=
  (ne_ext_iff _).trans IntOp.cmpi_eq

/-! ## The body per control path, on symbolic staging memrefs

Each run is a subtype: what the path leaves in the carried buffers (and, on the diagonal, the pieces it stores into the
output block), with the proof that from the three input blocks, the two tables, the output block and the carried
buffers the body runs to the continuation holding all of it. The witnesses are found by running the body. -/

set_option maxHeartbeats 8000000 in
/-- Reset and diagonal (the first key block of query block 0): the carried buffers are overwritten whole before they are read, so what they held does not matter; the output block is stored whole. -/
noncomputable def kernelRun1_A (c : Dev nD) (i : grid1.Coords)
    (arg4 : Memref sig .tc .vmem S512x1024 .bf16) (harg4 : arg4.IsWhole) (arg5 : Memref sig .tc .vmem S512x1024 .bf16) (harg5 : arg5.IsWhole)
    (arg6 : Memref sig .tc .vmem S512x1024 .bf16) (harg6 : arg6.IsWhole) (arg7 : Memref sig .tc .vmem S512x1024 .f32) (harg7 : arg7.IsWhole)
    (T0 T1 : S2x68.Idx → Elt F .i32) (x0 x1 x2 : S512x1024.Idx → Elt F .bf16)
    (h8 : ((Scalar.cmpi .ne (Scalar.extui (Scalar.cmpi .eq (wk i T1) 0#32)) 0#32) = 1#1))
    (h20 : ((Scalar.cmpi .ne (Scalar.extui (Scalar.cmpi .eq (wk i T1) (wq i T0))) 0#32) = 1#1)) :
    Σ' (out7 : List (View.Piece (Elt F) S512x1024 .f32)) (o0 : Buf (Elt F) ((c : Thread nD τ).loc cc1_scratch0)) (o1 : Buf (Elt F) ((c : Thread nD τ).loc cc1_scratch1)),
    { o2 : Buf (Elt F) ((c : Thread nD τ).loc cc1_scratch2) //
      ∀ (xm : Buf (Elt F) ((c : Thread nD τ).loc cc1_scratch0)) (xl : Buf (Elt F) ((c : Thread nD τ).loc cc1_scratch1)) (xa : Buf (Elt F) ((c : Thread nD τ).loc cc1_scratch2)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM1_0.view.loc (c : Thread nD τ) ↦{fullShare} T0)
          ∗ (tbM1_1.view.loc (c : Thread nD τ) ↦{fullShare} T1)
          ∗ (∃ d, owns (c : Thread nD τ) arg7 fullShare d)
          ∗ (scM1_0.view.loc (c : Thread nD τ) ↦{fullShare} xm)
          ∗ (scM1_1.view.loc (c : Thread nD τ) ↦{fullShare} xl)
          ∗ (scM1_2.view.loc (c : Thread nD τ) ↦{fullShare} xa)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM1_0.view.loc (c : Thread nD τ) ↦{fullShare} T0)
              ∗ (tbM1_1.view.loc (c : Thread nD τ) ↦{fullShare} T1)
              ∗ (∃ f, arg7.view.loc (c : Thread nD τ) ↦[arg7.view.set]{fullShare} arg7.view.writes (Elt F) f out7)
              ∗ (scM1_0.view.loc (c : Thread nD τ) ↦{fullShare} o0)
              ∗ (scM1_1.view.loc (c : Thread nD τ) ↦{fullShare} o1)
              ∗ (scM1_2.view.loc (c : Thread nD τ) ↦{fullShare} o2)) -∗ K ⟨⟩))
          ⊢ wp frame (wpE (defs₀ (F := F)) Variants.none c none) Set.univ
              (cc1__flash_causal_kernel i tbM1_0 (Memref.isWhole_whole _) tbM1_1 (Memref.isWhole_whole _) arg4 harg4 arg5 harg5 arg6 harg6 arg7 harg7
                scM1_0 (Memref.isWhole_whole _) scM1_1 (Memref.isWhole_whole _) scM1_2 (Memref.isWhole_whole _)) K } :=
  ⟨_, _, _, _, fun xm xl xa K => by
    have h23 : ¬((Scalar.cmpi .ne (Scalar.extui (Scalar.cmpi .ne (wk i T1) (wq i T0))) 0#32) = 1#1) := fun h => (offdiag_iff _ _).mp h h20
    have h4 : (k1_cond4 (wq i T0) (wk i T1) = 1#1) := (cond4_iff _ _).mpr h20
    unfold owns
    rw [cc1__flash_causal_kernel_eq_skeleton]; unfold cc1__flash_causal_kernel_skel
    iintro ⟨H0, H1, H2, HT0, HT1, ⟨%d1, %f1, -, HO⟩, HS0, HS1, HS2, Hk⟩
    have hS0 : scM1_0.IsWhole := Memref.isWhole_whole _
    have hS1 : scM1_1.IsWhole := Memref.isWhole_whole _
    have hS2 : scM1_2.IsWhole := Memref.isWhole_whole _
    have hT0 : tbM1_0.IsWhole := Memref.isWhole_whole _
    have hT1 : tbM1_1.IsWhole := Memref.isWhole_whole _
    sl_exec! (disch := first | exact h8 | exact h20 | exact h23 | exact h4)
    sl_step
    iapply Hk
    isplitl [H0]; · iexact H0
    isplitl [H1]; · iexact H1
    isplitl [H2]; · iexact H2
    isplitl [HT0]; · iexact HT0
    isplitl [HT1]; · iexact HT1
    isplitl [HO]; · iexists _; iexact HO
    isplitl [HS0]; · iexact HS0
    isplitl [HS1]; · iexact HS1
    iexact HS2⟩

/-- The one store of the diagonal path into the output block is of the whole block, so its pieces cover it. -/
theorem cover1_A (c : Dev nD) (i : grid1.Coords)
    (arg4 : Memref sig .tc .vmem S512x1024 .bf16) (harg4 : arg4.IsWhole) (arg5 : Memref sig .tc .vmem S512x1024 .bf16) (harg5 : arg5.IsWhole)
    (arg6 : Memref sig .tc .vmem S512x1024 .bf16) (harg6 : arg6.IsWhole) (arg7 : Memref sig .tc .vmem S512x1024 .f32) (harg7 : arg7.IsWhole)
    (T0 T1 : S2x68.Idx → Elt F .i32) (x0 x1 x2 : S512x1024.Idx → Elt F .bf16)
    (h8 : ((Scalar.cmpi .ne (Scalar.extui (Scalar.cmpi .eq (wk i T1) 0#32)) 0#32) = 1#1))
    (h20 : ((Scalar.cmpi .ne (Scalar.extui (Scalar.cmpi .eq (wk i T1) (wq i T0))) 0#32) = 1#1)) (y : S512x1024.Idx) :
    ∃ pc ∈ (kernelRun1_A c i arg4 harg4 arg5 harg5 arg6 harg6 arg7 harg7 T0 T1 x0 x1 x2 h8 h20).1, y ∈ pc.1.set :=
  View.cover_of_tiledL (kernelRun1_A c i arg4 harg4 arg5 harg5 arg6 harg6 arg7 harg7 T0 T1 x0 x1 x2 h8 h20).1 S512x1024.size (by sl_kernel_rfl) y

/-- What path A leaves in the output block: its pieces read back over anything. -/
def out1_A (c : Dev nD) (i : grid1.Coords)
    (arg4 : Memref sig .tc .vmem S512x1024 .bf16) (harg4 : arg4.IsWhole) (arg5 : Memref sig .tc .vmem S512x1024 .bf16) (harg5 : arg5.IsWhole)
    (arg6 : Memref sig .tc .vmem S512x1024 .bf16) (harg6 : arg6.IsWhole) (arg7 : Memref sig .tc .vmem S512x1024 .f32) (harg7 : arg7.IsWhole)
    (T0 T1 : S2x68.Idx → Elt F .i32) (x0 x1 x2 : S512x1024.Idx → Elt F .bf16)
    (h8 : ((Scalar.cmpi .ne (Scalar.extui (Scalar.cmpi .eq (wk i T1) 0#32)) 0#32) = 1#1))
    (h20 : ((Scalar.cmpi .ne (Scalar.extui (Scalar.cmpi .eq (wk i T1) (wq i T0))) 0#32) = 1#1)) : S512x1024.Idx → Elt F .f32 :=
  VO1_3.read (Elt F) (VO1_3.writes (Elt F) VO1_3.junk (kernelRun1_A c i arg4 harg4 arg5 harg5 arg6 harg6 arg7 harg7 T0 T1 x0 x1 x2 h8 h20).1)

set_option maxHeartbeats 8000000 in
/-- Reset, off the diagonal (the first key block of a later query block): the carried buffers are overwritten whole before they are read; the output block is left as found. -/
noncomputable def kernelRun1_B (c : Dev nD) (i : grid1.Coords)
    (arg4 : Memref sig .tc .vmem S512x1024 .bf16) (harg4 : arg4.IsWhole) (arg5 : Memref sig .tc .vmem S512x1024 .bf16) (harg5 : arg5.IsWhole)
    (arg6 : Memref sig .tc .vmem S512x1024 .bf16) (harg6 : arg6.IsWhole) (arg7 : Memref sig .tc .vmem S512x1024 .f32) (harg7 : arg7.IsWhole)
    (T0 T1 : S2x68.Idx → Elt F .i32) (x0 x1 x2 : S512x1024.Idx → Elt F .bf16)
    (h8 : ((Scalar.cmpi .ne (Scalar.extui (Scalar.cmpi .eq (wk i T1) 0#32)) 0#32) = 1#1))
    (h20 : ¬((Scalar.cmpi .ne (Scalar.extui (Scalar.cmpi .eq (wk i T1) (wq i T0))) 0#32) = 1#1)) :
    Σ' (o0 : Buf (Elt F) ((c : Thread nD τ).loc cc1_scratch0)) (o1 : Buf (Elt F) ((c : Thread nD τ).loc cc1_scratch1)),
    { o2 : Buf (Elt F) ((c : Thread nD τ).loc cc1_scratch2) //
      ∀ (y : S512x1024.Idx → Elt F .f32) (xm : Buf (Elt F) ((c : Thread nD τ).loc cc1_scratch0)) (xl : Buf (Elt F) ((c : Thread nD τ).loc cc1_scratch1)) (xa : Buf (Elt F) ((c : Thread nD τ).loc cc1_scratch2)) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM1_0.view.loc (c : Thread nD τ) ↦{fullShare} T0)
          ∗ (tbM1_1.view.loc (c : Thread nD τ) ↦{fullShare} T1)
          ∗ owns (c : Thread nD τ) arg7 fullShare y
          ∗ (scM1_0.view.loc (c : Thread nD τ) ↦{fullShare} xm)
          ∗ (scM1_1.view.loc (c : Thread nD τ) ↦{fullShare} xl)
          ∗ (scM1_2.view.loc (c : Thread nD τ) ↦{fullShare} xa)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM1_0.view.loc (c : Thread nD τ) ↦{fullShare} T0)
              ∗ (tbM1_1.view.loc (c : Thread nD τ) ↦{fullShare} T1)
              ∗ owns (c : Thread nD τ) arg7 fullShare y
              ∗ (scM1_0.view.loc (c : Thread nD τ) ↦{fullShare} o0)
              ∗ (scM1_1.view.loc (c : Thread nD τ) ↦{fullShare} o1)
              ∗ (scM1_2.view.loc (c : Thread nD τ) ↦{fullShare} o2)) -∗ K ⟨⟩))
          ⊢ wp frame (wpE (defs₀ (F := F)) Variants.none c none) Set.univ
              (cc1__flash_causal_kernel i tbM1_0 (Memref.isWhole_whole _) tbM1_1 (Memref.isWhole_whole _) arg4 harg4 arg5 harg5 arg6 harg6 arg7 harg7
                scM1_0 (Memref.isWhole_whole _) scM1_1 (Memref.isWhole_whole _) scM1_2 (Memref.isWhole_whole _)) K } :=
  ⟨_, _, _, fun (y : S512x1024.Idx → Elt F .f32) xm xl xa K => by
    have h23 : ((Scalar.cmpi .ne (Scalar.extui (Scalar.cmpi .ne (wk i T1) (wq i T0))) 0#32) = 1#1) := (offdiag_iff _ _).mpr h20
    have h4 : ¬(k1_cond4 (wq i T0) (wk i T1) = 1#1) := fun h => h20 ((cond4_iff _ _).mp h)
    unfold owns
    rw [cc1__flash_causal_kernel_eq_skeleton]; unfold cc1__flash_causal_kernel_skel
    iintro ⟨H0, H1, H2, HT0, HT1, ⟨%f1, %hf1, HO⟩, HS0, HS1, HS2, Hk⟩
    obtain rfl := harg7.eq_unread hf1
    have hS0 : scM1_0.IsWhole := Memref.isWhole_whole _
    have hS1 : scM1_1.IsWhole := Memref.isWhole_whole _
    have hS2 : scM1_2.IsWhole := Memref.isWhole_whole _
    have hT0 : tbM1_0.IsWhole := Memref.isWhole_whole _
    have hT1 : tbM1_1.IsWhole := Memref.isWhole_whole _
    sl_exec! (disch := first | exact h8 | exact h20 | exact h23 | exact h4)
    sl_step
    iapply Hk
    isplitl [H0]; · iexact H0
    isplitl [H1]; · iexact H1
    isplitl [H2]; · iexact H2
    isplitl [HT0]; · iexact HT0
    isplitl [HT1]; · iexact HT1
    isplitl [HO]
    · iexists _; isplitr; · ipureintro; exact harg7.read_unread _
      iexact HO
    isplitl [HS0]; · iexact HS0
    isplitl [HS1]; · iexact HS1
    iexact HS2⟩

set_option maxHeartbeats 8000000 in
/-- No reset, diagonal (the last key block of a query block): the carried buffers are merged with the masked block and the output block is stored whole. -/
noncomputable def kernelRun1_C (c : Dev nD) (i : grid1.Coords)
    (arg4 : Memref sig .tc .vmem S512x1024 .bf16) (harg4 : arg4.IsWhole) (arg5 : Memref sig .tc .vmem S512x1024 .bf16) (harg5 : arg5.IsWhole)
    (arg6 : Memref sig .tc .vmem S512x1024 .bf16) (harg6 : arg6.IsWhole) (arg7 : Memref sig .tc .vmem S512x1024 .f32) (harg7 : arg7.IsWhole)
    (T0 T1 : S2x68.Idx → Elt F .i32) (x0 x1 x2 : S512x1024.Idx → Elt F .bf16)
    (xm : Buf (Elt F) ((c : Thread nD τ).loc cc1_scratch0)) (xl : Buf (Elt F) ((c : Thread nD τ).loc cc1_scratch1))
    (xa : Buf (Elt F) ((c : Thread nD τ).loc cc1_scratch2))
    (h8 : ¬((Scalar.cmpi .ne (Scalar.extui (Scalar.cmpi .eq (wk i T1) 0#32)) 0#32) = 1#1))
    (h20 : ((Scalar.cmpi .ne (Scalar.extui (Scalar.cmpi .eq (wk i T1) (wq i T0))) 0#32) = 1#1)) :
    Σ' (out7 : List (View.Piece (Elt F) S512x1024 .f32)) (o0 : Buf (Elt F) ((c : Thread nD τ).loc cc1_scratch0)) (o1 : Buf (Elt F) ((c : Thread nD τ).loc cc1_scratch1)),
    { o2 : Buf (Elt F) ((c : Thread nD τ).loc cc1_scratch2) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM1_0.view.loc (c : Thread nD τ) ↦{fullShare} T0)
          ∗ (tbM1_1.view.loc (c : Thread nD τ) ↦{fullShare} T1)
          ∗ (∃ d, owns (c : Thread nD τ) arg7 fullShare d)
          ∗ (scM1_0.view.loc (c : Thread nD τ) ↦{fullShare} xm)
          ∗ (scM1_1.view.loc (c : Thread nD τ) ↦{fullShare} xl)
          ∗ (scM1_2.view.loc (c : Thread nD τ) ↦{fullShare} xa)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM1_0.view.loc (c : Thread nD τ) ↦{fullShare} T0)
              ∗ (tbM1_1.view.loc (c : Thread nD τ) ↦{fullShare} T1)
              ∗ (∃ f, arg7.view.loc (c : Thread nD τ) ↦[arg7.view.set]{fullShare} arg7.view.writes (Elt F) f out7)
              ∗ (scM1_0.view.loc (c : Thread nD τ) ↦{fullShare} o0)
              ∗ (scM1_1.view.loc (c : Thread nD τ) ↦{fullShare} o1)
              ∗ (scM1_2.view.loc (c : Thread nD τ) ↦{fullShare} o2)) -∗ K ⟨⟩))
          ⊢ wp frame (wpE (defs₀ (F := F)) Variants.none c none) Set.univ
              (cc1__flash_causal_kernel i tbM1_0 (Memref.isWhole_whole _) tbM1_1 (Memref.isWhole_whole _) arg4 harg4 arg5 harg5 arg6 harg6 arg7 harg7
                scM1_0 (Memref.isWhole_whole _) scM1_1 (Memref.isWhole_whole _) scM1_2 (Memref.isWhole_whole _)) K } :=
  ⟨_, _, _, _, fun K => by
    have h23 : ¬((Scalar.cmpi .ne (Scalar.extui (Scalar.cmpi .ne (wk i T1) (wq i T0))) 0#32) = 1#1) := fun h => (offdiag_iff _ _).mp h h20
    have h4 : (k1_cond4 (wq i T0) (wk i T1) = 1#1) := (cond4_iff _ _).mpr h20
    unfold owns
    rw [cc1__flash_causal_kernel_eq_skeleton]; unfold cc1__flash_causal_kernel_skel
    iintro ⟨H0, H1, H2, HT0, HT1, ⟨%d1, %f1, -, HO⟩, HS0, HS1, HS2, Hk⟩
    have hS0 : scM1_0.IsWhole := Memref.isWhole_whole _
    have hS1 : scM1_1.IsWhole := Memref.isWhole_whole _
    have hS2 : scM1_2.IsWhole := Memref.isWhole_whole _
    have hT0 : tbM1_0.IsWhole := Memref.isWhole_whole _
    have hT1 : tbM1_1.IsWhole := Memref.isWhole_whole _
    sl_exec! (disch := first | exact h8 | exact h20 | exact h23 | exact h4)
    sl_step
    iapply Hk
    isplitl [H0]; · iexact H0
    isplitl [H1]; · iexact H1
    isplitl [H2]; · iexact H2
    isplitl [HT0]; · iexact HT0
    isplitl [HT1]; · iexact HT1
    isplitl [HO]; · iexists _; iexact HO
    isplitl [HS0]; · iexact HS0
    isplitl [HS1]; · iexact HS1
    iexact HS2⟩

/-- The one store of the diagonal path into the output block is of the whole block, so its pieces cover it. -/
theorem cover1_C (c : Dev nD) (i : grid1.Coords)
    (arg4 : Memref sig .tc .vmem S512x1024 .bf16) (harg4 : arg4.IsWhole) (arg5 : Memref sig .tc .vmem S512x1024 .bf16) (harg5 : arg5.IsWhole)
    (arg6 : Memref sig .tc .vmem S512x1024 .bf16) (harg6 : arg6.IsWhole) (arg7 : Memref sig .tc .vmem S512x1024 .f32) (harg7 : arg7.IsWhole)
    (T0 T1 : S2x68.Idx → Elt F .i32) (x0 x1 x2 : S512x1024.Idx → Elt F .bf16)
    (xm : Buf (Elt F) ((c : Thread nD τ).loc cc1_scratch0)) (xl : Buf (Elt F) ((c : Thread nD τ).loc cc1_scratch1))
    (xa : Buf (Elt F) ((c : Thread nD τ).loc cc1_scratch2))
    (h8 : ¬((Scalar.cmpi .ne (Scalar.extui (Scalar.cmpi .eq (wk i T1) 0#32)) 0#32) = 1#1))
    (h20 : ((Scalar.cmpi .ne (Scalar.extui (Scalar.cmpi .eq (wk i T1) (wq i T0))) 0#32) = 1#1)) (y : S512x1024.Idx) :
    ∃ pc ∈ (kernelRun1_C c i arg4 harg4 arg5 harg5 arg6 harg6 arg7 harg7 T0 T1 x0 x1 x2 xm xl xa h8 h20).1, y ∈ pc.1.set :=
  View.cover_of_tiledL (kernelRun1_C c i arg4 harg4 arg5 harg5 arg6 harg6 arg7 harg7 T0 T1 x0 x1 x2 xm xl xa h8 h20).1 S512x1024.size (by sl_kernel_rfl) y

/-- What path C leaves in the output block: its pieces read back over anything. -/
def out1_C (c : Dev nD) (i : grid1.Coords)
    (arg4 : Memref sig .tc .vmem S512x1024 .bf16) (harg4 : arg4.IsWhole) (arg5 : Memref sig .tc .vmem S512x1024 .bf16) (harg5 : arg5.IsWhole)
    (arg6 : Memref sig .tc .vmem S512x1024 .bf16) (harg6 : arg6.IsWhole) (arg7 : Memref sig .tc .vmem S512x1024 .f32) (harg7 : arg7.IsWhole)
    (T0 T1 : S2x68.Idx → Elt F .i32) (x0 x1 x2 : S512x1024.Idx → Elt F .bf16)
    (xm : Buf (Elt F) ((c : Thread nD τ).loc cc1_scratch0)) (xl : Buf (Elt F) ((c : Thread nD τ).loc cc1_scratch1))
    (xa : Buf (Elt F) ((c : Thread nD τ).loc cc1_scratch2))
    (h8 : ¬((Scalar.cmpi .ne (Scalar.extui (Scalar.cmpi .eq (wk i T1) 0#32)) 0#32) = 1#1))
    (h20 : ((Scalar.cmpi .ne (Scalar.extui (Scalar.cmpi .eq (wk i T1) (wq i T0))) 0#32) = 1#1)) : S512x1024.Idx → Elt F .f32 :=
  VO1_3.read (Elt F) (VO1_3.writes (Elt F) VO1_3.junk (kernelRun1_C c i arg4 harg4 arg5 harg5 arg6 harg6 arg7 harg7 T0 T1 x0 x1 x2 xm xl xa h8 h20).1)

set_option maxHeartbeats 8000000 in
/-- No reset, off the diagonal: the carried buffers are merged with the block; the output block is left as found. -/
noncomputable def kernelRun1_D (c : Dev nD) (i : grid1.Coords)
    (arg4 : Memref sig .tc .vmem S512x1024 .bf16) (harg4 : arg4.IsWhole) (arg5 : Memref sig .tc .vmem S512x1024 .bf16) (harg5 : arg5.IsWhole)
    (arg6 : Memref sig .tc .vmem S512x1024 .bf16) (harg6 : arg6.IsWhole) (arg7 : Memref sig .tc .vmem S512x1024 .f32) (harg7 : arg7.IsWhole)
    (T0 T1 : S2x68.Idx → Elt F .i32) (x0 x1 x2 : S512x1024.Idx → Elt F .bf16)
    (xm : Buf (Elt F) ((c : Thread nD τ).loc cc1_scratch0)) (xl : Buf (Elt F) ((c : Thread nD τ).loc cc1_scratch1))
    (xa : Buf (Elt F) ((c : Thread nD τ).loc cc1_scratch2))
    (h8 : ¬((Scalar.cmpi .ne (Scalar.extui (Scalar.cmpi .eq (wk i T1) 0#32)) 0#32) = 1#1))
    (h20 : ¬((Scalar.cmpi .ne (Scalar.extui (Scalar.cmpi .eq (wk i T1) (wq i T0))) 0#32) = 1#1)) :
    Σ' (o0 : Buf (Elt F) ((c : Thread nD τ).loc cc1_scratch0)) (o1 : Buf (Elt F) ((c : Thread nD τ).loc cc1_scratch1)),
    { o2 : Buf (Elt F) ((c : Thread nD τ).loc cc1_scratch2) //
      ∀ (y : S512x1024.Idx → Elt F .f32) (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (tbM1_0.view.loc (c : Thread nD τ) ↦{fullShare} T0)
          ∗ (tbM1_1.view.loc (c : Thread nD τ) ↦{fullShare} T1)
          ∗ owns (c : Thread nD τ) arg7 fullShare y
          ∗ (scM1_0.view.loc (c : Thread nD τ) ↦{fullShare} xm)
          ∗ (scM1_1.view.loc (c : Thread nD τ) ↦{fullShare} xl)
          ∗ (scM1_2.view.loc (c : Thread nD τ) ↦{fullShare} xa)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (tbM1_0.view.loc (c : Thread nD τ) ↦{fullShare} T0)
              ∗ (tbM1_1.view.loc (c : Thread nD τ) ↦{fullShare} T1)
              ∗ owns (c : Thread nD τ) arg7 fullShare y
              ∗ (scM1_0.view.loc (c : Thread nD τ) ↦{fullShare} o0)
              ∗ (scM1_1.view.loc (c : Thread nD τ) ↦{fullShare} o1)
              ∗ (scM1_2.view.loc (c : Thread nD τ) ↦{fullShare} o2)) -∗ K ⟨⟩))
          ⊢ wp frame (wpE (defs₀ (F := F)) Variants.none c none) Set.univ
              (cc1__flash_causal_kernel i tbM1_0 (Memref.isWhole_whole _) tbM1_1 (Memref.isWhole_whole _) arg4 harg4 arg5 harg5 arg6 harg6 arg7 harg7
                scM1_0 (Memref.isWhole_whole _) scM1_1 (Memref.isWhole_whole _) scM1_2 (Memref.isWhole_whole _)) K } :=
  ⟨_, _, _, fun (y : S512x1024.Idx → Elt F .f32) K => by
    have h23 : ((Scalar.cmpi .ne (Scalar.extui (Scalar.cmpi .ne (wk i T1) (wq i T0))) 0#32) = 1#1) := (offdiag_iff _ _).mpr h20
    have h4 : ¬(k1_cond4 (wq i T0) (wk i T1) = 1#1) := fun h => h20 ((cond4_iff _ _).mp h)
    unfold owns
    rw [cc1__flash_causal_kernel_eq_skeleton]; unfold cc1__flash_causal_kernel_skel
    iintro ⟨H0, H1, H2, HT0, HT1, ⟨%f1, %hf1, HO⟩, HS0, HS1, HS2, Hk⟩
    obtain rfl := harg7.eq_unread hf1
    have hS0 : scM1_0.IsWhole := Memref.isWhole_whole _
    have hS1 : scM1_1.IsWhole := Memref.isWhole_whole _
    have hS2 : scM1_2.IsWhole := Memref.isWhole_whole _
    have hT0 : tbM1_0.IsWhole := Memref.isWhole_whole _
    have hT1 : tbM1_1.IsWhole := Memref.isWhole_whole _
    sl_exec! (disch := first | exact h8 | exact h20 | exact h23 | exact h4)
    sl_step
    iapply Hk
    isplitl [H0]; · iexact H0
    isplitl [H1]; · iexact H1
    isplitl [H2]; · iexact H2
    isplitl [HT0]; · iexact HT0
    isplitl [HT1]; · iexact HT1
    isplitl [HO]
    · iexists _; isplitr; · ipureintro; exact harg7.read_unread _
      iexact HO
    isplitl [HS0]; · iexact HS0
    isplitl [HS1]; · iexact HS1
    iexact HS2⟩

end Cert.KernelIdeal.R1

end
-- ==== Proof.KIRegion1Facts.lean ====
/-
  The attention kernel's pipeline at the two literal schedule tables.

  The host writes the two 2×68 tables before the region: at grid point `t` the first holds the query block `r` the
  point works on, the second the key block `r'` it merges. The schedule walks, for each query block, the key blocks
  `0, 1, …, r` in order, so that `r' = 0` at the first point of a query block and `r' = r` at its last. Decided here, over
  the 136 points: the tables are admissible (every block the index maps name lies inside its array); the output window
  is written back exactly at the diagonal points (`r' = r`) and is idle exactly at the others; and the very first point
  resets the carried buffers.
-/
import proofs.«121137_j11647951306945_2_alg».proof.Proof.KIRegion1Runs

set_option maxRecDepth 16384
set_option Elab.async false
set_option synthInstance.maxSize 4096
noncomputable section

namespace Cert.KernelIdeal.R1

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

open Lean Elab Term Meta in
/-- A decidable proposition proved by the kernel's evaluation of its decision procedure, as `decide +kernel` does, also
    when it mentions variables of the context (here the float instance) which the evaluation never inspects. -/
elab "kdecide%" : term <= expectedType => do
  let s ← synthInstance (mkApp (mkConst ``Decidable) expectedType)
  return mkApp3 (mkConst ``of_decide_eq_true) expectedType s (mkApp2 (mkConst ``Eq.refl [levelOne]) (mkConst ``Bool) (mkConst ``true))

/-! ## The tables and the pipeline at them -/

/-- The query-block table as the host writes it. -/
def T0L : S2x68.Idx → BitVec 32 := fun i => lit0 (S2x68.rowMajor i)
/-- The key-block table as the host writes it. -/
def T1L : S2x68.Idx → BitVec 32 := fun i => lit1 (S2x68.rowMajor i)

/-- The two tables' contents. -/
def pfL : pre1.Contents (Elt F) := fun
  | ⟨0, _⟩ => T0L
  | ⟨1, _⟩ => T1L
  | ⟨_ + 2, h⟩ => absurd h (Nat.not_lt.2 (Nat.le_add_left _ _))

/-- They are admissible: at every grid point every window's block lies inside its array, on whole words. -/
theorem ok_pfL : ok1 (F := F) pfL := kdecide%

/-- The admissible contents, and the pipeline at them. -/
def adm1 : (pcfg1 (F := F)).Adm := ⟨pfL, ok_pfL⟩
abbrev cfgA : Pipeline.Cfg sig Λ₀ := cfg1 (F := F) adm1

/-- Point `t`'s coordinates. -/
abbrev crd (t : Fin (cfgA (F := F)).N) : (cfgA (F := F)).grid.Coords := (cfgA (F := F)).grid.coords t

/-- Each window's current staging memref at point `t`, as the pipeline passes it to the body, and its wholeness. -/
abbrev ms1_0 (t : Fin (cfgA (F := F)).N) : Memref sig .tc .vmem S512x1024 .bf16 := spec1_0.stage ((cfgA (F := F)).slots t (0 : Fin 4))
abbrev hs1_0 (t : Fin (cfgA (F := F)).N) : (ms1_0 (F := F) t).IsWhole := hstage1_0 (((cfgA (F := F)).slots t (0 : Fin 4)).cast nbuf1_0)
abbrev ms1_1 (t : Fin (cfgA (F := F)).N) : Memref sig .tc .vmem S512x1024 .bf16 := spec1_1.stage ((cfgA (F := F)).slots t (1 : Fin 4))
abbrev hs1_1 (t : Fin (cfgA (F := F)).N) : (ms1_1 (F := F) t).IsWhole := hstage1_1 (((cfgA (F := F)).slots t (1 : Fin 4)).cast nbuf1_1)
abbrev ms1_2 (t : Fin (cfgA (F := F)).N) : Memref sig .tc .vmem S512x1024 .bf16 := spec1_2.stage ((cfgA (F := F)).slots t (2 : Fin 4))
abbrev hs1_2 (t : Fin (cfgA (F := F)).N) : (ms1_2 (F := F) t).IsWhole := hstage1_2 (((cfgA (F := F)).slots t (2 : Fin 4)).cast nbuf1_2)
abbrev ms1_3 (t : Fin (cfgA (F := F)).N) : Memref sig .tc .vmem S512x1024 .f32 := spec1_3.stage ((cfgA (F := F)).slots t (3 : Fin 4))
abbrev hs1_3 (t : Fin (cfgA (F := F)).N) : (ms1_3 (F := F) t).IsWhole := hstage1_3 (((cfgA (F := F)).slots t (3 : Fin 4)).cast nbuf1_3)

/-! ## The decisions at a point, and the schedule -/

/-- The carried buffers are reset at `t`: the key-block word there is 0. -/
abbrev P1_reset (t : Fin (cfgA (F := F)).N) : Prop :=
  (Scalar.cmpi .ne (Scalar.extui (Scalar.cmpi .eq (wk (F := F) (crd t) T1L) 0#32)) 0#32) = 1#1
/-- Point `t` is on the diagonal: the key-block word there is the query-block word. -/
abbrev P1_diag (t : Fin (cfgA (F := F)).N) : Prop :=
  (Scalar.cmpi .ne (Scalar.extui (Scalar.cmpi .eq (wk (F := F) (crd t) T1L) (wq (F := F) (crd t) T0L))) 0#32) = 1#1

/-- What is decided at point `t`: on the diagonal the output window is live and written back, off it the window is idle
    and not written back; and the first point resets. -/
abbrev FactsAt (t : Fin (cfgA (F := F)).N) : Prop :=
  (P1_diag (F := F) t → (cfgA (F := F)).idle (3 : Fin 4) (crd t) = false ∧ ((cfgA (F := F)).win (3 : Fin 4)).flush t = true)
  ∧ (¬P1_diag (F := F) t → (cfgA (F := F)).idle (3 : Fin 4) (crd t) = true ∧ ((cfgA (F := F)).win (3 : Fin 4)).flush t = false)
  ∧ (t.val = 0 → P1_reset (F := F) t)

theorem allFacts : ∀ t : Fin (cfgA (F := F)).N, FactsAt (F := F) t := kdecide%

/-- On the diagonal the output window is live and written back. -/
theorem sched1_diag (t : Fin (cfgA (F := F)).N) (q : P1_diag (F := F) t) :
    (cfgA (F := F)).idle (3 : Fin 4) (crd t) = false ∧ ((cfgA (F := F)).win (3 : Fin 4)).flush t = true := (allFacts t).1 q
/-- Off the diagonal it is idle and not written back. -/
theorem sched1_off (t : Fin (cfgA (F := F)).N) (q : ¬P1_diag (F := F) t) :
    (cfgA (F := F)).idle (3 : Fin 4) (crd t) = true ∧ ((cfgA (F := F)).win (3 : Fin 4)).flush t = false := (allFacts t).2.1 q
/-- The first point resets the carried buffers; so a point that does not reset is not the first. -/
theorem reset_zero (t : Fin (cfgA (F := F)).N) (h : t.val = 0) : P1_reset (F := F) t := (allFacts t).2.2 h
theorem pos_of_not_reset (t : Fin (cfgA (F := F)).N) (q : ¬P1_reset (F := F) t) : t.val ≠ 0 := fun h => q (reset_zero t h)

end Cert.KernelIdeal.R1

end
-- ==== Proof.KIRegion1.lean ====
/-
  The attention kernel's region (the second kernel of the program), at a parameter `V` — the TensorCore's buffer contents
  when the region is entered: what the three carried buffers and the output block hold after each of the 136 grid
  points (the trajectory, one step per point, the step the run of the control path the point's two table words select),
  the pipeline's proof data, the body obligation at every point, and the invariant's two ends.

  Windows 0, 1, 2 are the query, key and value blocks (inputs, never idle, uncut: the body finds the array's block);
  window 3 is the output block, stored whole at the diagonal points, where it is written back, and idle at the others,
  where the body hands it back as found. The carried buffers hold nothing determined only before the first point, which
  resets them.
-/
import proofs.«121137_j11647951306945_2_alg».proof.Proof.KIRegion1Facts

set_option maxRecDepth 16384
set_option Elab.async false

noncomputable section

namespace Cert.KernelIdeal.R1

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin (cfgA (F := F)).W) (t : Fin (cfgA (F := F)).N) :
    (((cfgA (F := F)).win w).xblock (crd t)).Idx → Elt F ((cfgA (F := F)).win w).elt :=
  (((cfgA (F := F)).win w).blk t).view.read (Elt F) (V c (Pipeline.arrRef spec1 w))

/-! ## The runs at a point -/

abbrev runA (c : Dev nD) (t : Fin (cfgA (F := F)).N) (q0 : P1_reset (F := F) t) (q1 : P1_diag (F := F) t) :=
  kernelRun1_A c (crd t) (ms1_0 t) (hs1_0 t) (ms1_1 t) (hs1_1 t) (ms1_2 t) (hs1_2 t) (ms1_3 t) (hs1_3 t) T0L T1L (iblk1 V c (0 : Fin 4) t) (iblk1 V c (1 : Fin 4) t) (iblk1 V c (2 : Fin 4) t) q0 q1
abbrev runB (c : Dev nD) (t : Fin (cfgA (F := F)).N) (q0 : P1_reset (F := F) t) (q1 : ¬P1_diag (F := F) t) :=
  kernelRun1_B c (crd t) (ms1_0 t) (hs1_0 t) (ms1_1 t) (hs1_1 t) (ms1_2 t) (hs1_2 t) (ms1_3 t) (hs1_3 t) T0L T1L (iblk1 V c (0 : Fin 4) t) (iblk1 V c (1 : Fin 4) t) (iblk1 V c (2 : Fin 4) t) q0 q1
abbrev runC (c : Dev nD) (t : Fin (cfgA (F := F)).N) (xm : Buf (Elt F) ((c : Thread nD τ).loc cc1_scratch0)) (xl : Buf (Elt F) ((c : Thread nD τ).loc cc1_scratch1)) (xa : Buf (Elt F) ((c : Thread nD τ).loc cc1_scratch2)) (q0 : ¬P1_reset (F := F) t) (q1 : P1_diag (F := F) t) :=
  kernelRun1_C c (crd t) (ms1_0 t) (hs1_0 t) (ms1_1 t) (hs1_1 t) (ms1_2 t) (hs1_2 t) (ms1_3 t) (hs1_3 t) T0L T1L (iblk1 V c (0 : Fin 4) t) (iblk1 V c (1 : Fin 4) t) (iblk1 V c (2 : Fin 4) t) xm xl xa q0 q1
abbrev runD (c : Dev nD) (t : Fin (cfgA (F := F)).N) (xm : Buf (Elt F) ((c : Thread nD τ).loc cc1_scratch0)) (xl : Buf (Elt F) ((c : Thread nD τ).loc cc1_scratch1)) (xa : Buf (Elt F) ((c : Thread nD τ).loc cc1_scratch2)) (q0 : ¬P1_reset (F := F) t) (q1 : ¬P1_diag (F := F) t) :=
  kernelRun1_D c (crd t) (ms1_0 t) (hs1_0 t) (ms1_1 t) (hs1_1 t) (ms1_2 t) (hs1_2 t) (ms1_3 t) (hs1_3 t) T0L T1L (iblk1 V c (0 : Fin 4) t) (iblk1 V c (1 : Fin 4) t) (iblk1 V c (2 : Fin 4) t) xm xl xa q0 q1
abbrev outA (c : Dev nD) (t : Fin (cfgA (F := F)).N) (q0 : P1_reset (F := F) t) (q1 : P1_diag (F := F) t) : S512x1024.Idx → Elt F .f32 :=
  out1_A c (crd t) (ms1_0 t) (hs1_0 t) (ms1_1 t) (hs1_1 t) (ms1_2 t) (hs1_2 t) (ms1_3 t) (hs1_3 t) T0L T1L (iblk1 V c (0 : Fin 4) t) (iblk1 V c (1 : Fin 4) t) (iblk1 V c (2 : Fin 4) t) q0 q1
abbrev outC (c : Dev nD) (t : Fin (cfgA (F := F)).N) (xm : Buf (Elt F) ((c : Thread nD τ).loc cc1_scratch0)) (xl : Buf (Elt F) ((c : Thread nD τ).loc cc1_scratch1)) (xa : Buf (Elt F) ((c : Thread nD τ).loc cc1_scratch2)) (q0 : ¬P1_reset (F := F) t) (q1 : P1_diag (F := F) t) : S512x1024.Idx → Elt F .f32 :=
  out1_C c (crd t) (ms1_0 t) (hs1_0 t) (ms1_1 t) (hs1_1 t) (ms1_2 t) (hs1_2 t) (ms1_3 t) (hs1_3 t) T0L T1L (iblk1 V c (0 : Fin 4) t) (iblk1 V c (1 : Fin 4) t) (iblk1 V c (2 : Fin 4) t) xm xl xa q0 q1

/-! ## What the output block and the carried buffers hold after each point -/

/-- The four tracked contents on core `c`: the output block, the running maximum, the normaliser, the weighted sum. -/
abbrev Tr (c : Dev nD) : Type :=
  (S512x1024.Idx → Elt F .f32) × Buf (Elt F) ((c : Thread nD τ).loc cc1_scratch0) × Buf (Elt F) ((c : Thread nD τ).loc cc1_scratch1) × Buf (Elt F) ((c : Thread nD τ).loc cc1_scratch2)

/-- Contents nothing has determined. -/
def junk1 (c : Dev nD) : Tr (F := F) c := (fun _ => (Elt.inhabited F .f32).default, default, default, default)

/-- One step of the trajectory: what the four hold after the body at point `t` from what they held before: the path
    the two decisions select at `t`, its run's contents; off the diagonal the output block keeps what it held. -/
def step1 (c : Dev nD) (t : Fin (cfgA (F := F)).N) (prev : Tr (F := F) c) : Tr (F := F) c :=
  if q0 : P1_reset (F := F) t then
    if q1 : P1_diag (F := F) t then
      (outA V c t q0 q1, (runA V c t q0 q1).2.1, (runA V c t q0 q1).2.2.1, (runA V c t q0 q1).2.2.2.1)
    else
      (prev.1, (runB V c t q0 q1).1, (runB V c t q0 q1).2.1, (runB V c t q0 q1).2.2.1)
  else
    if q1 : P1_diag (F := F) t then
      (outC V c t prev.2.1 prev.2.2.1 prev.2.2.2 q0 q1, (runC V c t prev.2.1 prev.2.2.1 prev.2.2.2 q0 q1).2.1,
        (runC V c t prev.2.1 prev.2.2.1 prev.2.2.2 q0 q1).2.2.1, (runC V c t prev.2.1 prev.2.2.1 prev.2.2.2 q0 q1).2.2.2.1)
    else
      (prev.1, (runD V c t prev.2.1 prev.2.2.1 prev.2.2.2 q0 q1).1, (runD V c t prev.2.1 prev.2.2.1 prev.2.2.2 q0 q1).2.1,
        (runD V c t prev.2.1 prev.2.2.1 prev.2.2.2 q0 q1).2.2.1)

/-- The trajectory: after position `n`. -/
def traj1 (c : Dev nD) : (n : ℕ) → n < (cfgA (F := F)).N → Tr (F := F) c
  | 0, h => step1 V c ⟨0, h⟩ (junk1 c)
  | n + 1, h => step1 V c ⟨n + 1, h⟩ (traj1 c n (Nat.lt_of_succ_lt h))

/-- What they held before position `n` (nothing determined before the first). -/
def prevN (c : Dev nD) (n : ℕ) (hn : n ≤ (cfgA (F := F)).N) : Tr (F := F) c :=
  if h : n = 0 then junk1 c else traj1 V c (n - 1) (by omega)

/-- What they held before point `t`. -/
def prev1 (c : Dev nD) (t : Fin (cfgA (F := F)).N) : Tr (F := F) c := prevN V c t.val (Nat.le_of_lt t.isLt)

theorem traj1_eq (c : Dev nD) (t : Fin (cfgA (F := F)).N) : traj1 V c t.val t.isLt = step1 V c t (prev1 V c t) := by
  obtain ⟨n, hn⟩ := t
  cases n with
  | zero => rfl
  | succ n => unfold prev1 prevN; simp only [Nat.add_one_ne_zero, dif_neg, not_false_eq_true]; rfl

/-- `step1` at a point of each path. -/
theorem step1_A (c : Dev nD) (t : Fin (cfgA (F := F)).N) (prev : Tr (F := F) c) (q0 : P1_reset (F := F) t) (q1 : P1_diag (F := F) t) :
    step1 V c t prev = (outA V c t q0 q1, (runA V c t q0 q1).2.1, (runA V c t q0 q1).2.2.1, (runA V c t q0 q1).2.2.2.1) := by
  unfold step1; simp only [dif_pos q0, dif_pos q1]
theorem step1_B (c : Dev nD) (t : Fin (cfgA (F := F)).N) (prev : Tr (F := F) c) (q0 : P1_reset (F := F) t) (q1 : ¬P1_diag (F := F) t) :
    step1 V c t prev = (prev.1, (runB V c t q0 q1).1, (runB V c t q0 q1).2.1, (runB V c t q0 q1).2.2.1) := by
  unfold step1; simp only [dif_pos q0, dif_neg q1]
theorem step1_C (c : Dev nD) (t : Fin (cfgA (F := F)).N) (prev : Tr (F := F) c) (q0 : ¬P1_reset (F := F) t) (q1 : P1_diag (F := F) t) :
    step1 V c t prev = (outC V c t prev.2.1 prev.2.2.1 prev.2.2.2 q0 q1, (runC V c t prev.2.1 prev.2.2.1 prev.2.2.2 q0 q1).2.1,
        (runC V c t prev.2.1 prev.2.2.1 prev.2.2.2 q0 q1).2.2.1, (runC V c t prev.2.1 prev.2.2.1 prev.2.2.2 q0 q1).2.2.2.1) := by
  unfold step1; simp only [dif_neg q0, dif_pos q1]
theorem step1_D (c : Dev nD) (t : Fin (cfgA (F := F)).N) (prev : Tr (F := F) c) (q0 : ¬P1_reset (F := F) t) (q1 : ¬P1_diag (F := F) t) :
    step1 V c t prev = (prev.1, (runD V c t prev.2.1 prev.2.2.1 prev.2.2.2 q0 q1).1, (runD V c t prev.2.1 prev.2.2.1 prev.2.2.2 q0 q1).2.1,
        (runD V c t prev.2.1 prev.2.2.1 prev.2.2.2 q0 q1).2.2.1) := by
  unfold step1; simp only [dif_neg q0, dif_neg q1]

/-! ## The pipeline's proof data -/

/-- What the tracked contents were before position `t` of `Fin (N+1)` (the invariant's index). -/
def prev1T (c : Dev nD) (t : Fin ((cfgA (F := F)).N + 1)) : Tr (F := F) c := prevN V c t.val (Nat.le_of_lt_succ t.isLt)

theorem prevN_congr (c : Dev nD) {n n' : ℕ} (h : n = n') (hn : n ≤ (cfgA (F := F)).N) (hn' : n' ≤ (cfgA (F := F)).N) :
    prevN V c n hn = prevN V c n' hn' := by subst h; rfl
theorem prev1T_castSucc (c : Dev nD) (t : Fin (cfgA (F := F)).N) : prev1T V c t.castSucc = prev1 V c t :=
  prevN_congr V c (Fin.val_castSucc t) _ _
theorem prev1T_succ (c : Dev nD) (t : Fin (cfgA (F := F)).N) : prev1T V c t.succ = traj1 V c t.val t.isLt := by
  unfold prev1T prevN; rw [dif_neg (by simp)]; rfl

/-- The core's scoped buffers the region does not use (the first kernel's staging buffers), each at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The invariant before point `t`: each carried buffer at what the trajectory says once the first point has run (at
    anything before it), the two tables whole at their literal contents, and the scoped buffers the region does not use. -/
def Phi1 (c : Dev nD) (t : Fin ((cfgA (F := F)).N + 1)) : sProp 𝕄 :=
  iprop((∃ a, ⌜t.val ≠ 0 → a = (prev1T V c t).2.1⌝ ∗ (scM1_0.view.loc (c : Thread nD τ) ↦{fullShare} a))
    ∗ (∃ a, ⌜t.val ≠ 0 → a = (prev1T V c t).2.2.1⌝ ∗ (scM1_1.view.loc (c : Thread nD τ) ↦{fullShare} a))
    ∗ (∃ a, ⌜t.val ≠ 0 → a = (prev1T V c t).2.2.2⌝ ∗ (scM1_2.view.loc (c : Thread nD τ) ↦{fullShare} a))
    ∗ (tbM1_0.view.loc (c : Thread nD τ) ↦{fullShare} T0L)
    ∗ (tbM1_1.view.loc (c : Thread nD τ) ↦{fullShare} T1L)
    ∗ rest1 (F := F) c)

/-- The proof data of the attention kernel's pipeline on core `c`: the arrays as the region finds them (`V`); after the body
    at point `t` each input's buffer at its block and the output's at the trajectory's output block; the three inputs,
    windows of one array, at three disjoint parts of the full share; nothing owed. -/
def dat1 (c : Dev nD) : Dat τ (Elt F) Unit ℕ (UR sig nD τ) ℕ (cfgA (F := F)) c where
  A w := V c (Pipeline.arrRef spec1 w)
  after w t := match w with
    | ⟨0, _⟩ => iblk1 V c (0 : Fin 4) t
    | ⟨1, _⟩ => iblk1 V c (1 : Fin 4) t
    | ⟨2, _⟩ => iblk1 V c (2 : Fin 4) t
    | ⟨3, _⟩ => (traj1 V c t.val t.isLt).1
  Φ t := Phi1 V c t
  q := fun
    | ⟨0, _⟩ => fullShare.left
    | ⟨1, _⟩ => fullShare.right.left
    | ⟨2, _⟩ => fullShare.right.right
    | _ => fullShare
  owed _ := 0

/-- The proof data's arrays are the region-entry contents. -/
theorem A_eq1 (c : Dev nD) (w : Fin (cfgA (F := F)).W) : (dat1 V c).A w = V c (Pipeline.arrRef spec1 w) := by
  dsimp only [dat1]

/-- What the body leaves, window by window. -/
theorem after1_0 (c : Dev nD) (t : Fin (cfgA (F := F)).N) : (dat1 V c).after (0 : Fin 4) t = iblk1 V c (0 : Fin 4) t := by dsimp only [dat1]
theorem after1_1 (c : Dev nD) (t : Fin (cfgA (F := F)).N) : (dat1 V c).after (1 : Fin 4) t = iblk1 V c (1 : Fin 4) t := by dsimp only [dat1]
theorem after1_2 (c : Dev nD) (t : Fin (cfgA (F := F)).N) : (dat1 V c).after (2 : Fin 4) t = iblk1 V c (2 : Fin 4) t := by dsimp only [dat1]
theorem after1_3 (c : Dev nD) (t : Fin (cfgA (F := F)).N) : (dat1 V c).after (3 : Fin 4) t = (traj1 V c t.val t.isLt).1 := by dsimp only [dat1]

/-! ## What each input's staging buffer holds when the body runs -/

/-- An input window holds its block at every point, fetched there or not: unfetched, the block index has not moved. -/
theorem before1_0 (c : Dev nD) (t : Fin (cfgA (F := F)).N) (d) : (dat1 V c).before (0 : Fin 4) t d = iblk1 V c (0 : Fin 4) t :=
  ((dat1 V c).before_in_eq_fetched (0 : Fin 4) rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin (cfgA (F := F)).N) (d) : (dat1 V c).before (1 : Fin 4) t d = iblk1 V c (1 : Fin 4) t :=
  ((dat1 V c).before_in_eq_fetched (1 : Fin 4) rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin (cfgA (F := F)).N) (d) : (dat1 V c).before (2 : Fin 4) t d = iblk1 V c (2 : Fin 4) t :=
  ((dat1 V c).before_in_eq_fetched (2 : Fin 4) rfl (fun _ => rfl) (fun _ _ _ => rfl)
    (fun t => by rw [after1_2]; unfold Dat.blockOf iblk1; rw [A_eq1]; try rfl) t d).trans
    (by unfold Dat.fetched Dat.blockOf iblk1; rw [A_eq1]; try rfl)

end Cert.KernelIdeal.R1

end
-- ==== Proof.KIRegion1Body.lean ====
/-
  The attention kernel's region: the body obligation at every grid point, by control path, and the invariant's two ends.

  At a point the two decisions (reset or not, diagonal or not) tell the path. The inputs' staging buffers hold their
  blocks; the carried buffers hold what the trajectory says (anything at the first point, which resets them); the
  path's run applies. On the diagonal the output block is the run's whole-block store read back; off it the window is
  idle and not written back, and the block is handed back as found.
-/
import proofs.«121137_j11647951306945_2_alg».proof.Proof.KIRegion1

set_option maxRecDepth 16384
set_option Elab.async false

noncomputable section

namespace Cert.KernelIdeal.R1

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body obligation, at a generic point, by path -/

/-- The body at point `t` on its staging memrefs, as the pipeline calls it. -/
abbrev bodyAt1 (t : Fin (cfgA (F := F)).N) : Prog (TpuEff nD τ sig (Elt F) Λ₀ .tc) PUnit :=
  cc1__flash_causal_kernel (crd t) tbM1_0 (Memref.isWhole_whole _) tbM1_1 (Memref.isWhole_whole _) (ms1_0 t) (hs1_0 t) (ms1_1 t) (hs1_1 t) (ms1_2 t) (hs1_2 t) (ms1_3 t) (hs1_3 t)
    scM1_0 (Memref.isWhole_whole _) scM1_1 (Memref.isWhole_whole _) scM1_2 (Memref.isWhole_whole _)

/-- What the body is called with at point `t` (the windows one by one), -/
def bodyPre1 (c : Dev nD) (t : Fin (cfgA (F := F)).N) : sProp 𝕄 :=
  iprop((dat1 V c).Φ t.castSucc ∗ (dat1 V c).owesAt () t.castSucc
    ∗ (∃ d, owns (c : Thread nD τ) (ms1_0 t) fullShare ((dat1 V c).before (0 : Fin 4) t d))
    ∗ (∃ d, owns (c : Thread nD τ) (ms1_1 t) fullShare ((dat1 V c).before (1 : Fin 4) t d))
    ∗ (∃ d, owns (c : Thread nD τ) (ms1_2 t) fullShare ((dat1 V c).before (2 : Fin 4) t d))
    ∗ (∃ d, owns (c : Thread nD τ) (ms1_3 t) fullShare ((dat1 V c).before (3 : Fin 4) t d)))

/-- and what it returns: the inputs at their blocks; the output at what the body stored where the window is live or
    written back, as found where it is idle and not written back. -/
def bodyPost1 (c : Dev nD) (t : Fin (cfgA (F := F)).N) : sProp 𝕄 :=
  iprop((dat1 V c).Φ t.succ ∗ (dat1 V c).owesAt () t.succ
    ∗ owns (c : Thread nD τ) (ms1_0 t) fullShare ((dat1 V c).after (0 : Fin 4) t)
    ∗ owns (c : Thread nD τ) (ms1_1 t) fullShare ((dat1 V c).after (1 : Fin 4) t)
    ∗ owns (c : Thread nD τ) (ms1_2 t) fullShare ((dat1 V c).after (2 : Fin 4) t)
    ∗ (match (cfgA (F := F)).idle (3 : Fin 4) (crd t) with
      | true =>
        match ((cfgA (F := F)).win (3 : Fin 4)).flush t with
        | false => iprop(∃ d, owns (c : Thread nD τ) (ms1_3 t) fullShare ((dat1 V c).before (3 : Fin 4) t d))
        | true => owns (c : Thread nD τ) (ms1_3 t) fullShare ((dat1 V c).after (3 : Fin 4) t)
      | false => owns (c : Thread nD τ) (ms1_3 t) fullShare ((dat1 V c).after (3 : Fin 4) t)))

set_option maxHeartbeats 2000000 in
/-- The body at a point that resets and is on the diagonal: the carried buffers' contents do not matter; the output block is the run's store read back. -/
theorem sound_body1_A (c : Dev nD) (t : Fin (cfgA (F := F)).N) (q0 : P1_reset (F := F) t) (q1 : P1_diag (F := F) t) :
    bodyPre1 V c t ⊢ wp frame (wpE (defs₀ (F := F)) Variants.none c none) Set.univ (bodyAt1 (F := F) t) (fun _ => bodyPost1 V c t) := by
  unfold bodyPre1 bodyPost1
  obtain ⟨i1, f1⟩ := sched1_diag t q1
  rewrite [i1]
  simp only [before1_0, before1_1, before1_2, after1_0, after1_1, after1_2, after1_3, f1]
  rewrite [show (dat1 V c).Φ t.succ = Phi1 V c t.succ from rfl, show (dat1 V c).Φ t.castSucc = Phi1 V c t.castSucc from rfl,
    show (dat1 V c).owesAt () t.succ = (dat1 V c).owesAt () t.castSucc from rfl]
  unfold Phi1; simp only [prev1T_castSucc, prev1T_succ, traj1_eq, step1_A V c t _ q0 q1, Fin.val_castSucc, Fin.val_succ]
  iintro ⟨⟨⟨%a0, %ha0, HS0⟩, ⟨%a1, %ha1, HS1⟩, ⟨%a2, %ha2, HS2⟩, HT0, HT1, HR⟩, Ho, ⟨%d0, H0⟩, ⟨%d1, H1⟩, ⟨%d2, H2⟩, ⟨%d3, H3⟩⟩
  iapply ((runA V c t q0 q1).2.2.2.2 a0 a1 a2 _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexists _; iexact H3
  isplitl [HS0]; · iexact HS0
  isplitl [HS1]; · iexact HS1
  isplitl [HS2]; · iexact HS2
  iintro ⟨H0, H1, H2, HT0, HT1, ⟨%e3, H3⟩, HS0, HS1, HS2⟩
  isplitl [HS0 HS1 HS2 HT0 HT1 HR]
  · isplitl [HS0]
    · iexists _; isplitr; swap
      · iexact HS0
      · ipureintro; intro _; rfl
    isplitl [HS1]
    · iexists _; isplitr; swap
      · iexact HS1
      · ipureintro; intro _; rfl
    isplitl [HS2]
    · iexists _; isplitr; swap
      · iexact HS2
      · ipureintro; intro _; rfl
    isplitl [HT0]; · iexact HT0
    isplitl [HT1]; · iexact HT1
    iexact HR
  isplitl [Ho]; · iexact Ho
  isplitl [H0]; · iapply owns_of_rep; iexact H0
  isplitl [H1]; · iapply owns_of_rep; iexact H1
  isplitl [H2]; · iapply owns_of_rep; iexact H2
  unfold owns; iexists _; isplitr; swap
  · iexact H3
  · ipureintro; exact View.read_writes_of_cover _ _ _ _ _ (cover1_A c _ _ _ _ _ _ _ _ _ _ _ _ _ _ _ _)

set_option maxHeartbeats 2000000 in
/-- The body at a point that resets and is off the diagonal: the carried buffers' contents do not matter; the output block is handed back as found. -/
theorem sound_body1_B (c : Dev nD) (t : Fin (cfgA (F := F)).N) (q0 : P1_reset (F := F) t) (q1 : ¬P1_diag (F := F) t) :
    bodyPre1 V c t ⊢ wp frame (wpE (defs₀ (F := F)) Variants.none c none) Set.univ (bodyAt1 (F := F) t) (fun _ => bodyPost1 V c t) := by
  unfold bodyPre1 bodyPost1
  obtain ⟨i1, f1⟩ := sched1_off t q1
  rewrite [i1]
  simp only [before1_0, before1_1, before1_2, after1_0, after1_1, after1_2, after1_3, f1]
  rewrite [show (dat1 V c).Φ t.succ = Phi1 V c t.succ from rfl, show (dat1 V c).Φ t.castSucc = Phi1 V c t.castSucc from rfl,
    show (dat1 V c).owesAt () t.succ = (dat1 V c).owesAt () t.castSucc from rfl]
  unfold Phi1; simp only [prev1T_castSucc, prev1T_succ, traj1_eq, step1_B V c t _ q0 q1, Fin.val_castSucc, Fin.val_succ]
  iintro ⟨⟨⟨%a0, %ha0, HS0⟩, ⟨%a1, %ha1, HS1⟩, ⟨%a2, %ha2, HS2⟩, HT0, HT1, HR⟩, Ho, ⟨%d0, H0⟩, ⟨%d1, H1⟩, ⟨%d2, H2⟩, ⟨%d3, H3⟩⟩
  iapply ((runB V c t q0 q1).2.2.2 _ a0 a1 a2 _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexact H3
  isplitl [HS0]; · iexact HS0
  isplitl [HS1]; · iexact HS1
  isplitl [HS2]; · iexact HS2
  iintro ⟨H0, H1, H2, HT0, HT1, H3, HS0, HS1, HS2⟩
  isplitl [HS0 HS1 HS2 HT0 HT1 HR]
  · isplitl [HS0]
    · iexists _; isplitr; swap
      · iexact HS0
      · ipureintro; intro _; rfl
    isplitl [HS1]
    · iexists _; isplitr; swap
      · iexact HS1
      · ipureintro; intro _; rfl
    isplitl [HS2]
    · iexists _; isplitr; swap
      · iexact HS2
      · ipureintro; intro _; rfl
    isplitl [HT0]; · iexact HT0
    isplitl [HT1]; · iexact HT1
    iexact HR
  isplitl [Ho]; · iexact Ho
  isplitl [H0]; · iapply owns_of_rep; iexact H0
  isplitl [H1]; · iapply owns_of_rep; iexact H1
  isplitl [H2]; · iapply owns_of_rep; iexact H2
  iexists d3; iexact H3

set_option maxHeartbeats 2000000 in
/-- The body at a diagonal point that does not reset (so not the first point): the carried buffers hold what the trajectory says; the output block is the run's store read back. -/
theorem sound_body1_C (c : Dev nD) (t : Fin (cfgA (F := F)).N) (q0 : ¬P1_reset (F := F) t) (q1 : P1_diag (F := F) t) :
    bodyPre1 V c t ⊢ wp frame (wpE (defs₀ (F := F)) Variants.none c none) Set.univ (bodyAt1 (F := F) t) (fun _ => bodyPost1 V c t) := by
  unfold bodyPre1 bodyPost1
  obtain ⟨i1, f1⟩ := sched1_diag t q1
  rewrite [i1]
  simp only [before1_0, before1_1, before1_2, after1_0, after1_1, after1_2, after1_3, f1]
  rewrite [show (dat1 V c).Φ t.succ = Phi1 V c t.succ from rfl, show (dat1 V c).Φ t.castSucc = Phi1 V c t.castSucc from rfl,
    show (dat1 V c).owesAt () t.succ = (dat1 V c).owesAt () t.castSucc from rfl]
  unfold Phi1; simp only [prev1T_castSucc, prev1T_succ, traj1_eq, step1_C V c t _ q0 q1, Fin.val_castSucc, Fin.val_succ]
  simp only [exists_held (pos_of_not_reset t q0)]
  iintro ⟨⟨HS0, HS1, HS2, HT0, HT1, HR⟩, Ho, ⟨%d0, H0⟩, ⟨%d1, H1⟩, ⟨%d2, H2⟩, ⟨%d3, H3⟩⟩
  iapply ((runC V c t (prev1 V c t).2.1 (prev1 V c t).2.2.1 (prev1 V c t).2.2.2 q0 q1).2.2.2.2 _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexists _; iexact H3
  isplitl [HS0]; · iexact HS0
  isplitl [HS1]; · iexact HS1
  isplitl [HS2]; · iexact HS2
  iintro ⟨H0, H1, H2, HT0, HT1, ⟨%e3, H3⟩, HS0, HS1, HS2⟩
  isplitl [HS0 HS1 HS2 HT0 HT1 HR]
  · isplitl [HS0]
    · iexists _; isplitr; swap
      · iexact HS0
      · ipureintro; intro _; rfl
    isplitl [HS1]
    · iexists _; isplitr; swap
      · iexact HS1
      · ipureintro; intro _; rfl
    isplitl [HS2]
    · iexists _; isplitr; swap
      · iexact HS2
      · ipureintro; intro _; rfl
    isplitl [HT0]; · iexact HT0
    isplitl [HT1]; · iexact HT1
    iexact HR
  isplitl [Ho]; · iexact Ho
  isplitl [H0]; · iapply owns_of_rep; iexact H0
  isplitl [H1]; · iapply owns_of_rep; iexact H1
  isplitl [H2]; · iapply owns_of_rep; iexact H2
  unfold owns; iexists _; isplitr; swap
  · iexact H3
  · ipureintro; exact View.read_writes_of_cover _ _ _ _ _ (cover1_C c _ _ _ _ _ _ _ _ _ _ _ _ _ _ _ _ _ _ _)

set_option maxHeartbeats 2000000 in
/-- The body at a point off the diagonal that does not reset: the carried buffers hold what the trajectory says; the output block is handed back as found. -/
theorem sound_body1_D (c : Dev nD) (t : Fin (cfgA (F := F)).N) (q0 : ¬P1_reset (F := F) t) (q1 : ¬P1_diag (F := F) t) :
    bodyPre1 V c t ⊢ wp frame (wpE (defs₀ (F := F)) Variants.none c none) Set.univ (bodyAt1 (F := F) t) (fun _ => bodyPost1 V c t) := by
  unfold bodyPre1 bodyPost1
  obtain ⟨i1, f1⟩ := sched1_off t q1
  rewrite [i1]
  simp only [before1_0, before1_1, before1_2, after1_0, after1_1, after1_2, after1_3, f1]
  rewrite [show (dat1 V c).Φ t.succ = Phi1 V c t.succ from rfl, show (dat1 V c).Φ t.castSucc = Phi1 V c t.castSucc from rfl,
    show (dat1 V c).owesAt () t.succ = (dat1 V c).owesAt () t.castSucc from rfl]
  unfold Phi1; simp only [prev1T_castSucc, prev1T_succ, traj1_eq, step1_D V c t _ q0 q1, Fin.val_castSucc, Fin.val_succ]
  simp only [exists_held (pos_of_not_reset t q0)]
  iintro ⟨⟨HS0, HS1, HS2, HT0, HT1, HR⟩, Ho, ⟨%d0, H0⟩, ⟨%d1, H1⟩, ⟨%d2, H2⟩, ⟨%d3, H3⟩⟩
  iapply ((runD V c t (prev1 V c t).2.1 (prev1 V c t).2.2.1 (prev1 V c t).2.2.2 q0 q1).2.2.2 _ _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iexact H3
  isplitl [HS0]; · iexact HS0
  isplitl [HS1]; · iexact HS1
  isplitl [HS2]; · iexact HS2
  iintro ⟨H0, H1, H2, HT0, HT1, H3, HS0, HS1, HS2⟩
  isplitl [HS0 HS1 HS2 HT0 HT1 HR]
  · isplitl [HS0]
    · iexists _; isplitr; swap
      · iexact HS0
      · ipureintro; intro _; rfl
    isplitl [HS1]
    · iexists _; isplitr; swap
      · iexact HS1
      · ipureintro; intro _; rfl
    isplitl [HS2]
    · iexists _; isplitr; swap
      · iexact HS2
      · ipureintro; intro _; rfl
    isplitl [HT0]; · iexact HT0
    isplitl [HT1]; · iexact HT1
    iexact HR
  isplitl [Ho]; · iexact Ho
  isplitl [H0]; · iapply owns_of_rep; iexact H0
  isplitl [H1]; · iapply owns_of_rep; iexact H1
  isplitl [H2]; · iapply owns_of_rep; iexact H2
  iexists d3; iexact H3

/-- The body obligation at point `t`: the two decisions there tell the path. -/
theorem sound_body1 (c : Dev nD) (t : Fin (cfgA (F := F)).N) :
    bodyPre1 V c t ⊢ wp frame (wpE (defs₀ (F := F)) Variants.none c none) Set.univ (bodyAt1 (F := F) t) (fun _ => bodyPost1 V c t) := by
  by_cases q0 : P1_reset (F := F) t
  · by_cases q1 : P1_diag (F := F) t
    · exact sound_body1_A V c t q0 q1
    · exact sound_body1_B V c t q0 q1
  · by_cases q1 : P1_diag (F := F) t
    · exact sound_body1_C V c t q0 q1
    · exact sound_body1_D V c t q0 q1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- The two tables as the region holds them, one by one. -/
theorem prefHeld1_eq (c : Dev nD) (q : Fin 2 → PosShare TreeShare) (v : pre1.Contents (Elt F)) :
    (Pipeline.prefHeld (Ix := Unit) (Name := ℕ) (U := UR sig nD τ) (Lvl := ℕ) pre1 c q v : sProp 𝕄)
      = iprop((((c : Thread nD τ).loc main_c) ↦{q 0} v 0) ∗ (((c : Thread nD τ).loc main_c_0) ↦{q 1} v 1)) := by
  unfold Pipeline.prefHeld
  exact bigSep_univ_eq_bigSepL [(0 : Fin 2), (1 : Fin 2)] (by decide) (by decide) _

/-- The invariant at the first point, from the tables and the core's scoped buffers that are no staging buffer of the
    region (the three carried buffers among them, at anything). -/
theorem phi0_intro (c : Dev nD) :
    iprop(Pipeline.prefHeld pre1 c (fun _ => fullShare) (adm1 (F := F)).1 ∗ Pipeline.scopedRest spec1 c) ⊢ (dat1 V c).Φ 0 := by
  rw [prefHeld1_eq, scopedRest1_eq, show (dat1 V c).Φ 0 = Phi1 V c 0 from rfl]
  unfold Phi1 rest1
  iintro ⟨⟨HT0, HT1⟩, A0, A1, A2, A3, A4, A5, ⟨%a0, HS0⟩, ⟨%a1, HS1⟩, ⟨%a2, HS2⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HS2]
  · iexists a2; isplitr; swap
    · iexact HS2
    · ipureintro; intro h; exact absurd rfl h
  isplitl [HT0]; · iexact HT0
  isplitl [HT1]; · iexact HT1
  isplitl [A0]; · iexact A0
  isplitl [A1]; · iexact A1
  isplitl [A2]; · iexact A2
  isplitl [A3]; · iexact A3
  isplitl [A4]; · iexact A4
  iexact A5

/-- At the last point the invariant gives the tables and the scoped buffers back. -/
theorem phiN_exit (c : Dev nD) :
    (dat1 V c).Φ (Fin.last (cfgA (F := F)).N) ⊢ iprop(Pipeline.prefHeld pre1 c (fun _ => fullShare) (adm1 (F := F)).1 ∗ Pipeline.scopedRest spec1 c) := by
  rw [prefHeld1_eq, scopedRest1_eq, show (dat1 V c).Φ (Fin.last (cfgA (F := F)).N) = Phi1 V c (Fin.last _) from rfl]
  unfold Phi1 rest1
  iintro ⟨⟨%a0, -, HS0⟩, ⟨%a1, -, HS1⟩, ⟨%a2, -, HS2⟩, HT0, HT1, A0, A1, A2, A3, A4, A5⟩
  isplitl [HT0 HT1]
  · isplitl [HT0]; · iexact HT0
    iexact HT1
  isplitl [A0]; · iexact A0
  isplitl [A1]; · iexact A1
  isplitl [A2]; · iexact A2
  isplitl [A3]; · iexact A3
  isplitl [A4]; · iexact A4
  isplitl [A5]; · iexact A5
  isplitl [HS0]; · iexists a0; iexact HS0
  isplitl [HS1]; · iexists a1; iexact HS1
  iexists a2; iexact HS2

end Cert.KernelIdeal.R1

end
-- ==== Proof.KITables.lean ====
/-
  What the buffers the regions read hold when the regions run: the two schedule tables are the literals the first
  two host operations write, the projection's first operand is the activations narrowed to bf16, and its second the
  three weight arrays stacked, transposed and narrowed. The projection region changes none of the tables.
-/
import proofs.«121137_j11647951306945_2_alg».proof.Proof.KIRunDefs
import Idealize.ShloMosaic.Lib.StableHlo.Run

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Seg HostSeg RegionSeg)

variable {F : FTy → Type} [FloatOps F] [Named F] [Facts]

variable (m : (ℓ : Loc nD τ sig) → Buf (Elt F) ℓ)

/-- After the host operations the first table holds its literal. -/
theorem V1_main_c (c : Dev nD) :
    V1 m c (Proc.devRef .tc main_c) = ((fun i => lit0 (S2x68.rowMajor i)) : (⟨S2x68, .i32⟩ : BufTy).Contents (Elt F)) := by
  show StableHlo.after hostOps0 (V0 m c) (Proc.devRef .tc main_c) = _
  after_results <;> rfl

/-- After the host operations the second table holds its literal. -/
theorem V1_main_c_0 (c : Dev nD) :
    V1 m c (Proc.devRef .tc main_c_0) = ((fun i => lit1 (S2x68.rowMajor i)) : (⟨S2x68, .i32⟩ : BufTy).Contents (Elt F)) := by
  show StableHlo.after hostOps0 (V0 m c) (Proc.devRef .tc main_c_0) = _
  after_results <;> rfl

/-- The projection's first operand: the activations, narrowed. -/
theorem V1_main_v3 (c : Dev nD) :
    V1 m c (Proc.devRef .tc main_v3)
      = ((truncf .bf16 · bitsLt_bf16_f32) : (⟨S8192x1024, .f32⟩ : BufTy).Contents (Elt F) → (⟨S8192x1024, .bf16⟩ : BufTy).Contents (Elt F))
          (m ((c : Thread nD τ).loc main_arg0)) := by
  show StableHlo.after hostOps0 (V0 m c) (Proc.devRef .tc main_v3) = _
  after_results <;> rfl

/-- The projection's second operand: the three weight arrays stacked along the rows, transposed, narrowed. -/
theorem V1_main_v2 (c : Dev nD) :
    V1 m c (Proc.devRef .tc main_v2)
      = ((truncf .bf16 · bitsLt_bf16_f32) : (⟨S1024x3072, .f32⟩ : BufTy).Contents (Elt F) → (⟨S1024x3072, .bf16⟩ : BufTy).Contents (Elt F))
          (((transpose S1024x3072 [1, 0] · transposes_S3072x1024_S1024x3072_1_0) : (⟨S3072x1024, .f32⟩ : BufTy).Contents (Elt F) → (⟨S1024x3072, .f32⟩ : BufTy).Contents (Elt F))
            (concatenate S3072x1024 0 [⟨S1024x1024, m ((c : Thread nD τ).loc main_arg1)⟩, ⟨S1024x1024, m ((c : Thread nD τ).loc main_arg2)⟩,
              ⟨S1024x1024, m ((c : Thread nD τ).loc main_arg3)⟩] concatenates_S1024x1024_S1024x1024_S1024x1024_S3072x1024_d0)) := by
  show StableHlo.after hostOps0 (V0 m c) (Proc.devRef .tc main_v2) = _
  after_results <;> rfl

/-- The projection region leaves the first table as it was. -/
theorem W2_main_c (c : Dev nD) :
    W2 m c (Proc.devRef .tc main_c) = ((fun i => lit0 (S2x68.rowMajor i)) : (⟨S2x68, .i32⟩ : BufTy).Contents (Elt F)) :=
  (W2_of_ne m c main_c (by decide)).trans (V1_main_c m c)

/-- The projection region leaves the second table as it was. -/
theorem W2_main_c_0 (c : Dev nD) :
    W2 m c (Proc.devRef .tc main_c_0) = ((fun i => lit1 (S2x68.rowMajor i)) : (⟨S2x68, .i32⟩ : BufTy).Contents (Elt F)) :=
  (W2_of_ne m c main_c_0 (by decide)).trans (V1_main_c_0 m c)

end Cert.KernelIdeal.Run

end
-- ==== Proof.KIRun.lean ====
/-
  The run of the idealized program's @main, put together: the host operations, the projection region and the attention
  region as segments at their proof data, launched once; read at the end, every argument array holds what it held at
  launch and the result array holds what the attention region's write-backs leave.
-/
import proofs.«121137_j11647951306945_2_alg».proof.Proof.KIRun0
import proofs.«121137_j11647951306945_2_alg».proof.Proof.KIRun1
import proofs.«121137_j11647951306945_2_alg».proof.Proof.KIRegion1Body
import proofs.«121137_j11647951306945_2_alg».proof.Proof.KITables

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F] [Named F] [Facts]

local notation "𝕄" => MT nD τ sig Unit (Elt F) ℕ (UR sig nD τ) ℕ

variable (m : (ℓ : Loc nD τ sig) → Buf (Elt F) ℓ) (ρ : Dev nD → PrngReg)

/-- The attention region's proof data, at the buffers it is entered with. -/
abbrev D1 : (c : Dev nD) → Dat τ (Elt F) Unit ℕ (UR sig nD τ) ℕ (cfg1 (R1.adm1 (F := F))) c := fun c => R1.dat1 (U2 m) c

/-- The tables hold, when the attention region is entered, the contents its pipeline is pinned at. -/
theorem tables_eq (c : Dev nD) : (fun k => U2 m c (pre1.ref k)) = (R1.adm1 (F := F)).1 := by
  funext k
  match k with
  | ⟨0, _⟩ => exact W2_main_c m c
  | ⟨1, _⟩ => exact W2_main_c_0 m c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of @main terminates, and at the end every unscoped buffer holds the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m (R1.adm1 (F := F)) (D1 m) c b) :=
  run_cond m emb₁ () 𝒱₀ L lv (fun _ _ => rfl) ρ (W2 m) (W3 m (R1.adm1 (F := F)) (D1 m)) (adm (R1.adm1 (F := F)))
    (pdats m (R1.adm1 (F := F)) (D1 m)) 0 (fun _ => iprop(emp))
    (initOf (Pipeline.cells (Pipeline.pin (pcfgs (F := F)) (adm (R1.adm1 (F := F)))) (cellOf_inj _)) (Pipeline.launchToks (Pipeline.pin (pcfgs (F := F)) (adm (R1.adm1 (F := F)))) (cellOf_inj _)))
    (by
      iintro Hu; imodintro
      isplitl [Hu]
      · iapply (show (ownU (initOf (Pipeline.cells (Pipeline.pin (pcfgs (F := F)) (adm (R1.adm1 (F := F)))) (cellOf_inj _)) (Pipeline.launchToks (Pipeline.pin (pcfgs (F := F)) (adm (R1.adm1 (F := F)))) (cellOf_inj _))) : sProp 𝕄)
            ⊢ BI.own (emb₁ (initOf (Pipeline.cells (Pipeline.pin (pcfgs (F := F)) (adm (R1.adm1 (F := F)))) (cellOf_inj _)) (Pipeline.launchToks (Pipeline.pin (pcfgs (F := F)) (adm (R1.adm1 (F := F)))) (cellOf_inj _)))) from .rfl)
        iexact Hu
      iapply (show (BI.emp : sProp 𝕄) ⊢ bigSep Finset.univ (fun _ : Dev nD => (BI.emp : sProp 𝕄)) from by rw [BI.bigSep_emp_const])
      iempintro)
    (fun _ c => R c)
    (Pipeline.initEach L lv fun c => by
      iintro ⟨⟨-, HO, -, Hp, -⟩, -⟩
      imodintro
      isplitl [Hp]; · iexists _; iexact Hp
      iexists ∅; iexact HO)
    (fun c => by iintro ⟨-, HO⟩; iexact HO)
    (reg0 m (R1.adm1 (F := F)) (D1 m)) (fun _ => .rfl) (fun _ => .rfl)
    (reg1 (R1.adm1 (F := F)) (D1 m) m (fun c => rfl) (fun c => rfl) (fun c => rfl) (fun c => rfl)
      (fun c w => R1.A_eq1 (U2 m) c w) (tables_eq m) (fun c => R1.phi0_intro (U2 m) c) (fun c => R1.phiN_exit (U2 m) c)
      (fun _ _ => rfl) (fun _ _ => rfl) (fun c => R1.body_obligation1 (U2 m) c))
    (fun _ => .rfl) (fun _ => .rfl)

/-- An argument array reaches the end as launched: no host operation writes it and no region may change it. -/
theorem W3_arg (c : Dev nD) (b : Ref sig .tc) (h5 : b ≠ main_v5) (h0 : ∀ w, Pipeline.arrRef spec0 w ≠ b) (hw : b ∉ hostOps0_W) :
    W3 m (R1.adm1 (F := F)) (D1 m) c (Proc.devRef .tc b) = m ((c : Thread nD τ).loc b) :=
  (W3_of_ne m _ _ c b h5).trans ((W2_of_ne m c b h0).trans ((V1_of m c b hw).trans rfl))

/-- The frame: the four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_arg m c main_arg0 (by decide) (by decide) (by decide)),
     (h c _ (mem_uc main_arg1 (by decide))).trans (W3_arg m c main_arg1 (by decide) (by decide) (by decide)),
     (h c _ (mem_uc main_arg2 (by decide))).trans (W3_arg m c main_arg2 (by decide) (by decide) (by decide)),
     (h c _ (mem_uc main_arg3 (by decide))).trans (W3_arg m c main_arg3 (by decide) (by decide) (by decide))⟩) (run_main m ρ)

/-- The run with the result array named: what the attention region's write-backs leave in it. -/
theorem run_value : θ_run defs (onTc (τ := τ) (main (F := F))) ⟨m, fun _ => 0, ρ⟩ (fun r => ∀ c : Dev nD,
      r.2.mem ((c.tc : Thread nD τ).loc main_v5) = (R1.dat1 (U2 m) c).arrAt 3 (R1.cfgA (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v5 (by decide))).trans (W3_v5 m _ _ c),
     (h c _ (mem_uc main_arg0 (by decide))).trans (W3_arg m c main_arg0 (by decide) (by decide) (by decide)),
     (h c _ (mem_uc main_arg1 (by decide))).trans (W3_arg m c main_arg1 (by decide) (by decide) (by decide)),
     (h c _ (mem_uc main_arg2 (by decide))).trans (W3_arg m c main_arg2 (by decide) (by decide) (by decide)),
     (h c _ (mem_uc main_arg3 (by decide))).trans (W3_arg m c main_arg3 (by decide) (by decide) (by decide))⟩) (run_main m ρ)

end Cert.KernelIdeal.Run

end
-- ==== Proof.KIEasy.lean ====
/-
  Two of the claim's conjuncts that need no argument of their own: the reference program runs and leaves its
  arguments unchanged (its run, with the result's value forgotten), and the one rewrite the exact-value reading of
  the kernel made — the mask's constant named `⊥` — is the table's entry for that name.
-/
import proofs.«121137_j11647951306945_2_alg».proof.Defs
import proofs.«121137_j11647951306945_2_alg».proof.Proof.Gen.ReferenceIdeal
import proofs.«121137_j11647951306945_2_alg».proof.Proof.Gen.Pre_finite_inputs
import proofs.«121137_j11647951306945_2_alg».proof.Proof.Gen.ReferenceIdeal.Run

noncomputable section

namespace Cert.Proof.Easy

open Idealize.ShloMosaic Idealize.SL.Sem

/-- The reference runs and its argument arrays end unchanged. -/
theorem frame_ri :
    Cert.frame_ReferenceIdeal (hReferenceIdeal := Cert.ReferenceIdeal.Gen.facts)
      (hPre_finite_inputs := Cert.Pre_finite_inputs.Gen.facts) :=
  fun m ρ _ =>
    (θ_run Cert.ReferenceIdeal.defs _ _).mono (fun _ h c => (h c).2) (Cert.ReferenceIdeal.Value.run (F := Ideal) m ρ)

/-- The table gives the mask's name the value `⊥`, and the named constant is that value at the exact values. -/
theorem preserves : Cert.preserves_Kernel_KernelIdeal :=
  IdealRules.named_const.statement Cert.KernelIdeal.κ "neg_big" .f32 0xFF333332#32 ⊥ rfl

end Cert.Proof.Easy

end
-- ==== Proof.KIPieces.lean ====
/-
  What each path of the attention kernel's body leaves in the three carried buffers (running maximum, normaliser,
  weighted sum) and, on the diagonal paths, in the output block, as the body's arithmetic of what it read.

  On every path the body loads the query, key and value blocks whole, loads each carried buffer whole before it
  stores into it whole, and every store is of one payload of those loads. Without a reset the loads read what the
  buffers held; after a reset they read back the reset's own stores (maximum "-∞", normaliser 0, weighted sum 0). On
  the diagonal the output block is stored last, from the weighted sum and the normaliser read back after their
  update: the quotient of the NEW weighted sum by the NEW normaliser.
-/
import proofs.«121137_j11647951306945_2_alg».proof.Proof.KIRegion1Runs
import Idealize.ShloMosaic.Lib.Pipeline.Value

set_option maxRecDepth 16384

noncomputable section

namespace Cert.KernelIdeal.R1

open Cert.KernelIdeal Cert.KernelIdeal.Gen
open Idealize.ShloMosaic
open Idealize.ShloMosaic.TcCoe Idealize.ShloMosaic.Tactic
open Idealize.SL Idealize.SL.Sem

variable {F : FTy → Type} [FloatOps F] [Named F]

theorem hz00 : (![0, 0] : Fin 2 → Nat) = fun _ => 0 := funext fun a => by fin_cases a <;> rfl

/-- A whole-buffer store, last, leaves its payload; a load through the last store's own rectangle reads that store's
    payload; a whole-buffer load of a buffer reads its contents. -/
local macro "whole_buffer_reads" : tactic => `(tactic| (
  rw [View.canon_cons_unit_zero hz00]
  simp only [View.readCov_cons_toLoadRect,
    View.readAt_eq_ld, View.read_rep, View.ld_unit_zero (S := S512x1024) hz00, View.ld_unit_zero (S := S512x1) hz00]))

/-- What a path found in a carried buffer, read as a vector: the canon of the path's stores into it. -/
local macro "read_found" : tactic => `(tactic| (
  dsimp only
  rw [View.read_writes_junk_eq_canon]
  sl_unfold_run_names
  whole_buffer_reads))

/-! ## No reset, off the diagonal -/

/-- The new running maximum, from the old one. -/
theorem runD_m (c : Dev nD) (i : grid1.Coords)
    (arg4 : Memref sig .tc .vmem S512x1024 .bf16) (harg4 : arg4.IsWhole) (arg5 : Memref sig .tc .vmem S512x1024 .bf16) (harg5 : arg5.IsWhole)
    (arg6 : Memref sig .tc .vmem S512x1024 .bf16) (harg6 : arg6.IsWhole) (arg7 : Memref sig .tc .vmem S512x1024 .f32) (harg7 : arg7.IsWhole)
    (T0 T1 : S2x68.Idx → Elt F .i32) (x0 x1 x2 : S512x1024.Idx → Elt F .bf16)
    (xm : Buf (Elt F) ((c : Thread nD τ).loc cc1_scratch0)) (xl : Buf (Elt F) ((c : Thread nD τ).loc cc1_scratch1))
    (xa : Buf (Elt F) ((c : Thread nD τ).loc cc1_scratch2))
    (h8 : ¬((Scalar.cmpi .ne (Scalar.extui (Scalar.cmpi .eq (wk i T1) 0#32)) 0#32) = 1#1))
    (h20 : ¬((Scalar.cmpi .ne (Scalar.extui (Scalar.cmpi .eq (wk i T1) (wq i T0))) 0#32) = 1#1)) :
    scM1_0.view.read (Elt F) (kernelRun1_D c i arg4 harg4 arg5 harg5 arg6 harg6 arg7 harg7 T0 T1 x0 x1 x2 xm xl xa h8 h20).1
      = k1_pay18 x0 x1 (scM1_0.view.read (Elt F) xm) := by
  unfold kernelRun1_D
  read_found

/-- The new normaliser, from the old maximum and the old normaliser. -/
theorem runD_l (c : Dev nD) (i : grid1.Coords)
    (arg4 : Memref sig .tc .vmem S512x1024 .bf16) (harg4 : arg4.IsWhole) (arg5 : Memref sig .tc .vmem S512x1024 .bf16) (harg5 : arg5.IsWhole)
    (arg6 : Memref sig .tc .vmem S512x1024 .bf16) (harg6 : arg6.IsWhole) (arg7 : Memref sig .tc .vmem S512x1024 .f32) (harg7 : arg7.IsWhole)
    (T0 T1 : S2x68.Idx → Elt F .i32) (x0 x1 x2 : S512x1024.Idx → Elt F .bf16)
    (xm : Buf (Elt F) ((c : Thread nD τ).loc cc1_scratch0)) (xl : Buf (Elt F) ((c : Thread nD τ).loc cc1_scratch1))
    (xa : Buf (Elt F) ((c : Thread nD τ).loc cc1_scratch2))
    (h8 : ¬((Scalar.cmpi .ne (Scalar.extui (Scalar.cmpi .eq (wk i T1) 0#32)) 0#32) = 1#1))
    (h20 : ¬((Scalar.cmpi .ne (Scalar.extui (Scalar.cmpi .eq (wk i T1) (wq i T0))) 0#32) = 1#1)) :
    scM1_1.view.read (Elt F) (kernelRun1_D c i arg4 harg4 arg5 harg5 arg6 harg6 arg7 harg7 T0 T1 x0 x1 x2 xm xl xa h8 h20).2.1
      = k1_pay16 x0 x1 (scM1_0.view.read (Elt F) xm) (scM1_1.view.read (Elt F) xl) := by
  unfold kernelRun1_D
  read_found

/-- The new weighted sum, from the old maximum and the old weighted sum. -/
theorem runD_a (c : Dev nD) (i : grid1.Coords)
    (arg4 : Memref sig .tc .vmem S512x1024 .bf16) (harg4 : arg4.IsWhole) (arg5 : Memref sig .tc .vmem S512x1024 .bf16) (harg5 : arg5.IsWhole)
    (arg6 : Memref sig .tc .vmem S512x1024 .bf16) (harg6 : arg6.IsWhole) (arg7 : Memref sig .tc .vmem S512x1024 .f32) (harg7 : arg7.IsWhole)
    (T0 T1 : S2x68.Idx → Elt F .i32) (x0 x1 x2 : S512x1024.Idx → Elt F .bf16)
    (xm : Buf (Elt F) ((c : Thread nD τ).loc cc1_scratch0)) (xl : Buf (Elt F) ((c : Thread nD τ).loc cc1_scratch1))
    (xa : Buf (Elt F) ((c : Thread nD τ).loc cc1_scratch2))
    (h8 : ¬((Scalar.cmpi .ne (Scalar.extui (Scalar.cmpi .eq (wk i T1) 0#32)) 0#32) = 1#1))
    (h20 : ¬((Scalar.cmpi .ne (Scalar.extui (Scalar.cmpi .eq (wk i T1) (wq i T0))) 0#32) = 1#1)) :
    scM1_2.view.read (Elt F) (kernelRun1_D c i arg4 harg4 arg5 harg5 arg6 harg6 arg7 harg7 T0 T1 x0 x1 x2 xm xl xa h8 h20).2.2.1
      = k1_pay17 x0 x1 x2 (scM1_0.view.read (Elt F) xm) (scM1_2.view.read (Elt F) xa) := by
  unfold kernelRun1_D
  read_found

/-! ## Reset, off the diagonal -/

/-- The new running maximum, from the reset one. -/
theorem runB_m (c : Dev nD) (i : grid1.Coords)
    (arg4 : Memref sig .tc .vmem S512x1024 .bf16) (harg4 : arg4.IsWhole) (arg5 : Memref sig .tc .vmem S512x1024 .bf16) (harg5 : arg5.IsWhole)
    (arg6 : Memref sig .tc .vmem S512x1024 .bf16) (harg6 : arg6.IsWhole) (arg7 : Memref sig .tc .vmem S512x1024 .f32) (harg7 : arg7.IsWhole)
    (T0 T1 : S2x68.Idx → Elt F .i32) (x0 x1 x2 : S512x1024.Idx → Elt F .bf16)
    (h8 : ((Scalar.cmpi .ne (Scalar.extui (Scalar.cmpi .eq (wk i T1) 0#32)) 0#32) = 1#1))
    (h20 : ¬((Scalar.cmpi .ne (Scalar.extui (Scalar.cmpi .eq (wk i T1) (wq i T0))) 0#32) = 1#1)) :
    scM1_0.view.read (Elt F) (kernelRun1_B c i arg4 harg4 arg5 harg5 arg6 harg6 arg7 harg7 T0 T1 x0 x1 x2 h8 h20).1
      = k1_pay18 x0 x1 (k1_pay1 (F := F)) := by
  unfold kernelRun1_B
  read_found

/-- The new normaliser, from the reset maximum and the reset normaliser. -/
theorem runB_l (c : Dev nD) (i : grid1.Coords)
    (arg4 : Memref sig .tc .vmem S512x1024 .bf16) (harg4 : arg4.IsWhole) (arg5 : Memref sig .tc .vmem S512x1024 .bf16) (harg5 : arg5.IsWhole)
    (arg6 : Memref sig .tc .vmem S512x1024 .bf16) (harg6 : arg6.IsWhole) (arg7 : Memref sig .tc .vmem S512x1024 .f32) (harg7 : arg7.IsWhole)
    (T0 T1 : S2x68.Idx → Elt F .i32) (x0 x1 x2 : S512x1024.Idx → Elt F .bf16)
    (h8 : ((Scalar.cmpi .ne (Scalar.extui (Scalar.cmpi .eq (wk i T1) 0#32)) 0#32) = 1#1))
    (h20 : ¬((Scalar.cmpi .ne (Scalar.extui (Scalar.cmpi .eq (wk i T1) (wq i T0))) 0#32) = 1#1)) :
    scM1_1.view.read (Elt F) (kernelRun1_B c i arg4 harg4 arg5 harg5 arg6 harg6 arg7 harg7 T0 T1 x0 x1 x2 h8 h20).2.1
      = k1_pay16 x0 x1 (k1_pay1 (F := F)) (k1_pay2 (F := F)) := by
  unfold kernelRun1_B
  read_found

/-- The new weighted sum, from the reset maximum and the reset weighted sum. -/
theorem runB_a (c : Dev nD) (i : grid1.Coords)
    (arg4 : Memref sig .tc .vmem S512x1024 .bf16) (harg4 : arg4.IsWhole) (arg5 : Memref sig .tc .vmem S512x1024 .bf16) (harg5 : arg5.IsWhole)
    (arg6 : Memref sig .tc .vmem S512x1024 .bf16) (harg6 : arg6.IsWhole) (arg7 : Memref sig .tc .vmem S512x1024 .f32) (harg7 : arg7.IsWhole)
    (T0 T1 : S2x68.Idx → Elt F .i32) (x0 x1 x2 : S512x1024.Idx → Elt F .bf16)
    (h8 : ((Scalar.cmpi .ne (Scalar.extui (Scalar.cmpi .eq (wk i T1) 0#32)) 0#32) = 1#1))
    (h20 : ¬((Scalar.cmpi .ne (Scalar.extui (Scalar.cmpi .eq (wk i T1) (wq i T0))) 0#32) = 1#1)) :
    scM1_2.view.read (Elt F) (kernelRun1_B c i arg4 harg4 arg5 harg5 arg6 harg6 arg7 harg7 T0 T1 x0 x1 x2 h8 h20).2.2.1
      = k1_pay17 x0 x1 x2 (k1_pay1 (F := F)) (k1_pay3 (F := F)) := by
  unfold kernelRun1_B
  read_found

/-! ## No reset, on the diagonal -/

/-- The new running maximum, from the old one. -/
theorem runC_m (c : Dev nD) (i : grid1.Coords)
    (arg4 : Memref sig .tc .vmem S512x1024 .bf16) (harg4 : arg4.IsWhole) (arg5 : Memref sig .tc .vmem S512x1024 .bf16) (harg5 : arg5.IsWhole)
    (arg6 : Memref sig .tc .vmem S512x1024 .bf16) (harg6 : arg6.IsWhole) (arg7 : Memref sig .tc .vmem S512x1024 .f32) (harg7 : arg7.IsWhole)
    (T0 T1 : S2x68.Idx → Elt F .i32) (x0 x1 x2 : S512x1024.Idx → Elt F .bf16)
    (xm : Buf (Elt F) ((c : Thread nD τ).loc cc1_scratch0)) (xl : Buf (Elt F) ((c : Thread nD τ).loc cc1_scratch1))
    (xa : Buf (Elt F) ((c : Thread nD τ).loc cc1_scratch2))
    (h8 : ¬((Scalar.cmpi .ne (Scalar.extui (Scalar.cmpi .eq (wk i T1) 0#32)) 0#32) = 1#1))
    (h20 : ((Scalar.cmpi .ne (Scalar.extui (Scalar.cmpi .eq (wk i T1) (wq i T0))) 0#32) = 1#1)) :
    scM1_0.view.read (Elt F) (kernelRun1_C c i arg4 harg4 arg5 harg5 arg6 harg6 arg7 harg7 T0 T1 x0 x1 x2 xm xl xa h8 h20).2.1
      = k1_pay12 x0 x1 (scM1_0.view.read (Elt F) xm) := by
  unfold kernelRun1_C
  read_found

/-- The new normaliser, from the old maximum and the old normaliser. -/
theorem runC_l (c : Dev nD) (i : grid1.Coords)
    (arg4 : Memref sig .tc .vmem S512x1024 .bf16) (harg4 : arg4.IsWhole) (arg5 : Memref sig .tc .vmem S512x1024 .bf16) (harg5 : arg5.IsWhole)
    (arg6 : Memref sig .tc .vmem S512x1024 .bf16) (harg6 : arg6.IsWhole) (arg7 : Memref sig .tc .vmem S512x1024 .f32) (harg7 : arg7.IsWhole)
    (T0 T1 : S2x68.Idx → Elt F .i32) (x0 x1 x2 : S512x1024.Idx → Elt F .bf16)
    (xm : Buf (Elt F) ((c : Thread nD τ).loc cc1_scratch0)) (xl : Buf (Elt F) ((c : Thread nD τ).loc cc1_scratch1))
    (xa : Buf (Elt F) ((c : Thread nD τ).loc cc1_scratch2))
    (h8 : ¬((Scalar.cmpi .ne (Scalar.extui (Scalar.cmpi .eq (wk i T1) 0#32)) 0#32) = 1#1))
    (h20 : ((Scalar.cmpi .ne (Scalar.extui (Scalar.cmpi .eq (wk i T1) (wq i T0))) 0#32) = 1#1)) :
    scM1_1.view.read (Elt F) (kernelRun1_C c i arg4 harg4 arg5 harg5 arg6 harg6 arg7 harg7 T0 T1 x0 x1 x2 xm xl xa h8 h20).2.2.1
      = k1_pay10 x0 x1 (scM1_0.view.read (Elt F) xm) (scM1_1.view.read (Elt F) xl) := by
  unfold kernelRun1_C
  read_found

/-- The new weighted sum, from the old maximum and the old weighted sum. -/
theorem runC_a (c : Dev nD) (i : grid1.Coords)
    (arg4 : Memref sig .tc .vmem S512x1024 .bf16) (harg4 : arg4.IsWhole) (arg5 : Memref sig .tc .vmem S512x1024 .bf16) (harg5 : arg5.IsWhole)
    (arg6 : Memref sig .tc .vmem S512x1024 .bf16) (harg6 : arg6.IsWhole) (arg7 : Memref sig .tc .vmem S512x1024 .f32) (harg7 : arg7.IsWhole)
    (T0 T1 : S2x68.Idx → Elt F .i32) (x0 x1 x2 : S512x1024.Idx → Elt F .bf16)
    (xm : Buf (Elt F) ((c : Thread nD τ).loc cc1_scratch0)) (xl : Buf (Elt F) ((c : Thread nD τ).loc cc1_scratch1))
    (xa : Buf (Elt F) ((c : Thread nD τ).loc cc1_scratch2))
    (h8 : ¬((Scalar.cmpi .ne (Scalar.extui (Scalar.cmpi .eq (wk i T1) 0#32)) 0#32) = 1#1))
    (h20 : ((Scalar.cmpi .ne (Scalar.extui (Scalar.cmpi .eq (wk i T1) (wq i T0))) 0#32) = 1#1)) :
    scM1_2.view.read (Elt F) (kernelRun1_C c i arg4 harg4 arg5 harg5 arg6 harg6 arg7 harg7 T0 T1 x0 x1 x2 xm xl xa h8 h20).2.2.2.1
      = k1_pay11 x0 x1 x2 (scM1_0.view.read (Elt F) xm) (scM1_2.view.read (Elt F) xa) := by
  unfold kernelRun1_C
  read_found

/-- The output block: the quotient payload of the new weighted sum and the new normaliser. -/
theorem runC_o (c : Dev nD) (i : grid1.Coords)
    (arg4 : Memref sig .tc .vmem S512x1024 .bf16) (harg4 : arg4.IsWhole) (arg5 : Memref sig .tc .vmem S512x1024 .bf16) (harg5 : arg5.IsWhole)
    (arg6 : Memref sig .tc .vmem S512x1024 .bf16) (harg6 : arg6.IsWhole) (arg7 : Memref sig .tc .vmem S512x1024 .f32) (harg7 : arg7.IsWhole)
    (T0 T1 : S2x68.Idx → Elt F .i32) (x0 x1 x2 : S512x1024.Idx → Elt F .bf16)
    (xm : Buf (Elt F) ((c : Thread nD τ).loc cc1_scratch0)) (xl : Buf (Elt F) ((c : Thread nD τ).loc cc1_scratch1))
    (xa : Buf (Elt F) ((c : Thread nD τ).loc cc1_scratch2))
    (h8 : ¬((Scalar.cmpi .ne (Scalar.extui (Scalar.cmpi .eq (wk i T1) 0#32)) 0#32) = 1#1))
    (h20 : ((Scalar.cmpi .ne (Scalar.extui (Scalar.cmpi .eq (wk i T1) (wq i T0))) 0#32) = 1#1)) :
    out1_C c i arg4 harg4 arg5 harg5 arg6 harg6 arg7 harg7 T0 T1 x0 x1 x2 xm xl xa h8 h20
      = k1_pay19 (k1_pay11 x0 x1 x2 (scM1_0.view.read (Elt F) xm) (scM1_2.view.read (Elt F) xa)) (k1_pay10 x0 x1 (scM1_0.view.read (Elt F) xm) (scM1_1.view.read (Elt F) xl)) := by
  unfold out1_C
  rw [View.read_writes_junk_eq_canon]
  unfold kernelRun1_C
  dsimp only
  sl_unfold_run_names
  whole_buffer_reads

/-! ## Reset, on the diagonal -/

/-- The new running maximum, from the reset one. -/
theorem runA_m (c : Dev nD) (i : grid1.Coords)
    (arg4 : Memref sig .tc .vmem S512x1024 .bf16) (harg4 : arg4.IsWhole) (arg5 : Memref sig .tc .vmem S512x1024 .bf16) (harg5 : arg5.IsWhole)
    (arg6 : Memref sig .tc .vmem S512x1024 .bf16) (harg6 : arg6.IsWhole) (arg7 : Memref sig .tc .vmem S512x1024 .f32) (harg7 : arg7.IsWhole)
    (T0 T1 : S2x68.Idx → Elt F .i32) (x0 x1 x2 : S512x1024.Idx → Elt F .bf16)
    (h8 : ((Scalar.cmpi .ne (Scalar.extui (Scalar.cmpi .eq (wk i T1) 0#32)) 0#32) = 1#1))
    (h20 : ((Scalar.cmpi .ne (Scalar.extui (Scalar.cmpi .eq (wk i T1) (wq i T0))) 0#32) = 1#1)) :
    scM1_0.view.read (Elt F) (kernelRun1_A c i arg4 harg4 arg5 harg5 arg6 harg6 arg7 harg7 T0 T1 x0 x1 x2 h8 h20).2.1
      = k1_pay12 x0 x1 (k1_pay1 (F := F)) := by
  unfold kernelRun1_A
  read_found

/-- The new normaliser, from the reset maximum and the reset normaliser. -/
theorem runA_l (c : Dev nD) (i : grid1.Coords)
    (arg4 : Memref sig .tc .vmem S512x1024 .bf16) (harg4 : arg4.IsWhole) (arg5 : Memref sig .tc .vmem S512x1024 .bf16) (harg5 : arg5.IsWhole)
    (arg6 : Memref sig .tc .vmem S512x1024 .bf16) (harg6 : arg6.IsWhole) (arg7 : Memref sig .tc .vmem S512x1024 .f32) (harg7 : arg7.IsWhole)
    (T0 T1 : S2x68.Idx → Elt F .i32) (x0 x1 x2 : S512x1024.Idx → Elt F .bf16)
    (h8 : ((Scalar.cmpi .ne (Scalar.extui (Scalar.cmpi .eq (wk i T1) 0#32)) 0#32) = 1#1))
    (h20 : ((Scalar.cmpi .ne (Scalar.extui (Scalar.cmpi .eq (wk i T1) (wq i T0))) 0#32) = 1#1)) :
    scM1_1.view.read (Elt F) (kernelRun1_A c i arg4 harg4 arg5 harg5 arg6 harg6 arg7 harg7 T0 T1 x0 x1 x2 h8 h20).2.2.1
      = k1_pay10 x0 x1 (k1_pay1 (F := F)) (k1_pay2 (F := F)) := by
  unfold kernelRun1_A
  read_found

/-- The new weighted sum, from the reset maximum and the reset weighted sum. -/
theorem runA_a (c : Dev nD) (i : grid1.Coords)
    (arg4 : Memref sig .tc .vmem S512x1024 .bf16) (harg4 : arg4.IsWhole) (arg5 : Memref sig .tc .vmem S512x1024 .bf16) (harg5 : arg5.IsWhole)
    (arg6 : Memref sig .tc .vmem S512x1024 .bf16) (harg6 : arg6.IsWhole) (arg7 : Memref sig .tc .vmem S512x1024 .f32) (harg7 : arg7.IsWhole)
    (T0 T1 : S2x68.Idx → Elt F .i32) (x0 x1 x2 : S512x1024.Idx → Elt F .bf16)
    (h8 : ((Scalar.cmpi .ne (Scalar.extui (Scalar.cmpi .eq (wk i T1) 0#32)) 0#32) = 1#1))
    (h20 : ((Scalar.cmpi .ne (Scalar.extui (Scalar.cmpi .eq (wk i T1) (wq i T0))) 0#32) = 1#1)) :
    scM1_2.view.read (Elt F) (kernelRun1_A c i arg4 harg4 arg5 harg5 arg6 harg6 arg7 harg7 T0 T1 x0 x1 x2 h8 h20).2.2.2.1
      = k1_pay11 x0 x1 x2 (k1_pay1 (F := F)) (k1_pay3 (F := F)) := by
  unfold kernelRun1_A
  read_found

/-- The output block: the quotient payload of the new weighted sum and the new normaliser. -/
theorem runA_o (c : Dev nD) (i : grid1.Coords)
    (arg4 : Memref sig .tc .vmem S512x1024 .bf16) (harg4 : arg4.IsWhole) (arg5 : Memref sig .tc .vmem S512x1024 .bf16) (harg5 : arg5.IsWhole)
    (arg6 : Memref sig .tc .vmem S512x1024 .bf16) (harg6 : arg6.IsWhole) (arg7 : Memref sig .tc .vmem S512x1024 .f32) (harg7 : arg7.IsWhole)
    (T0 T1 : S2x68.Idx → Elt F .i32) (x0 x1 x2 : S512x1024.Idx → Elt F .bf16)
    (h8 : ((Scalar.cmpi .ne (Scalar.extui (Scalar.cmpi .eq (wk i T1) 0#32)) 0#32) = 1#1))
    (h20 : ((Scalar.cmpi .ne (Scalar.extui (Scalar.cmpi .eq (wk i T1) (wq i T0))) 0#32) = 1#1)) :
    out1_A c i arg4 harg4 arg5 harg5 arg6 harg6 arg7 harg7 T0 T1 x0 x1 x2 h8 h20
      = k1_pay19 (k1_pay11 x0 x1 x2 (k1_pay1 (F := F)) (k1_pay3 (F := F))) (k1_pay10 x0 x1 (k1_pay1 (F := F)) (k1_pay2 (F := F))) := by
  unfold out1_A
  rw [View.read_writes_junk_eq_canon]
  unfold kernelRun1_A
  dsimp only
  sl_unfold_run_names
  whole_buffer_reads

end Cert.KernelIdeal.R1

end
-- ==== Proof.KIBlocks1.lean ====
/-
  The attention region's blocks in the coordinates of their arrays. At grid point `t` the two schedule tables name a
  query block `qiN t` and a key block `kiN t` (both below 16, the key block at most the query block). The query, key and
  value windows read the 8192 by 3072 array of the three projections in blocks of 512 rows by 1024 columns: rows
  `512 · qiN t …` of its first 1024 columns, rows `512 · kiN t …` of its second and of its third 1024 columns. The
  output window writes rows `512 · qiN t …` of the 8192 by 1024 result. An element of a block sits in its array, on each
  axis, at the block's index times the block's size plus its own coordinate.
-/
import proofs.«121137_j11647951306945_2_alg».proof.Proof.KIRegion1Facts
import Idealize.ShloMosaic.Lib.Pipeline.Value
import Idealize.ShloMosaic.Lib.ValueIdx

set_option maxRecDepth 16384
set_option Elab.async false

noncomputable section

namespace Cert.KernelIdeal.R1

open Cert.KernelIdeal Cert.KernelIdeal.Gen
open Idealize.ShloMosaic Idealize.ShloMosaic.TcCoe Idealize.ShloMosaic.ValueIdx
open Idealize.ShloMosaic.Pipeline (Dat Cfg Window)

variable {F : FTy → Type} [FloatOps F] [Named F]

/-! ## A block's element in its array, at any contents of the tables -/

section AnyTables

variable (a1 : (pcfg1 (F := F)).Adm)

theorem blk_read0 (X : S8192x3072.Idx → Elt F .bf16) (t : Fin (cfg1 a1).N) (a : Fin 512) (d : Fin 1024)
    (r : Fin 8192) (col : Fin 3072)
    (hr : r.val = ((cfg1 a1).win (0 : Fin 4)).index t (0 : Fin 2) * 512 + a.val)
    (hc : col.val = ((cfg1 a1).win (0 : Fin 4)).index t (1 : Fin 2) * 1024 + d.val) :
    (((cfg1 a1).win (0 : Fin 4)).blk t).view.read (Elt F) X (ix2 a d) = X (ix2 r col) := by
  rw [View.read_apply]
  show X _ = X _
  congr 1
  funext ax
  apply Fin.ext
  match ax with
  | ⟨0, _⟩ => show ((cfg1 a1).win (0 : Fin 4)).index t (0 : Fin 2) * 512 + 1 * a.val = r.val; omega
  | ⟨1, _⟩ => show ((cfg1 a1).win (0 : Fin 4)).index t (1 : Fin 2) * 1024 + 1 * d.val = col.val; omega

theorem blk_read1 (X : S8192x3072.Idx → Elt F .bf16) (t : Fin (cfg1 a1).N) (a : Fin 512) (d : Fin 1024)
    (r : Fin 8192) (col : Fin 3072)
    (hr : r.val = ((cfg1 a1).win (1 : Fin 4)).index t (0 : Fin 2) * 512 + a.val)
    (hc : col.val = ((cfg1 a1).win (1 : Fin 4)).index t (1 : Fin 2) * 1024 + d.val) :
    (((cfg1 a1).win (1 : Fin 4)).blk t).view.read (Elt F) X (ix2 a d) = X (ix2 r col) := by
  rw [View.read_apply]
  show X _ = X _
  congr 1
  funext ax
  apply Fin.ext
  match ax with
  | ⟨0, _⟩ => show ((cfg1 a1).win (1 : Fin 4)).index t (0 : Fin 2) * 512 + 1 * a.val = r.val; omega
  | ⟨1, _⟩ => show ((cfg1 a1).win (1 : Fin 4)).index t (1 : Fin 2) * 1024 + 1 * d.val = col.val; omega

theorem blk_read2 (X : S8192x3072.Idx → Elt F .bf16) (t : Fin (cfg1 a1).N) (a : Fin 512) (d : Fin 1024)
    (r : Fin 8192) (col : Fin 3072)
    (hr : r.val = ((cfg1 a1).win (2 : Fin 4)).index t (0 : Fin 2) * 512 + a.val)
    (hc : col.val = ((cfg1 a1).win (2 : Fin 4)).index t (1 : Fin 2) * 1024 + d.val) :
    (((cfg1 a1).win (2 : Fin 4)).blk t).view.read (Elt F) X (ix2 a d) = X (ix2 r col) := by
  rw [View.read_apply]
  show X _ = X _
  congr 1
  funext ax
  apply Fin.ext
  match ax with
  | ⟨0, _⟩ => show ((cfg1 a1).win (2 : Fin 4)).index t (0 : Fin 2) * 512 + 1 * a.val = r.val; omega
  | ⟨1, _⟩ => show ((cfg1 a1).win (2 : Fin 4)).index t (1 : Fin 2) * 1024 + 1 * d.val = col.val; omega

/-- Where an element of the output block sits in the result array. -/
theorem blk_emb3 (t : Fin (cfg1 a1).N) (y : S512x1024.Idx) (r : Fin 8192) (col : Fin 1024)
    (hr : r.val = ((cfg1 a1).win (3 : Fin 4)).index t (0 : Fin 2) * 512 + (y 0).val)
    (hc : col.val = ((cfg1 a1).win (3 : Fin 4)).index t (1 : Fin 2) * 1024 + (y 1).val) :
    (((cfg1 a1).win (3 : Fin 4)).blk t).view.emb y = (ix2 r col : S8192x1024.Idx) := by
  funext ax
  apply Fin.ext
  match ax with
  | ⟨0, _⟩ => show ((cfg1 a1).win (3 : Fin 4)).index t (0 : Fin 2) * 512 + 1 * (y 0).val = r.val; omega
  | ⟨1, _⟩ => show ((cfg1 a1).win (3 : Fin 4)).index t (1 : Fin 2) * 1024 + 1 * (y 1).val = col.val; omega

/-- An index of the result is in the output block at point `t` iff its row is one of the block's 512 rows, the
    block's row index being `n` and its column index 0. -/
theorem blk_mem3 (t : Fin (cfg1 a1).N) (i : S8192x1024.Idx) (n : ℕ)
    (h0 : ((cfg1 a1).win (3 : Fin 4)).index t (0 : Fin 2) = n) (h1 : ((cfg1 a1).win (3 : Fin 4)).index t (1 : Fin 2) = 0) :
    i ∈ (((cfg1 a1).win (3 : Fin 4)).blk t).view.set ↔ 512 * n ≤ (i 0).val ∧ (i 0).val < 512 * n + 512 := by
  show i ∈ ((View.whole main_v5).slice (((cfg1 a1).win (3 : Fin 4)).rect t)).set ↔ _
  rw [View.set_slice_whole, Rect.mem_set_unit]
  constructor
  · intro h
    have h' : ((cfg1 a1).win (3 : Fin 4)).index t (0 : Fin 2) * 512 ≤ (i 0).val
        ∧ (i 0).val < ((cfg1 a1).win (3 : Fin 4)).index t (0 : Fin 2) * 512 + 512 := h (0 : Fin 2)
    rw [h0] at h'
    omega
  · intro h ax
    match ax with
    | ⟨0, _⟩ =>
      show ((cfg1 a1).win (3 : Fin 4)).index t (0 : Fin 2) * 512 ≤ (i 0).val
        ∧ (i 0).val < ((cfg1 a1).win (3 : Fin 4)).index t (0 : Fin 2) * 512 + 512
      rw [h0]; omega
    | ⟨1, _⟩ =>
      show ((cfg1 a1).win (3 : Fin 4)).index t (1 : Fin 2) * 1024 ≤ (i 1).val
        ∧ (i 1).val < ((cfg1 a1).win (3 : Fin 4)).index t (1 : Fin 2) * 1024 + 1024
      rw [h1]; have := idx2_lt1 i; omega

end AnyTables

/-! ## The blocks the literal tables name -/

/-- The grid has 136 points. -/
theorem N_A : (cfgA (F := F)).N = 136 := N_1

/-- The query block of point `t`: the first table's word there, as a number. -/
def qiN (t : Fin (cfgA (F := F)).N) : ℕ := (lit0 ⟨t.val, lt_of_lt_of_eq t.isLt N_A⟩).toNat

/-- The key block of point `t`: the second table's word there, as a number. -/
def kiN (t : Fin (cfgA (F := F)).N) : ℕ := (lit1 ⟨t.val, lt_of_lt_of_eq t.isLt N_A⟩).toNat

/-- The four index maps at the literal tables, and the blocks' range, decided over the 136 points. -/
theorem idx1_all : ∀ t : Fin (cfgA (F := F)).N,
    ((cfgA (F := F)).win (0 : Fin 4)).index t (0 : Fin 2) = qiN t ∧ ((cfgA (F := F)).win (0 : Fin 4)).index t (1 : Fin 2) = 0
    ∧ ((cfgA (F := F)).win (1 : Fin 4)).index t (0 : Fin 2) = kiN t ∧ ((cfgA (F := F)).win (1 : Fin 4)).index t (1 : Fin 2) = 1
    ∧ ((cfgA (F := F)).win (2 : Fin 4)).index t (0 : Fin 2) = kiN t ∧ ((cfgA (F := F)).win (2 : Fin 4)).index t (1 : Fin 2) = 2
    ∧ ((cfgA (F := F)).win (3 : Fin 4)).index t (0 : Fin 2) = qiN t ∧ ((cfgA (F := F)).win (3 : Fin 4)).index t (1 : Fin 2) = 0
    ∧ qiN t < 16 ∧ kiN t ≤ qiN t := kdecide%

/-- The query block is one of the 16. -/
theorem qiN_lt (t : Fin (cfgA (F := F)).N) : qiN t < 16 := (idx1_all t).2.2.2.2.2.2.2.2.1
/-- The key block is at most the query block. -/
theorem kiN_le (t : Fin (cfgA (F := F)).N) : kiN t ≤ qiN t := (idx1_all t).2.2.2.2.2.2.2.2.2
/-- The key block is one of the 16. -/
theorem kiN_lt (t : Fin (cfgA (F := F)).N) : kiN t < 16 := lt_of_le_of_lt (kiN_le t) (qiN_lt t)

/-- The query window's block index at point `t`. -/
theorem idx1_0 (t : Fin (cfgA (F := F)).N) : ((cfgA (F := F)).win (0 : Fin 4)).index t = ![qiN t, 0] :=
  funext fun ax => match ax with
    | ⟨0, _⟩ => (idx1_all t).1
    | ⟨1, _⟩ => (idx1_all t).2.1
/-- The key window's block index at point `t`. -/
theorem idx1_1 (t : Fin (cfgA (F := F)).N) : ((cfgA (F := F)).win (1 : Fin 4)).index t = ![kiN t, 1] :=
  funext fun ax => match ax with
    | ⟨0, _⟩ => (idx1_all t).2.2.1
    | ⟨1, _⟩ => (idx1_all t).2.2.2.1
/-- The value window's block index at point `t`. -/
theorem idx1_2 (t : Fin (cfgA (F := F)).N) : ((cfgA (F := F)).win (2 : Fin 4)).index t = ![kiN t, 2] :=
  funext fun ax => match ax with
    | ⟨0, _⟩ => (idx1_all t).2.2.2.2.1
    | ⟨1, _⟩ => (idx1_all t).2.2.2.2.2.1
/-- The output window's block index at point `t`. -/
theorem idx1_3 (t : Fin (cfgA (F := F)).N) : ((cfgA (F := F)).win (3 : Fin 4)).index t = ![qiN t, 0] :=
  funext fun ax => match ax with
    | ⟨0, _⟩ => (idx1_all t).2.2.2.2.2.2.1
    | ⟨1, _⟩ => (idx1_all t).2.2.2.2.2.2.2.1

/-- The query block read off the projections' array: rows `512 · qiN t …`, the first 1024 columns. -/
theorem blk1_0_apply (X : S8192x3072.Idx → Elt F .bf16) (t : Fin (cfgA (F := F)).N) (a : Fin 512) (d : Fin 1024) :
    (((cfgA (F := F)).win (0 : Fin 4)).blk t).view.read (Elt F) X (ix2 a d)
      = X (ix2 (⟨512 * qiN t + a.val, by have := qiN_lt t; omega⟩ : Fin 8192) (⟨d.val, by omega⟩ : Fin 3072)) :=
  blk_read0 adm1 X t a d _ _
    (by rw [(idx1_all t).1] <;> (show 512 * qiN t + a.val = qiN t * 512 + a.val; omega))
    (by rw [(idx1_all t).2.1] <;> (show d.val = 0 * 1024 + d.val; omega))

/-- The key block read off the projections' array: rows `512 · kiN t …`, the second 1024 columns. -/
theorem blk1_1_apply (X : S8192x3072.Idx → Elt F .bf16) (t : Fin (cfgA (F := F)).N) (a : Fin 512) (d : Fin 1024) :
    (((cfgA (F := F)).win (1 : Fin 4)).blk t).view.read (Elt F) X (ix2 a d)
      = X (ix2 (⟨512 * kiN t + a.val, by have := kiN_lt t; omega⟩ : Fin 8192) (⟨1024 + d.val, by omega⟩ : Fin 3072)) :=
  blk_read1 adm1 X t a d _ _
    (by rw [(idx1_all t).2.2.1] <;> (show 512 * kiN t + a.val = kiN t * 512 + a.val; omega))
    (by rw [(idx1_all t).2.2.2.1] <;> (show 1024 + d.val = 1 * 1024 + d.val; omega))

/-- The value block read off the projections' array: rows `512 · kiN t …`, the third 1024 columns. -/
theorem blk1_2_apply (X : S8192x3072.Idx → Elt F .bf16) (t : Fin (cfgA (F := F)).N) (a : Fin 512) (d : Fin 1024) :
    (((cfgA (F := F)).win (2 : Fin 4)).blk t).view.read (Elt F) X (ix2 a d)
      = X (ix2 (⟨512 * kiN t + a.val, by have := kiN_lt t; omega⟩ : Fin 8192) (⟨2048 + d.val, by omega⟩ : Fin 3072)) :=
  blk_read2 adm1 X t a d _ _
    (by rw [(idx1_all t).2.2.2.2.1] <;> (show 512 * kiN t + a.val = kiN t * 512 + a.val; omega))
    (by rw [(idx1_all t).2.2.2.2.2.1] <;> (show 2048 + d.val = 2 * 1024 + d.val; omega))

/-- Where an element of the output block sits in the result: rows `512 · qiN t …`, the same column. -/
theorem blk1_3_emb (t : Fin (cfgA (F := F)).N) (y : S512x1024.Idx) :
    (((cfgA (F := F)).win (3 : Fin 4)).blk t).view.emb y
      = (ix2 (⟨512 * qiN t + (y 0).val, by have := qiN_lt t; have := idx2_lt0 y; omega⟩ : Fin 8192)
          (⟨(y 1).val, idx2_lt1 y⟩ : Fin 1024) : S8192x1024.Idx) :=
  blk_emb3 adm1 t y _ _
    (by rw [(idx1_all t).2.2.2.2.2.2.1] <;> (show 512 * qiN t + (y 0).val = qiN t * 512 + (y 0).val; omega))
    (by rw [(idx1_all t).2.2.2.2.2.2.2.1] <;> (show (y 1).val = 0 * 1024 + (y 1).val; omega))

/-- An index of the result is in point `t`'s output block iff its row is one of the block's 512 rows. -/
theorem mem_blk1_3 (t : Fin (cfgA (F := F)).N) (i : S8192x1024.Idx) :
    i ∈ (((cfgA (F := F)).win (3 : Fin 4)).blk t).view.set ↔ 512 * qiN t ≤ (i 0).val ∧ (i 0).val < 512 * qiN t + 512 :=
  blk_mem3 adm1 t i (qiN t) (idx1_all t).2.2.2.2.2.2.1 (idx1_all t).2.2.2.2.2.2.2.1

/-! ## The two table words at a point, and the body's two decisions -/

/-- The words the body loads from the two tables at point `t` are the tables' entries at `t`, and its two decisions
    read on them: decided over the 136 points. -/
theorem words_all : ∀ t : Fin (cfgA (F := F)).N,
    (wq (F := F) (crd t) T0L : BitVec 32) = lit0 ⟨t.val, lt_of_lt_of_eq t.isLt N_A⟩
    ∧ (wk (F := F) (crd t) T1L : BitVec 32) = lit1 ⟨t.val, lt_of_lt_of_eq t.isLt N_A⟩
    ∧ (P1_reset (F := F) t ↔ kiN t = 0) ∧ (P1_diag (F := F) t ↔ kiN t = qiN t) := kdecide%

/-- The query-block word at point `t` is the first table's entry at `t`. -/
theorem wq_eq (t : Fin (cfgA (F := F)).N) : wq (F := F) (crd t) T0L = lit0 ⟨t.val, lt_of_lt_of_eq t.isLt N_A⟩ :=
  (words_all t).1
/-- The key-block word at point `t` is the second table's entry at `t`. -/
theorem wk_eq (t : Fin (cfgA (F := F)).N) : wk (F := F) (crd t) T1L = lit1 ⟨t.val, lt_of_lt_of_eq t.isLt N_A⟩ :=
  (words_all t).2.1
/-- The carried buffers are reset exactly at the points whose key block is 0. -/
theorem P1_reset_iff (t : Fin (cfgA (F := F)).N) : P1_reset (F := F) t ↔ kiN t = 0 := (words_all t).2.2.1
/-- A point is on the diagonal exactly when its key block is its query block. -/
theorem P1_diag_iff (t : Fin (cfgA (F := F)).N) : P1_diag (F := F) t ↔ kiN t = qiN t := (words_all t).2.2.2

end Cert.KernelIdeal.R1

end
-- ==== Proof.FlashPayLib.lean ====
/-
  The layout operations, contractions, lane reductions and constants of the attention kernel, each read at an
  index given by its coordinates: a vector of length a viewed as a column [a, 1]; a column [a, 1] repeated over b
  columns; the three contractions as sums over the contracted coordinate; a row's maximum and a row's sum of a
  512 by 512 array; the comparison of a row number with a column number; and the extended reals the kernel's
  constants denote.
-/
import proofs.«121137_j11647951306945_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

open scoped BigOperators

namespace Cert.KernelIdeal.Pay

open Cert.KernelIdeal Cert.KernelIdeal.Gen Idealize.ShloMosaic Idealize.ShloMosaic.ValueIdx

/-! ## Columns -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The constants -/

/-- The scale `0x3D000000` is `1/32`. -/
theorem ofBits_scale : Ideal.ofBits .f32 0x3D000000#32 = (((1 / 32 : ℝ)) : EReal) := by
  simp [Ideal.ofBits, Ideal.ieee, -EReal.coe_mul]; norm_num

/-- The pattern of `-∞` is `⊥`. -/
theorem ofBits_neg_inf : Ideal.ofBits .f32 0xFF800000#32 = ⊥ := by simp [Ideal.ofBits, Ideal.ieee]

/-- The pattern of `1.0` is `1`. -/
theorem ofBits_one : Ideal.ofBits .f32 0x3F800000#32 = 1 := by
  simp [Ideal.ofBits, Ideal.ieee, -EReal.coe_mul]; norm_num

/-- The mask's named constant denotes `⊥`, by the certificate's table. -/
theorem neg_big : Named.named (F := Ideal) Cert.KernelIdeal.κ "neg_big" (φ := .f32) 0xFF333332#32 = ⊥ :=
  IdealRules.named_const.ideal_named_scalar _ _ _ _ rfl

/-! ## The three contractions -/

theorem qk_lhs_non (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide),
    dif_pos (show (0 : Fin S512x1024.rank) ∈ dot_S512x1024_S512x1024_S512x512_1_1_0_0_n_n.lhsNonContracting by decide)]
  rfl
theorem qk_lhs_con (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
theorem qk_rhs_non (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide),
    dif_pos (show (0 : Fin S512x1024.rank) ∈ dot_S512x1024_S512x1024_S512x512_1_1_0_0_n_n.rhsNonContracting by decide)]
  rfl
theorem qk_rhs_con (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- The scores' contraction: rows of the first operand against rows of the second, over their 1024 columns. -/
theorem dot_qk_apply (x y : FVec Ideal S512x1024 .bf16) (a c : Fin 512) :
    matmul (F := Ideal) dot_S512x1024_S512x1024_S512x512_1_1_0_0_n_n none x y (constant S512x512 .f32 0x00000000#32) (ix2 a c)
      = ∑ k : Fin 1024, x (ix2 a k) * y (ix2 c k) := by
  simp only [matmul]
  rw [Ideal.matmul_constant_zero_apply, ← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 a c) ((contrEquiv1 dot_S512x1024_S512x1024_S512x512_1_1_0_0_n_n 1024 rfl rfl).symm k) = (ix2 a k) :=
    funext fun ax => Fin.ext (by
      match ax with
      | ⟨0, _⟩ => exact qk_lhs_non _ _
      | ⟨1, _⟩ => exact (qk_lhs_con _ _).trans hk)
  have er : dot_S512x1024_S512x1024_S512x512_1_1_0_0_n_n.rhsIdx (ix2 a c) ((contrEquiv1 dot_S512x1024_S512x1024_S512x512_1_1_0_0_n_n 1024 rfl rfl).symm k) = (ix2 c k) :=
    funext fun ax => Fin.ext (by
      match ax with
      | ⟨0, _⟩ => exact qk_rhs_non _ _
      | ⟨1, _⟩ => exact (qk_rhs_con _ _).trans hk)
  rw [el, er]

theorem pv_lhs_non (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide),
    dif_pos (show (0 : Fin S512x512.rank) ∈ dot_S512x512_S512x1024_S512x1024_1_0_0_1_n_n.lhsNonContracting by decide)]
  rfl
theorem pv_lhs_con (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
theorem pv_rhs_non (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide),
    dif_pos (show (1 : Fin S512x1024.rank) ∈ dot_S512x512_S512x1024_S512x1024_1_0_0_1_n_n.rhsNonContracting by decide)]
  rfl
theorem pv_rhs_con (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q

/-- The weighted sum's contraction: a row of weights against a column of the value block, over the block's 512 keys. -/
theorem dot_pv_apply (x : FVec Ideal S512x512 .bf16) (y : FVec Ideal S512x1024 .bf16) (a : Fin 512) (o : Fin 1024) :
    matmul (F := Ideal) dot_S512x512_S512x1024_S512x1024_1_0_0_1_n_n none x y (constant S512x1024 .f32 0x00000000#32) (ix2 a o)
      = ∑ k : Fin 512, x (ix2 a k) * y (ix2 k o) := by
  simp only [matmul]
  rw [Ideal.matmul_constant_zero_apply, ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 a o) ((contrEquiv1 dot_S512x512_S512x1024_S512x1024_1_0_0_1_n_n 512 rfl rfl).symm k) = (ix2 a k) :=
    funext fun ax => Fin.ext (by
      match ax with
      | ⟨0, _⟩ => exact pv_lhs_non _ _
      | ⟨1, _⟩ => exact (pv_lhs_con _ _).trans hk)
  have er : dot_S512x512_S512x1024_S512x1024_1_0_0_1_n_n.rhsIdx (ix2 a o) ((contrEquiv1 dot_S512x512_S512x1024_S512x1024_1_0_0_1_n_n 512 rfl rfl).symm k) = (ix2 k o) :=
    funext fun ax => Fin.ext (by
      match ax with
      | ⟨1, _⟩ => exact pv_rhs_non _ _
      | ⟨0, _⟩ => exact (pv_rhs_con _ _).trans hk)
  rw [el, er]

theorem xw_lhs_non (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
theorem xw_lhs_con (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem xw_rhs_non (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl
theorem xw_rhs_con (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q

/-- The projection's contraction: a row of the first block against a column of the second. -/
theorem dot_xw_apply (x y : FVec Ideal S1024x1024 .bf16) (i j : Fin 1024) :
    matmul (F := Ideal) dot_S1024x1024_S1024x1024_S1024x1024_1_0_0_1_n_n none x y (constant S1024x1024 .f32 0x00000000#32) (ix2 i j)
      = ∑ k : Fin 1024, x (ix2 i k) * y (ix2 k j) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 i j) ((contrEquiv1 dot_S1024x1024_S1024x1024_S1024x1024_1_0_0_1_n_n 1024 rfl rfl).symm k) = (ix2 i k) :=
    funext fun ax => Fin.ext (by
      match ax with
      | ⟨0, _⟩ => exact xw_lhs_non _ _
      | ⟨1, _⟩ => exact (xw_lhs_con _ _).trans hk)
  have er : dot_S1024x1024_S1024x1024_S1024x1024_1_0_0_1_n_n.rhsIdx (ix2 i j) ((contrEquiv1 dot_S1024x1024_S1024x1024_S1024x1024_1_0_0_1_n_n 1024 rfl rfl).symm k) = (ix2 k j) :=
    funext fun ax => Fin.ext (by
      match ax with
      | ⟨1, _⟩ => exact xw_rhs_non _ _
      | ⟨0, _⟩ => exact (xw_rhs_con _ _).trans hk)
  rw [el, er]

/-! ## A row's maximum and a row's sum -/

/-- The index of the 512 by 512 array over row `a` with column `c` inserted. -/
theorem lift_row (a c : Fin 512) : reduces_S512x512_S512.lift (ValueIdx.ix1 a) c = ix2 a c :=
  funext fun ax => Fin.ext (by
    match ax with
    | ⟨0, _⟩ => rfl
    | ⟨1, _⟩ => rfl)

/-- The lane maximum of a 512 by 512 array, from the accumulator `-∞`, is at row `a` the fold of `max` from `⊥` over
    the row. -/
theorem rowmax_apply (src : FVec Ideal S512x512 .f32) (hφ : FKind.Formats .f32)
    (hacc : (0xFF800000#32 : BitVec 32) = FKind.maximumf.neutral .f32 hφ) (a : Fin 512) :
    multiReduction (F := Ideal) .maximumf [1] S512 src 0xFF800000#32 reduces_S512x512_S512 hφ hacc (ValueIdx.ix1 a)
      = (Finset.univ : Finset (Fin 512)).fold max ⊥ (fun c => src (ix2 a c)) := by
  refine (Ideal.multiReduction_maximumf_single src 0xFF800000#32 reduces_S512x512_S512 hφ hacc (ValueIdx.ix1 a)).trans ?_
  show (Finset.univ : Finset (Fin 512)).fold max (Ideal.ofBits .f32 0xFF800000#32)
    (fun c => src (reduces_S512x512_S512.lift (ValueIdx.ix1 a) c)) = _
  rw [ofBits_neg_inf]
  exact congrArg (fun f => (Finset.univ : Finset (Fin 512)).fold max ⊥ f) (funext fun c => congrArg src (lift_row a c))

/-- The lane sum of a 512 by 512 array is at row `a` the sum over the row. -/
theorem rowsum_apply (src : FVec Ideal S512x512 .f32) (hφ : FKind.Formats .f32)
    (hacc : (0x00000000#32 : BitVec 32) = FKind.add.neutral .f32 hφ) (a : Fin 512) :
    multiReduction (F := Ideal) .add [1] S512 src 0x00000000#32 reduces_S512x512_S512 hφ hacc (ValueIdx.ix1 a)
      = ∑ c : Fin 512, src (ix2 a c) := by
  refine (Ideal.multiReduction_add_single src 0x00000000#32 reduces_S512x512_S512 hφ hacc (ValueIdx.ix1 a)).trans ?_
  show ∑ c : Fin 512, src (reduces_S512x512_S512.lift (ValueIdx.ix1 a) c) = _
  exact Finset.sum_congr rfl fun c _ => congrArg src (lift_row a c)

/-! ## Row number against column number -/

/-- A number below 512 as a 32-bit word, read signed, is itself. -/
theorem toInt_ofNat_small (n : ℕ) (h : n < 512) : (BitVec.ofNat 32 n).toInt = (n : ℤ) := by
  have hn : (BitVec.ofNat 32 n).toNat = n := by rw [BitVec.toNat_ofNat]; omega
  rw [BitVec.toInt_eq_toNat_of_lt (by rw [hn]; omega), hn]

/-- The signed comparison "row ≥ column" of two coordinates below 512 is the comparison of the numbers. -/
theorem cmpi_sge_small (a c : Fin 512) :
    IntOp.cmpi .sge (BitVec.ofNat 32 a.val) (BitVec.ofNat 32 c.val) = if c.val ≤ a.val then 1#1 else 0#1 := by
  unfold IntOp.cmpi
  show BitVec.ofBool ((BitVec.ofNat 32 c.val).sle (BitVec.ofNat 32 a.val)) = _
  rw [BitVec.sle, toInt_ofNat_small c.val c.isLt, toInt_ofNat_small a.val a.isLt]
  by_cases h : c.val ≤ a.val
  · rw [if_pos h, decide_eq_true (Int.ofNat_le.mpr h)]; rfl
  · rw [if_neg h, decide_eq_false (fun h' => h (Int.ofNat_le.mp h'))]; rfl

end Cert.KernelIdeal.Pay

end
-- ==== Proof.AttnSpec.lean ====
/-
  The mathematics both programs compute, stated once and over no program.

  For a query row `r` the keys are cut into 16 blocks of 512. A key `j = 512·b + c` is LIVE for `r` when `j ≤ r`
  (the causal mask); its score is the inner product of row `r` of `q` with row `j` of `k`, times 1/32, and a
  dead key's score is `⊥`. The result row is the softmax of the scores applied to the rows of `v`:
  `∑ j, (exp (s j − M) / L) · v j` with `M` the largest score and `L = ∑ j, exp (s j − M)`.

  The same value is reached by a running merge over the blocks, in order: a running maximum `m`, a running
  normaliser `l` and a running weighted sum `acc`, each rescaled by `exp (m − m')` when the maximum moves from `m`
  to `m'`, and at the end `acc · (1 / l)`. The definitions of that merge are here; that the two agree is a law of the
  extended reals on finite scores, proved in another module.
-/
import Idealize.ShloMosaic.PureOps.Ideal

noncomputable section

open scoped BigOperators

namespace Cert.AttnSpec

open Idealize.ShloMosaic

/-! ## One merge step over a block of keys `C` -/

section Step

variable {C : Type} [Fintype C]

/-- The largest score of a block (`⊥` for an empty or an all-dead block). -/
def blockMax (s : C → EReal) : EReal := Finset.univ.fold max ⊥ s

/-- The running maximum after the block. -/
def mNext (m : EReal) (s : C → EReal) : EReal := max m (blockMax s)

/-- The factor by which what was accumulated under the old maximum is rescaled. -/
def alpha (m : EReal) (s : C → EReal) : EReal := Ideal.exp (m - mNext m s)

/-- A key's unnormalised weight under the new maximum. -/
def weight (m : EReal) (s : C → EReal) (c : C) : EReal := Ideal.exp (s c - mNext m s)

/-- The running normaliser after the block. -/
def lNext (m l : EReal) (s : C → EReal) : EReal := alpha m s * l + ∑ c, weight m s c

/-- The running weighted sum (one output column) after the block. -/
def accNext (m acc : EReal) (s v : C → EReal) : EReal := alpha m s * acc + ∑ c, weight m s c * v c

/-- The running maximum and normaliser after the first `n` blocks, from `(⊥, 0)`. -/
def st (s : ℕ → C → EReal) : ℕ → EReal × EReal
  | 0 => (⊥, 0)
  | n + 1 => (mNext (st s n).1 (s n), lNext (st s n).1 (st s n).2 (s n))

/-- The running weighted sum after the first `n` blocks, from `0`. -/
def acc (s v : ℕ → C → EReal) : ℕ → EReal
  | 0 => 0
  | n + 1 => accNext (st s n).1 (acc s v n) (s n) (v n)

/-- What is written out after `n` blocks: the weighted sum times the reciprocal of the normaliser. -/
def out (s v : ℕ → C → EReal) (n : ℕ) : EReal := acc s v n * Ideal.div 1 (st s n).2

end Step

/-! ## The arrays -/

/-- A matrix of extended reals by its two coordinates. -/
abbrev Mat (a b : ℕ) : Type := Fin a → Fin b → EReal

/-- `x · wᵀ`: a linear layer without bias. -/
def proj (x : Mat 8192 1024) (w : Mat 1024 1024) : Mat 8192 1024 := fun r o => ∑ k : Fin 1024, x r k * w o k

/-- Key `c` of block `b`. -/
def key (b : Fin 16) (c : Fin 512) : Fin 8192 := ⟨512 * b.val + c.val, by omega⟩

/-- The masked, scaled score of key `c` of block `b` for query row `r`; `⊥` for a dead key and past the last block. -/
def sc (q k : Mat 8192 1024) (r : Fin 8192) (b : ℕ) (c : Fin 512) : EReal :=
  if h : b < 16 then
    (if 512 * b + c.val ≤ r.val then (∑ d : Fin 1024, q r d * k (key ⟨b, h⟩ c) d) * (((1 / 32 : ℝ)) : EReal) else ⊥)
  else ⊥

/-- Column `o` of the value rows, block by block (`0` past the last block). -/
def vv (v : Mat 8192 1024) (o : Fin 1024) (b : ℕ) (c : Fin 512) : EReal :=
  if h : b < 16 then v (key ⟨b, h⟩ c) o else 0

/-- The largest score of row `r`. -/
def rowMax (q k : Mat 8192 1024) (r : Fin 8192) : EReal :=
  Finset.univ.fold max ⊥ (fun p : Fin 16 × Fin 512 => sc q k r p.1.val p.2)

/-- The normaliser of row `r`. -/
def rowSum (q k : Mat 8192 1024) (r : Fin 8192) : EReal :=
  ∑ b : Fin 16, ∑ c : Fin 512, Ideal.exp (sc q k r b.val c - rowMax q k r)

/-- Causal softmax attention of `q`, `k`, `v`. -/
def attn (q k v : Mat 8192 1024) : Mat 8192 1024 := fun r o =>
  ∑ b : Fin 16, ∑ c : Fin 512,
    Ideal.div (Ideal.exp (sc q k r b.val c - rowMax q k r)) (rowSum q k r) * vv v o b.val c

/-- The whole computation: three projections of `x`, then causal softmax attention. -/
def G (x : Mat 8192 1024) (wq wk wv : Mat 1024 1024) : Mat 8192 1024 :=
  attn (proj x wq) (proj x wk) (proj x wv)

end Cert.AttnSpec

end
-- ==== Proof.FlashPay.lean ====
/-
  The kernels' arithmetic read at an index. Each value the two kernel bodies store is, at the exact values and at
  the index with coordinates (a, ·), the specification's merge step of what was loaded: the scaled scores of a block
  (masked below the diagonal for a diagonal block), the new running maximum, the rescale factor, the weights, the new
  normaliser and the new weighted sum; the resets; the final quotient; and the projection's contraction.
-/
import proofs.«121137_j11647951306945_2_alg».proof.Proof.FlashPayLib
import proofs.«121137_j11647951306945_2_alg».proof.Proof.AttnSpec

noncomputable section

open scoped BigOperators

namespace Cert.KernelIdeal.Pay

open Cert.KernelIdeal Cert.KernelIdeal.Gen Cert.AttnSpec Idealize.ShloMosaic Idealize.ShloMosaic.ValueIdx

/-! ## The scores of a block -/

/-- The scaled score of key `c` of a block for query `a` of a block: the inner product of the two rows, times 1/32. -/
def sOff (q kk : FVec Ideal S512x1024 .bf16) (a c : Fin 512) : EReal :=
  (∑ d : Fin 1024, q (ix2 a d) * kk (ix2 c d)) * (((1 / 32 : ℝ)) : EReal)

/-- The same on a diagonal block, where key `c` is live for query `a` when `c ≤ a`. -/
def sDiag (q kk : FVec Ideal S512x1024 .bf16) (a c : Fin 512) : EReal :=
  if c.val ≤ a.val then sOff q kk a c else ⊥

section
variable (q kk vb : FVec Ideal S512x1024 .bf16) (m0 l0 : FVec Ideal S512x1 .f32) (acc0 : FVec Ideal S512x1024 .f32)
  (a c : Fin 512) (o : Fin 1024)

theorem pay5_apply : k1_pay5 (F := Ideal) q kk (ix2 a c) = sOff q kk a c := by
  unfold k1_pay5 sOff
  show matmul (F := Ideal) dot_S512x1024_S512x1024_S512x512_1_1_0_0_n_n none
      (shapeCast S512x1024 q shapeCasts_S512x1024_S512x1024) (shapeCast S512x1024 kk shapeCasts_S512x1024_S512x1024)
      (constant S512x512 .f32 0x00000000#32) (ix2 a c) * Ideal.ofBits .f32 0x3D000000#32 = _
  rw [shapeCast_self, shapeCast_self, dot_qk_apply, ofBits_scale]

theorem pay6_apply : k1_pay6 (F := Ideal) q kk (ix2 a c) = sDiag q kk a c := by
  unfold k1_pay6 sDiag
  show Scalar.select (IntOp.cmpi .sge (iota .tc S512x512 32 [0] iota_S512x512_d0_w32 (ix2 a c))
      (iota .tc S512x512 32 [1] iota_S512x512_d1_w32 (ix2 a c))) (k1_pay5 (F := Ideal) q kk (ix2 a c))
      (Named.named (F := Ideal) κ "neg_big" (φ := .f32) 0xFF333332#32) = _
  rw [iota_single_apply, iota_single_apply, pay5_apply, neg_big]
  show Scalar.select (IntOp.cmpi .sge (BitVec.ofNat 32 a.val) (BitVec.ofNat 32 c.val)) _ _ = _
  rw [cmpi_sge_small]
  by_cases h : c.val ≤ a.val
  · rw [if_pos h, if_pos h]; rfl
  · rw [if_neg h, if_neg h]; rfl

end

/-! ## One merge step over any block of scores

The kernel's terms for the new maximum, the rescale factor, the weights, the new normaliser and the new weighted sum,
over ANY array `s` of scores, maximum column `M`, factor column `A` and weights `P`, read at an index. -/

section Step
variable (s P : FVec Ideal S512x512 .f32) (m0 l0 M A : FVec Ideal S512x1 .f32)
  (acc0 : FVec Ideal S512x1024 .f32) (vb : FVec Ideal S512x1024 .bf16) (a c : Fin 512) (o : Fin 1024)
  (hφ : FKind.Formats .f32)

/-- The value block is loaded as it is. -/
theorem pay4_eq : k1_pay4 (F := Ideal) vb = vb := by
  unfold k1_pay4
  exact shapeCast_self _ _

/-- The old maximum against the row's maximum. -/
theorem step_max (hacc : (0xFF800000#32 : BitVec 32) = FKind.maximumf.neutral .f32 hφ) :
    maximumf m0 (shapeCast S512x1
        (multiReduction (F := Ideal) .maximumf [1] S512 s 0xFF800000#32 reduces_S512x512_S512 hφ hacc)
        shapeCasts_S512_S512x1) (ix2 a (0 : Fin 1))
      = mNext (m0 (ix2 a 0)) (fun c => s (ix2 a c)) := by
  show max (m0 (ix2 a 0)) (shapeCast S512x1 _ shapeCasts_S512_S512x1 (ix2 a (0 : Fin 1))) = _
  rw [shapeCast_a_a1_apply, rowmax_apply]
  rfl

/-- The rescale factor. -/
theorem step_alpha : exp (subf m0 M) (ix2 a (0 : Fin 1)) = Ideal.exp (m0 (ix2 a 0) - M (ix2 a 0)) := rfl

/-- A key's weight: its score less the maximum of its row. -/
theorem step_weight :
    exp (subf s (broadcastTo S512x512 M broadcasts_S512x1_S512x512)) (ix2 a c)
      = Ideal.exp (s (ix2 a c) - M (ix2 a 0)) := by
  show Ideal.exp (s (ix2 a c) - broadcastTo S512x512 M broadcasts_S512x1_S512x512 (ix2 a c)) = _
  rw [broadcastTo_a1_ab_apply]

/-- The new normaliser: the old one rescaled, plus the row's sum of weights. -/
theorem step_l (hacc : (0x00000000#32 : BitVec 32) = FKind.add.neutral .f32 hφ) :
    shapeCast S512x1 (addf (mulf A l0) (shapeCast S512x1
        (multiReduction (F := Ideal) .add [1] S512 P 0x00000000#32 reduces_S512x512_S512 hφ hacc)
        shapeCasts_S512_S512x1)) shapeCasts_S512x1_S512x1 (ix2 a (0 : Fin 1))
      = A (ix2 a 0) * l0 (ix2 a 0) + ∑ c : Fin 512, P (ix2 a c) := by
  rw [shapeCast_self]
  show A (ix2 a 0) * l0 (ix2 a 0) + shapeCast S512x1 _ shapeCasts_S512_S512x1 (ix2 a (0 : Fin 1)) = _
  rw [shapeCast_a_a1_apply, rowsum_apply]

/-- The new weighted sum: the old one rescaled, plus the weights against the value block's column. -/
theorem step_acc :
    shapeCast S512x1024 (addf (mulf (broadcastTo S512x1024 A broadcasts_S512x1_S512x1024) acc0)
        (matmul (F := Ideal) dot_S512x512_S512x1024_S512x1024_1_0_0_1_n_n none (truncf .bf16 P bitsLt_bf16_f32)
          (k1_pay4 (F := Ideal) vb) (constant S512x1024 .f32 0x00000000#32)))
        shapeCasts_S512x1024_S512x1024 (ix2 a o)
      = A (ix2 a 0) * acc0 (ix2 a o) + ∑ c : Fin 512, P (ix2 a c) * vb (ix2 c o) := by
  rw [shapeCast_self, pay4_eq]
  show broadcastTo S512x1024 A broadcasts_S512x1_S512x1024 (ix2 a o) * acc0 (ix2 a o)
    + matmul (F := Ideal) dot_S512x512_S512x1024_S512x1024_1_0_0_1_n_n none (truncf .bf16 P bitsLt_bf16_f32) vb
        (constant S512x1024 .f32 0x00000000#32) (ix2 a o) = _
  rw [broadcastTo_a1_ab_apply, dot_pv_apply]
  rfl

end Step

/-! ## An off-diagonal block: every key live -/

section
variable (q kk vb : FVec Ideal S512x1024 .bf16) (m0 l0 : FVec Ideal S512x1 .f32) (acc0 : FVec Ideal S512x1024 .f32)
  (a c : Fin 512) (o : Fin 1024)

theorem pay13_apply :
    k1_pay13 (F := Ideal) q kk m0 (ix2 a (0 : Fin 1)) = mNext (m0 (ix2 a 0)) (sOff q kk a) := by
  unfold k1_pay13
  exact (step_max (s := k1_pay5 (F := Ideal) q kk) (m0 := m0) (a := a) (hφ := .inl rfl) (hacc := rfl)).trans
    (congrArg (mNext (m0 (ix2 a 0))) (funext fun c => pay5_apply q kk a c))

theorem pay18_apply :
    k1_pay18 (F := Ideal) q kk m0 (ix2 a (0 : Fin 1)) = mNext (m0 (ix2 a 0)) (sOff q kk a) := by
  unfold k1_pay18
  show shapeCast S512x1 (k1_pay13 (F := Ideal) q kk m0) shapeCasts_S512x1_S512x1 (ix2 a (0 : Fin 1)) = _
  rw [shapeCast_self]
  exact pay13_apply q kk m0 a

/-- The rescale factor of the block. -/
theorem pay14_apply :
    k1_pay14 (F := Ideal) q kk m0 (ix2 a (0 : Fin 1)) = alpha (m0 (ix2 a 0)) (sOff q kk a) := by
  unfold k1_pay14
  show Ideal.exp (m0 (ix2 a 0) - k1_pay13 (F := Ideal) q kk m0 (ix2 a (0 : Fin 1))) = _
  rw [pay13_apply]
  rfl

/-- The weights of the block's keys. -/
theorem pay15_apply :
    k1_pay15 (F := Ideal) q kk m0 (ix2 a c) = weight (m0 (ix2 a 0)) (sOff q kk a) c := by
  unfold k1_pay15
  refine (step_weight (s := k1_pay5 (F := Ideal) q kk) (M := k1_pay13 (F := Ideal) q kk m0) (a := a) (c := c)).trans ?_
  rw [pay5_apply, pay13_apply]
  rfl

theorem pay16_apply :
    k1_pay16 (F := Ideal) q kk m0 l0 (ix2 a (0 : Fin 1)) = lNext (m0 (ix2 a 0)) (l0 (ix2 a 0)) (sOff q kk a) := by
  unfold k1_pay16
  refine (step_l (P := k1_pay15 (F := Ideal) q kk m0) (l0 := l0) (A := k1_pay14 (F := Ideal) q kk m0) (a := a)
    (hφ := .inl rfl) (hacc := rfl)).trans ?_
  show _ = alpha (m0 (ix2 a 0)) (sOff q kk a) * l0 (ix2 a 0) + ∑ c, weight (m0 (ix2 a 0)) (sOff q kk a) c
  rw [pay14_apply]
  exact congrArg (_ + ·) (Finset.sum_congr rfl fun c _ => pay15_apply q kk m0 a c)

theorem pay17_apply :
    k1_pay17 (F := Ideal) q kk vb m0 acc0 (ix2 a o)
      = accNext (m0 (ix2 a 0)) (acc0 (ix2 a o)) (sOff q kk a) (fun c => vb (ix2 c o)) := by
  unfold k1_pay17
  refine (step_acc (P := k1_pay15 (F := Ideal) q kk m0) (A := k1_pay14 (F := Ideal) q kk m0) (acc0 := acc0)
    (vb := vb) (a := a) (o := o)).trans ?_
  show _ = alpha (m0 (ix2 a 0)) (sOff q kk a) * acc0 (ix2 a o)
    + ∑ c, weight (m0 (ix2 a 0)) (sOff q kk a) c * vb (ix2 c o)
  rw [pay14_apply]
  exact congrArg (_ + ·) (Finset.sum_congr rfl fun c _ => congrArg (· * _) (pay15_apply q kk m0 a c))

end

/-! ## A diagonal block: the keys up to the query's own -/

section
variable (q kk vb : FVec Ideal S512x1024 .bf16) (m0 l0 : FVec Ideal S512x1 .f32) (acc0 : FVec Ideal S512x1024 .f32)
  (a c : Fin 512) (o : Fin 1024)

theorem pay7_apply :
    k1_pay7 (F := Ideal) q kk m0 (ix2 a (0 : Fin 1)) = mNext (m0 (ix2 a 0)) (sDiag q kk a) := by
  unfold k1_pay7
  exact (step_max (s := k1_pay6 (F := Ideal) q kk) (m0 := m0) (a := a) (hφ := .inl rfl) (hacc := rfl)).trans
    (congrArg (mNext (m0 (ix2 a 0))) (funext fun c => pay6_apply q kk a c))

theorem pay12_apply :
    k1_pay12 (F := Ideal) q kk m0 (ix2 a (0 : Fin 1)) = mNext (m0 (ix2 a 0)) (sDiag q kk a) := by
  unfold k1_pay12
  show shapeCast S512x1 (k1_pay7 (F := Ideal) q kk m0) shapeCasts_S512x1_S512x1 (ix2 a (0 : Fin 1)) = _
  rw [shapeCast_self]
  exact pay7_apply q kk m0 a

/-- The rescale factor of the block. -/
theorem pay8_apply :
    k1_pay8 (F := Ideal) q kk m0 (ix2 a (0 : Fin 1)) = alpha (m0 (ix2 a 0)) (sDiag q kk a) := by
  unfold k1_pay8
  show Ideal.exp (m0 (ix2 a 0) - k1_pay7 (F := Ideal) q kk m0 (ix2 a (0 : Fin 1))) = _
  rw [pay7_apply]
  rfl

/-- The weights of the block's keys. -/
theorem pay9_apply :
    k1_pay9 (F := Ideal) q kk m0 (ix2 a c) = weight (m0 (ix2 a 0)) (sDiag q kk a) c := by
  unfold k1_pay9
  refine (step_weight (s := k1_pay6 (F := Ideal) q kk) (M := k1_pay7 (F := Ideal) q kk m0) (a := a) (c := c)).trans ?_
  rw [pay6_apply, pay7_apply]
  rfl

theorem pay10_apply :
    k1_pay10 (F := Ideal) q kk m0 l0 (ix2 a (0 : Fin 1)) = lNext (m0 (ix2 a 0)) (l0 (ix2 a 0)) (sDiag q kk a) := by
  unfold k1_pay10
  refine (step_l (P := k1_pay9 (F := Ideal) q kk m0) (l0 := l0) (A := k1_pay8 (F := Ideal) q kk m0) (a := a)
    (hφ := .inl rfl) (hacc := rfl)).trans ?_
  show _ = alpha (m0 (ix2 a 0)) (sDiag q kk a) * l0 (ix2 a 0) + ∑ c, weight (m0 (ix2 a 0)) (sDiag q kk a) c
  rw [pay8_apply]
  exact congrArg (_ + ·) (Finset.sum_congr rfl fun c _ => pay9_apply q kk m0 a c)

theorem pay11_apply :
    k1_pay11 (F := Ideal) q kk vb m0 acc0 (ix2 a o)
      = accNext (m0 (ix2 a 0)) (acc0 (ix2 a o)) (sDiag q kk a) (fun c => vb (ix2 c o)) := by
  unfold k1_pay11
  refine (step_acc (P := k1_pay9 (F := Ideal) q kk m0) (A := k1_pay8 (F := Ideal) q kk m0) (acc0 := acc0)
    (vb := vb) (a := a) (o := o)).trans ?_
  show _ = alpha (m0 (ix2 a 0)) (sDiag q kk a) * acc0 (ix2 a o)
    + ∑ c, weight (m0 (ix2 a 0)) (sDiag q kk a) c * vb (ix2 c o)
  rw [pay8_apply]
  exact congrArg (_ + ·) (Finset.sum_congr rfl fun c _ => congrArg (· * _) (pay9_apply q kk m0 a c))

end

/-! ## The resets, the output and the projection -/

section
variable (a : Fin 512) (o : Fin 1024)

theorem pay1_apply : k1_pay1 (F := Ideal) (ix2 a (0 : Fin 1)) = ⊥ := by
  unfold k1_pay1
  show shapeCast S512x1 (broadcast S512x1 (Ideal.ofBits .f32 0xFF800000#32)) shapeCasts_S512x1_S512x1
    (ix2 a (0 : Fin 1)) = _
  rw [shapeCast_self]
  exact ofBits_neg_inf

theorem pay2_apply : k1_pay2 (F := Ideal) (ix2 a (0 : Fin 1)) = 0 := by
  unfold k1_pay2
  show shapeCast S512x1 (broadcast S512x1 (Ideal.ofBits .f32 0x00000000#32)) shapeCasts_S512x1_S512x1
    (ix2 a (0 : Fin 1)) = _
  rw [shapeCast_self]
  exact Ideal.ofBits_zero_f32

theorem pay3_apply : k1_pay3 (F := Ideal) (ix2 a o) = 0 := by
  unfold k1_pay3
  show shapeCast S512x1024 (broadcast S512x1024 (Ideal.ofBits .f32 0x00000000#32)) shapeCasts_S512x1024_S512x1024
    (ix2 a o) = _
  rw [shapeCast_self]
  exact Ideal.ofBits_zero_f32

theorem pay19_apply (accV : FVec Ideal S512x1024 .f32) (lV : FVec Ideal S512x1 .f32) :
    k1_pay19 (F := Ideal) accV lV (ix2 a o) = accV (ix2 a o) * Ideal.div 1 (lV (ix2 a (0 : Fin 1))) := by
  unfold k1_pay19
  show accV (ix2 a o) * broadcastTo S512x1024 (divf (broadcast S512x1 (Ideal.ofBits .f32 0x3F800000#32)) lV)
    broadcasts_S512x1_S512x1024 (ix2 a o) = _
  rw [broadcastTo_a1_ab_apply]
  show accV (ix2 a o) * Ideal.div (Ideal.ofBits .f32 0x3F800000#32) (lV (ix2 a (0 : Fin 1))) = _
  rw [ofBits_one]

theorem k0_pay1_apply (xb wb : FVec Ideal S1024x1024 .bf16) (i j : Fin 1024) :
    k0_pay1 (F := Ideal) xb wb (ix2 i j) = ∑ k : Fin 1024, xb (ix2 i k) * wb (ix2 k j) := by
  unfold k0_pay1
  show matmul (F := Ideal) dot_S1024x1024_S1024x1024_S1024x1024_1_0_0_1_n_n none
    (shapeCast S1024x1024 xb shapeCasts_S1024x1024_S1024x1024) (shapeCast S1024x1024 wb shapeCasts_S1024x1024_S1024x1024)
    (constant S1024x1024 .f32 0x00000000#32) (ix2 i j) = _
  rw [shapeCast_self, shapeCast_self, dot_xw_apply]

end

end Cert.KernelIdeal.Pay

end
-- ==== Proof.AttnArr.lean ====
/-
  Arrays of rank 2 as matrices and back: an array's element at the index with coordinates `(r, o)` is the
  matrix entry `(r, o)`. Both programs' results are stated as `ofMat` of one matrix-valued function.
-/
import proofs.«121137_j11647951306945_2_alg».proof.Proof.AttnSpec
import Idealize.ShloMosaic.Lib.ValueIdx

noncomputable section

namespace Cert.AttnSpec

open Idealize.ShloMosaic Idealize.ShloMosaic.ValueIdx

/-- The matrix of an array's elements. -/
def toMat {a b : ℕ} (f : (⟨2, ![a, b]⟩ : Shape).Idx → EReal) : Fin a → Fin b → EReal := fun r o => f (ix2 r o)

/-- The array whose elements are a matrix's entries. -/
def ofMat {a b : ℕ} (g : Fin a → Fin b → EReal) : (⟨2, ![a, b]⟩ : Shape).Idx → EReal := fun i => g (i 0) (i 1)

theorem ofMat_ix2 {a b : ℕ} (g : Fin a → Fin b → EReal) (r : Fin a) (o : Fin b) : ofMat g (ix2 r o) = g r o := rfl

theorem toMat_apply {a b : ℕ} (f : (⟨2, ![a, b]⟩ : Shape).Idx → EReal) (r : Fin a) (o : Fin b) : toMat f r o = f (ix2 r o) := rfl

/-- An array is `ofMat` of a matrix as soon as it is so at every pair of coordinates. -/
theorem eq_ofMat {a b : ℕ} (f : (⟨2, ![a, b]⟩ : Shape).Idx → EReal) (g : Fin a → Fin b → EReal)
    (h : ∀ r o, f (ix2 r o) = g r o) : f = ofMat g := by
  funext i
  rw [eq_ix2 i]
  exact h _ _

end Cert.AttnSpec

end
-- ==== Proof.KIValue0.lean ====
/-
  What the projection region leaves in its output array, at the exact values.

  The region multiplies the array "x" (8192×1024, the argument rounded to bf16: at exact values the argument itself)
  by the 1024×3072 array that is the three weight matrices stacked by rows and then transposed. Its grid is 8×3:
  point "t" takes rows "1024 (t / 3) …" of the first array and columns "1024 (t % 3) …" of the second and writes
  their product into block "(t / 3, t % 3)" of the output, and these 24 blocks tile the output. So the output array is
  the product entry by entry, and its entry at row "r" and column "1024 j + o" is row "r" of "x" against row "o" of the
  "j"-th weight matrix: the "j"-th projection of the specification.
-/
import proofs.«121137_j11647951306945_2_alg».proof.Proof.KIRunDefs
import proofs.«121137_j11647951306945_2_alg».proof.Proof.FlashPay
import proofs.«121137_j11647951306945_2_alg».proof.Proof.AttnArr
import Idealize.ShloMosaic.Lib.Pipeline.Value
import Idealize.ShloMosaic.Lib.ValueIdx
import Idealize.ShloMosaic.Lib.Tactic

set_option maxRecDepth 16384

noncomputable section

open scoped BigOperators

namespace Cert.KernelIdeal.Val0

open Cert.KernelIdeal Cert.KernelIdeal.Gen Cert.AttnSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-! ## The index maps -/

/-- The printed index maps over the 8×3 grid: point "t" is block row "t / 3", block column "t % 3". -/
theorem idx_facts : ∀ t : Fin cfg0.N,
    win0_0.index t (0 : Fin 2) = t.val / 3 ∧ win0_0.index t (1 : Fin 2) = 0
    ∧ win0_1.index t (0 : Fin 2) = 0 ∧ win0_1.index t (1 : Fin 2) = t.val % 3
    ∧ win0_2.index t (0 : Fin 2) = t.val / 3 ∧ win0_2.index t (1 : Fin 2) = t.val % 3 :=
  (by decide +kernel : ∀ t : Fin grid0.N, _)

theorem hz : (![0, 0] : Fin 2 → Nat) = fun _ => 0 := funext fun a => by fin_cases a <;> rfl

section Region

variable (V : (c : Dev nD) → (b : Ref sig .tc) → Buf (Elt Ideal) ((c : Thread nD τ).loc b))

/-- The product of the two input arrays, entry by entry. -/
def Gm (X : S8192x1024.Idx → EReal) (Wt : S1024x3072.Idx → EReal) : Fin 8192 → Fin 3072 → EReal :=
  fun r col => ∑ k : Fin 1024, X (ix2 r k) * Wt (ix2 k col)

/-- Window 0's block at point "t" is rows "1024 (t / 3) …" of its array. -/
theorem iblk_x (t : Fin cfg0.N) (a k : Fin 1024) (r : Fin 8192) (hr : r.val = 1024 * (t.val / 3) + a.val) :
    (R0.iblk0 V c 0 t : Vec Ideal S1024x1024 .bf16) (ix2 a k) = (V c main_v3 : S8192x1024.Idx → EReal) (ix2 r k) := by
  obtain ⟨e0, e1, -, -, -, -⟩ := idx_facts t
  unfold R0.iblk0
  rw [View.read_apply]
  show V c main_v3 _ = V c main_v3 _
  congr 1
  funext d
  apply Fin.ext
  match d with
  | ⟨0, _⟩ => show win0_0.index t (0 : Fin 2) * 1024 + 1 * a.val = r.val; rw [e0, hr]; omega
  | ⟨1, _⟩ => show win0_0.index t (1 : Fin 2) * 1024 + 1 * k.val = k.val; rw [e1]; omega

/-- Window 1's block at point "t" is columns "1024 (t % 3) …" of its array. -/
theorem iblk_w (t : Fin cfg0.N) (k b : Fin 1024) (col : Fin 3072) (hcol : col.val = 1024 * (t.val % 3) + b.val) :
    (R0.iblk0 V c 1 t : Vec Ideal S1024x1024 .bf16) (ix2 k b) = (V c main_v2 : S1024x3072.Idx → EReal) (ix2 k col) := by
  obtain ⟨-, -, e2, e3, -, -⟩ := idx_facts t
  unfold R0.iblk0
  rw [View.read_apply]
  show V c main_v2 _ = V c main_v2 _
  congr 1
  funext d
  apply Fin.ext
  match d with
  | ⟨0, _⟩ => show win0_1.index t (0 : Fin 2) * 1024 + 1 * k.val = k.val; rw [e2]; omega
  | ⟨1, _⟩ => show win0_1.index t (1 : Fin 2) * 1024 + 1 * b.val = col.val; rw [e3, hcol]; omega

/-- The payload of the two input blocks at point "t" is the output block's part of the product. -/
theorem pay_block (t : Fin cfg0.N) (y : S1024x1024.Idx) :
    k0_pay1 (F := Ideal) (R0.iblk0 V c 0 t) (R0.iblk0 V c 1 t) y
      = ofMat (Gm (V c main_v3) (V c main_v2)) (((cfg0.win 2).blk t).view.emb y) := by
  obtain ⟨a, b, rfl⟩ : ∃ (a b : Fin 1024), y = ix2 a b := ⟨y 0, y 1, eq_ix2 y⟩
  obtain ⟨-, -, -, -, e4, e5⟩ := idx_facts t
  have hN : cfg0.N = 24 := N_0
  have ht : t.val < 24 := hN ▸ t.isLt
  obtain ⟨r, hr⟩ : ∃ r : Fin 8192, r.val = 1024 * (t.val / 3) + a.val := ⟨⟨1024 * (t.val / 3) + a.val, by omega⟩, rfl⟩
  obtain ⟨col, hcol⟩ : ∃ col : Fin 3072, col.val = 1024 * (t.val % 3) + b.val := ⟨⟨1024 * (t.val % 3) + b.val, by omega⟩, rfl⟩
  have hemb : ((cfg0.win 2).blk t).view.emb (ix2 a b) = (ix2 r col : S8192x3072.Idx) := by
    funext d
    apply Fin.ext
    match d with
    | ⟨0, _⟩ => show win0_2.index t (0 : Fin 2) * 1024 + 1 * a.val = r.val; rw [e4, hr]; omega
    | ⟨1, _⟩ => show win0_2.index t (1 : Fin 2) * 1024 + 1 * b.val = col.val; rw [e5, hcol]; omega
  refine (Pay.k0_pay1_apply (R0.iblk0 V c 0 t) (R0.iblk0 V c 1 t) a b).trans ?_
  refine Eq.trans ?_ (congrArg (ofMat (Gm (V c main_v3) (V c main_v2))) hemb).symm
  show _ = Gm (V c main_v3) (V c main_v2) r col
  unfold Gm
  exact Finset.sum_congr rfl (fun k _ => congrArg₂ (· * ·) (iblk_x c V t a k r hr) (iblk_w c V t k b col hcol))

/-- What point "t" writes back is block "t" of the product. -/
theorem flushed_eq (t : Fin cfg0.N) :
    (R0.dat0 V c).flushed 2 t
      = ((cfg0.win 2).blk t).view.read (Elt Ideal) (ofMat (Gm (V c main_v3) (V c main_v2))) := by
  show (cfg0.win 2).cut (grid0.coords t) ((R0.dat0 V c).after 2 t) = _
  rw [R0.after0_2]
  unfold R0.out0_2
  rw [View.canon_unit_zero hz]
  simp only [View.ld_unit_zero (S := S1024x1024) hz]
  funext y
  exact pay_block c V t y

/-- An index of the array is in point "t"'s block iff each coordinate is in the block's range on its axis. -/
theorem mem_blk (t : Fin cfg0.N) (i : S8192x3072.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v4).slice (win0_2.rect t)).set ↔ _
  rw [View.set_slice_whole, Rect.mem_set_unit]
  exact Iff.rfl

/-- Every index of the output array is in some point's block. -/
theorem cover (i : S8192x3072.Idx) :
    ∃ t : Fin cfg0.N, (cfg0.win 2).flush t = true ∧ i ∈ ((cfg0.win 2).blk t).view.set := by
  have h0 : (i 0).val < 8192 := (i 0).isLt
  have h1 : (i 1).val < 3072 := (i 1).isLt
  have hN : cfg0.N = 24 := N_0
  obtain ⟨t, ht⟩ : ∃ t : Fin cfg0.N, t.val = 3 * ((i 0).val / 1024) + (i 1).val / 1024 :=
    ⟨⟨3 * ((i 0).val / 1024) + (i 1).val / 1024, by rw [hN]; omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; rw [e4, ht]; omega
  | ⟨1, _⟩ => show win0_2.index t (1 : Fin 2) * 1024 ≤ (i 1).val ∧ (i 1).val < win0_2.index t (1 : Fin 2) * 1024 + 1024; rw [e5, ht]; omega

/-- The output array after the region is the product of the two input arrays as the region finds them. -/
theorem final : (R0.dat0 V c).arrAt 2 cfg0.N = ofMat (Gm (V c main_v3) (V c main_v2)) :=
  (R0.dat0 V c).arrAt_eq_of_cover 2 (ofMat (Gm (V c main_v3) (V c main_v2))) (fun t _ => flushed_eq c V t) (cover)

end Region

/-! ## The input arrays as the region finds them -/

/-- The first input array is the argument "x" (the change of format is the identity on exact values). -/
theorem x_eq : (Run.U1 m c main_v3 : S8192x1024.Idx → EReal) = (m ((c : Thread nD τ).loc main_arg0) : S8192x1024.Idx → EReal) := by
  dsimp only [Run.U1, Gen.V1, Gen.hostOps0]
  after_results
  rfl

/-- Three square matrices stacked by rows, then transposed: column "1024 j + o" is row "o" of the "j"-th. -/
theorem cat_t_apply (u0 u1 u2 : S1024x1024.Idx → EReal) (k : Fin 1024) (jj : ℕ) (hjj : jj < 3) (o : Fin 1024) (col : Fin 3072)
    (hcol : col.val = 1024 * jj + o.val) (x₁ : S1024x1024.Idx → EReal)
    (hx : ([⟨S1024x1024, u0⟩, ⟨S1024x1024, u1⟩, ⟨S1024x1024, u2⟩] : List ((s : Shape) × (s.Idx → EReal)))[jj]'(by simpa using hjj) = ⟨S1024x1024, x₁⟩) :
    transpose S1024x3072 [1, 0]
        (concatenate S3072x1024 0 [⟨S1024x1024, u0⟩, ⟨S1024x1024, u1⟩, ⟨S1024x1024, u2⟩] concatenates_S1024x1024_S1024x1024_S1024x1024_S3072x1024_d0)
        transposes_S3072x1024_S1024x3072_1_0 (ix2 k col)
      = x₁ (ix2 o k) := by
  refine (transpose_apply (s := S3072x1024) (t := S1024x3072) [1, 0] _ transposes_S3072x1024_S1024x3072_1_0 (ix2 k col) (ix2 col k) ?_).trans ?_
  · intro b
    match b with
    | ⟨0, _⟩ => rfl
    | ⟨1, _⟩ => rfl
  · refine concatenate_apply_piece (t := S3072x1024) 0
      ([⟨S1024x1024, u0⟩, ⟨S1024x1024, u1⟩, ⟨S1024x1024, u2⟩] : List ((s : Shape) × (s.Idx → EReal)))
      concatenates_S1024x1024_S1024x1024_S1024x1024_S3072x1024_d0 (ix2 col k)
      jj (by simpa using hjj) S1024x1024 x₁ hx rfl (1024 * jj) ?_ (ix2 o k) ?_ ?_
    · obtain rfl | rfl | rfl : jj = 0 ∨ jj = 1 ∨ jj = 2 := by omega
      · rfl
      · rfl
      · rfl
    · intro b hb
      match b with
      | ⟨0, _⟩ => exact absurd rfl hb
      | ⟨1, _⟩ => rfl
    · show 1024 * jj + o.val = col.val
      omega

/-- The weight matrix of the "j"-th projection: query, key, value. -/
def wsel : Fin 3 → (S1024x1024.Idx → EReal)
  | ⟨0, _⟩ => m ((c : Thread nD τ).loc main_arg1)
  | ⟨1, _⟩ => m ((c : Thread nD τ).loc main_arg2)
  | ⟨2, _⟩ => m ((c : Thread nD τ).loc main_arg3)

/-- The second input array is the three weight matrices stacked by rows and transposed: its entry at row "k" and
    column "1024 j + o" is entry "(o, k)" of the "j"-th weight matrix. -/
theorem w_at (k : Fin 1024) (j : Fin 3) (o : Fin 1024) (col : Fin 3072) (hcol : col.val = 1024 * j.val + o.val) :
    (Run.U1 m c main_v2 : S1024x3072.Idx → EReal) (ix2 k col) = wsel m c j (ix2 o k) := by
  dsimp only [Run.U1, Gen.V1, Gen.hostOps0]
  after_results
  match j with
  | ⟨0, _⟩ =>
    refine (cat_t_apply _ _ _ k 0 (by omega) o col hcol _ rfl).trans ?_
    refine congrFun ?_ (ix2 o k)
    show (StableHlo.nullary main_c_0 _ _).result _ (Proc.devRef .tc main_arg1) = _
    rw [StableHlo.nullary_result_ne, StableHlo.nullary_result_ne]
    · rfl
    · decide
    · decide
  | ⟨1, _⟩ =>
    refine (cat_t_apply _ _ _ k 1 (by omega) o col hcol _ rfl).trans ?_
    refine congrFun ?_ (ix2 o k)
    show (StableHlo.nullary main_c_0 _ _).result _ (Proc.devRef .tc main_arg2) = _
    rw [StableHlo.nullary_result_ne, StableHlo.nullary_result_ne]
    · rfl
    · decide
    · decide
  | ⟨2, _⟩ =>
    refine (cat_t_apply _ _ _ k 2 (by omega) o col hcol _ rfl).trans ?_
    refine congrFun ?_ (ix2 o k)
    show (StableHlo.nullary main_c_0 _ _).result _ (Proc.devRef .tc main_arg3) = _
    rw [StableHlo.nullary_result_ne, StableHlo.nullary_result_ne]
    · rfl
    · decide
    · decide

/-! ## The projections -/

/-- The output array of the projection region, at row "r" and column "1024 j + o", is the "j"-th projection of "x":
    row "r" of "x" against row "o" of the "j"-th weight matrix. -/
theorem qkv_apply (r : Fin 8192) (j : Fin 3) (o : Fin 1024) :
    (R0.dat0 (F := Ideal) (Run.U1 m) c).arrAt 2 cfg0.N (ix2 r (⟨1024 * j.val + o.val, by omega⟩ : Fin 3072))
      = Cert.AttnSpec.proj (toMat (m ((c : Thread nD τ).loc main_arg0))) (toMat (wsel m c j)) r o := by
  rw [final c (Run.U1 m)]
  show Gm (Run.U1 m c main_v3) (Run.U1 m c main_v2) r ⟨1024 * j.val + o.val, _⟩ = _
  unfold Gm Cert.AttnSpec.proj
  refine Finset.sum_congr rfl (fun k _ => ?_)
  rw [x_eq m c, w_at m c k j o ⟨1024 * j.val + o.val, _⟩ rfl]
  rfl

end Cert.KernelIdeal.Val0

end
-- ==== Proof.KIChain.lean ====
/-
  The merge chain of one query block. The kernel resets three scratches — a running maximum, a running normaliser
  and a running weighted sum — and then, for each key block up to the query block's own (the diagonal one), replaces
  them by the merge of the block into them. Row by row this is the recursion of the specification's running state
  over the block scores: every key of an earlier block live, the keys of the diagonal block live up to the query's own
  position. What is written out at the end is the weighted sum times the reciprocal of the normaliser.
-/
import proofs.«121137_j11647951306945_2_alg».proof.Proof.FlashPay
import proofs.«121137_j11647951306945_2_alg».proof.Proof.AttnSpec

noncomputable section

open scoped BigOperators

namespace Cert.KernelIdeal.Chain

open Cert.KernelIdeal Cert.KernelIdeal.Gen Cert.KernelIdeal.Pay Cert.AttnSpec
open Idealize.ShloMosaic Idealize.ShloMosaic.ValueIdx

/-- A block of 512 rows of queries, keys or values. -/
abbrev Blk : Type := FVec Ideal S512x1024 .bf16
/-- A column: one number per row of the query block. -/
abbrev Col : Type := FVec Ideal S512x1 .f32
/-- The weighted sums of a query block. -/
abbrev Acc : Type := FVec Ideal S512x1024 .f32

/-- The three scratches (maximum, normaliser, weighted sum) after the reset and the first `n` merges of a query block
    whose diagonal block is its `Q`-th: blocks before `Q` merged with every key live, block `Q` with the causal mask. -/
def chain (qb : Blk) (kb vb : ℕ → Blk) (Q : ℕ) : ℕ → Col × Col × Acc
  | 0 => (k1_pay1 (F := Ideal), k1_pay2 (F := Ideal), k1_pay3 (F := Ideal))
  | k + 1 =>
    if k = Q then
      (k1_pay12 (F := Ideal) qb (kb k) (chain qb kb vb Q k).1,
       k1_pay10 (F := Ideal) qb (kb k) (chain qb kb vb Q k).1 (chain qb kb vb Q k).2.1,
       k1_pay11 (F := Ideal) qb (kb k) (vb k) (chain qb kb vb Q k).1 (chain qb kb vb Q k).2.2)
    else
      (k1_pay18 (F := Ideal) qb (kb k) (chain qb kb vb Q k).1,
       k1_pay16 (F := Ideal) qb (kb k) (chain qb kb vb Q k).1 (chain qb kb vb Q k).2.1,
       k1_pay17 (F := Ideal) qb (kb k) (vb k) (chain qb kb vb Q k).1 (chain qb kb vb Q k).2.2)

/-- The scores of row `a` of the query block against key block `b`: all live before the diagonal block, masked on it,
    none after it. -/
def sB (qb : Blk) (kb : ℕ → Blk) (Q : ℕ) (a : Fin 512) : ℕ → Fin 512 → EReal := fun b c =>
  if b < Q then sOff qb (kb b) a c else if b = Q then sDiag qb (kb Q) a c else ⊥

section
variable (qb : Blk) (kb vb : ℕ → Blk) (Q : ℕ)

theorem sB_off (a : Fin 512) (b : ℕ) (h : b < Q) : sB qb kb Q a b = sOff qb (kb b) a :=
  funext fun c => by unfold sB; rw [if_pos h]

theorem sB_diag (a : Fin 512) : sB qb kb Q a Q = sDiag qb (kb Q) a :=
  funext fun c => by unfold sB; rw [if_neg (lt_irrefl Q), if_pos rfl]

theorem chain_succ_diag : chain qb kb vb Q (Q + 1)
    = (k1_pay12 (F := Ideal) qb (kb Q) (chain qb kb vb Q Q).1,
       k1_pay10 (F := Ideal) qb (kb Q) (chain qb kb vb Q Q).1 (chain qb kb vb Q Q).2.1,
       k1_pay11 (F := Ideal) qb (kb Q) (vb Q) (chain qb kb vb Q Q).1 (chain qb kb vb Q Q).2.2) := by
  rw [chain, if_pos rfl]

theorem chain_succ_off (k : ℕ) (h : k ≠ Q) : chain qb kb vb Q (k + 1)
    = (k1_pay18 (F := Ideal) qb (kb k) (chain qb kb vb Q k).1,
       k1_pay16 (F := Ideal) qb (kb k) (chain qb kb vb Q k).1 (chain qb kb vb Q k).2.1,
       k1_pay17 (F := Ideal) qb (kb k) (vb k) (chain qb kb vb Q k).1 (chain qb kb vb Q k).2.2) := by
  rw [chain, if_neg h]

/-- Row by row, the three scratches after `k ≤ Q + 1` merges are the specification's running state and running
    weighted sum over the block scores. -/
theorem chain_all : ∀ k, k ≤ Q + 1 → ∀ a : Fin 512,
    (chain qb kb vb Q k).1 (ix2 a (0 : Fin 1)) = (st (sB qb kb Q a) k).1
    ∧ (chain qb kb vb Q k).2.1 (ix2 a (0 : Fin 1)) = (st (sB qb kb Q a) k).2
    ∧ ∀ o : Fin 1024, (chain qb kb vb Q k).2.2 (ix2 a o) = acc (sB qb kb Q a) (fun b c => vb b (ix2 c o)) k := by
  intro k
  induction k with
  | zero =>
    intro _ a
    exact ⟨pay1_apply a, pay2_apply a, fun o => pay3_apply a o⟩
  | succ k ih =>
    intro hk a
    obtain ⟨hm, hl, hacc⟩ := ih (by omega) a
    by_cases hkQ : k = Q
    · subst hkQ
      rw [chain_succ_diag]
      refine ⟨?_, ?_, fun o => ?_⟩
      · show k1_pay12 (F := Ideal) qb (kb k) (chain qb kb vb k k).1 (ix2 a (0 : Fin 1))
          = mNext (st (sB qb kb k a) k).1 (sB qb kb k a k)
        rw [pay12_apply, hm, sB_diag]
      · show k1_pay10 (F := Ideal) qb (kb k) (chain qb kb vb k k).1 (chain qb kb vb k k).2.1 (ix2 a (0 : Fin 1))
          = lNext (st (sB qb kb k a) k).1 (st (sB qb kb k a) k).2 (sB qb kb k a k)
        rw [pay10_apply, hm, hl, sB_diag]
      · show k1_pay11 (F := Ideal) qb (kb k) (vb k) (chain qb kb vb k k).1 (chain qb kb vb k k).2.2 (ix2 a o)
          = accNext (st (sB qb kb k a) k).1 (acc (sB qb kb k a) (fun b c => vb b (ix2 c o)) k) (sB qb kb k a k)
              (fun c => vb k (ix2 c o))
        rw [pay11_apply, hm, hacc o, sB_diag]
    · have hlt : k < Q := by omega
      rw [chain_succ_off qb kb vb Q k hkQ]
      refine ⟨?_, ?_, fun o => ?_⟩
      · show k1_pay18 (F := Ideal) qb (kb k) (chain qb kb vb Q k).1 (ix2 a (0 : Fin 1))
          = mNext (st (sB qb kb Q a) k).1 (sB qb kb Q a k)
        rw [pay18_apply, hm, sB_off qb kb Q a k hlt]
      · show k1_pay16 (F := Ideal) qb (kb k) (chain qb kb vb Q k).1 (chain qb kb vb Q k).2.1 (ix2 a (0 : Fin 1))
          = lNext (st (sB qb kb Q a) k).1 (st (sB qb kb Q a) k).2 (sB qb kb Q a k)
        rw [pay16_apply, hm, hl, sB_off qb kb Q a k hlt]
      · show k1_pay17 (F := Ideal) qb (kb k) (vb k) (chain qb kb vb Q k).1 (chain qb kb vb Q k).2.2 (ix2 a o)
          = accNext (st (sB qb kb Q a) k).1 (acc (sB qb kb Q a) (fun b c => vb b (ix2 c o)) k) (sB qb kb Q a k)
              (fun c => vb k (ix2 c o))
        rw [pay17_apply, hm, hacc o, sB_off qb kb Q a k hlt]

theorem chain_m (k : ℕ) (hk : k ≤ Q + 1) (a : Fin 512) :
    (chain qb kb vb Q k).1 (ix2 a (0 : Fin 1)) = (st (sB qb kb Q a) k).1 :=
  (chain_all qb kb vb Q k hk a).1

theorem chain_l (k : ℕ) (hk : k ≤ Q + 1) (a : Fin 512) :
    (chain qb kb vb Q k).2.1 (ix2 a (0 : Fin 1)) = (st (sB qb kb Q a) k).2 :=
  (chain_all qb kb vb Q k hk a).2.1

theorem chain_acc (k : ℕ) (hk : k ≤ Q + 1) (a : Fin 512) (o : Fin 1024) :
    (chain qb kb vb Q k).2.2 (ix2 a o) = acc (sB qb kb Q a) (fun b c => vb b (ix2 c o)) k :=
  (chain_all qb kb vb Q k hk a).2.2 o

/-- What the kernel writes out after the diagonal block is the specification's output after `Q + 1` blocks. -/
theorem chain_out (a : Fin 512) (o : Fin 1024) :
    k1_pay19 (F := Ideal) (chain qb kb vb Q (Q + 1)).2.2 (chain qb kb vb Q (Q + 1)).2.1 (ix2 a o)
      = out (sB qb kb Q a) (fun b c => vb b (ix2 c o)) (Q + 1) := by
  rw [pay19_apply, chain_acc qb kb vb Q (Q + 1) le_rfl a o, chain_l qb kb vb Q (Q + 1) le_rfl a]
  rfl

end

end Cert.KernelIdeal.Chain

end
-- ==== Proof.KIValue1Blocks.lean ====
/-
  The blocks the attention region reads, in terms of the specification. The region finds the 8192 by 3072 array of
  the three projections: its entry at row `r` and column `1024·j + o` is the `j`-th projection of the activations
  (query, key, value) at `(r, o)`. The query window's block at a grid point is the rows `512·Q …` of the first 1024
  columns, `Q` the point's query block; the key and value windows' blocks are the rows `512·b …` of the second and of the
  third 1024 columns, `b` the point's key block. So a block's element `(a, d)` is the projection's entry at row
  `512·Q + a` (or `512·b + a`) and column `d`.
-/
import proofs.«121137_j11647951306945_2_alg».proof.Proof.KIBlocks1
import proofs.«121137_j11647951306945_2_alg».proof.Proof.KIValue0
import proofs.«121137_j11647951306945_2_alg».proof.Proof.KIChain

set_option maxRecDepth 16384

noncomputable section

open scoped BigOperators

namespace Cert.KernelIdeal.Val1

open Cert.KernelIdeal Cert.KernelIdeal.Gen Cert.AttnSpec
open Idealize.ShloMosaic Idealize.ShloMosaic.TcCoe Idealize.ShloMosaic.ValueIdx Idealize.SL.Sem

/-- Row `a` of the `Q`-th block of 512 rows. -/
def rowOf (Q a : ℕ) : Fin 8192 := ⟨(512 * Q + a) % 8192, Nat.mod_lt _ (by norm_num)⟩

/-- Column `d` of the `j`-th group of 1024 columns. -/
def colOf (j d : ℕ) : Fin 3072 := ⟨(1024 * j + d) % 3072, Nat.mod_lt _ (by norm_num)⟩

/-- The block of 512 rows by 1024 columns of an 8192 by 3072 array at block row `Q` and column group `j`. -/
def blkOf (X : S8192x3072.Idx → EReal) (j Q : ℕ) : Chain.Blk :=
  fun y => X (ix2 (rowOf Q (y 0).val) (colOf j (y 1).val))

theorem blkOf_apply (X : S8192x3072.Idx → EReal) (j Q : ℕ) (a : Fin 512) (d : Fin 1024) :
    blkOf X j Q (ix2 a d) = X (ix2 (rowOf Q a.val) (colOf j d.val)) := rfl

theorem rowOf_key (Q : Fin 16) (a : Fin 512) : rowOf Q.val a.val = key Q a :=
  Fin.ext (Nat.mod_eq_of_lt (by have := Q.isLt; have := a.isLt; omega))

/-! ## The windows' blocks at a grid point -/

section Windows

variable (X : S8192x3072.Idx → EReal) (t : Fin (R1.cfgA (F := Ideal)).N)

/-- The query window's block at point `t`. -/
theorem blk_q : (((R1.cfgA (F := Ideal)).win (0 : Fin 4)).blk t).view.read (Elt Ideal) X = blkOf X 0 (R1.qiN t) := by
  funext y
  obtain ⟨a, d, rfl⟩ : ∃ (a : Fin 512) (d : Fin 1024), y = ix2 a d := ⟨y 0, y 1, eq_ix2 y⟩
  have hq := R1.qiN_lt (F := Ideal) t
  refine (R1.blk1_0_apply (F := Ideal) X t a d).trans ?_
  have ha := a.isLt
  have hd := d.isLt
  exact congrArg X (congrArg₂ ix2
    (Fin.ext (show 512 * R1.qiN t + a.val = (512 * R1.qiN t + a.val) % 8192 by omega))
    (Fin.ext (show d.val = (1024 * 0 + d.val) % 3072 by omega)))

/-- The key window's block at point `t`. -/
theorem blk_k : (((R1.cfgA (F := Ideal)).win (1 : Fin 4)).blk t).view.read (Elt Ideal) X = blkOf X 1 (R1.kiN t) := by
  funext y
  obtain ⟨a, d, rfl⟩ : ∃ (a : Fin 512) (d : Fin 1024), y = ix2 a d := ⟨y 0, y 1, eq_ix2 y⟩
  have hq := R1.kiN_lt (F := Ideal) t
  refine (R1.blk1_1_apply (F := Ideal) X t a d).trans ?_
  have ha := a.isLt
  have hd := d.isLt
  exact congrArg X (congrArg₂ ix2
    (Fin.ext (show 512 * R1.kiN t + a.val = (512 * R1.kiN t + a.val) % 8192 by omega))
    (Fin.ext (show 1024 + d.val = (1024 * 1 + d.val) % 3072 by omega)))

/-- The value window's block at point `t`. -/
theorem blk_v : (((R1.cfgA (F := Ideal)).win (2 : Fin 4)).blk t).view.read (Elt Ideal) X = blkOf X 2 (R1.kiN t) := by
  funext y
  obtain ⟨a, d, rfl⟩ : ∃ (a : Fin 512) (d : Fin 1024), y = ix2 a d := ⟨y 0, y 1, eq_ix2 y⟩
  have hq := R1.kiN_lt (F := Ideal) t
  refine (R1.blk1_2_apply (F := Ideal) X t a d).trans ?_
  have ha := a.isLt
  have hd := d.isLt
  exact congrArg X (congrArg₂ ix2
    (Fin.ext (show 512 * R1.kiN t + a.val = (512 * R1.kiN t + a.val) % 8192 by omega))
    (Fin.ext (show 2048 + d.val = (1024 * 2 + d.val) % 3072 by omega)))

end Windows

/-! ## The array the region finds -/

section Array

variable (m : (ℓ : Loc nD τ sig) → Buf (Elt Ideal) ℓ) (c : Dev nD)

/-- The array of the three projections as the attention region finds it: what the projection region left. -/
theorem qkv_found : (Run.U2 m c main_v4 : S8192x3072.Idx → EReal) = (R0.dat0 (F := Ideal) (Run.U1 m) c).arrAt 2 cfg0.N :=
  Run.W2_arr m c 2

/-- A block of the `j`-th column group at block row `Q` holds the `j`-th projection's rows `512·Q …`. -/
theorem blkOf_proj (j : Fin 3) (Q : Fin 16) (a : Fin 512) (d : Fin 1024) :
    blkOf (Run.U2 m c main_v4) j.val Q.val (ix2 a d)
      = proj (toMat (m ((c : Thread nD τ).loc main_arg0))) (toMat (Val0.wsel m c j)) (key Q a) d := by
  have hj := j.isLt
  have hd := d.isLt
  have e2 : colOf j.val d.val = (⟨1024 * j.val + d.val, by omega⟩ : Fin 3072) :=
    Fin.ext (Nat.mod_eq_of_lt (by omega))
  rw [blkOf_apply, rowOf_key, e2, qkv_found]
  exact Val0.qkv_apply m c (key Q a) j d

end Array

end Cert.KernelIdeal.Val1

end
-- ==== Proof.KISchedule.lean ====
/-
  The order in which the attention kernel visits its (query block, key block) pairs. The grid has 136 points; point
  `t` works on query block `qi t` and key block `ki t`, read from two literal tables. Every query block `Q` (0 to 15)
  owns a run of `Q + 1` consecutive points, starting at `start Q`; the `k`-th point of the run (k = 0, …, Q) has
  `qi = Q` and `ki = k`: the key blocks 0, …, Q in order, the last one the diagonal block. The runs partition the
  grid. (The runs are laid out Q = 0, 15, 1, 14, 2, 13, …, 7, 8, so that each half of the grid does equal work.)
-/
import proofs.«121137_j11647951306945_2_alg».proof.KernelIdeal

namespace Cert.KernelIdeal.Sched

open Cert.KernelIdeal

/-- The first point of query block `Q`'s run. -/
def startN : ℕ → ℕ
  | 0 => 0 | 1 => 17 | 2 => 34 | 3 => 51 | 4 => 68 | 5 => 85 | 6 => 102 | 7 => 119
  | 8 => 127 | 9 => 109 | 10 => 91 | 11 => 73 | 12 => 55 | 13 => 37 | 14 => 19 | _ => 1

/-- The first point of query block `Q`'s run. -/
def start (Q : Fin 16) : ℕ := startN Q.val

/-- The query-block table read at a natural number (0 past the grid). -/
def qiAt (n : ℕ) : BitVec 32 := if h : n < 136 then lit0 ⟨n, h⟩ else 0#32

/-- The key-block table read at a natural number (0 past the grid). -/
def kiAt (n : ℕ) : BitVec 32 := if h : n < 136 then lit1 ⟨n, h⟩ else 0#32

/-- Every run lies in the grid and carries its query block and the key blocks 0, …, Q in order: all 136 (Q, k) pairs
    with k ≤ Q, checked one by one. -/
theorem runs_fin : ∀ (Q k : Fin 16), k.val ≤ Q.val →
    start Q + k.val < 136 ∧ qiAt (start Q + k.val) = BitVec.ofNat 32 Q.val ∧ kiAt (start Q + k.val) = BitVec.ofNat 32 k.val := by
  decide

/-- Every point lies in the run of its own query block, at the place of its own key block: all 136 points, checked one
    by one. -/
theorem point_fin : ∀ t : Fin 136, (lit1 t).toNat ≤ (lit0 t).toNat ∧ (lit0 t).toNat < 16 ∧
    t.val = startN (lit0 t).toNat + (lit1 t).toNat := by
  decide +kernel

theorem run_lt (Q : Fin 16) (k : ℕ) (hk : k ≤ Q.val) : start Q + k < 136 :=
  (runs_fin Q ⟨k, by have := Q.isLt; omega⟩ hk).1

theorem run_qi (Q : Fin 16) (k : ℕ) (hk : k ≤ Q.val) : lit0 ⟨start Q + k, run_lt Q k hk⟩ = BitVec.ofNat 32 Q.val := by
  have h := (runs_fin Q ⟨k, by have := Q.isLt; omega⟩ hk).2.1
  unfold qiAt at h
  rwa [dif_pos (run_lt Q k hk)] at h

theorem run_ki (Q : Fin 16) (k : ℕ) (hk : k ≤ Q.val) : lit1 ⟨start Q + k, run_lt Q k hk⟩ = BitVec.ofNat 32 k := by
  have h := (runs_fin Q ⟨k, by have := Q.isLt; omega⟩ hk).2.2
  unfold kiAt at h
  rwa [dif_pos (run_lt Q k hk)] at h

/-- A point lies in one run only, at one place: its query block and its place in the run are what the tables say. -/
theorem point_unique (t : Fin 136) (Q : Fin 16) (k : ℕ) (hk : k ≤ Q.val) (ht : t.val = start Q + k) :
    (lit0 t).toNat = Q.val ∧ (lit1 t).toNat = k := by
  have e : t = ⟨start Q + k, run_lt Q k hk⟩ := Fin.ext ht
  have hQ := Q.isLt
  rw [e, run_qi Q k hk, run_ki Q k hk, BitVec.toNat_ofNat, BitVec.toNat_ofNat]
  exact ⟨Nat.mod_eq_of_lt (by omega), Nat.mod_eq_of_lt (by omega)⟩

/-- The runs cover the grid. -/
theorem point_cases (t : Fin 136) : ∃ (Q : Fin 16) (k : ℕ) (_ : k ≤ Q.val), t.val = start Q + k :=
  let ⟨h1, h2, h3⟩ := point_fin t
  ⟨⟨(lit0 t).toNat, h2⟩, (lit1 t).toNat, h1, h3⟩

end Cert.KernelIdeal.Sched
-- ==== Proof.LibOnlineSoftmax.lean ====
/-
  The online softmax law, over the extended reals.

  A row of scores is cut into blocks. The running merge of "AttnSpec" keeps a running maximum "m", a running
  normaliser "l" and a running weighted sum "acc"; passing a block, what was accumulated under the old maximum is
  rescaled by "exp (m - m')" and the block's own terms "exp (s - m')" are added. This module proves that, when no
  score is "⊤", the first block holds a finite score, the blocks after the "n"-th are all "⊥" and the values are
  finite, the merge's output after "n + 1" blocks, "acc * (1 / l)", is the softmax-weighted sum of the values over
  all "N" blocks: "∑ (exp (s - M) / ∑ exp (s - M)) * v" with "M" the largest score of the row.

  The argument: from the first block on the running maximum is a real number "M_k", the largest score of the first
  "k" blocks, and by induction on "k" the normaliser is "∑ exp (s - M_k)" and the weighted sum "∑ exp (s - M_k) * v",
  the sums over the first "k" blocks; the step is "exp (M - M') * exp (a - M) = exp (a - M')" for a real score "a"
  (both sides are "0" for the score "⊥"). All of it is arithmetic of real numbers: every term is the image of a
  real, and the image of a finite sum is the sum of the images. At the end the largest score of the whole row is
  "M_(n+1)", the blocks after the "n"-th add "exp ⊥ = 0", and "(∑ e * v) * (1 / L) = ∑ (e / L) * v" for the positive
  real "L".

  Nothing here mentions a program or an array: the lemma can serve any kernel whose merge is "AttnSpec"'s.
-/
import proofs.«121137_j11647951306945_2_alg».proof.Proof.AttnSpec
import Mathlib.Data.EReal.Operations
import Mathlib.Data.EReal.Inv
import Mathlib.Analysis.SpecialFunctions.Exp

noncomputable section

open scoped BigOperators

namespace Cert.AttnSpec.OnlineSoftmax

open Idealize.ShloMosaic

/-! ## Real numbers inside the extended reals -/

/-- The image of a finite sum of reals is the sum of the images. -/
theorem coe_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A sum over "Fin N" of a function of the position that vanishes after position "n < N" is the sum over the first
    "n + 1" positions. -/
theorem sum_fin_dead (N n : ℕ) (hn : n < N) (g : ℕ → ℝ) (hg : ∀ b, n < b → g b = 0) :
    ∑ b : Fin N, g b.val = ∑ b ∈ Finset.range (n + 1), g b := by
  rw [Fin.sum_univ_eq_sum_range g N]
  symm
  apply Finset.sum_subset
  · intro b hb
    rw [Finset.mem_range] at hb ⊢
    omega
  · intro b _ hb
    rw [Finset.mem_range] at hb
    exact hg b (by omega)

/-! ## A weight as a real number -/

/-- "exp (x - M)" as a real: "0" for "x = ⊥". -/
def w (M : ℝ) (x : EReal) : ℝ := (Ideal.exp (x - (M : EReal))).toReal

theorem w_bot (M : ℝ) : w M ⊥ = 0 := by
  unfold w
  rw [EReal.bot_sub, Ideal.exp_bot, EReal.toReal_zero]

theorem w_coe (M a : ℝ) : w M (a : EReal) = Real.exp (a - M) := by
  unfold w
  rw [← EReal.coe_sub, Ideal.exp_coe, EReal.toReal_coe]

/-- Off "⊤", "exp (x - M)" is the image of the real weight. -/
theorem exp_sub_coe (M : ℝ) (x : EReal) (hx : x ≠ ⊤) :
    Ideal.exp (x - (M : EReal)) = ((w M x : ℝ) : EReal) := by
  induction x using EReal.rec with
  | bot => rw [w_bot, EReal.bot_sub, Ideal.exp_bot, EReal.coe_zero]
  | coe a => rw [w_coe, ← EReal.coe_sub, Ideal.exp_coe]
  | top => exact absurd rfl hx

theorem w_nonneg (M : ℝ) (x : EReal) : 0 ≤ w M x := by
  induction x using EReal.rec with
  | bot => rw [w_bot]
  | coe a => rw [w_coe]; exact (Real.exp_pos _).le
  | top => unfold w; rw [EReal.top_sub_coe, Ideal.exp_top, EReal.toReal_top]

/-- Moving the reference point from "M" to "M'" multiplies a weight by "exp (M - M')". -/
theorem w_rescale (M M' : ℝ) (x : EReal) (hx : x ≠ ⊤) : Real.exp (M - M') * w M x = w M' x := by
  induction x using EReal.rec with
  | bot => rw [w_bot, w_bot, mul_zero]
  | coe a =>
    rw [w_coe, w_coe, ← Real.exp_add]
    congr 1
    ring
  | top => exact absurd rfl hx

/-! ## The running maximum -/

section Merge

variable {C : Type} [Fintype C]

theorem blockMax_le (s : C → EReal) (x : EReal) : blockMax s ≤ x ↔ ∀ c, s c ≤ x := by
  unfold blockMax
  rw [Finset.fold_max_le]
  simp

theorem blockMax_lt_top (s : C → EReal) (hs : ∀ c, s c ≠ ⊤) : blockMax s < ⊤ := by
  unfold blockMax
  rw [Finset.fold_max_lt]
  exact ⟨bot_lt_top, fun c _ => lt_top_iff_ne_top.mpr (hs c)⟩

theorem st_succ (s : ℕ → C → EReal) (k : ℕ) :
    st s (k + 1) = (mNext (st s k).1 (s k), lNext (st s k).1 (st s k).2 (s k)) := rfl

theorem acc_succ (s v : ℕ → C → EReal) (k : ℕ) :
    acc s v (k + 1) = accNext (st s k).1 (acc s v k) (s k) (v k) := rfl

/-- The running maximum after "k" blocks is the least upper bound of the scores of the first "k" blocks. -/
theorem st_fst_le (s : ℕ → C → EReal) (k : ℕ) (x : EReal) :
    (st s k).1 ≤ x ↔ ∀ b, b < k → ∀ c, s b c ≤ x := by
  induction k with
  | zero =>
    constructor
    · intro _ b hb
      exact absurd hb (Nat.not_lt_zero b)
    · intro _
      exact bot_le
  | succ k ih =>
    rw [st_succ]
    show max (st s k).1 (blockMax (s k)) ≤ x ↔ _
    rw [max_le_iff, ih, blockMax_le]
    constructor
    · rintro ⟨h1, h2⟩ b hb c
      rcases Nat.lt_succ_iff_lt_or_eq.mp hb with h | h
      · exact h1 b h c
      · rw [h]; exact h2 c
    · intro h
      exact ⟨fun b hb c => h b (Nat.lt_succ_of_lt hb) c, fun c => h k (Nat.lt_succ_self k) c⟩

theorem st_fst_lt_top (s : ℕ → C → EReal) (hs : ∀ b c, s b c ≠ ⊤) (k : ℕ) : (st s k).1 < ⊤ := by
  induction k with
  | zero => exact bot_lt_top
  | succ k ih =>
    rw [st_succ]
    exact max_lt ih (blockMax_lt_top (s k) (hs k))

/-- From the first block on the running maximum is a real number. -/
theorem st_fst_real (s : ℕ → C → EReal) (hs : ∀ b c, s b c ≠ ⊤) (hlive : ∃ c, s 0 c ≠ ⊥) (k : ℕ) :
    ∃ M : ℝ, (st s (k + 1)).1 = (M : EReal) := by
  obtain ⟨c0, hc0⟩ := hlive
  have h1 : (st s (k + 1)).1 ≠ ⊤ := (st_fst_lt_top s hs (k + 1)).ne
  have h2 : (st s (k + 1)).1 ≠ ⊥ := by
    intro h
    have := (st_fst_le s (k + 1) (st s (k + 1)).1).mp le_rfl 0 (Nat.succ_pos k) c0
    rw [h] at this
    exact hc0 (le_bot_iff.mp this)
  exact ⟨(st s (k + 1)).1.toReal, (EReal.coe_toReal h1 h2).symm⟩

/-! ## One block's terms as real sums -/

theorem block_terms (m : EReal) (sk vk : C → EReal) (hsk : ∀ c, sk c ≠ ⊤)
    (hvk : ∀ c, vk c ≠ ⊤ ∧ vk c ≠ ⊥) (M' : ℝ) (hM' : mNext m sk = (M' : EReal)) :
    (∑ c, weight m sk c) = ((∑ c, w M' (sk c) : ℝ) : EReal)
      ∧ (∑ c, weight m sk c * vk c) = ((∑ c, w M' (sk c) * (vk c).toReal : ℝ) : EReal) := by
  constructor
  · rw [coe_sum]
    refine Finset.sum_congr rfl (fun c _ => ?_)
    unfold weight
    rw [hM', exp_sub_coe _ _ (hsk c)]
  · rw [coe_sum]
    refine Finset.sum_congr rfl (fun c _ => ?_)
    unfold weight
    rw [hM', exp_sub_coe _ _ (hsk c), EReal.coe_mul, EReal.coe_toReal (hvk c).1 (hvk c).2]

/-! ## The invariant of the merge -/

/-- After "k + 1" blocks the running maximum is a real "M", the normaliser is "∑ exp (s - M)" and the weighted sum is
    "∑ exp (s - M) * v", the sums over the first "k + 1" blocks. -/
theorem merge_inv (s v : ℕ → C → EReal) (hs : ∀ b c, s b c ≠ ⊤) (hlive : ∃ c, s 0 c ≠ ⊥)
    (hv : ∀ b c, v b c ≠ ⊤ ∧ v b c ≠ ⊥) (k : ℕ) :
    ∃ M : ℝ, (st s (k + 1)).1 = (M : EReal)
      ∧ (st s (k + 1)).2 = ((∑ b ∈ Finset.range (k + 1), ∑ c, w M (s b c) : ℝ) : EReal)
      ∧ acc s v (k + 1)
          = ((∑ b ∈ Finset.range (k + 1), ∑ c, w M (s b c) * (v b c).toReal : ℝ) : EReal) := by
  induction k with
  | zero =>
    obtain ⟨M, hM⟩ := st_fst_real s hs hlive 0
    have hM' : mNext (⊥ : EReal) (s 0) = (M : EReal) := hM
    obtain ⟨t1, t2⟩ := block_terms ⊥ (s 0) (v 0) (hs 0) (hv 0) M hM'
    refine ⟨M, hM, ?_, ?_⟩
    · show lNext (⊥ : EReal) 0 (s 0) = _
      unfold lNext
      rw [mul_zero, zero_add, t1, Finset.sum_range_one]
    · show accNext (⊥ : EReal) 0 (s 0) (v 0) = _
      unfold accNext
      rw [mul_zero, zero_add, t2, Finset.sum_range_one]
  | succ k ih =>
    obtain ⟨M, h1, h2, h3⟩ := ih
    obtain ⟨M', hM'⟩ := st_fst_real s hs hlive (k + 1)
    have hN : mNext (M : EReal) (s (k + 1)) = (M' : EReal) := by
      rw [← h1]; exact hM'
    obtain ⟨t1, t2⟩ := block_terms (M : EReal) (s (k + 1)) (v (k + 1)) (hs (k + 1)) (hv (k + 1)) M' hN
    have ha : alpha (M : EReal) (s (k + 1)) = ((Real.exp (M - M') : ℝ) : EReal) := by
      unfold alpha
      rw [hN, ← EReal.coe_sub, Ideal.exp_coe]
    refine ⟨M', hM', ?_, ?_⟩
    · rw [st_succ]
      show lNext (st s (k + 1)).1 (st s (k + 1)).2 (s (k + 1)) = _
      rw [h1, h2]
      unfold lNext
      rw [ha, t1, ← EReal.coe_mul, ← EReal.coe_add, Finset.sum_range_succ _ (k + 1)]
      congr 2
      rw [Finset.mul_sum]
      refine Finset.sum_congr rfl (fun b _ => ?_)
      rw [Finset.mul_sum]
      exact Finset.sum_congr rfl (fun c _ => w_rescale M M' _ (hs b c))
    · rw [acc_succ, h1, h3]
      unfold accNext
      rw [ha, t2, ← EReal.coe_mul, ← EReal.coe_add, Finset.sum_range_succ _ (k + 1)]
      congr 2
      rw [Finset.mul_sum]
      refine Finset.sum_congr rfl (fun b _ => ?_)
      rw [Finset.mul_sum]
      refine Finset.sum_congr rfl (fun c _ => ?_)
      rw [← mul_assoc, w_rescale M M' _ (hs b c)]

end Merge

end Cert.AttnSpec.OnlineSoftmax

/-! ## The law -/

namespace Cert.AttnSpec

open Idealize.ShloMosaic OnlineSoftmax

theorem out_eq_softmax {C : Type} [Fintype C] (N n : ℕ) (hn : n < N) (s v : ℕ → C → EReal)
    (hs : ∀ b c, s b c ≠ ⊤) (hlive : ∃ c, s 0 c ≠ ⊥) (hdead : ∀ b, n < b → ∀ c, s b c = ⊥)
    (hv : ∀ b c, v b c ≠ ⊤ ∧ v b c ≠ ⊥) :
    out s v (n + 1)
      = ∑ b : Fin N, ∑ c : C,
          Ideal.div (Ideal.exp (s b.val c - Finset.univ.fold max ⊥ (fun p : Fin N × C => s p.1.val p.2)))
            (∑ b' : Fin N, ∑ c' : C, Ideal.exp (s b'.val c' - Finset.univ.fold max ⊥ (fun p : Fin N × C => s p.1.val p.2)))
          * v b.val c := by
  obtain ⟨M, h1, h2, h3⟩ := merge_inv s v hs hlive hv n
  -- the largest score of the whole row is the running maximum after "n + 1" blocks
  have hF : Finset.univ.fold max ⊥ (fun p : Fin N × C => s p.1.val p.2) = (M : EReal) := by
    rw [← h1]
    apply eq_of_forall_ge_iff
    intro x
    rw [Finset.fold_max_le, st_fst_le]
    constructor
    · rintro ⟨_, h⟩ b hb c
      exact h (⟨b, by omega⟩, c) (Finset.mem_univ _)
    · intro h
      refine ⟨bot_le, fun p _ => ?_⟩
      by_cases hp : p.1.val < n + 1
      · exact h p.1.val hp p.2
      · rw [hdead p.1.val (by omega) p.2]
        exact bot_le
  rw [hF]
  -- the normaliser
  obtain ⟨L, hL⟩ : ∃ L : ℝ, L = ∑ b ∈ Finset.range (n + 1), ∑ c, w M (s b c) := ⟨_, rfl⟩
  rw [← hL] at h2
  have hLpos : 0 < L := by
    obtain ⟨c0, hc0⟩ := hlive
    have hpos : 0 < w M (s 0 c0) := by
      have e : s 0 c0 = ((s 0 c0).toReal : EReal) := (EReal.coe_toReal (hs 0 c0) hc0).symm
      rw [e, w_coe]
      exact Real.exp_pos _
    have l1 : w M (s 0 c0) ≤ ∑ c, w M (s 0 c) :=
      Finset.single_le_sum (f := fun c => w M (s 0 c)) (fun c _ => w_nonneg M _) (Finset.mem_univ c0)
    have l2 : (∑ c, w M (s 0 c)) ≤ L := by
      rw [hL]
      exact Finset.single_le_sum (f := fun b => ∑ c, w M (s b c))
        (fun b _ => Finset.sum_nonneg (fun c _ => w_nonneg M _)) (Finset.mem_range.mpr (Nat.succ_pos n))
    linarith
  have hL0 : L ≠ 0 := hLpos.ne'
  have hden : (∑ b' : Fin N, ∑ c' : C, Ideal.exp (s b'.val c' - (M : EReal))) = (L : EReal) := by
    rw [hL, ← sum_fin_dead N n hn (fun b => ∑ c, w M (s b c))
      (fun b hb => Finset.sum_eq_zero (fun c _ => by rw [hdead b hb c, w_bot])), coe_sum]
    refine Finset.sum_congr rfl (fun b _ => ?_)
    rw [coe_sum]
    exact Finset.sum_congr rfl (fun c _ => exp_sub_coe M _ (hs b.val c))
  rw [hden]
  -- the right side as the image of a real sum
  have hR : (∑ b : Fin N, ∑ c : C, Ideal.div (Ideal.exp (s b.val c - (M : EReal))) (L : EReal) * v b.val c)
      = ((∑ b ∈ Finset.range (n + 1), ∑ c, w M (s b c) * (1 / L) * (v b c).toReal : ℝ) : EReal) := by
    rw [← sum_fin_dead N n hn (fun b => ∑ c, w M (s b c) * (1 / L) * (v b c).toReal)
      (fun b hb => Finset.sum_eq_zero (fun c _ => by rw [hdead b hb c, w_bot, zero_mul, zero_mul])), coe_sum]
    refine Finset.sum_congr rfl (fun b _ => ?_)
    rw [coe_sum]
    refine Finset.sum_congr rfl (fun c _ => ?_)
    rw [Ideal.div_coe hL0, exp_sub_coe M _ (hs b.val c), EReal.coe_mul, EReal.coe_mul,
      EReal.coe_toReal (hv b.val c).1 (hv b.val c).2]
  rw [hR]
  -- the left side
  unfold out
  rw [h2, h3, Ideal.div_coe hL0, one_mul, ← EReal.coe_mul]
  congr 1
  rw [Finset.sum_mul]
  refine Finset.sum_congr rfl (fun b _ => ?_)
  rw [Finset.sum_mul]
  refine Finset.sum_congr rfl (fun c _ => ?_)
  ring

end Cert.AttnSpec

end
-- ==== Proof.AttnLaw.lean ====
/-
  Causal attention by the running merge over 16 blocks of 512 keys is the softmax form: the online softmax law at
  this kernel's sizes. For a query row "r" the merge is stopped after the block that holds key "r"; key 0 is live for
  every row, every key of a later block is dead, and the scores and values are finite wherever the inputs are.
  Also: a product "x · wᵀ" of finite matrices is finite.
-/
import proofs.«121137_j11647951306945_2_alg».proof.Proof.LibOnlineSoftmax

noncomputable section

open scoped BigOperators

namespace Cert.AttnSpec.OnlineSoftmax

open Idealize.ShloMosaic

/-- A finite sum of products of finite extended reals is the image of the real sum of products. -/
theorem sum_mul_finite {ι : Type} [Fintype ι] (f g : ι → EReal) (hf : ∀ i, f i ≠ ⊤ ∧ f i ≠ ⊥)
    (hg : ∀ i, g i ≠ ⊤ ∧ g i ≠ ⊥) :
    (∑ i, f i * g i) = ((∑ i, (f i).toReal * (g i).toReal : ℝ) : EReal) := by
  rw [coe_sum]
  refine Finset.sum_congr rfl (fun i _ => ?_)
  rw [EReal.coe_mul, EReal.coe_toReal (hf i).1 (hf i).2, EReal.coe_toReal (hg i).1 (hg i).2]

/-- A live key's score is a real number. -/
theorem score_real (q k : Mat 8192 1024) (hq : ∀ r d, q r d ≠ ⊤ ∧ q r d ≠ ⊥) (hk : ∀ r d, k r d ≠ ⊤ ∧ k r d ≠ ⊥)
    (r j : Fin 8192) :
    ∃ a : ℝ, (∑ d : Fin 1024, q r d * k j d) * (((1 / 32 : ℝ)) : EReal) = (a : EReal) := by
  rw [sum_mul_finite _ _ (hq r) (hk j), ← EReal.coe_mul]
  exact ⟨_, rfl⟩

end Cert.AttnSpec.OnlineSoftmax

namespace Cert.AttnSpec

open Idealize.ShloMosaic OnlineSoftmax

theorem proj_finite (x : Mat 8192 1024) (w : Mat 1024 1024) (hx : ∀ r k, x r k ≠ ⊤ ∧ x r k ≠ ⊥) (hw : ∀ o k, w o k ≠ ⊤ ∧ w o k ≠ ⊥) :
    ∀ r o, proj x w r o ≠ ⊤ ∧ proj x w r o ≠ ⊥ := by
  intro r o
  show (∑ k : Fin 1024, x r k * w o k) ≠ ⊤ ∧ (∑ k : Fin 1024, x r k * w o k) ≠ ⊥
  rw [sum_mul_finite _ _ (hx r) (hw o)]
  exact ⟨EReal.coe_ne_top _, EReal.coe_ne_bot _⟩

theorem out_eq_attn (q k v : Mat 8192 1024) (hq : ∀ r d, q r d ≠ ⊤ ∧ q r d ≠ ⊥) (hk : ∀ r d, k r d ≠ ⊤ ∧ k r d ≠ ⊥)
    (hv : ∀ r d, v r d ≠ ⊤ ∧ v r d ≠ ⊥) (r : Fin 8192) (o : Fin 1024) :
    out (sc q k r) (vv v o) (r.val / 512 + 1) = attn q k v r o := by
  have hr : r.val < 8192 := r.isLt
  -- no score is "⊤"
  have hs : ∀ b c, sc q k r b c ≠ ⊤ := by
    intro b c
    unfold sc
    split_ifs with h1 h2
    · obtain ⟨a, ha⟩ := score_real q k hq hk r (key ⟨b, h1⟩ c)
      rw [ha]
      exact EReal.coe_ne_top a
    · exact bot_ne_top
    · exact bot_ne_top
  -- key 0 is live
  have hlive : ∃ c, sc q k r 0 c ≠ ⊥ := by
    refine ⟨⟨0, by norm_num⟩, ?_⟩
    unfold sc
    rw [dif_pos (by norm_num : (0 : ℕ) < 16)]
    split_ifs with h
    · obtain ⟨a, ha⟩ := score_real q k hq hk r (key ⟨0, by norm_num⟩ ⟨0, by norm_num⟩)
      rw [ha]
      exact EReal.coe_ne_bot a
    · exact absurd (Nat.zero_le _) h
  -- the blocks after the one that holds key "r" are dead
  have hdead : ∀ b, r.val / 512 < b → ∀ c, sc q k r b c = ⊥ := by
    intro b hb c
    have hc : c.val < 512 := c.isLt
    unfold sc
    split_ifs with h1 h2
    · exfalso
      omega
    · rfl
    · rfl
  -- the values are finite
  have hvv : ∀ b c, vv v o b c ≠ ⊤ ∧ vv v o b c ≠ ⊥ := by
    intro b c
    unfold vv
    split_ifs with h1
    · exact hv _ _
    · exact ⟨EReal.zero_ne_top, EReal.zero_ne_bot⟩
  have h := out_eq_softmax (C := Fin 512) 16 (r.val / 512) (by omega) (sc q k r) (vv v o) hs hlive hdead hvv
  rw [h]
  rfl

end Cert.AttnSpec

end
-- ==== Proof.KIRowGlue.lean ====
/-
  From blocks to the specification's row. A query block `Q` holds the rows `512·Q + a` of the queries, and key block
  `b` the rows `512·b + c` of the keys and values. For such a row the block scores of the merge chain are the
  specification's masked scores: every key of an earlier block is live (its position is below `512·Q`), and on the
  diagonal block key `c` is live for local row `a` exactly when `c ≤ a`. The running state reads only the blocks it
  has merged, so the chain's output after the diagonal block is the specification's output after `Q + 1` blocks,
  which on finite inputs is causal softmax attention at that row.
-/
import proofs.«121137_j11647951306945_2_alg».proof.Proof.KIChain
import proofs.«121137_j11647951306945_2_alg».proof.Proof.AttnLaw
import proofs.«121137_j11647951306945_2_alg».proof.Proof.AttnSpec

noncomputable section

open scoped BigOperators

namespace Cert.AttnSpec

section Congr
variable {C : Type} [Fintype C]

/-- The running maximum and normaliser after `n` blocks depend on the first `n` blocks of scores only. -/
theorem st_congr (s s' : ℕ → C → EReal) (n : ℕ) (hs : ∀ b, b < n → s b = s' b) : st s n = st s' n := by
  induction n with
  | zero => rfl
  | succ n ih =>
    show (mNext (st s n).1 (s n), lNext (st s n).1 (st s n).2 (s n))
      = (mNext (st s' n).1 (s' n), lNext (st s' n).1 (st s' n).2 (s' n))
    rw [ih (fun b hb => hs b (by omega)), hs n (by omega)]

/-- The running weighted sum after `n` blocks depends on the first `n` blocks of scores and values only. -/
theorem acc_congr (s s' v v' : ℕ → C → EReal) (n : ℕ) (hs : ∀ b, b < n → s b = s' b)
    (hv : ∀ b, b < n → v b = v' b) : acc s v n = acc s' v' n := by
  induction n with
  | zero => rfl
  | succ n ih =>
    show accNext (st s n).1 (acc s v n) (s n) (v n) = accNext (st s' n).1 (acc s' v' n) (s' n) (v' n)
    rw [ih (fun b hb => hs b (by omega)) (fun b hb => hv b (by omega)),
      st_congr s s' n (fun b hb => hs b (by omega)), hs n (by omega), hv n (by omega)]

/-- What is written out after `n` blocks depends on the first `n` blocks only. -/
theorem out_congr (s s' v v' : ℕ → C → EReal) (n : ℕ) (hs : ∀ b, b < n → s b = s' b)
    (hv : ∀ b, b < n → v b = v' b) : out s v n = out s' v' n := by
  unfold out
  rw [acc_congr s s' v v' n hs hv, st_congr s s' n hs]

end Congr

end Cert.AttnSpec

namespace Cert.KernelIdeal.Glue

open Cert.KernelIdeal Cert.KernelIdeal.Gen Cert.KernelIdeal.Pay Cert.AttnSpec
open Idealize.ShloMosaic Idealize.ShloMosaic.ValueIdx

section
variable (q k v : Mat 8192 1024) (Q : Fin 16) (a : Fin 512) (qb : Chain.Blk) (kb vb : ℕ → Chain.Blk)
  (hqb : ∀ (a : Fin 512) (d : Fin 1024), qb (ix2 a d) = q (key Q a) d)
  (hkb : ∀ (b : ℕ) (hb : b < 16) (c : Fin 512) (d : Fin 1024), kb b (ix2 c d) = k (key ⟨b, hb⟩ c) d)
  (hvb : ∀ (b : ℕ) (hb : b < 16) (c : Fin 512) (o : Fin 1024), vb b (ix2 c o) = v (key ⟨b, hb⟩ c) o)

include hqb hkb in
/-- The chain's block scores of local row `a` of query block `Q` are the specification's masked scores of row
    `512·Q + a`, on every block up to the diagonal one. -/
theorem sB_eq_sc (b : ℕ) (hb : b ≤ Q.val) (c : Fin 512) :
    Chain.sB qb kb Q.val a b c = sc q k (key Q a) b c := by
  have hQ := Q.isLt
  have ha := a.isLt
  have hc := c.isLt
  have hb16 : b < 16 := by omega
  have hsum : ∀ kk : Chain.Blk, (∀ d, kk (ix2 c d) = k (key ⟨b, hb16⟩ c) d) →
      sOff qb kk a c = (∑ d : Fin 1024, q (key Q a) d * k (key ⟨b, hb16⟩ c) d) * (((1 / 32 : ℝ)) : EReal) := by
    intro kk hkk
    unfold sOff
    exact congrArg (· * _) (Finset.sum_congr rfl fun d _ => by rw [hqb a d, hkk d])
  unfold Chain.sB sc
  rw [dif_pos hb16]
  by_cases hlt : b < Q.val
  · rw [if_pos hlt, if_pos (show 512 * b + c.val ≤ (key Q a).val by show 512 * b + c.val ≤ 512 * Q.val + a.val; omega)]
    exact hsum (kb b) (fun d => hkb b hb16 c d)
  · have hbQ : b = Q.val := by omega
    subst hbQ
    rw [if_neg hlt, if_pos rfl]
    unfold sDiag
    by_cases hca : c.val ≤ a.val
    · rw [if_pos hca, if_pos (show 512 * Q.val + c.val ≤ (key Q a).val by
        show 512 * Q.val + c.val ≤ 512 * Q.val + a.val; omega)]
      exact hsum (kb Q.val) (fun d => hkb Q.val hb16 c d)
    · rw [if_neg hca, if_neg (show ¬ 512 * Q.val + c.val ≤ (key Q a).val by
        show ¬ 512 * Q.val + c.val ≤ 512 * Q.val + a.val; omega)]

include hqb hkb hvb in
/-- On finite inputs the specification's output over the chain's block scores, after the diagonal block, is causal
    softmax attention at row `512·Q + a`. -/
theorem row_out (hq : ∀ r d, q r d ≠ ⊤ ∧ q r d ≠ ⊥) (hk : ∀ r d, k r d ≠ ⊤ ∧ k r d ≠ ⊥)
    (hv : ∀ r d, v r d ≠ ⊤ ∧ v r d ≠ ⊥) (o : Fin 1024) :
    out (Chain.sB qb kb Q.val a) (fun b c => vb b (ix2 c o)) (Q.val + 1) = attn q k v (key Q a) o := by
  have hQ := Q.isLt
  have ha := a.isLt
  have e : (key Q a).val / 512 = Q.val := by
    show (512 * Q.val + a.val) / 512 = Q.val
    omega
  have h := out_eq_attn q k v hq hk hv (key Q a) o
  rw [e] at h
  refine (out_congr _ (sc q k (key Q a)) _ (vv v o) (Q.val + 1) (fun b hb => funext fun c => ?_)
    (fun b hb => funext fun c => ?_)).trans h
  · exact sB_eq_sc q k Q a qb kb hqb hkb b (by omega) c
  · have hb16 : b < 16 := by omega
    unfold vv
    rw [dif_pos hb16]
    exact hvb b hb16 c o

include hqb hkb hvb in
/-- What the kernel writes out for local row `a` of query block `Q` after its diagonal block is causal softmax
    attention at row `512·Q + a`. -/
theorem row_pay19 (hq : ∀ r d, q r d ≠ ⊤ ∧ q r d ≠ ⊥) (hk : ∀ r d, k r d ≠ ⊤ ∧ k r d ≠ ⊥)
    (hv : ∀ r d, v r d ≠ ⊤ ∧ v r d ≠ ⊥) (o : Fin 1024) :
    k1_pay19 (F := Ideal) (Chain.chain qb kb vb Q.val (Q.val + 1)).2.2 (Chain.chain qb kb vb Q.val (Q.val + 1)).2.1
      (ix2 a o) = attn q k v (key Q a) o :=
  (Chain.chain_out qb kb vb Q.val a o).trans (row_out q k v Q a qb kb vb hqb hkb hvb hq hk hv o)

end

end Cert.KernelIdeal.Glue

end
-- ==== Proof.KIValue1Run.lean ====
/-
  The attention region's carried buffers along a query block's run. Read as vectors, the running maximum, the
  normaliser and the weighted sum after a grid point are the merge of the point's key and value blocks into what
  they were before it, or into the reset values at the first point of a run; so after the `k`-th point of query block
  `Q`'s run they are the merge chain of `Q`'s query block over the key blocks 0, …, k, and the output block stored at the
  run's last point, the diagonal one, is the chain's output: causal softmax attention at the block's rows.
-/
import proofs.«121137_j11647951306945_2_alg».proof.Proof.KIRegion1
import proofs.«121137_j11647951306945_2_alg».proof.Proof.KIPieces
import proofs.«121137_j11647951306945_2_alg».proof.Proof.KIValue1Blocks
import proofs.«121137_j11647951306945_2_alg».proof.Proof.KISchedule
import proofs.«121137_j11647951306945_2_alg».proof.Proof.KIRowGlue

set_option maxRecDepth 16384

noncomputable section

open scoped BigOperators

namespace Cert.KernelIdeal.Val1

open Cert.KernelIdeal Cert.KernelIdeal.Gen Cert.AttnSpec
open Idealize.ShloMosaic Idealize.ShloMosaic.TcCoe Idealize.ShloMosaic.ValueIdx Idealize.SL.Sem

variable (V : (c : Dev nD) → (b : Ref sig .tc) → Buf (Elt Ideal) ((c : Thread nD τ).loc b)) (c : Dev nD)

/-- The number of grid points. -/
abbrev N1 : ℕ := (R1.cfgA (F := Ideal)).N

/-- The three windows' blocks at a point, as blocks of 512 rows. -/
abbrev b0 (t : Fin N1) : Chain.Blk := R1.iblk1 V c (0 : Fin 4) t
abbrev b1 (t : Fin N1) : Chain.Blk := R1.iblk1 V c (1 : Fin 4) t
abbrev b2 (t : Fin N1) : Chain.Blk := R1.iblk1 V c (2 : Fin 4) t

/-- The three carried buffers after point `t`, read as vectors. -/
def vst (t : Fin N1) : Chain.Col × Chain.Col × Chain.Acc :=
  (R1.scM1_0.view.read (Elt Ideal) (R1.traj1 V c t.val t.isLt).2.1,
   R1.scM1_1.view.read (Elt Ideal) (R1.traj1 V c t.val t.isLt).2.2.1,
   R1.scM1_2.view.read (Elt Ideal) (R1.traj1 V c t.val t.isLt).2.2.2)

/-- The three carried buffers before point `t`, read as vectors. -/
def vprev (t : Fin N1) : Chain.Col × Chain.Col × Chain.Acc :=
  (R1.scM1_0.view.read (Elt Ideal) (R1.prev1 V c t).2.1,
   R1.scM1_1.view.read (Elt Ideal) (R1.prev1 V c t).2.2.1,
   R1.scM1_2.view.read (Elt Ideal) (R1.prev1 V c t).2.2.2)

/-! ## One point, by path -/

/-- Reset, on the diagonal. -/
theorem vst_A (t : Fin N1) (q0 : R1.P1_reset (F := Ideal) t) (q1 : R1.P1_diag (F := Ideal) t) :
    vst V c t = (k1_pay12 (F := Ideal) (b0 V c t) (b1 V c t) (k1_pay1 (F := Ideal)),
      k1_pay10 (F := Ideal) (b0 V c t) (b1 V c t) (k1_pay1 (F := Ideal)) (k1_pay2 (F := Ideal)),
      k1_pay11 (F := Ideal) (b0 V c t) (b1 V c t) (b2 V c t) (k1_pay1 (F := Ideal)) (k1_pay3 (F := Ideal))) := by
  unfold vst
  simp only [R1.traj1_eq V c t, R1.step1_A V c t _ q0 q1]
  refine congrArg₂ Prod.mk ?_ (congrArg₂ Prod.mk ?_ ?_)
  · exact R1.runA_m (F := Ideal) c (R1.crd t) (R1.ms1_0 t) (R1.hs1_0 t) (R1.ms1_1 t) (R1.hs1_1 t) (R1.ms1_2 t) (R1.hs1_2 t) (R1.ms1_3 t) (R1.hs1_3 t) R1.T0L R1.T1L (R1.iblk1 V c (0 : Fin 4) t) (R1.iblk1 V c (1 : Fin 4) t) (R1.iblk1 V c (2 : Fin 4) t) q0 q1
  · exact R1.runA_l (F := Ideal) c (R1.crd t) (R1.ms1_0 t) (R1.hs1_0 t) (R1.ms1_1 t) (R1.hs1_1 t) (R1.ms1_2 t) (R1.hs1_2 t) (R1.ms1_3 t) (R1.hs1_3 t) R1.T0L R1.T1L (R1.iblk1 V c (0 : Fin 4) t) (R1.iblk1 V c (1 : Fin 4) t) (R1.iblk1 V c (2 : Fin 4) t) q0 q1
  · exact R1.runA_a (F := Ideal) c (R1.crd t) (R1.ms1_0 t) (R1.hs1_0 t) (R1.ms1_1 t) (R1.hs1_1 t) (R1.ms1_2 t) (R1.hs1_2 t) (R1.ms1_3 t) (R1.hs1_3 t) R1.T0L R1.T1L (R1.iblk1 V c (0 : Fin 4) t) (R1.iblk1 V c (1 : Fin 4) t) (R1.iblk1 V c (2 : Fin 4) t) q0 q1

theorem out_A (t : Fin N1) (q0 : R1.P1_reset (F := Ideal) t) (q1 : R1.P1_diag (F := Ideal) t) :
    (R1.traj1 V c t.val t.isLt).1 = k1_pay19 (F := Ideal) (vst V c t).2.2 (vst V c t).2.1 := by
  rw [vst_A V c t q0 q1]
  simp only [R1.traj1_eq V c t, R1.step1_A V c t _ q0 q1]
  exact R1.runA_o (F := Ideal) c (R1.crd t) (R1.ms1_0 t) (R1.hs1_0 t) (R1.ms1_1 t) (R1.hs1_1 t) (R1.ms1_2 t) (R1.hs1_2 t) (R1.ms1_3 t) (R1.hs1_3 t) R1.T0L R1.T1L (R1.iblk1 V c (0 : Fin 4) t) (R1.iblk1 V c (1 : Fin 4) t) (R1.iblk1 V c (2 : Fin 4) t) q0 q1

/-- Reset, off the diagonal. -/
theorem vst_B (t : Fin N1) (q0 : R1.P1_reset (F := Ideal) t) (q1 : ¬R1.P1_diag (F := Ideal) t) :
    vst V c t = (k1_pay18 (F := Ideal) (b0 V c t) (b1 V c t) (k1_pay1 (F := Ideal)),
      k1_pay16 (F := Ideal) (b0 V c t) (b1 V c t) (k1_pay1 (F := Ideal)) (k1_pay2 (F := Ideal)),
      k1_pay17 (F := Ideal) (b0 V c t) (b1 V c t) (b2 V c t) (k1_pay1 (F := Ideal)) (k1_pay3 (F := Ideal))) := by
  unfold vst
  simp only [R1.traj1_eq V c t, R1.step1_B V c t _ q0 q1]
  refine congrArg₂ Prod.mk ?_ (congrArg₂ Prod.mk ?_ ?_)
  · exact R1.runB_m (F := Ideal) c (R1.crd t) (R1.ms1_0 t) (R1.hs1_0 t) (R1.ms1_1 t) (R1.hs1_1 t) (R1.ms1_2 t) (R1.hs1_2 t) (R1.ms1_3 t) (R1.hs1_3 t) R1.T0L R1.T1L (R1.iblk1 V c (0 : Fin 4) t) (R1.iblk1 V c (1 : Fin 4) t) (R1.iblk1 V c (2 : Fin 4) t) q0 q1
  · exact R1.runB_l (F := Ideal) c (R1.crd t) (R1.ms1_0 t) (R1.hs1_0 t) (R1.ms1_1 t) (R1.hs1_1 t) (R1.ms1_2 t) (R1.hs1_2 t) (R1.ms1_3 t) (R1.hs1_3 t) R1.T0L R1.T1L (R1.iblk1 V c (0 : Fin 4) t) (R1.iblk1 V c (1 : Fin 4) t) (R1.iblk1 V c (2 : Fin 4) t) q0 q1
  · exact R1.runB_a (F := Ideal) c (R1.crd t) (R1.ms1_0 t) (R1.hs1_0 t) (R1.ms1_1 t) (R1.hs1_1 t) (R1.ms1_2 t) (R1.hs1_2 t) (R1.ms1_3 t) (R1.hs1_3 t) R1.T0L R1.T1L (R1.iblk1 V c (0 : Fin 4) t) (R1.iblk1 V c (1 : Fin 4) t) (R1.iblk1 V c (2 : Fin 4) t) q0 q1

/-- No reset, on the diagonal. -/
theorem vst_C (t : Fin N1) (q0 : ¬R1.P1_reset (F := Ideal) t) (q1 : R1.P1_diag (F := Ideal) t) :
    vst V c t = (k1_pay12 (F := Ideal) (b0 V c t) (b1 V c t) (vprev V c t).1,
      k1_pay10 (F := Ideal) (b0 V c t) (b1 V c t) (vprev V c t).1 (vprev V c t).2.1,
      k1_pay11 (F := Ideal) (b0 V c t) (b1 V c t) (b2 V c t) (vprev V c t).1 (vprev V c t).2.2) := by
  unfold vst vprev
  simp only [R1.traj1_eq V c t, R1.step1_C V c t _ q0 q1]
  refine congrArg₂ Prod.mk ?_ (congrArg₂ Prod.mk ?_ ?_)
  · exact R1.runC_m (F := Ideal) c (R1.crd t) (R1.ms1_0 t) (R1.hs1_0 t) (R1.ms1_1 t) (R1.hs1_1 t) (R1.ms1_2 t) (R1.hs1_2 t) (R1.ms1_3 t) (R1.hs1_3 t) R1.T0L R1.T1L (R1.iblk1 V c (0 : Fin 4) t) (R1.iblk1 V c (1 : Fin 4) t) (R1.iblk1 V c (2 : Fin 4) t) (R1.prev1 V c t).2.1 (R1.prev1 V c t).2.2.1 (R1.prev1 V c t).2.2.2 q0 q1
  · exact R1.runC_l (F := Ideal) c (R1.crd t) (R1.ms1_0 t) (R1.hs1_0 t) (R1.ms1_1 t) (R1.hs1_1 t) (R1.ms1_2 t) (R1.hs1_2 t) (R1.ms1_3 t) (R1.hs1_3 t) R1.T0L R1.T1L (R1.iblk1 V c (0 : Fin 4) t) (R1.iblk1 V c (1 : Fin 4) t) (R1.iblk1 V c (2 : Fin 4) t) (R1.prev1 V c t).2.1 (R1.prev1 V c t).2.2.1 (R1.prev1 V c t).2.2.2 q0 q1
  · exact R1.runC_a (F := Ideal) c (R1.crd t) (R1.ms1_0 t) (R1.hs1_0 t) (R1.ms1_1 t) (R1.hs1_1 t) (R1.ms1_2 t) (R1.hs1_2 t) (R1.ms1_3 t) (R1.hs1_3 t) R1.T0L R1.T1L (R1.iblk1 V c (0 : Fin 4) t) (R1.iblk1 V c (1 : Fin 4) t) (R1.iblk1 V c (2 : Fin 4) t) (R1.prev1 V c t).2.1 (R1.prev1 V c t).2.2.1 (R1.prev1 V c t).2.2.2 q0 q1

theorem out_C (t : Fin N1) (q0 : ¬R1.P1_reset (F := Ideal) t) (q1 : R1.P1_diag (F := Ideal) t) :
    (R1.traj1 V c t.val t.isLt).1 = k1_pay19 (F := Ideal) (vst V c t).2.2 (vst V c t).2.1 := by
  rw [vst_C V c t q0 q1]
  unfold vprev
  simp only [R1.traj1_eq V c t, R1.step1_C V c t _ q0 q1]
  exact R1.runC_o (F := Ideal) c (R1.crd t) (R1.ms1_0 t) (R1.hs1_0 t) (R1.ms1_1 t) (R1.hs1_1 t) (R1.ms1_2 t) (R1.hs1_2 t) (R1.ms1_3 t) (R1.hs1_3 t) R1.T0L R1.T1L (R1.iblk1 V c (0 : Fin 4) t) (R1.iblk1 V c (1 : Fin 4) t) (R1.iblk1 V c (2 : Fin 4) t) (R1.prev1 V c t).2.1 (R1.prev1 V c t).2.2.1 (R1.prev1 V c t).2.2.2 q0 q1

/-- No reset, off the diagonal. -/
theorem vst_D (t : Fin N1) (q0 : ¬R1.P1_reset (F := Ideal) t) (q1 : ¬R1.P1_diag (F := Ideal) t) :
    vst V c t = (k1_pay18 (F := Ideal) (b0 V c t) (b1 V c t) (vprev V c t).1,
      k1_pay16 (F := Ideal) (b0 V c t) (b1 V c t) (vprev V c t).1 (vprev V c t).2.1,
      k1_pay17 (F := Ideal) (b0 V c t) (b1 V c t) (b2 V c t) (vprev V c t).1 (vprev V c t).2.2) := by
  unfold vst vprev
  simp only [R1.traj1_eq V c t, R1.step1_D V c t _ q0 q1]
  refine congrArg₂ Prod.mk ?_ (congrArg₂ Prod.mk ?_ ?_)
  · exact R1.runD_m (F := Ideal) c (R1.crd t) (R1.ms1_0 t) (R1.hs1_0 t) (R1.ms1_1 t) (R1.hs1_1 t) (R1.ms1_2 t) (R1.hs1_2 t) (R1.ms1_3 t) (R1.hs1_3 t) R1.T0L R1.T1L (R1.iblk1 V c (0 : Fin 4) t) (R1.iblk1 V c (1 : Fin 4) t) (R1.iblk1 V c (2 : Fin 4) t) (R1.prev1 V c t).2.1 (R1.prev1 V c t).2.2.1 (R1.prev1 V c t).2.2.2 q0 q1
  · exact R1.runD_l (F := Ideal) c (R1.crd t) (R1.ms1_0 t) (R1.hs1_0 t) (R1.ms1_1 t) (R1.hs1_1 t) (R1.ms1_2 t) (R1.hs1_2 t) (R1.ms1_3 t) (R1.hs1_3 t) R1.T0L R1.T1L (R1.iblk1 V c (0 : Fin 4) t) (R1.iblk1 V c (1 : Fin 4) t) (R1.iblk1 V c (2 : Fin 4) t) (R1.prev1 V c t).2.1 (R1.prev1 V c t).2.2.1 (R1.prev1 V c t).2.2.2 q0 q1
  · exact R1.runD_a (F := Ideal) c (R1.crd t) (R1.ms1_0 t) (R1.hs1_0 t) (R1.ms1_1 t) (R1.hs1_1 t) (R1.ms1_2 t) (R1.hs1_2 t) (R1.ms1_3 t) (R1.hs1_3 t) R1.T0L R1.T1L (R1.iblk1 V c (0 : Fin 4) t) (R1.iblk1 V c (1 : Fin 4) t) (R1.iblk1 V c (2 : Fin 4) t) (R1.prev1 V c t).2.1 (R1.prev1 V c t).2.2.1 (R1.prev1 V c t).2.2.2 q0 q1

/-- The trajectory at equal positions. -/
theorem traj1_congr (n n' : ℕ) (h : n = n') (h1 : n < N1) (h2 : n' < N1) : R1.traj1 V c n h1 = R1.traj1 V c n' h2 := by
  subst h
  rfl

/-- Before a point that is not the first, the carried buffers are what they were after the point before. -/
theorem vprev_succ (t t' : Fin N1) (h : t'.val = t.val + 1) : vprev V c t' = vst V c t := by
  unfold vprev vst R1.prev1 R1.prevN
  rw [dif_neg (by omega), traj1_congr V c (t'.val - 1) t.val (by omega) _ t.isLt]

/-! ## A query block's run -/

/-- The `k`-th point of query block `Q`'s run. -/
def pt (Q : Fin 16) (k : ℕ) (hk : k ≤ Q.val) : Fin N1 :=
  ⟨Sched.start Q + k, lt_of_lt_of_eq (Sched.run_lt Q k hk) (R1.N_A (F := Ideal)).symm⟩

theorem qiN_pt (Q : Fin 16) (k : ℕ) (hk : k ≤ Q.val) : R1.qiN (F := Ideal) (pt Q k hk) = Q.val :=
  (Sched.point_unique ⟨Sched.start Q + k, Sched.run_lt Q k hk⟩ Q k hk rfl).1

theorem kiN_pt (Q : Fin 16) (k : ℕ) (hk : k ≤ Q.val) : R1.kiN (F := Ideal) (pt Q k hk) = k :=
  (Sched.point_unique ⟨Sched.start Q + k, Sched.run_lt Q k hk⟩ Q k hk rfl).2

/-- The three windows' blocks at a point are blocks of the array of the three projections. -/
theorem b0_eq (t : Fin N1) : b0 V c t = blkOf (V c main_v4) 0 (R1.qiN t) := blk_q (V c main_v4) t
theorem b1_eq (t : Fin N1) : b1 V c t = blkOf (V c main_v4) 1 (R1.kiN t) := blk_k (V c main_v4) t
theorem b2_eq (t : Fin N1) : b2 V c t = blkOf (V c main_v4) 2 (R1.kiN t) := blk_v (V c main_v4) t

/-- One step of the merge chain, at the diagonal block and before it. -/
theorem chain_step_diag (qb : Chain.Blk) (kb vb : ℕ → Chain.Blk) (Q k : ℕ) (h : k = Q)
    (s : Chain.Col × Chain.Col × Chain.Acc) (hs : Chain.chain qb kb vb Q k = s) :
    Chain.chain qb kb vb Q (k + 1) = (k1_pay12 (F := Ideal) qb (kb k) s.1, k1_pay10 (F := Ideal) qb (kb k) s.1 s.2.1,
      k1_pay11 (F := Ideal) qb (kb k) (vb k) s.1 s.2.2) := by
  subst hs
  rw [Chain.chain, if_pos h]

theorem chain_step_off (qb : Chain.Blk) (kb vb : ℕ → Chain.Blk) (Q k : ℕ) (h : ¬k = Q)
    (s : Chain.Col × Chain.Col × Chain.Acc) (hs : Chain.chain qb kb vb Q k = s) :
    Chain.chain qb kb vb Q (k + 1) = (k1_pay18 (F := Ideal) qb (kb k) s.1, k1_pay16 (F := Ideal) qb (kb k) s.1 s.2.1,
      k1_pay17 (F := Ideal) qb (kb k) (vb k) s.1 s.2.2) := by
  subst hs
  rw [Chain.chain, if_neg h]

/-- After the `k`-th point of query block `Q`'s run the carried buffers are the merge chain of `Q`'s query block over
    the key and value blocks 0, …, k. -/
theorem run_chain (Q : Fin 16) : ∀ (k : ℕ) (hk : k ≤ Q.val),
    vst V c (pt Q k hk)
      = Chain.chain (blkOf (V c main_v4) 0 Q.val) (blkOf (V c main_v4) 1) (blkOf (V c main_v4) 2) Q.val (k + 1) := by
  intro k
  induction k with
  | zero =>
    intro hk
    have hq := qiN_pt Q 0 hk
    have hki := kiN_pt Q 0 hk
    have q0 : R1.P1_reset (F := Ideal) (pt Q 0 hk) := (R1.P1_reset_iff _).mpr hki
    have e0 : b0 V c (pt Q 0 hk) = blkOf (V c main_v4) 0 Q.val := by rw [b0_eq, hq]
    have e1 : b1 V c (pt Q 0 hk) = blkOf (V c main_v4) 1 0 := by rw [b1_eq, hki]
    have e2 : b2 V c (pt Q 0 hk) = blkOf (V c main_v4) 2 0 := by rw [b2_eq, hki]
    by_cases hQ : (0 : ℕ) = Q.val
    · have q1 : R1.P1_diag (F := Ideal) (pt Q 0 hk) := (R1.P1_diag_iff _).mpr (by rw [hki, hq]; exact hQ)
      rw [vst_A V c _ q0 q1, e0, e1, e2, chain_step_diag _ _ _ _ 0 hQ _ rfl]
      rfl
    · have q1 : ¬R1.P1_diag (F := Ideal) (pt Q 0 hk) := fun h => hQ (by
        have h' := (R1.P1_diag_iff _).mp h
        rw [hki, hq] at h'
        exact h')
      rw [vst_B V c _ q0 q1, e0, e1, e2, chain_step_off _ _ _ _ 0 hQ _ rfl]
      rfl
  | succ k ih =>
    intro hk
    have hk' : k ≤ Q.val := by omega
    have hq := qiN_pt Q (k + 1) hk
    have hki := kiN_pt Q (k + 1) hk
    have q0 : ¬R1.P1_reset (F := Ideal) (pt Q (k + 1) hk) := fun h => by
      have h' := (R1.P1_reset_iff _).mp h
      omega
    have hp : vprev V c (pt Q (k + 1) hk) = vst V c (pt Q k hk') :=
      vprev_succ V c _ _ (by show Sched.start Q + (k + 1) = Sched.start Q + k + 1; omega)
    have e0 : b0 V c (pt Q (k + 1) hk) = blkOf (V c main_v4) 0 Q.val := by rw [b0_eq, hq]
    have e1 : b1 V c (pt Q (k + 1) hk) = blkOf (V c main_v4) 1 (k + 1) := by rw [b1_eq, hki]
    have e2 : b2 V c (pt Q (k + 1) hk) = blkOf (V c main_v4) 2 (k + 1) := by rw [b2_eq, hki]
    by_cases hQ : k + 1 = Q.val
    · have q1 : R1.P1_diag (F := Ideal) (pt Q (k + 1) hk) := (R1.P1_diag_iff _).mpr (by rw [hki, hq]; exact hQ)
      rw [vst_C V c _ q0 q1, hp, ih hk', e0, e1, e2, chain_step_diag _ _ _ _ (k + 1) hQ _ rfl]
    · have q1 : ¬R1.P1_diag (F := Ideal) (pt Q (k + 1) hk) := fun h => hQ (by
        have h' := (R1.P1_diag_iff _).mp h
        rw [hki, hq] at h'
        exact h')
      rw [vst_D V c _ q0 q1, hp, ih hk', e0, e1, e2, chain_step_off _ _ _ _ (k + 1) hQ _ rfl]

/-- The output block stored at the last point of query block `Q`'s run is the chain's output. -/
theorem diag_out (Q : Fin 16) :
    (R1.traj1 V c (pt Q Q.val le_rfl).val (pt Q Q.val le_rfl).isLt).1
      = k1_pay19 (F := Ideal)
          (Chain.chain (blkOf (V c main_v4) 0 Q.val) (blkOf (V c main_v4) 1) (blkOf (V c main_v4) 2) Q.val (Q.val + 1)).2.2
          (Chain.chain (blkOf (V c main_v4) 0 Q.val) (blkOf (V c main_v4) 1) (blkOf (V c main_v4) 2) Q.val (Q.val + 1)).2.1 := by
  have hq := qiN_pt Q Q.val le_rfl
  have hki := kiN_pt Q Q.val le_rfl
  have q1 : R1.P1_diag (F := Ideal) (pt Q Q.val le_rfl) := (R1.P1_diag_iff _).mpr (by rw [hki, hq])
  by_cases q0 : R1.P1_reset (F := Ideal) (pt Q Q.val le_rfl)
  · rw [out_A V c _ q0 q1, run_chain V c Q Q.val le_rfl]
  · rw [out_C V c _ q0 q1, run_chain V c Q Q.val le_rfl]

/-- A diagonal point is the last point of its query block's run. -/
theorem diag_point (t : Fin N1) (hd : R1.P1_diag (F := Ideal) t) :
    ∃ Q : Fin 16, t = pt Q Q.val le_rfl := by
  obtain ⟨Q, k, hk, ht⟩ := Sched.point_cases ⟨t.val, lt_of_lt_of_eq t.isLt (R1.N_A (F := Ideal))⟩
  have hu := Sched.point_unique ⟨t.val, lt_of_lt_of_eq t.isLt (R1.N_A (F := Ideal))⟩ Q k hk ht
  have hqi : R1.qiN (F := Ideal) t = Q.val := hu.1
  have hki : R1.kiN (F := Ideal) t = k := hu.2
  have hkQ : k = Q.val := by
    have h' := (R1.P1_diag_iff _).mp hd
    rw [hki, hqi] at h'
    exact h'
  subst hkQ
  exact ⟨Q, Fin.ext ht⟩

end Cert.KernelIdeal.Val1

end
-- ==== Proof.KIValue1Arr.lean ====
/-
  The result array after the attention region, from its blocks.

  The output window is written back exactly at the 16 diagonal points, one per query block "Q": the last point of
  "Q"'s run, where the key block is "Q" itself. What is written back there is the output block the body left, whole,
  into rows "512 Q …" of the result. These 16 row blocks tile the result. So if at every diagonal point the output
  block holds its rows of one matrix, the result array ends holding that matrix.
-/
import proofs.«121137_j11647951306945_2_alg».proof.Proof.KIRegion1
import proofs.«121137_j11647951306945_2_alg».proof.Proof.KIBlocks1
import proofs.«121137_j11647951306945_2_alg».proof.Proof.KISchedule
import Idealize.ShloMosaic.Lib.Pipeline.Value
import Idealize.ShloMosaic.Lib.ValueIdx

set_option maxRecDepth 16384

noncomputable section

namespace Cert.KernelIdeal.Val1

open Cert.KernelIdeal Cert.KernelIdeal.Gen
open Idealize.ShloMosaic Idealize.ShloMosaic.TcCoe Idealize.ShloMosaic.ValueIdx
open Idealize.ShloMosaic.Pipeline (Dat)

variable {F : FTy → Type} [FloatOps F] [Named F]
variable (V : (c : Dev nD) → (b : Ref sig .tc) → Buf (Elt F) ((c : Thread nD τ).loc b))

/-- A point at which the output window is written back is a diagonal point. -/
theorem diag_of_flush (t : Fin (R1.cfgA (F := F)).N) (hf : ((R1.cfgA (F := F)).win (3 : Fin 4)).flush t = true) :
    R1.P1_diag (F := F) t := by
  by_contra h
  have := (R1.sched1_off t h).2
  rw [hf] at this
  exact Bool.noConfusion this

/-- The diagonal point of query block "Q": the last point of its run. -/
def diagPt (Q : Fin 16) : Fin (R1.cfgA (F := F)).N :=
  ⟨Sched.start Q + Q.val, lt_of_lt_of_eq (Sched.run_lt Q Q.val le_rfl) (R1.N_A (F := F)).symm⟩

theorem diagPt_qi (Q : Fin 16) : R1.qiN (F := F) (diagPt Q) = Q.val :=
  (Sched.point_unique ⟨Sched.start Q + Q.val, Sched.run_lt Q Q.val le_rfl⟩ Q Q.val le_rfl rfl).1

theorem diagPt_ki (Q : Fin 16) : R1.kiN (F := F) (diagPt Q) = Q.val :=
  (Sched.point_unique ⟨Sched.start Q + Q.val, Sched.run_lt Q Q.val le_rfl⟩ Q Q.val le_rfl rfl).2

theorem diagPt_diag (Q : Fin 16) : R1.P1_diag (F := F) (diagPt Q) :=
  (R1.P1_diag_iff _).mpr ((diagPt_ki Q).trans (diagPt_qi Q).symm)

/-- The result array after the attention region, from its blocks: if at every diagonal point the output block holds rows
    "512 q …" of one matrix "g" ("q" the point's query block), the array ends holding "g". -/
theorem arr_of_blocks (c : Dev nD) (g : Fin 8192 → Fin 1024 → Elt F .f32)
    (hblock : ∀ (t : Fin (R1.cfgA (F := F)).N), R1.P1_diag (F := F) t → ∀ (a : Fin 512) (o : Fin 1024),
      (R1.traj1 V c t.val t.isLt).1 (ix2 a o) = g ⟨512 * R1.qiN t + a.val, by have := R1.qiN_lt t; omega⟩ o) :
    (R1.dat1 V c).arrAt (3 : Fin 4) (R1.cfgA (F := F)).N = (fun i => g (i 0) (i 1) : S8192x1024.Idx → Elt F .f32) := by
  refine (R1.dat1 V c).arrAt_eq_of_cover (3 : Fin 4) (fun i => g (i 0) (i 1) : S8192x1024.Idx → Elt F .f32) ?_ ?_
  · intro t hf
    have hd := diag_of_flush t hf
    show ((R1.cfgA (F := F)).win (3 : Fin 4)).cut (R1.crd t) ((R1.dat1 V c).after (3 : Fin 4) t) = _
    rw [R1.after1_3]
    funext y
    show (R1.traj1 V c t.val t.isLt).1 y = (fun i => g (i 0) (i 1) : S8192x1024.Idx → Elt F .f32) ((((R1.cfgA (F := F)).win (3 : Fin 4)).blk t).view.emb y)
    rw [R1.blk1_3_emb t y]
    obtain ⟨a, o, rfl⟩ : ∃ (a : Fin 512) (o : Fin 1024), y = ix2 a o := ⟨y 0, y 1, eq_ix2 y⟩
    exact hblock t hd a o
  · intro i
    have h0 : (i 0).val < 8192 := idx2_lt0 i
    obtain ⟨Q, hQ⟩ : ∃ Q : Fin 16, Q.val = (i 0).val / 512 := ⟨⟨(i 0).val / 512, by omega⟩, rfl⟩
    refine ⟨diagPt Q, (R1.sched1_diag _ (diagPt_diag Q)).2, ?_⟩
    rw [R1.mem_blk1_3, diagPt_qi, hQ]
    omega

end Cert.KernelIdeal.Val1

end
-- ==== Proof.KIValue1.lean ====
/-
  What the attention region leaves in its result array, at the exact values and on finite inputs: causal softmax
  attention of the three projections of the activations. Each of the 16 blocks of 512 rows is stored at the last
  point of its query block's run, where it holds the merge chain's output over the blocks of the array of the three
  projections; those blocks are the specification's projections, which are finite when the inputs are; and on finite
  scores the chain's output is the softmax row.
-/
import proofs.«121137_j11647951306945_2_alg».proof.Proof.KIValue1Run
import proofs.«121137_j11647951306945_2_alg».proof.Proof.KIValue1Arr
import proofs.«121137_j11647951306945_2_alg».proof.Proof.AttnArr
import proofs.«121137_j11647951306945_2_alg».proof.Proof.AttnLaw

set_option maxRecDepth 16384

noncomputable section

open scoped BigOperators

namespace Cert.KernelIdeal.Val1

open Cert.KernelIdeal Cert.KernelIdeal.Gen Cert.AttnSpec
open Idealize.ShloMosaic Idealize.ShloMosaic.TcCoe Idealize.ShloMosaic.ValueIdx Idealize.SL.Sem

variable (m : (ℓ : Loc nD τ sig) → Buf (Elt Ideal) ℓ) (c : Dev nD)
  (h0 : ∀ r k, toMat (m ((c : Thread nD τ).loc main_arg0)) r k ≠ ⊤ ∧ toMat (m ((c : Thread nD τ).loc main_arg0)) r k ≠ ⊥)
  (h1 : ∀ o k, toMat (m ((c : Thread nD τ).loc main_arg1)) o k ≠ ⊤ ∧ toMat (m ((c : Thread nD τ).loc main_arg1)) o k ≠ ⊥)
  (h2 : ∀ o k, toMat (m ((c : Thread nD τ).loc main_arg2)) o k ≠ ⊤ ∧ toMat (m ((c : Thread nD τ).loc main_arg2)) o k ≠ ⊥)
  (h3 : ∀ o k, toMat (m ((c : Thread nD τ).loc main_arg3)) o k ≠ ⊤ ∧ toMat (m ((c : Thread nD τ).loc main_arg3)) o k ≠ ⊥)

/-- The activations and the three projections of the specification. -/
abbrev xM : Mat 8192 1024 := toMat (m ((c : Thread nD τ).loc main_arg0))
abbrev qM : Mat 8192 1024 := proj (xM m c) (toMat (m ((c : Thread nD τ).loc main_arg1)))
abbrev kM : Mat 8192 1024 := proj (xM m c) (toMat (m ((c : Thread nD τ).loc main_arg2)))
abbrev vM : Mat 8192 1024 := proj (xM m c) (toMat (m ((c : Thread nD τ).loc main_arg3)))

include h0 h1 h2 h3 in
/-- At a diagonal point the output block holds the rows `512·Q …` of causal softmax attention, `Q` the point's query
    block. -/
theorem block_out (t : Fin (R1.cfgA (F := Ideal)).N) (hd : R1.P1_diag (F := Ideal) t) (a : Fin 512) (o : Fin 1024) :
    (R1.traj1 (Run.U2 (F := Ideal) m) c t.val t.isLt).1 (ix2 a o)
      = attn (qM m c) (kM m c) (vM m c) ⟨512 * R1.qiN t + a.val, by have := R1.qiN_lt (F := Ideal) t; omega⟩ o := by
  obtain ⟨Q, rfl⟩ := diag_point t hd
  have hq := proj_finite (xM m c) (toMat (m ((c : Thread nD τ).loc main_arg1))) h0 h1
  have hk := proj_finite (xM m c) (toMat (m ((c : Thread nD τ).loc main_arg2))) h0 h2
  have hv := proj_finite (xM m c) (toMat (m ((c : Thread nD τ).loc main_arg3))) h0 h3
  rw [diag_out (Run.U2 (F := Ideal) m) c Q]
  refine (Glue.row_pay19 (qM m c) (kM m c) (vM m c) Q a
    (blkOf (Run.U2 (F := Ideal) m c main_v4) 0 Q.val) (blkOf (Run.U2 (F := Ideal) m c main_v4) 1)
    (blkOf (Run.U2 (F := Ideal) m c main_v4) 2)
    (fun a d => blkOf_proj m c ⟨0, by omega⟩ Q a d)
    (fun b hb c' d => blkOf_proj m c ⟨1, by omega⟩ ⟨b, hb⟩ c' d)
    (fun b hb c' d => blkOf_proj m c ⟨2, by omega⟩ ⟨b, hb⟩ c' d)
    hq hk hv o).trans ?_
  exact congrArg (fun r => attn (qM m c) (kM m c) (vM m c) r o)
    (Fin.ext (by show 512 * Q.val + a.val = 512 * R1.qiN (F := Ideal) (pt Q Q.val le_rfl) + a.val; rw [qiN_pt]))

include h0 h1 h2 h3 in
/-- The result array after the attention region is the specification of the four argument arrays. -/
theorem attn_final :
    (R1.dat1 (F := Ideal) (Run.U2 (F := Ideal) m) c).arrAt (3 : Fin 4) (R1.cfgA (F := Ideal)).N
      = (ofMat (G (toMat (m ((c : Thread nD τ).loc main_arg0))) (toMat (m ((c : Thread nD τ).loc main_arg1)))
          (toMat (m ((c : Thread nD τ).loc main_arg2))) (toMat (m ((c : Thread nD τ).loc main_arg3))))
          : S8192x1024.Idx → EReal) :=
  arr_of_blocks (Run.U2 (F := Ideal) m) c (attn (qM m c) (kM m c) (vM m c))
    (fun t hd a o => block_out m c h0 h1 h2 h3 t hd a o)

end Cert.KernelIdeal.Val1

end
-- ==== Proof.RefFlat.lean ====
/-
  The specification of causal softmax attention, written over the keys `j : Fin 8192` in one run instead of block by
  block. A key's position `j = 512·b + c` is a bijection between (block, offset) pairs and positions, so a maximum or a
  sum over all (block, offset) pairs is the maximum or the sum over all positions. Nothing here needs the scores to be
  finite: only the re-indexing of a fold by `max` and of sums is used.
-/
import proofs.«121137_j11647951306945_2_alg».proof.Proof.AttnSpec

noncomputable section

open scoped BigOperators

namespace Cert.RefG

open Cert.AttnSpec Idealize.ShloMosaic

/-- (block, offset) pairs and key positions: `(b, c) ↦ 512·b + c`. -/
def keyEquiv : Fin 16 × Fin 512 ≃ Fin 8192 where
  toFun p := key p.1 p.2
  invFun j := (⟨j.val / 512, by omega⟩, ⟨j.val % 512, by omega⟩)
  left_inv p := by
    rcases p with ⟨b, c⟩
    refine Prod.ext (Fin.ext ?_) (Fin.ext ?_)
    · show (512 * b.val + c.val) / 512 = b.val
      omega
    · show (512 * b.val + c.val) % 512 = c.val
      omega
  right_inv j := Fin.ext (by
    show 512 * (j.val / 512) + j.val % 512 = j.val
    omega)

theorem keyEquiv_apply (b : Fin 16) (c : Fin 512) : keyEquiv (b, c) = key b c := rfl

/-- The masked, scaled score of key `j` for query row `r`. -/
def score (q k : Mat 8192 1024) (r j : Fin 8192) : EReal :=
  if j.val ≤ r.val then (∑ d : Fin 1024, q r d * k j d) * (((1 / 32 : ℝ)) : EReal) else ⊥

/-- The largest score of row `r`, over the key positions. -/
def fmax (q k : Mat 8192 1024) (r : Fin 8192) : EReal := (Finset.univ : Finset (Fin 8192)).fold max ⊥ (score q k r)

/-- The normaliser of row `r`, over the key positions. -/
def fsum (q k : Mat 8192 1024) (r : Fin 8192) : EReal := ∑ j : Fin 8192, Ideal.exp (score q k r j - fmax q k r)

/-- Causal softmax attention, over the key positions. -/
def fattn (q k v : Mat 8192 1024) : Mat 8192 1024 := fun r o =>
  ∑ j : Fin 8192, Ideal.div (Ideal.exp (score q k r j - fmax q k r)) (fsum q k r) * v j o

/-- The score of key `c` of block `b` is the score of the key at position `512·b + c`. -/
theorem sc_eq (q k : Mat 8192 1024) (r : Fin 8192) (b : Fin 16) (c : Fin 512) :
    sc q k r b.val c = score q k r (key b c) := by
  unfold sc score
  rw [dif_pos b.isLt]
  rfl

/-- The value row of key `c` of block `b` is the value row at position `512·b + c`. -/
theorem vv_eq (v : Mat 8192 1024) (o : Fin 1024) (b : Fin 16) (c : Fin 512) : vv v o b.val c = v (key b c) o := by
  unfold vv
  rw [dif_pos b.isLt]

/-- A sum block by block, offset by offset, is the sum over the key positions. -/
theorem sum_blocks (f : Fin 8192 → EReal) : ∑ b : Fin 16, ∑ c : Fin 512, f (key b c) = ∑ j : Fin 8192, f j := by
  rw [← Fintype.sum_prod_type' (f := fun (b : Fin 16) (c : Fin 512) => f (key b c))]
  exact Fintype.sum_equiv keyEquiv _ _ (fun _ => rfl)

theorem rowMax_eq (q k : Mat 8192 1024) (r : Fin 8192) : rowMax q k r = fmax q k r := by
  unfold rowMax fmax
  rw [← Finset.map_univ_equiv keyEquiv, Finset.fold_map]
  exact congrArg (fun f => Finset.fold max ⊥ f Finset.univ) (funext fun p => sc_eq q k r p.1 p.2)

theorem rowSum_eq (q k : Mat 8192 1024) (r : Fin 8192) : rowSum q k r = fsum q k r := by
  unfold rowSum fsum
  rw [rowMax_eq, ← sum_blocks]
  exact Finset.sum_congr rfl fun b _ => Finset.sum_congr rfl fun c _ => by rw [sc_eq]

theorem attn_eq (q k v : Mat 8192 1024) : attn q k v = fattn q k v := by
  funext r o
  unfold attn fattn
  rw [rowMax_eq, rowSum_eq, ← sum_blocks]
  exact Finset.sum_congr rfl fun b _ => Finset.sum_congr rfl fun c _ => by rw [sc_eq, vv_eq]

end Cert.RefG

end
-- ==== Proof.RefRead.lean ====
/-
  The reference's stages read at an index with explicit coordinates: the three projections, the scores, the causal
  mask and the division by 32.
-/
import proofs.«121137_j11647951306945_2_alg».proof.Proof.Gen.ReferenceIdeal.Read
import proofs.«121137_j11647951306945_2_alg».proof.Proof.AttnArr
import proofs.«121137_j11647951306945_2_alg».proof.Proof.RefFlat
import Idealize.ShloMosaic.Lib.Affine

noncomputable section

open scoped BigOperators

namespace Cert.RefG

open Cert.ReferenceIdeal Cert.ReferenceIdeal.Gen Cert.ReferenceIdeal.Read Cert.AttnSpec
open Idealize.ShloMosaic Idealize.ShloMosaic.ValueIdx

/-- An array of the activations' shape. -/
abbrev ArrX : Type := (⟨S8192x1024, .f32⟩ : BufTy).Contents (Elt Ideal)
/-- An array of a weight's shape. -/
abbrev ArrW : Type := (⟨S1024x1024, .f32⟩ : BufTy).Contents (Elt Ideal)

/-- A projection: the transpose of the weight, then the contraction, is `∑ k, x r k * w o k`. -/
theorem v1_at (x0 : ArrX) (x1 : ArrW) (r : Fin 8192) (o : Fin 1024) :
    val_main_v1 (F := Ideal) x0 x1 (ix2 r o) = proj (toMat x0) (toMat x1) r o := by
  rw [val_main_v1_apply]
  unfold proj
  refine Finset.sum_congr rfl fun k _ => ?_
  rw [val_main_v0_apply]
  have e1 : lidx_main_v1 (ix2 r o) k = ix2 r k :=
    funext fun a => Fin.ext (by match a with | ⟨0, _⟩ => rfl | ⟨1, _⟩ => rfl)
  have e2 : idx_main_v0 (ridx_main_v1 (ix2 r o) k) = ix2 o k :=
    funext fun a => Fin.ext (by match a with | ⟨0, _⟩ => rfl | ⟨1, _⟩ => rfl)
  rw [e1, e2]
  rfl

theorem v3_at (x0 : ArrX) (x2 : ArrW) (r : Fin 8192) (o : Fin 1024) :
    val_main_v3 (F := Ideal) x0 x2 (ix2 r o) = proj (toMat x0) (toMat x2) r o := by
  rw [val_main_v3_apply]
  unfold proj
  refine Finset.sum_congr rfl fun k _ => ?_
  rw [val_main_v2_apply]
  have e1 : lidx_main_v3 (ix2 r o) k = ix2 r k :=
    funext fun a => Fin.ext (by match a with | ⟨0, _⟩ => rfl | ⟨1, _⟩ => rfl)
  have e2 : idx_main_v2 (ridx_main_v3 (ix2 r o) k) = ix2 o k :=
    funext fun a => Fin.ext (by match a with | ⟨0, _⟩ => rfl | ⟨1, _⟩ => rfl)
  rw [e1, e2]
  rfl

theorem v5_at (x0 : ArrX) (x3 : ArrW) (r : Fin 8192) (o : Fin 1024) :
    val_main_v5 (F := Ideal) x0 x3 (ix2 r o) = proj (toMat x0) (toMat x3) r o := by
  rw [val_main_v5_apply]
  unfold proj
  refine Finset.sum_congr rfl fun k _ => ?_
  rw [val_main_v4_apply]
  have e1 : lidx_main_v5 (ix2 r o) k = ix2 r k :=
    funext fun a => Fin.ext (by match a with | ⟨0, _⟩ => rfl | ⟨1, _⟩ => rfl)
  have e2 : idx_main_v4 (ridx_main_v5 (ix2 r o) k) = ix2 o k :=
    funext fun a => Fin.ext (by match a with | ⟨0, _⟩ => rfl | ⟨1, _⟩ => rfl)
  rw [e1, e2]
  rfl

/-- The scores: row `r` of `q` against row `j` of `k`. -/
theorem v7_at (x0 : ArrX) (x1 x2 : ArrW) (r j : Fin 8192) :
    val_main_v7 (F := Ideal) x0 x1 x2 (ix2 r j)
      = ∑ d : Fin 1024, proj (toMat x0) (toMat x1) r d * proj (toMat x0) (toMat x2) j d := by
  rw [val_main_v7_apply]
  refine Finset.sum_congr rfl fun d _ => ?_
  rw [val_main_v6_apply]
  have e1 : lidx_main_v7 (ix2 r j) d = ix2 r d :=
    funext fun a => Fin.ext (by match a with | ⟨0, _⟩ => rfl | ⟨1, _⟩ => rfl)
  have e2 : idx_main_v6 (ridx_main_v7 (ix2 r j) d) = ix2 j d :=
    funext fun a => Fin.ext (by match a with | ⟨0, _⟩ => rfl | ⟨1, _⟩ => rfl)
  rw [e1, e2, v1_at, v3_at]

/-- A position below 8192, as a 32-bit word read signed, is itself. -/
theorem toInt_ofNat_small (a : Nat) (h : a < 8192) : (BitVec.ofNat 32 a).toInt = (a : Int) := by
  have hm : a % 2 ^ 32 = a := Nat.mod_eq_of_lt (by omega)
  rw [BitVec.toInt_eq_toNat_of_lt (by rw [BitVec.toNat_ofNat, hm]; omega), BitVec.toNat_ofNat, hm]

/-- The mask word at (r, j) is 1 exactly when `j ≤ r`. -/
theorem v13_at (r j : Fin 8192) :
    val_main_v13 (F := Ideal) (ix2 r j) = 1#1 ↔ j.val ≤ r.val := by
  rw [val_main_v13_apply, val_main_v11_apply, val_main_v12_apply, val_main_v9_apply, val_main_v10_apply,
    val_main_v8_apply, val_main_v8_apply, IntOp.cmpi_sge]
  show (BitVec.ofNat 32 j.val).toInt ≤ (BitVec.ofNat 32 r.val).toInt ↔ _
  rw [toInt_ofNat_small j.val j.isLt, toInt_ofNat_small r.val r.isLt]
  omega

/-- The pattern of the mask's fill value denotes `⊥`. -/
theorem ofBits_ninf : Ideal.ofBits .f32 0xFF800000#32 = (⊥ : EReal) := by simp [Ideal.ofBits, Ideal.ieee]

/-- The pattern of the divisor denotes 32. -/
theorem ofBits_32 : Ideal.ofBits .f32 0x42000000#32 = ((32 : ℝ) : EReal) := by
  simp [Ideal.ofBits, Ideal.ieee, -EReal.coe_mul]; norm_num

/-- The masked scores: the score where `j ≤ r`, `⊥` elsewhere. -/
theorem v14_at (x0 : ArrX) (x1 x2 : ArrW) (r j : Fin 8192) :
    val_main_v14 (F := Ideal) x0 x1 x2 (ix2 r j)
      = if j.val ≤ r.val then ∑ d : Fin 1024, proj (toMat x0) (toMat x1) r d * proj (toMat x0) (toMat x2) j d else ⊥ := by
  rw [val_main_v14_apply]
  unfold Scalar.select
  by_cases h : j.val ≤ r.val
  · have h1 : val_main_v13 (F := Ideal) (ix2 r j) = (1 : BitVec 1) := (v13_at r j).mpr h
    rw [if_pos h1, if_pos h, v7_at]
  · have h0 : ¬ val_main_v13 (F := Ideal) (ix2 r j) = (1 : BitVec 1) := fun e => h ((v13_at r j).mp e)
    rw [if_neg h0, if_neg h, val_main_call0_v1_apply, val_main_call0_v0_apply,
      val_main_cst_apply, Ideal.ofBits_def, ofBits_ninf]

/-- The masked scores divided by 32 are the specification's scores: dividing by 32 is multiplying by 1/32 on every
    extended real, and `⊥` stays `⊥`. -/
theorem v16_at (x0 : ArrX) (x1 x2 : ArrW) (r j : Fin 8192) :
    val_main_v16 (F := Ideal) x0 x1 x2 (ix2 r j)
      = score (proj (toMat x0) (toMat x1)) (proj (toMat x0) (toMat x2)) r j := by
  rw [val_main_v16_apply, val_main_v15_apply, val_main_cst_0_apply, Ideal.hostDivf_def, Ideal.ofBits_def, ofBits_32,
    Ideal.div_coe (by norm_num : (32 : ℝ) ≠ 0), v14_at]
  unfold score
  by_cases h : j.val ≤ r.val
  · rw [if_pos h, if_pos h]
  · rw [if_neg h, if_neg h]
    exact EReal.bot_mul_coe_of_pos (by norm_num)

end Cert.RefG

end
-- ==== Proof.RefSoftmax.lean ====
/-
  The reference's softmax stages read at an index with explicit coordinates: the row maximum (a fold of `max` from `⊥`
  over the row), the exponentials, the row sum, the quotient, and the contraction with the value rows. Each is the
  specification written over the key positions.
-/
import proofs.«121137_j11647951306945_2_alg».proof.Proof.RefRead
import Idealize.ShloMosaic.PureOps.Reduce
import Idealize.ShloMosaic.PureOps.Ideal.Laws

noncomputable section

open scoped BigOperators

namespace Cert.RefG

open Cert.ReferenceIdeal Cert.ReferenceIdeal.Gen Cert.ReferenceIdeal.Read Cert.AttnSpec
open Idealize.ShloMosaic Idealize.ShloMosaic.ValueIdx

theorem reduces_row : S8192x8192.Reduces [1] S8192 := by decide

/-- Row `r` with key position `k` put back in is the index (r, k). -/
theorem lift_row (r : Fin 8192) (k : Fin 8192) :
    reduces_row.lift (ix1 r) k = ix2 r k := by
  funext c
  apply Fin.ext
  match c with
  | ⟨0, _⟩ => rfl
  | ⟨1, _⟩ => rfl

/-- A reduction by `max` along the keys, read at row `r`: the fold of `max` from the initial value over the row. -/
theorem rowmax_fold (y : FVec Ideal S8192x8192 .f32) (init : FVec Ideal S_ .f32) (r : Fin 8192) :
    Host.reduce (FloatOps.maximumf (F := Ideal) (φ := .f32)) y init reducesTo_S8192x8192_S8192_d1 h_S_ (ix1 r)
      = (Finset.univ : Finset (Fin 8192)).fold max (init (Shape.Idx.first h_S_)) (fun k => y (ix2 r k)) := by
  refine (Host.reduce_eq_fold_single (FloatOps.maximumf (F := Ideal) (φ := .f32)) y init
    reducesTo_S8192x8192_S8192_d1 reduces_row h_S_ (ix1 r)).trans ?_
  exact congrArg (fun f => Finset.fold max (init (Shape.Idx.first h_S_)) f (Finset.univ : Finset (Fin 8192)))
    (funext fun k => congrArg y (lift_row r k))

/-- The reference's row maximum is the largest score of the row. -/
theorem v17_at (x0 : ArrX) (x1 x2 : ArrW) (r : Fin 8192) :
    val_main_v17 (F := Ideal) x0 x1 x2 (ix1 r)
      = fmax (proj (toMat x0) (toMat x1)) (proj (toMat x0) (toMat x2)) r := by
  unfold val_main_v17
  refine (rowmax_fold _ _ r).trans ?_
  unfold fmax
  have hi : (val_main_cst_1 (F := Ideal)) (Shape.Idx.first h_S_) = (⊥ : EReal) := by
    rw [val_main_cst_1_apply, Ideal.ofBits_def, ofBits_ninf]
  rw [hi]
  exact congrArg (fun f => Finset.fold max (⊥ : EReal) f (Finset.univ : Finset (Fin 8192)))
    (funext fun j => v16_at x0 x1 x2 r j)

/-- The maximum with `⊥` changes nothing. -/
theorem v19_at (x0 : ArrX) (x1 x2 : ArrW) (r : Fin 8192) :
    val_main_v19 (F := Ideal) x0 x1 x2 (ix1 r)
      = fmax (proj (toMat x0) (toMat x1)) (proj (toMat x0) (toMat x2)) r := by
  rw [val_main_v19_apply, val_main_v18_apply, val_main_cst_2_apply, v17_at, Ideal.maximumf_def, Ideal.ofBits_def,
    ofBits_ninf]
  exact max_eq_right bot_le

theorem v21_at (x0 : ArrX) (x1 x2 : ArrW) (r j : Fin 8192) :
    val_main_v21 (F := Ideal) x0 x1 x2 (ix2 r j)
      = fmax (proj (toMat x0) (toMat x1)) (proj (toMat x0) (toMat x2)) r := by
  rw [val_main_v21_apply, val_main_v20_apply]
  have e : idx_main_v20 (idx_main_v21 (ix2 r j)) = ix1 r :=
    funext fun a => Fin.ext (by match a with | ⟨0, _⟩ => rfl)
  rw [e, v19_at]

/-- The exponentials of the scores less the row maximum. -/
theorem v23_at (x0 : ArrX) (x1 x2 : ArrW) (r j : Fin 8192) :
    val_main_v23 (F := Ideal) x0 x1 x2 (ix2 r j)
      = Ideal.exp (score (proj (toMat x0) (toMat x1)) (proj (toMat x0) (toMat x2)) r j
          - fmax (proj (toMat x0) (toMat x1)) (proj (toMat x0) (toMat x2)) r) := by
  rw [val_main_v23_apply, val_main_v22_apply, v16_at, v21_at, Ideal.hostUnary_exp_def, Ideal.subf_def]

/-- The row sum of the exponentials, from 0. -/
theorem v24_at (x0 : ArrX) (x1 x2 : ArrW) (r : Fin 8192) :
    val_main_v24 (F := Ideal) x0 x1 x2 (ix1 r)
      = fsum (proj (toMat x0) (toMat x1)) (proj (toMat x0) (toMat x2)) r := by
  rw [val_main_v24_apply, val_main_cst_3_apply, Ideal.ofBits_def, Ideal.ofBits_zero_f32, zero_add]
  unfold fsum
  refine Finset.sum_congr rfl fun k _ => ?_
  have e : idx_main_v24 (ix1 r) k = ix2 r k :=
    funext fun a => Fin.ext (by match a with | ⟨0, _⟩ => rfl | ⟨1, _⟩ => rfl)
  rw [e, v23_at]

theorem v26_at (x0 : ArrX) (x1 x2 : ArrW) (r j : Fin 8192) :
    val_main_v26 (F := Ideal) x0 x1 x2 (ix2 r j)
      = fsum (proj (toMat x0) (toMat x1)) (proj (toMat x0) (toMat x2)) r := by
  rw [val_main_v26_apply, val_main_v25_apply]
  have e : idx_main_v25 (idx_main_v26 (ix2 r j)) = ix1 r :=
    funext fun a => Fin.ext (by match a with | ⟨0, _⟩ => rfl)
  rw [e, v24_at]

/-- The softmax weights. -/
theorem v27_at (x0 : ArrX) (x1 x2 : ArrW) (r j : Fin 8192) :
    val_main_v27 (F := Ideal) x0 x1 x2 (ix2 r j)
      = Ideal.div (Ideal.exp (score (proj (toMat x0) (toMat x1)) (proj (toMat x0) (toMat x2)) r j
          - fmax (proj (toMat x0) (toMat x1)) (proj (toMat x0) (toMat x2)) r))
          (fsum (proj (toMat x0) (toMat x1)) (proj (toMat x0) (toMat x2)) r) := by
  rw [val_main_v27_apply, v23_at, v26_at, Ideal.hostDivf_def]

/-- The result: the weights against the value rows. -/
theorem v28_at (x0 : ArrX) (x1 x2 x3 : ArrW) (r : Fin 8192) (o : Fin 1024) :
    val_main_v28 (F := Ideal) x0 x1 x2 x3 (ix2 r o)
      = fattn (proj (toMat x0) (toMat x1)) (proj (toMat x0) (toMat x2)) (proj (toMat x0) (toMat x3)) r o := by
  rw [val_main_v28_apply]
  unfold fattn
  refine Finset.sum_congr rfl fun j _ => ?_
  have e1 : lidx_main_v28 (ix2 r o) j = ix2 r j :=
    funext fun a => Fin.ext (by match a with | ⟨0, _⟩ => rfl | ⟨1, _⟩ => rfl)
  have e2 : ridx_main_v28 (ix2 r o) j = ix2 j o :=
    funext fun a => Fin.ext (by match a with | ⟨0, _⟩ => rfl | ⟨1, _⟩ => rfl)
  rw [e1, e2, v27_at, v5_at]

/-- The reference's result is the specification of its arguments. -/
theorem result_eq (x0 : ArrX) (x1 x2 x3 : ArrW) :
    val_main_v28 (F := Ideal) x0 x1 x2 x3 = ofMat (G (toMat x0) (toMat x1) (toMat x2) (toMat x3)) :=
  eq_ofMat _ _ fun r o => by
    rw [v28_at]
    unfold G
    rw [attn_eq]

end Cert.RefG

end
-- ==== Proof.RefIsG.lean ====
/-
  The reference's run, with its result named by the specification: every execution of the reference ends with its
  result array holding causal softmax attention of the three projections of its first argument, and its four
  arguments unchanged.
-/
import proofs.«121137_j11647951306945_2_alg».proof.Proof.RefSoftmax

noncomputable section

namespace Cert.RefG

open Cert.AttnSpec
open Idealize.ShloMosaic Idealize.ShloMosaic.TcCoe Idealize.SL.Sem

/-- the reference's run, with its result named by the specification -/
theorem run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
      r.2.mem ((c.tc : Thread Cert.ReferenceIdeal.nD Cert.ReferenceIdeal.τ).loc Cert.ReferenceIdeal.main_v28)
        = ofMat (G (toMat (m' ((c.tc : Thread Cert.ReferenceIdeal.nD Cert.ReferenceIdeal.τ).loc Cert.ReferenceIdeal.main_arg0)))
                   (toMat (m' ((c.tc : Thread Cert.ReferenceIdeal.nD Cert.ReferenceIdeal.τ).loc Cert.ReferenceIdeal.main_arg1)))
                   (toMat (m' ((c.tc : Thread Cert.ReferenceIdeal.nD Cert.ReferenceIdeal.τ).loc Cert.ReferenceIdeal.main_arg2)))
                   (toMat (m' ((c.tc : Thread Cert.ReferenceIdeal.nD Cert.ReferenceIdeal.τ).loc Cert.ReferenceIdeal.main_arg3))))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run (Cert.ReferenceIdeal.defs (F := Ideal)) _ _).mono
    (fun _ h c => ⟨(h c).1.trans ((Cert.ReferenceIdeal.Read.val_main_v28_eq m' c).trans (result_eq _ _ _ _)), (h c).2⟩)
    (Cert.ReferenceIdeal.Value.run (F := Ideal) m' ρ')

end Cert.RefG

end
-- ==== Proof.PreFinite.lean ====
/-
  From the precondition to finiteness. The predicate is the conjunction, over the four argument arrays, of
  `all (|x| < +∞)`. Over the extended reals `|x| = max x (−x)`, and `max x (−x) < ⊤` says exactly that `x` is
  neither `⊤` nor `⊥`. So if the predicate holds, every element of every argument is a real number.
-/
import proofs.«121137_j11647951306945_2_alg».proof.Pre_finite_inputs
import Idealize.ShloMosaic.Lib.ReduceAll
import Idealize.ShloMosaic.Lib.ValueIdx
import Idealize.ShloMosaic.PureOps.Ideal

noncomputable section

namespace Cert.RefG

open Idealize.ShloMosaic

/-- An extended real whose absolute value compares below `+∞` is neither infinity. -/
theorem finite_of_abs_lt (x : EReal)
    (h : Ideal.cmp .olt (max x (-x)) (Ideal.ofBits .f32 0x7F800000#32) = 1#1) : x ≠ ⊤ ∧ x ≠ ⊥ := by
  have ht : Ideal.ofBits .f32 0x7F800000#32 = (⊤ : EReal) := by simp [Ideal.ofBits, Ideal.ieee]
  rw [ht] at h
  have hlt : max x (-x) < ⊤ := by
    by_contra hn
    simp [Ideal.cmp, hn] at h
  constructor
  · rintro rfl
    simp at hlt
  · rintro rfl
    simp at hlt

/-- The scalar shape has one index. -/
instance subsingleton_scalar_idx : Subsingleton Cert.Pre_finite_inputs.S_.Idx := ⟨fun _ _ => funext fun d => d.elim0⟩

/-- If the precondition holds of four argument arrays, every element of each is finite. -/
theorem finite_of_pre [Cert.Pre_finite_inputs.Facts] (a0 : FVec Ideal Cert.Pre_finite_inputs.S8192x1024 .f32)
    (a1 a2 a3 : FVec Ideal Cert.Pre_finite_inputs.S1024x1024 .f32)
    (h : Cert.Pre_finite_inputs.fn (F := Ideal) a0 a1 a2 a3 = (fun _ => 1#1)) :
    (∀ i, a0 i ≠ ⊤ ∧ a0 i ≠ ⊥) ∧ (∀ i, a1 i ≠ ⊤ ∧ a1 i ≠ ⊥) ∧ (∀ i, a2 i ≠ ⊤ ∧ a2 i ≠ ⊥) ∧ (∀ i, a3 i ≠ ⊤ ∧ a3 i ≠ ⊥) := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun i => finite_of_abs_lt (a0 i) (Host.reduce_andi_all _ _ _ _ ValueIdx.ix0 h0' i),
    fun i => finite_of_abs_lt (a1 i) (Host.reduce_andi_all _ _ _ _ ValueIdx.ix0 h1 i),
    fun i => finite_of_abs_lt (a2 i) (Host.reduce_andi_all _ _ _ _ ValueIdx.ix0 h2 i),
    fun i => finite_of_abs_lt (a3 i) (Host.reduce_andi_all _ _ _ _ ValueIdx.ix0 h3 i)⟩

end Cert.RefG

end
-- ==== Proof.KIAlg.lean ====
/-
  The two programs compute one function. At the exact values the kernel's result array is what the attention
  region's write-backs leave — causal softmax attention of the three projections, reached by the running merge over
  the key blocks, which equals the softmax by a law of the extended reals on finite scores — and the reference's
  result is the same attention, written with the softmax itself. The arguments agree and are finite (the
  precondition), so the two result arrays are equal, and each program leaves its arguments as it found them.
-/
import proofs.«121137_j11647951306945_2_alg».proof.Defs
import proofs.«121137_j11647951306945_2_alg».proof.Proof.Gen.KernelIdeal
import proofs.«121137_j11647951306945_2_alg».proof.Proof.Gen.ReferenceIdeal
import proofs.«121137_j11647951306945_2_alg».proof.Proof.Gen.Pre_finite_inputs
import proofs.«121137_j11647951306945_2_alg».proof.Proof.KIRun
import proofs.«121137_j11647951306945_2_alg».proof.Proof.KIValue1
import proofs.«121137_j11647951306945_2_alg».proof.Proof.RefIsG
import proofs.«121137_j11647951306945_2_alg».proof.Proof.PreFinite
import proofs.«121137_j11647951306945_2_alg».proof.Proof.AttnArr

noncomputable section

namespace Cert.Proof.Alg

open Cert.AttnSpec
open Idealize.ShloMosaic Idealize.ShloMosaic.TcCoe Idealize.ShloMosaic.ValueIdx Idealize.SL.Sem

/-- From memories that agree on the four arguments, both programs run, end with equal result arrays — attention of
    the projections of the first argument — and leave their arguments unchanged. -/
theorem algebraic :
    Cert.algebraic_KernelIdeal_ReferenceIdeal (hKernelIdeal := Cert.KernelIdeal.Gen.facts) (hReferenceIdeal := Cert.ReferenceIdeal.Gen.facts)
      (hPre_finite_inputs := Cert.Pre_finite_inputs.Gen.facts) := by
  intro m ρ m' ρ' hpre hagree
  refine ⟨fun c => ofMat (G (toMat (m ((c.tc : Thread Cert.KernelIdeal.nD Cert.KernelIdeal.τ).loc Cert.KernelIdeal.main_arg0))) (toMat (m ((c.tc : Thread Cert.KernelIdeal.nD Cert.KernelIdeal.τ).loc Cert.KernelIdeal.main_arg1)))
      (toMat (m ((c.tc : Thread Cert.KernelIdeal.nD Cert.KernelIdeal.τ).loc Cert.KernelIdeal.main_arg2))) (toMat (m ((c.tc : Thread Cert.KernelIdeal.nD Cert.KernelIdeal.τ).loc Cert.KernelIdeal.main_arg3)))), ?_, ?_⟩
  · exact (θ_run (Cert.KernelIdeal.defs (F := Ideal)) _ _).mono
      (fun _ h c =>
        have hfin := Cert.RefG.finite_of_pre _ _ _ _ (hpre c)
        ⟨(h c).1.trans (Cert.KernelIdeal.Val1.attn_final m c (fun r k => hfin.1 (ix2 r k)) (fun r k => hfin.2.1 (ix2 r k))
          (fun r k => hfin.2.2.1 (ix2 r k)) (fun r k => hfin.2.2.2 (ix2 r k))), (h c).2⟩)
      (Cert.KernelIdeal.Run.run_value (F := Ideal) m ρ)
  · exact (θ_run (Cert.ReferenceIdeal.defs (F := Ideal)) _ _).mono
      (fun _ h c => ⟨by rw [(h c).1, (hagree c).1, (hagree c).2.1, (hagree c).2.2.1, (hagree c).2.2.2], (h c).2⟩)
      (Cert.RefG.run m' ρ')

end Cert.Proof.Alg

end
-- ==== Proof.lean ====
/-
  The proof of the certificate's claim: five conjuncts under the programs' stated facts.

  The two kernel programs run and leave their four argument arrays unchanged. Each is read as three segments — the host
  operations that build the two schedule tables and the stacked, transposed, narrowed weights; the projection region,
  an 8 by 3 grid of matrix products; the attention region, 136 grid points that walk, for each block of 512 queries,
  the key blocks up to the diagonal — over the pipeline library's region records, and the argument arrays are among
  the buffers no segment writes. The reference runs, by its generated run, and leaves its arguments unchanged.

  The one rewrite made in reading the kernel at the exact values, the mask's large negative constant named `⊥`, is the
  table's entry for that name.

  The two programs end with equal results. At the exact values the projection region leaves the three projections of
  the first argument; the attention region carries, per query row, a running maximum, a normaliser and a weighted sum
  over the key blocks, each rescaled when the maximum moves, and divides at the diagonal block; on finite scores that
  running merge is the softmax of the row's causally masked scores applied to the value rows — a law of the extended
  reals — which is what the reference computes with the softmax itself. Finiteness of the arguments is the claim's
  precondition.
-/
import proofs.«121137_j11647951306945_2_alg».proof.Defs
import proofs.«121137_j11647951306945_2_alg».proof.Proof.Gen.Kernel
import proofs.«121137_j11647951306945_2_alg».proof.Proof.Gen.KernelIdeal
import proofs.«121137_j11647951306945_2_alg».proof.Proof.Gen.ReferenceIdeal
import proofs.«121137_j11647951306945_2_alg».proof.Proof.Gen.Pre_finite_inputs
import proofs.«121137_j11647951306945_2_alg».proof.Proof.KRun
import proofs.«121137_j11647951306945_2_alg».proof.Proof.KIRun
import proofs.«121137_j11647951306945_2_alg».proof.Proof.KIEasy
import proofs.«121137_j11647951306945_2_alg».proof.Proof.KIAlg

noncomputable section

namespace Cert.Proof

theorem claim : Cert.Claim :=
  ⟨Cert.Kernel.Gen.facts, Cert.KernelIdeal.Gen.facts, Cert.ReferenceIdeal.Gen.facts, Cert.Pre_finite_inputs.Gen.facts,
    fun m ρ _ => Cert.Kernel.Run.frame m ρ,
    fun m ρ _ => Cert.KernelIdeal.Run.frame m ρ,
    Cert.Proof.Easy.frame_ri,
    Cert.Proof.Easy.preserves,
    Cert.Proof.Alg.algebraic⟩

end Cert.Proof

end
